-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v234)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v234) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x128x128 : Shape := ⟨4, ![16, 80, 128, 128]⟩
abbrev S16x1x128x128 : Shape := ⟨4, ![16, 1, 128, 128]⟩
abbrev S16x2x128x128 : Shape := ⟨4, ![16, 2, 128, 128]⟩
abbrev S16x128x2 : Shape := ⟨3, ![16, 128, 2]⟩
abbrev S16x128 : Shape := ⟨2, ![16, 128]⟩
abbrev S_ : Shape := ⟨0, ![]⟩

class Facts : Prop where
  bcast_S_S16x80x128x128 : S_.BroadcastsInDim S16x80x128x128 (![] : Fin 0 → Fin S16x80x128x128.rank)
  reducesTo_S16x80x128x128_S_d0_1_2_3 : S16x80x128x128.ReducesTo [0, 1, 2, 3] S_
  h_S_ : 0 < S_.numel
  bcast_S_S16x1x128x128 : S_.BroadcastsInDim S16x1x128x128 (![] : Fin 0 → Fin S16x1x128x128.rank)
  reducesTo_S16x1x128x128_S_d0_1_2_3 : S16x1x128x128.ReducesTo [0, 1, 2, 3] S_
  bcast_S_S16x2x128x128 : S_.BroadcastsInDim S16x2x128x128 (![] : Fin 0 → Fin S16x2x128x128.rank)
  reducesTo_S16x2x128x128_S_d0_1_2_3 : S16x2x128x128.ReducesTo [0, 1, 2, 3] S_
  bcast_S_S16x128x2 : S_.BroadcastsInDim S16x128x2 (![] : Fin 0 → Fin S16x128x2.rank)
  reducesTo_S16x128x2_S_d0_1_2 : S16x128x2.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S16x128x2 .f32) (main_arg12 : FVec F S16x128x2 .f32) (main_arg13 : FVec F S16x128x2 .f32) (main_v48 : IVec S_ 1) (main_v49 : FVec F S16x80x128x128 .f32) (main_v50 : FVec F S16x80x128x128 .f32) : IVec S_ 1 :=
  let main_v51 : IVec S16x80x128x128 1 := cmpf .olt main_v49 main_v50
  let main_c_19 : IVec S_ 1 := constantI S_ 1 1#1
  let main_v52 : IVec S_ 1 := (fun x v => Host.reduce IntOp.andi x v reducesTo_S16x80x128x128_S_d0_1_2_3 h_S_) main_v51 main_c_19
  let main_v53 : IVec S_ 1 := andi main_v48 main_v52
  let main_v54 : FVec F S16x128x2 .f32 := Host.absf main_arg11
  let main_cst_20 : FVec F S_ .f32 := constant S_ .f32 0x7F800000#32
  let main_v55 : FVec F S16x128x2 .f32 := broadcastInDim S16x128x2 ![] bcast_S_S16x128x2 main_cst_20
  let main_v56 : IVec S16x128x2 1 := cmpf .olt main_v54 main_v55
  let main_c_21 : IVec S_ 1 := constantI S_ 1 1#1
  let main_v57 : IVec S_ 1 := (fun x v => Host.reduce IntOp.andi x v reducesTo_S16x128x2_S_d0_1_2 h_S_) main_v56 main_c_21
  let main_v58 : IVec S_ 1 := andi main_v53 main_v57
  let main_v59 : FVec F S16x128x2 .f32 := Host.absf main_arg12
  let main_cst_22 : FVec F S_ .f32 := constant S_ .f32 0x7F800000#32
  let main_v60 : FVec F S16x128x2 .f32 := broadcastInDim S16x128x2 ![] bcast_S_S16x128x2 main_cst_22
  let main_v61 : IVec S16x128x2 1 := cmpf .olt main_v59 main_v60
  let main_c_23 : IVec S_ 1 := constantI S_ 1 1#1
  let main_v62 : IVec S_ 1 := (fun x v => Host.reduce IntOp.andi x v reducesTo_S16x128x2_S_d0_1_2 h_S_) main_v61 main_c_23
  let main_v63 : IVec S_ 1 := andi main_v58 main_v62
  let main_v64 : FVec F S16x128x2 .f32 := Host.absf main_arg13
  let main_cst_24 : FVec F S_ .f32 := constant S_ .f32 0x7F800000#32
  let main_v65 : FVec F S16x128x2 .f32 := broadcastInDim S16x128x2 ![] bcast_S_S16x128x2 main_cst_24
  let main_v66 : IVec S16x128x2 1 := cmpf .olt main_v64 main_v65
  let main_c_25 : IVec S_ 1 := constantI S_ 1 1#1
  let main_v67 : IVec S_ 1 := (fun x v => Host.reduce IntOp.andi x v reducesTo_S16x128x2_S_d0_1_2 h_S_) main_v66 main_c_25
  fn_part4 (F := F) main_v63 main_v67

def fn_part2 {F : FTy → Type} [FloatOps F] (main_arg7 : FVec F S16x2x128x128 .f32) (main_arg8 : FVec F S16x80x128x128 .f32) (main_arg9 : FVec F S16x80x128x128 .f32) (main_arg10 : FVec F S16x80x128x128 .f32) (main_arg11 : FVec F S16x128x2 .f32) (main_arg12 : FVec F S16x128x2 .f32) (main_arg13 : FVec F S16x128x2 .f32) (main_v33 : IVec S_ 1) : IVec S_ 1 :=
  let main_v34 : FVec F S16x2x128x128 .f32 := Host.absf main_arg7
  let main_cst_12 : FVec F S_ .f32 := constant S_ .f32 0x7F800000#32
  let main_v35 : FVec F S16x2x128x128 .f32 := broadcastInDim S16x2x128x128 ![] bcast_S_S16x2x128x128 main_cst_12
  let main_v36 : IVec S16x2x128x128 1 := cmpf .olt main_v34 main_v35
  let main_c_13 : IVec S_ 1 := constantI S_ 1 1#1
  let main_v37 : IVec S_ 1 := (fun x v => Host.reduce IntOp.andi x v reducesTo_S16x2x128x128_S_d0_1_2_3 h_S_) main_v36 main_c_13
  let main_v38 : IVec S_ 1 := andi main_v33 main_v37
  let main_v39 : FVec F S16x80x128x128 .f32 := Host.absf main_arg8
  let main_cst_14 : FVec F S_ .f32 := constant S_ .f32 0x7F800000#32
  let main_v40 : FVec F S16x80x128x128 .f32 := broadcastInDim S16x80x128x128 ![] bcast_S_S16x80x128x128 main_cst_14
  let main_v41 : IVec S16x80x128x128 1 := cmpf .olt main_v39 main_v40
  let main_c_15 : IVec S_ 1 := constantI S_ 1 1#1
  let main_v42 : IVec S_ 1 := (fun x v => Host.reduce IntOp.andi x v reducesTo_S16x80x128x128_S_d0_1_2_3 h_S_) main_v41 main_c_15
  let main_v43 : IVec S_ 1 := andi main_v38 main_v42
  let main_v44 : FVec F S16x80x128x128 .f32 := Host.absf main_arg9
  let main_cst_16 : FVec F S_ .f32 := constant S_ .f32 0x7F800000#32
  let main_v45 : FVec F S16x80x128x128 .f32 := broadcastInDim S16x80x128x128 ![] bcast_S_S16x80x128x128 main_cst_16
  let main_v46 : IVec S16x80x128x128 1 := cmpf .olt main_v44 main_v45
  let main_c_17 : IVec S_ 1 := constantI S_ 1 1#1
  let main_v47 : IVec S_ 1 := (fun x v => Host.reduce IntOp.andi x v reducesTo_S16x80x128x128_S_d0_1_2_3 h_S_) main_v46 main_c_17
  let main_v48 : IVec S_ 1 := andi main_v43 main_v47
  let main_v49 : FVec F S16x80x128x128 .f32 := Host.absf main_arg10
  let main_cst_18 : FVec F S_ .f32 := constant S_ .f32 0x7F800000#32
  let main_v50 : FVec F S16x80x128x128 .f32 := broadcastInDim S16x80x128x128 ![] bcast_S_S16x80x128x128 main_cst_18
  fn_part3 (F := F) main_arg11 main_arg12 main_arg13 main_v48 main_v49 main_v50

def fn_part1 {F : FTy → Type} [FloatOps F] (main_arg4 : FVec F S16x1x128x128 .f32) (main_arg5 : FVec F S16x2x128x128 .f32) (main_arg6 : FVec F S16x2x128x128 .f32) (main_arg7 : FVec F S16x2x128x128 .f32) (main_arg8 : FVec F S16x80x128x128 .f32) (main_arg9 : FVec F S16x80x128x128 .f32) (main_arg10 : FVec F S16x80x128x128 .f32) (main_arg11 : FVec F S16x128x2 .f32) (main_arg12 : FVec F S16x128x2 .f32) (main_arg13 : FVec F S16x128x2 .f32) (main_v13 : IVec S_ 1) (main_v16 : IVec S16x1x128x128 1) : IVec S_ 1 :=
  let main_c_5 : IVec S_ 1 := constantI S_ 1 1#1
  let main_v17 : IVec S_ 1 := (fun x v => Host.reduce IntOp.andi x v reducesTo_S16x1x128x128_S_d0_1_2_3 h_S_) main_v16 main_c_5
  let main_v18 : IVec S_ 1 := andi main_v13 main_v17
  let main_v19 : FVec F S16x1x128x128 .f32 := Host.absf main_arg4
  let main_cst_6 : FVec F S_ .f32 := constant S_ .f32 0x7F800000#32
  let main_v20 : FVec F S16x1x128x128 .f32 := broadcastInDim S16x1x128x128 ![] bcast_S_S16x1x128x128 main_cst_6
  let main_v21 : IVec S16x1x128x128 1 := cmpf .olt main_v19 main_v20
  let main_c_7 : IVec S_ 1 := constantI S_ 1 1#1
  let main_v22 : IVec S_ 1 := (fun x v => Host.reduce IntOp.andi x v reducesTo_S16x1x128x128_S_d0_1_2_3 h_S_) main_v21 main_c_7
  let main_v23 : IVec S_ 1 := andi main_v18 main_v22
  let main_v24 : FVec F S16x2x128x128 .f32 := Host.absf main_arg5
  let main_cst_8 : FVec F S_ .f32 := constant S_ .f32 0x7F800000#32
  let main_v25 : FVec F S16x2x128x128 .f32 := broadcastInDim S16x2x128x128 ![] bcast_S_S16x2x128x128 main_cst_8
  let main_v26 : IVec S16x2x128x128 1 := cmpf .olt main_v24 main_v25
  let main_c_9 : IVec S_ 1 := constantI S_ 1 1#1
  let main_v27 : IVec S_ 1 := (fun x v => Host.reduce IntOp.andi x v reducesTo_S16x2x128x128_S_d0_1_2_3 h_S_) main_v26 main_c_9
  let main_v28 : IVec S_ 1 := andi main_v23 main_v27
  let main_v29 : FVec F S16x2x128x128 .f32 := Host.absf main_arg6
  let main_cst_10 : FVec F S_ .f32 := constant S_ .f32 0x7F800000#32
  let main_v30 : FVec F S16x2x128x128 .f32 := broadcastInDim S16x2x128x128 ![] bcast_S_S16x2x128x128 main_cst_10
  let main_v31 : IVec S16x2x128x128 1 := cmpf .olt main_v29 main_v30
  let main_c_11 : IVec S_ 1 := constantI S_ 1 1#1
  let main_v32 : IVec S_ 1 := (fun x v => Host.reduce IntOp.andi x v reducesTo_S16x2x128x128_S_d0_1_2_3 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16x80x128x128 .f32) (main_arg1 : FVec F S16x80x128x128 .f32) (main_arg2 : FVec F S16x80x128x128 .f32) (main_arg3 : FVec F S16x1x128x128 .f32) (main_arg4 : FVec F S16x1x128x128 .f32) (main_arg5 : FVec F S16x2x128x128 .f32) (main_arg6 : FVec F S16x2x128x128 .f32) (main_arg7 : FVec F S16x2x128x128 .f32) (main_arg8 : FVec F S16x80x128x128 .f32) (main_arg9 : FVec F S16x80x128x128 .f32) (main_arg10 : FVec F S16x80x128x128 .f32) (main_arg11 : FVec F S16x128x2 .f32) (main_arg12 : FVec F S16x128x2 .f32) (main_arg13 : FVec F S16x128x2 .f32) (main_arg14 : IVec S16x128 32) (main_arg15 : IVec S16x128 32) (main_arg16 : IVec S16x128 32) (main_arg17 : IVec S16x128 32) : IVec S_ 1 :=
  let main_v0 : FVec F S16x80x128x128 .f32 := Host.absf main_arg0
  let main_cst : FVec F S_ .f32 := constant S_ .f32 0x7F800000#32
  let main_v1 : FVec F S16x80x128x128 .f32 := broadcastInDim S16x80x128x128 ![] bcast_S_S16x80x128x128 main_cst
  let main_v2 : IVec S16x80x128x128 1 := cmpf .olt main_v0 main_v1
  let main_c : IVec S_ 1 := constantI S_ 1 1#1
  let main_v3 : IVec S_ 1 := (fun x v => Host.reduce IntOp.andi x v reducesTo_S16x80x128x128_S_d0_1_2_3 h_S_) main_v2 main_c
  let main_v4 : FVec F S16x80x128x128 .f32 := Host.absf main_arg1
  let main_cst_0 : FVec F S_ .f32 := constant S_ .f32 0x7F800000#32
  let main_v5 : FVec F S16x80x128x128 .f32 := broadcastInDim S16x80x128x128 ![] bcast_S_S16x80x128x128 main_cst_0
  let main_v6 : IVec S16x80x128x128 1 := cmpf .olt main_v4 main_v5
  let main_c_1 : IVec S_ 1 := constantI S_ 1 1#1
  let main_v7 : IVec S_ 1 := (fun x v => Host.reduce IntOp.andi x v reducesTo_S16x80x128x128_S_d0_1_2_3 h_S_) main_v6 main_c_1
  let main_v8 : IVec S_ 1 := andi main_v3 main_v7
  let main_v9 : FVec F S16x80x128x128 .f32 := Host.absf main_arg2
  let main_cst_2 : FVec F S_ .f32 := constant S_ .f32 0x7F800000#32
  let main_v10 : FVec F S16x80x128x128 .f32 := broadcastInDim S16x80x128x128 ![] bcast_S_S16x80x128x128 main_cst_2
  let main_v11 : IVec S16x80x128x128 1 := cmpf .olt main_v9 main_v10
  let main_c_3 : IVec S_ 1 := constantI S_ 1 1#1
  let main_v12 : IVec S_ 1 := (fun x v => Host.reduce IntOp.andi x v reducesTo_S16x80x128x128_S_d0_1_2_3 h_S_) main_v11 main_c_3
  let main_v13 : IVec S_ 1 := andi main_v8 main_v12
  let main_v14 : FVec F S16x1x128x128 .f32 := Host.absf main_arg3
  let main_cst_4 : FVec F S_ .f32 := constant S_ .f32 0x7F800000#32
  let main_v15 : FVec F S16x1x128x128 .f32 := broadcastInDim S16x1x128x128 ![] bcast_S_S16x1x128x128 main_cst_4
  let main_v16 : IVec S16x1x128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S16x80x128x128 : Shape := ⟨4, ![16, 80, 128, 128]⟩
abbrev S16x1x128x128 : Shape := ⟨4, ![16, 1, 128, 128]⟩
abbrev S16x2x128x128 : Shape := ⟨4, ![16, 2, 128, 128]⟩
abbrev S16x128x2 : Shape := ⟨3, ![16, 128, 2]⟩
abbrev S16x128 : Shape := ⟨2, ![16, 128]⟩
abbrev S16x128x128x1 : Shape := ⟨4, ![16, 128, 128, 1]⟩
abbrev S16x16384x1 : Shape := ⟨3, ![16, 16384, 1]⟩
abbrev S16 : Shape := ⟨1, ![16]⟩
abbrev S16x1 : Shape := ⟨2, ![16, 1]⟩
abbrev S_ : Shape := ⟨0, ![]⟩
abbrev S16x128x1 : Shape := ⟨3, ![16, 128, 1]⟩
abbrev S16x128x128x2 : Shape := ⟨4, ![16, 128, 128, 2]⟩
abbrev S16x16384x2 : Shape := ⟨3, ![16, 16384, 2]⟩
abbrev S1x1 : Shape := ⟨2, ![1, 1]⟩
abbrev S1x16x128x128 : Shape := ⟨4, ![1, 16, 128, 128]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S16x1x128 : Shape := ⟨3, ![16, 1, 128]⟩
abbrev S16x128x128 : Shape := ⟨3, ![16, 128, 128]⟩
abbrev S16x1x1 : Shape := ⟨3, ![16, 1, 1]⟩

abbrev nBuf : Space → Nat
  | .hbm => 314
  | .vmem => 21
  | .smem => 0
  | _ => 0

abbrev hbmTy0_0 (i : Nat) : BufTy := match i % 128 with
  | 0 => ⟨S16x80x128x128, .f32⟩
  | 1 => ⟨S16x80x128x128, .f32⟩
  | 2 => ⟨S16x80x128x128, .f32⟩
  | 3 => ⟨S16x1x128x128, .f32⟩
  | 4 => ⟨S16x1x128x128, .f32⟩
  | 5 => ⟨S16x2x128x128, .f32⟩
  | 6 => ⟨S16x2x128x128, .f32⟩
  | 7 => ⟨S16x2x128x128, .f32⟩
  | 8 => ⟨S16x80x128x128, .f32⟩
  | 9 => ⟨S16x80x128x128, .f32⟩
  | 10 => ⟨S16x80x128x128, .f32⟩
  | 11 => ⟨S16x128x2, .f32⟩
  | 12 => ⟨S16x128x2, .f32⟩
  | 13 => ⟨S16x128x2, .f32⟩
  | 14 => ⟨S16x128, .i32⟩
  | 15 => ⟨S16x128, .i32⟩
  | 16 => ⟨S16x128, .i32⟩
  | 17 => ⟨S16x128, .i32⟩
  | 18 => ⟨S16x128, .f32⟩
  | 19 => ⟨S16x128x128x1, .f32⟩
  | 20 => ⟨S16x16384x1, .f32⟩
  | 21 => ⟨S16, .i32⟩
  | 22 => ⟨S16x1, .i32⟩
  | 23 => ⟨S_, .i32⟩
  | 24 => ⟨S16x1, .i32⟩
  | 25 => ⟨S16x1, .i1⟩
  | 26 => ⟨S_, .i32⟩
  | 27 => ⟨S16x1, .i32⟩
  | 28 => ⟨S16x1, .i32⟩
  | 29 => ⟨S16x1, .i32⟩
  | 30 => ⟨S_, .i32⟩
  | 31 => ⟨S16x128, .i32⟩
  | 32 => ⟨S16x128, .i1⟩
  | 33 => ⟨S_, .i32⟩
  | 34 => ⟨S16x128, .i32⟩
  | 35 => ⟨S16x128, .i32⟩
  | 36 => ⟨S16x128, .i32⟩
  | 37 => ⟨S16x128, .i32⟩
  | 38 => ⟨S16x128x1, .i32⟩
  | 39 => ⟨S16x128x1, .i32⟩
  | 40 => ⟨S16x128x2, .i32⟩
  | 41 => ⟨S16x128x1, .f32⟩
  | 42 => ⟨S16x128, .f32⟩
  | 43 => ⟨S16x128x128x1, .f32⟩
  | 44 => ⟨S16x16384x1, .f32⟩
  | 45 => ⟨S16, .i32⟩
  | 46 => ⟨S16x1, .i32⟩
  | 47 => ⟨S_, .i32⟩
  | 48 => ⟨S16x1, .i32⟩
  | 49 => ⟨S16x1, .i1⟩
  | 50 => ⟨S_, .i32⟩
  | 51 => ⟨S16x1, .i32⟩
  | 52 => ⟨S16x1, .i32⟩
  | 53 => ⟨S16x1, .i32⟩
  | 54 => ⟨S_, .i32⟩
  | 55 => ⟨S16x128, .i32⟩
  | 56 => ⟨S16x128, .i1⟩
  | 57 => ⟨S_, .i32⟩
  | 58 => ⟨S16x128, .i32⟩
  | 59 => ⟨S16x128, .i32⟩
  | 60 => ⟨S16x128, .i32⟩
  | 61 => ⟨S16x128, .i32⟩
  | 62 => ⟨S16x128x1, .i32⟩
  | 63 => ⟨S16x128x1, .i32⟩
  | 64 => ⟨S16x128x2, .i32⟩
  | 65 => ⟨S16x128x1, .f32⟩
  | 66 => ⟨S16x128, .f32⟩
  | 67 => ⟨S16x128x128x2, .f32⟩
  | 68 => ⟨S16x16384x2, .f32⟩
  | 69 => ⟨S16, .i32⟩
  | 70 => ⟨S16x1, .i32⟩
  | 71 => ⟨S_, .i32⟩
  | 72 => ⟨S16x1, .i32⟩
  | 73 => ⟨S16x1, .i1⟩
  | 74 => ⟨S_, .i32⟩
  | 75 => ⟨S16x1, .i32⟩
  | 76 => ⟨S16x1, .i32⟩
  | 77 => ⟨S16x1, .i32⟩
  | 78 => ⟨S_, .i32⟩
  | 79 => ⟨S16x128, .i32⟩
  | 80 => ⟨S16x128, .i1⟩
  | 81 => ⟨S_, .i32⟩
  | 82 => ⟨S16x128, .i32⟩
  | 83 => ⟨S16x128, .i32⟩
  | 84 => ⟨S16x128, .i32⟩
  | 85 => ⟨S16x128, .i32⟩
  | 86 => ⟨S16x128x1, .i32⟩
  | 87 => ⟨S16x128x1, .i32⟩
  | 88 => ⟨S16x128x2, .i32⟩
  | 89 => ⟨S16x128x2, .f32⟩
  | 90 => ⟨S16x128x128x2, .f32⟩
  | 91 => ⟨S16x16384x2, .f32⟩
  | 92 => ⟨S16, .i32⟩
  | 93 => ⟨S16x1, .i32⟩
  | 94 => ⟨S_, .i32⟩
  | 95 => ⟨S16x1, .i32⟩
  | 96 => ⟨S16x1, .i1⟩
  | 97 => ⟨S_, .i32⟩
  | 98 => ⟨S16x1, .i32⟩
  | 99 => ⟨S16x1, .i32⟩
  | 100 => ⟨S16x1, .i32⟩
  | 101 => ⟨S_, .i32⟩
  | 102 => ⟨S16x128, .i32⟩
  | 103 => ⟨S16x128, .i1⟩
  | 104 => ⟨S_, .i32⟩
  | 105 => ⟨S16x128, .i32⟩
  | 106 => ⟨S16x128, .i32⟩
  | 107 => ⟨S16x128, .i32⟩
  | 108 => ⟨S16x128, .i32⟩
  | 109 => ⟨S16x128x1, .i32⟩
  | 110 => ⟨S16x128x1, .i32⟩
  | 111 => ⟨S16x128x2, .i32⟩
  | 112 => ⟨S16x128x2, .f32⟩
  | 113 => ⟨S16x128x128x2, .f32⟩
  | 114 => ⟨S16x16384x2, .f32⟩
  | 115 => ⟨S16, .i32⟩
  | 116 => ⟨S16x1, .i32⟩
  | 117 => ⟨S_, .i32⟩
  | 118 => ⟨S16x1, .i32⟩
  | 119 => ⟨S16x1, .i1⟩
  | 120 => ⟨S_, .i32⟩
  | 121 => ⟨S16x1, .i32⟩
  | 122 => ⟨S16x1, .i32⟩
  | 123 => ⟨S16x1, .i32⟩
  | 124 => ⟨S_, .i32⟩
  | 125 => ⟨S16x128, .i32⟩
  | 126 => ⟨S16x128, .i1⟩
  | 127 => ⟨S_, .i32⟩
  | _ => ⟨S16x80x128x128, .f32⟩

abbrev hbmTy0_1 (i : Nat) : BufTy := match i % 128 with
  | 0 => ⟨S16x128, .i32⟩
  | 1 => ⟨S16x128, .i32⟩
  | 2 => ⟨S16x128, .i32⟩
  | 3 => ⟨S16x128, .i32⟩
  | 4 => ⟨S16x128x1, .i32⟩
  | 5 => ⟨S16x128x1, .i32⟩
  | 6 => ⟨S16x128x2, .i32⟩
  | 7 => ⟨S16x128x2, .f32⟩
  | 8 => ⟨S1x1, .f32⟩
  | 9 => ⟨S1x1, .f32⟩
  | 10 => ⟨S1x1, .f32⟩
  | 11 => ⟨S_, .f32⟩
  | 12 => ⟨S_, .f32⟩
  | 13 => ⟨S_, .f32⟩
  | 14 => ⟨S_, .f32⟩
  | 15 => ⟨S_, .i1⟩
  | 16 => ⟨S_, .f32⟩
  | 17 => ⟨S_, .f32⟩
  | 18 => ⟨S_, .f32⟩
  | 19 => ⟨S_, .f32⟩
  | 20 => ⟨S_, .f32⟩
  | 21 => ⟨S1x1, .f32⟩
  | 22 => ⟨S1x1, .f32⟩
  | 23 => ⟨S1x1, .f32⟩
  | 24 => ⟨S_, .f32⟩
  | 25 => ⟨S_, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1x1, .f32⟩
  | 36 => ⟨S1x1, .f32⟩
  | 37 => ⟨S1x1, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S16x128x2, .f32⟩
  | 54 => ⟨S16x128x2, .f32⟩
  | 55 => ⟨S_, .f32⟩
  | 56 => ⟨S16x128x2, .f32⟩
  | 57 => ⟨S16x128x2, .i1⟩
  | 58 => ⟨S_, .f32⟩
  | 59 => ⟨S16x128x2, .f32⟩
  | 60 => ⟨S16x128x2, .f32⟩
  | 61 => ⟨S16x128x2, .f32⟩
  | 62 => ⟨S_, .f32⟩
  | 63 => ⟨S16x128x2, .f32⟩
  | 64 => ⟨S16x128x2, .f32⟩
  | 65 => ⟨S16x128x2, .f32⟩
  | 66 => ⟨S16x128x1, .f32⟩
  | 67 => ⟨S16x128x2, .f32⟩
  | 68 => ⟨S16x128x2, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S16x128x2, .f32⟩
  | 77 => ⟨S16x128x2, .f32⟩
  | 78 => ⟨S_, .f32⟩
  | 79 => ⟨S16x128x2, .f32⟩
  | 80 => ⟨S16x128x2, .i1⟩
  | 81 => ⟨S_, .f32⟩
  | 82 => ⟨S16x128x2, .f32⟩
  | 83 => ⟨S16x128x2, .f32⟩
  | 84 => ⟨S16x128x2, .f32⟩
  | 85 => ⟨S_, .f32⟩
  | 86 => ⟨S16x128x2, .f32⟩
  | 87 => ⟨S16x128x2, .f32⟩
  | 88 => ⟨S16x128x2, .f32⟩
  | 89 => ⟨S16x128x1, .f32⟩
  | 90 => ⟨S16x128x2, .f32⟩
  | 91 => ⟨S16x128x2, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S16x128x2, .f32⟩
  | 101 => ⟨S16x128x2, .f32⟩
  | 102 => ⟨S_, .f32⟩
  | 103 => ⟨S16x128x2, .f32⟩
  | 104 => ⟨S16x128x2, .i1⟩
  | 105 => ⟨S_, .f32⟩
  | 106 => ⟨S16x128x2, .f32⟩
  | 107 => ⟨S16x128x2, .f32⟩
  | 108 => ⟨S16x128x2, .f32⟩
  | 109 => ⟨S_, .f32⟩
  | 110 => ⟨S16x128x2, .f32⟩
  | 111 => ⟨S16x128x2, .f32⟩
  | 112 => ⟨S16x128x2, .f32⟩
  | 113 => ⟨S16x128x1, .f32⟩
  | 114 => ⟨S16x128x2, .f32⟩
  | 115 => ⟨S16x128x2, .f32⟩
  | 116 => ⟨S_, .f32⟩
  | 117 => ⟨S_, .f32⟩
  | 118 => ⟨S_, .f32⟩
  | 119 => ⟨S_, .f32⟩
  | 120 => ⟨S_, .f32⟩
  | 121 => ⟨S16, .f32⟩
  | 122 => ⟨S16x1, .f32⟩
  | 123 => ⟨S16x128, .f32⟩
  | 124 => ⟨S_, .f32⟩
  | 125 => ⟨S16x128, .f32⟩
  | 126 => ⟨S16x128, .f32⟩
  | 127 => ⟨S16x128, .f32⟩
  | _ => ⟨S16x80x128x128, .f32⟩

abbrev hbmTy0_2 (i : Nat) : BufTy := match i % 128 with
  | 0 => ⟨S16x128, .f32⟩
  | 1 => ⟨S16x128, .f32⟩
  | 2 => ⟨S16x128, .f32⟩
  | 3 => ⟨S16x128, .f32⟩
  | 4 => ⟨S16x128, .f32⟩
  | 5 => ⟨S_, .f32⟩
  | 6 => ⟨S16x1, .f32⟩
  | 7 => ⟨S16x1, .f32⟩
  | 8 => ⟨S16x128, .f32⟩
  | 9 => ⟨S16x128, .f32⟩
  | 10 => ⟨S_, .f32⟩
  | 11 => ⟨S_, .f32⟩
  | 12 => ⟨S16x1x128, .f32⟩
  | 13 => ⟨S16x128x1, .f32⟩
  | 14 => ⟨S16x128x128, .f32⟩
  | 15 => ⟨S16x128x128, .f32⟩
  | 16 => ⟨S16x128x128, .f32⟩
  | 17 => ⟨S16x1x128, .f32⟩
  | 18 => ⟨S16x128x1, .f32⟩
  | 19 => ⟨S16x128x128, .f32⟩
  | 20 => ⟨S16x128x128, .f32⟩
  | 21 => ⟨S16x128x128, .f32⟩
  | 22 => ⟨S16x128x128, .f32⟩
  | 23 => ⟨S_, .f32⟩
  | 24 => ⟨S16x128x128, .f32⟩
  | 25 => ⟨S16x128x128, .f32⟩
  | 26 => ⟨S_, .f32⟩
  | 27 => ⟨S16x128x128, .f32⟩
  | 28 => ⟨S16x128x128, .f32⟩
  | 29 => ⟨S16x1x1, .f32⟩
  | 30 => ⟨S_, .f32⟩
  | 31 => ⟨S16x1x1, .f32⟩
  | 32 => ⟨S16x1x1, .f32⟩
  | 33 => ⟨S_, .f32⟩
  | 34 => ⟨S16x1x1, .f32⟩
  | 35 => ⟨S16x1x1, .f32⟩
  | 36 => ⟨S16x128x128, .f32⟩
  | 37 => ⟨S16x128x128, .f32⟩
  | 38 => ⟨S_, .f32⟩
  | 39 => ⟨S16x1, .f32⟩
  | 40 => ⟨S16x1, .f32⟩
  | 41 => ⟨S16x1, .f32⟩
  | 42 => ⟨S_, .f32⟩
  | 43 => ⟨S16x1, .f32⟩
  | 44 => ⟨S16x1, .f32⟩
  | 45 => ⟨S16x1x1, .f32⟩
  | 46 => ⟨S16x128x128, .f32⟩
  | 47 => ⟨S16x128x128, .f32⟩
  | 48 => ⟨S16x128x128, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S16x80x128x128, .f32⟩

abbrev hbmTy (i : Nat) : BufTy := match i / 128 with
  | 0 => hbmTy0_0 i
  | 1 => hbmTy0_1 i
  | 2 => hbmTy0_2 i
  | _ => ⟨S16x80x128x128, .f32⟩

abbrev bufTy : (tb : Table) → Fin (tcTables nBuf tb) → BufTy
  | .hbm, ⟨i, _⟩ => hbmTy i
  | .local _ .vmem, ⟨0, _⟩ => ⟨S1x16x128x128, .f32⟩
  | .local _ .vmem, ⟨1, _⟩ => ⟨S1x16x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x16x128x128, .f32⟩
  | .local _ .vmem, ⟨8, _⟩ => ⟨S1x16x128x128, .f32⟩
  | .local _ .vmem, ⟨9, _⟩ => ⟨S1x16x128x128, .f32⟩
  | .local _ .vmem, ⟨10, _⟩ => ⟨S1x16x128x128, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x16x128x128, .f32⟩
  | .local _ .vmem, ⟨15, _⟩ => ⟨S1x16x128x128, .f32⟩
  | .local _ .vmem, ⟨16, _⟩ => ⟨S1x16x128x128, .f32⟩
  | .local _ .vmem, ⟨17, _⟩ => ⟨S1x16x128x128, .f32⟩
  | .local _ .vmem, ⟨18, _⟩ => ⟨S1x1, .f32⟩
  | .local _ .vmem, ⟨19, _⟩ => ⟨S1x1, .f32⟩
  | .local _ .vmem, ⟨20, _⟩ => ⟨S1x1, .f32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_17 : Ref sig .tc := ⟨.hbm, 124, rfl⟩
abbrev main_v88 : Ref sig .tc := ⟨.hbm, 125, rfl⟩
abbrev main_v89 : Ref sig .tc := ⟨.hbm, 126, rfl⟩
abbrev main_c_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98_0 : Ref sig .tc := ⟨.hbm, 136, rfl⟩
abbrev main_v98_1 : Ref sig .tc := ⟨.hbm, 137, rfl⟩
abbrev main_v98_2 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108_0 : Ref sig .tc := ⟨.hbm, 149, rfl⟩
abbrev main_v108_1 : Ref sig .tc := ⟨.hbm, 150, rfl⟩
abbrev main_v108_2 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_19 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119_0 : Ref sig .tc := ⟨.hbm, 163, rfl⟩
abbrev main_v119_1 : Ref sig .tc := ⟨.hbm, 164, rfl⟩
abbrev main_v119_2 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_20 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_21 : Ref sig .tc := ⟨.hbm, 177, rfl⟩
abbrev main_v130 : Ref sig .tc := ⟨.hbm, 178, rfl⟩
abbrev main_cst_22 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_23 : Ref sig .tc := ⟨.hbm, 183, rfl⟩
abbrev main_v134 : Ref sig .tc := ⟨.hbm, 184, rfl⟩
abbrev main_v135 : Ref sig .tc := ⟨.hbm, 185, rfl⟩
abbrev main_cst_24 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_25 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_26 : Ref sig .tc := ⟨.hbm, 197, rfl⟩
abbrev main_v145 : Ref sig .tc := ⟨.hbm, 198, rfl⟩
abbrev main_v146 : Ref sig .tc := ⟨.hbm, 199, rfl⟩
abbrev main_cst_27 : Ref sig .tc := ⟨.hbm, 200, rfl⟩
abbrev main_v147 : Ref sig .tc := ⟨.hbm, 201, rfl⟩
abbrev main_cst_28 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_29 : Ref sig .tc := ⟨.hbm, 206, rfl⟩
abbrev main_v151 : Ref sig .tc := ⟨.hbm, 207, rfl⟩
abbrev main_v152 : Ref sig .tc := ⟨.hbm, 208, rfl⟩
abbrev main_cst_30 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_31 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_32 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_33 : Ref sig .tc := ⟨.hbm, 224, rfl⟩
abbrev main_v165 : Ref sig .tc := ⟨.hbm, 225, rfl⟩
abbrev main_cst_34 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_cst_35 : Ref sig .tc := ⟨.hbm, 230, rfl⟩
abbrev main_v169 : Ref sig .tc := ⟨.hbm, 231, rfl⟩
abbrev main_v170 : Ref sig .tc := ⟨.hbm, 232, rfl⟩
abbrev main_cst_36 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_37 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_38 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_39 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_cst_40 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_41 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_cst_42 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_cst_43 : Ref sig .tc := ⟨.hbm, 279, rfl⟩
abbrev main_v210 : Ref sig .tc := ⟨.hbm, 280, rfl⟩
abbrev main_v211 : Ref sig .tc := ⟨.hbm, 281, rfl⟩
abbrev main_call6_cst : Ref sig .tc := ⟨.hbm, 282, rfl⟩
abbrev main_call6_v0 : Ref sig .tc := ⟨.hbm, 283, rfl⟩
abbrev main_v212 : Ref sig .tc := ⟨.hbm, 284, rfl⟩
abbrev main_v213 : Ref sig .tc := ⟨.hbm, 285, rfl⟩
abbrev main_cst_44 : Ref sig .tc := ⟨.hbm, 286, rfl⟩
abbrev main_v214 : Ref sig .tc := ⟨.hbm, 287, rfl⟩
abbrev main_v215 : Ref sig .tc := ⟨.hbm, 288, rfl⟩
abbrev main_cst_45 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_cst_46 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_cst_47 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_cst_48 : Ref sig .tc := ⟨.hbm, 305, rfl⟩
abbrev main_v229 : Ref sig .tc := ⟨.hbm, 306, rfl⟩
abbrev main_cst_49 : Ref sig .tc := ⟨.hbm, 307, rfl⟩
abbrev main_v230 : Ref sig .tc := ⟨.hbm, 308, rfl⟩
abbrev main_v231 : Ref sig .tc := ⟨.hbm, 309, rfl⟩
abbrev main_cst_50 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20

abbrev nD : Nat := 1
abbrev τ : Topo := Topo.v7x

variable {F : FTy → Type} [FloatOps F]

abbrev grid0 : Pipeline.Grid := ⟨2, ![16, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![16, 5], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x16x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![16, 5], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x16x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  transposes_S16x1x128x128_S16x128x128x1_0_2_3_1 : S16x1x128x128.Transposes [0, 2, 3, 1] S16x128x128x1
  shapeCasts_S16x128x128x1_S16x16384x1 : S16x128x128x1.ShapeCasts S16x16384x1
  bcast_S16_S16x1_0 : S16.BroadcastsInDim S16x1 (![0] : Fin 1 → Fin S16x1.rank)
  bcast_S_S16x1 : S_.BroadcastsInDim S16x1 (![] : Fin 0 → Fin S16x1.rank)
  bcast_S_S16x128 : S_.BroadcastsInDim S16x128 (![] : Fin 0 → Fin S16x128.rank)
  bcast_S16x1_S16x128_0_1 : S16x1.BroadcastsInDim S16x128 (![0, 1] : Fin 2 → Fin S16x128.rank)
  bcast_S16x128_S16x128x1_0_1 : S16x128.BroadcastsInDim S16x128x1 (![0, 1] : Fin 2 → Fin S16x128x1.rank)
  concatenates_S16x128x1_S16x128x1_S16x128x2_d2 : Shape.Concatenates [S16x128x1, S16x128x1] S16x128x2 2
  shapeCasts_S16x128x1_S16x128 : S16x128x1.ShapeCasts S16x128
  transposes_S16x2x128x128_S16x128x128x2_0_2_3_1 : S16x2x128x128.Transposes [0, 2, 3, 1] S16x128x128x2
  shapeCasts_S16x128x128x2_S16x16384x2 : S16x128x128x2.ShapeCasts S16x16384x2
  inb_S1x1_S1x1_0_0 : ∀ a, (![0, 0] : Fin 2 → Nat) a + S1x1.size a ≤ S1x1.size a
  h_S1x1 : 0 < S1x1.numel
  inb_S1x16x128x128_S1x16x128x128_0_0_0_0 : ∀ a, (![0, 0, 0, 0] : Fin 4 → Nat) a + S1x16x128x128.size a ≤ S1x16x128x128.size a
  h_S1x16x128x128 : 0 < S1x16x128x128.numel
  natLt_1_32 : 1 < 32
  shapeCasts_S1x16x128x128_S2048x128 : S1x16x128x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  reducesTo_S16x128_S_d0_1 : S16x128.ReducesTo [0, 1] S_
  h_S_ : 0 < S_.numel
  bcast_S_S16x128x2 : S_.BroadcastsInDim S16x128x2 (![] : Fin 0 → Fin S16x128x2.rank)
  bcast_S16x128x1_S16x128x2_0_1_2 : S16x128x1.BroadcastsInDim S16x128x2 (![0, 1, 2] : Fin 3 → Fin S16x128x2.rank)
  reducesTo_S16x128x2_S_d0_1_2 : S16x128x2.ReducesTo [0, 1, 2] S_
  reducesTo_S16x128_S16_d1 : S16x128.ReducesTo [1] S16
  bcast_S16x128_S16x1x128_0_2 : S16x128.BroadcastsInDim S16x1x128 (![0, 2] : Fin 2 → Fin S16x1x128.rank)
  bcast_S16x1x128_S16x128x128_0_1_2 : S16x1x128.BroadcastsInDim S16x128x128 (![0, 1, 2] : Fin 3 → Fin S16x128x128.rank)
  bcast_S16x128x1_S16x128x128_0_1_2 : S16x128x1.BroadcastsInDim S16x128x128 (![0, 1, 2] : Fin 3 → Fin S16x128x128.rank)
  bcast_S_S16x128x128 : S_.BroadcastsInDim S16x128x128 (![] : Fin 0 → Fin S16x128x128.rank)
  bcast_S16x1_S16x1x1_0_1 : S16x1.BroadcastsInDim S16x1x1 (![0, 1] : Fin 2 → Fin S16x1x1.rank)
  bcast_S_S16x1x1 : S_.BroadcastsInDim S16x1x1 (![] : Fin 0 → Fin S16x1x1.rank)
  bcast_S16x1x1_S16x128x128_0_1_2 : S16x1x1.BroadcastsInDim S16x128x128 (![0, 1, 2] : Fin 3 → Fin S16x128x128.rank)
  reducesTo_S16x128x128_S_d0_1_2 : S16x128x128.ReducesTo [0, 1, 2] S_
  gather_S16x16384x1_S16x128x2_S16x128x1_2_01_n_n_01_2_111_wf : GatherDims.WF S16x16384x1 S16x128x2 S16x128x1 [2] [0, 1] [] [0, 1] [] 2 ![1, 1, 1]
  gather_S16x16384x2_S16x128x2_S16x128x2_2_01_n_n_01_2_112_wf : GatherDims.WF S16x16384x2 S16x128x2 S16x128x2 [2] [0, 1] [] [0, 1] [] 2 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S16x80x128x128.size a
  hwx0_0 : ∀ i : grid0.Coords, EltTy.bits .f32 = 32 ∨ (Rect.block (s := S16x80x128x128) S1x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S16x80x128x128.size a
  hwx0_1 : ∀ i : grid0.Coords, EltTy.bits .f32 = 32 ∨ (Rect.block (s := S16x80x128x128) S1x16x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128x128.size a ≤ S16x80x128x128.size a
  hwx1_0 : ∀ i : grid1.Coords, EltTy.bits .f32 = 32 ∨ (Rect.block (s := S16x80x128x128) S1x16x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x128x128.size a ≤ S16x80x128x128.size a
  hwx1_1 : ∀ i : grid1.Coords, EltTy.bits .f32 = 32 ∨ (Rect.block (s := S16x80x128x128) S1x16x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x128x128.size a ≤ S16x80x128x128.size a
  hwx2_0 : ∀ i : grid2.Coords, EltTy.bits .f32 = 32 ∨ (Rect.block (s := S16x80x128x128) S1x16x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x128x128.size a ≤ S16x80x128x128.size a
  hwx2_1 : ∀ i : grid2.Coords, EltTy.bits .f32 = 32 ∨ (Rect.block (s := S16x80x128x128) S1x16x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def gather_S16x16384x1_S16x128x2_S16x128x1_2_01_n_n_01_2_111 : GatherDims S16x16384x1 S16x128x2 S16x128x1 where
  offsetDims := [2]
  collapsedSliceDims := [0, 1]
  operandBatchingDims := []
  startIndicesBatchingDims := []
  startIndexMap := [0, 1]
  indexVectorDim := 2
  sliceSizes := ![1, 1, 1]
  wf := gather_S16x16384x1_S16x128x2_S16x128x1_2_01_n_n_01_2_111_wf
def gather_S16x16384x2_S16x128x2_S16x128x2_2_01_n_n_01_2_112 : GatherDims S16x16384x2 S16x128x2 S16x128x2 where
  offsetDims := [2]
  collapsedSliceDims := [0, 1]
  operandBatchingDims := []
  startIndicesBatchingDims := []
  startIndexMap := [0, 1]
  indexVectorDim := 2
  sliceSizes := ![1, 1, 2]
  wf := gather_S16x16384x2_S16x128x2_S16x128x2_2_01_n_n_01_2_112_wf

abbrev win0_0 : Pipeline.Window sig grid0 :=
  Pipeline.Window.ofSpec (Memref.whole main_arg0) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v98_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v98_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x16x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S1x16x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v108_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v108_1) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v108_2) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S1x16x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S1x16x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v119_0) S1x1.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v119_1) S1x1.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v119_2) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16x80x128x128 : Shape := ⟨4, ![16, 80, 128, 128]⟩
abbrev S16x1x128x128 : Shape := ⟨4, ![16, 1, 128, 128]⟩
abbrev S16x2x128x128 : Shape := ⟨4, ![16, 2, 128, 128]⟩
abbrev S16x128x2 : Shape := ⟨3, ![16, 128, 2]⟩
abbrev S16x128 : Shape := ⟨2, ![16, 128]⟩
abbrev S16x128x128x1 : Shape := ⟨4, ![16, 128, 128, 1]⟩
abbrev S16x16384x1 : Shape := ⟨3, ![16, 16384, 1]⟩
abbrev S16 : Shape := ⟨1, ![16]⟩
abbrev S16x1 : Shape := ⟨2, ![16, 1]⟩
abbrev S_ : Shape := ⟨0, ![]⟩
abbrev S16x128x1 : Shape := ⟨3, ![16, 128, 1]⟩
abbrev S16x128x128x2 : Shape := ⟨4, ![16, 128, 128, 2]⟩
abbrev S16x16384x2 : Shape := ⟨3, ![16, 16384, 2]⟩
abbrev S16x1x128 : Shape := ⟨3, ![16, 1, 128]⟩
abbrev S16x128x128 : Shape := ⟨3, ![16, 128, 128]⟩
abbrev S16x1x1 : Shape := ⟨3, ![16, 1, 1]⟩

abbrev nBuf : Space → Nat
  | .hbm => 446
  | .vmem => 0
  | .smem => 0
  | _ => 0

abbrev hbmTy0_0 (i : Nat) : BufTy := match i % 128 with
  | 0 => ⟨S16x80x128x128, .f32⟩
  | 1 => ⟨S16x80x128x128, .f32⟩
  | 2 => ⟨S16x80x128x128, .f32⟩
  | 3 => ⟨S16x1x128x128, .f32⟩
  | 4 => ⟨S16x1x128x128, .f32⟩
  | 5 => ⟨S16x2x128x128, .f32⟩
  | 6 => ⟨S16x2x128x128, .f32⟩
  | 7 => ⟨S16x2x128x128, .f32⟩
  | 8 => ⟨S16x80x128x128, .f32⟩
  | 9 => ⟨S16x80x128x128, .f32⟩
  | 10 => ⟨S16x80x128x128, .f32⟩
  | 11 => ⟨S16x128x2, .f32⟩
  | 12 => ⟨S16x128x2, .f32⟩
  | 13 => ⟨S16x128x2, .f32⟩
  | 14 => ⟨S16x128, .i32⟩
  | 15 => ⟨S16x128, .i32⟩
  | 16 => ⟨S16x128, .i32⟩
  | 17 => ⟨S16x128, .i32⟩
  | 18 => ⟨S16x128, .f32⟩
  | 19 => ⟨S16x128x128x1, .f32⟩
  | 20 => ⟨S16x16384x1, .f32⟩
  | 21 => ⟨S16, .i32⟩
  | 22 => ⟨S16x1, .i32⟩
  | 23 => ⟨S_, .i32⟩
  | 24 => ⟨S16x1, .i32⟩
  | 25 => ⟨S16x1, .i1⟩
  | 26 => ⟨S_, .i32⟩
  | 27 => ⟨S16x1, .i32⟩
  | 28 => ⟨S16x1, .i32⟩
  | 29 => ⟨S16x1, .i32⟩
  | 30 => ⟨S_, .i32⟩
  | 31 => ⟨S16x128, .i32⟩
  | 32 => ⟨S16x128, .i1⟩
  | 33 => ⟨S_, .i32⟩
  | 34 => ⟨S16x128, .i32⟩
  | 35 => ⟨S16x128, .i32⟩
  | 36 => ⟨S16x128, .i32⟩
  | 37 => ⟨S16x128, .i32⟩
  | 38 => ⟨S16x128x1, .i32⟩
  | 39 => ⟨S16x128x1, .i32⟩
  | 40 => ⟨S16x128x2, .i32⟩
  | 41 => ⟨S16x128x1, .f32⟩
  | 42 => ⟨S16x128, .f32⟩
  | 43 => ⟨S16x128x128x1, .f32⟩
  | 44 => ⟨S16x16384x1, .f32⟩
  | 45 => ⟨S16, .i32⟩
  | 46 => ⟨S16x1, .i32⟩
  | 47 => ⟨S_, .i32⟩
  | 48 => ⟨S16x1, .i32⟩
  | 49 => ⟨S16x1, .i1⟩
  | 50 => ⟨S_, .i32⟩
  | 51 => ⟨S16x1, .i32⟩
  | 52 => ⟨S16x1, .i32⟩
  | 53 => ⟨S16x1, .i32⟩
  | 54 => ⟨S_, .i32⟩
  | 55 => ⟨S16x128, .i32⟩
  | 56 => ⟨S16x128, .i1⟩
  | 57 => ⟨S_, .i32⟩
  | 58 => ⟨S16x128, .i32⟩
  | 59 => ⟨S16x128, .i32⟩
  | 60 => ⟨S16x128, .i32⟩
  | 61 => ⟨S16x128, .i32⟩
  | 62 => ⟨S16x128x1, .i32⟩
  | 63 => ⟨S16x128x1, .i32⟩
  | 64 => ⟨S16x128x2, .i32⟩
  | 65 => ⟨S16x128x1, .f32⟩
  | 66 => ⟨S16x128, .f32⟩
  | 67 => ⟨S16x128x128x2, .f32⟩
  | 68 => ⟨S16x16384x2, .f32⟩
  | 69 => ⟨S16, .i32⟩
  | 70 => ⟨S16x1, .i32⟩
  | 71 => ⟨S_, .i32⟩
  | 72 => ⟨S16x1, .i32⟩
  | 73 => ⟨S16x1, .i1⟩
  | 74 => ⟨S_, .i32⟩
  | 75 => ⟨S16x1, .i32⟩
  | 76 => ⟨S16x1, .i32⟩
  | 77 => ⟨S16x1, .i32⟩
  | 78 => ⟨S_, .i32⟩
  | 79 => ⟨S16x128, .i32⟩
  | 80 => ⟨S16x128, .i1⟩
  | 81 => ⟨S_, .i32⟩
  | 82 => ⟨S16x128, .i32⟩
  | 83 => ⟨S16x128, .i32⟩
  | 84 => ⟨S16x128, .i32⟩
  | 85 => ⟨S16x128, .i32⟩
  | 86 => ⟨S16x128x1, .i32⟩
  | 87 => ⟨S16x128x1, .i32⟩
  | 88 => ⟨S16x128x2, .i32⟩
  | 89 => ⟨S16x128x2, .f32⟩
  | 90 => ⟨S16x128x128x2, .f32⟩
  | 91 => ⟨S16x16384x2, .f32⟩
  | 92 => ⟨S16, .i32⟩
  | 93 => ⟨S16x1, .i32⟩
  | 94 => ⟨S_, .i32⟩
  | 95 => ⟨S16x1, .i32⟩
  | 96 => ⟨S16x1, .i1⟩
  | 97 => ⟨S_, .i32⟩
  | 98 => ⟨S16x1, .i32⟩
  | 99 => ⟨S16x1, .i32⟩
  | 100 => ⟨S16x1, .i32⟩
  | 101 => ⟨S_, .i32⟩
  | 102 => ⟨S16x128, .i32⟩
  | 103 => ⟨S16x128, .i1⟩
  | 104 => ⟨S_, .i32⟩
  | 105 => ⟨S16x128, .i32⟩
  | 106 => ⟨S16x128, .i32⟩
  | 107 => ⟨S16x128, .i32⟩
  | 108 => ⟨S16x128, .i32⟩
  | 109 => ⟨S16x128x1, .i32⟩
  | 110 => ⟨S16x128x1, .i32⟩
  | 111 => ⟨S16x128x2, .i32⟩
  | 112 => ⟨S16x128x2, .f32⟩
  | 113 => ⟨S16x128x128x2, .f32⟩
  | 114 => ⟨S16x16384x2, .f32⟩
  | 115 => ⟨S16, .i32⟩
  | 116 => ⟨S16x1, .i32⟩
  | 117 => ⟨S_, .i32⟩
  | 118 => ⟨S16x1, .i32⟩
  | 119 => ⟨S16x1, .i1⟩
  | 120 => ⟨S_, .i32⟩
  | 121 => ⟨S16x1, .i32⟩
  | 122 => ⟨S16x1, .i32⟩
  | 123 => ⟨S16x1, .i32⟩
  | 124 => ⟨S_, .i32⟩
  | 125 => ⟨S16x128, .i32⟩
  | 126 => ⟨S16x128, .i1⟩
  | 127 => ⟨S_, .i32⟩
  | _ => ⟨S16x80x128x128, .f32⟩

abbrev hbmTy0_1 (i : Nat) : BufTy := match i % 128 with
  | 0 => ⟨S16x128, .i32⟩
  | 1 => ⟨S16x128, .i32⟩
  | 2 => ⟨S16x128, .i32⟩
  | 3 => ⟨S16x128, .i32⟩
  | 4 => ⟨S16x128x1, .i32⟩
  | 5 => ⟨S16x128x1, .i32⟩
  | 6 => ⟨S16x128x2, .i32⟩
  | 7 => ⟨S16x128x2, .f32⟩
  | 8 => ⟨S16x80x128x128, .f32⟩
  | 9 => ⟨S16x80x128x128, .f32⟩
  | 10 => ⟨S_, .f32⟩
  | 11 => ⟨S16x80x128x128, .f32⟩
  | 12 => ⟨S16x80x128x128, .f32⟩
  | 13 => ⟨S_, .f32⟩
  | 14 => ⟨S16x80x128x128, .f32⟩
  | 15 => ⟨S16x80x128x128, .f32⟩
  | 16 => ⟨S_, .f32⟩
  | 17 => ⟨S_, .f32⟩
  | 18 => ⟨S_, .f32⟩
  | 19 => ⟨S16x80x128x128, .f32⟩
  | 20 => ⟨S16x80x128x128, .f32⟩
  | 21 => ⟨S_, .f32⟩
  | 22 => ⟨S16x80x128x128, .f32⟩
  | 23 => ⟨S16x80x128x128, .f32⟩
  | 24 => ⟨S_, .f32⟩
  | 25 => ⟨S16x80x128x128, .f32⟩
  | 26 => ⟨S16x80x128x128, .i1⟩
  | 27 => ⟨S16x80x128x128, .f32⟩
  | 28 => ⟨S_, .f32⟩
  | 29 => ⟨S16x80x128x128, .f32⟩
  | 30 => ⟨S16x80x128x128, .i1⟩
  | 31 => ⟨S16x80x128x128, .f32⟩
  | 32 => ⟨S16x80x128x128, .f32⟩
  | 33 => ⟨S16x80x128x128, .f32⟩
  | 34 => ⟨S_, .f32⟩
  | 35 => ⟨S16x80x128x128, .f32⟩
  | 36 => ⟨S16x80x128x128, .f32⟩
  | 37 => ⟨S16x80x128x128, .f32⟩
  | 38 => ⟨S16x80x128x128, .f32⟩
  | 39 => ⟨S_, .f32⟩
  | 40 => ⟨S_, .f32⟩
  | 41 => ⟨S_, .f32⟩
  | 42 => ⟨S16x80x128x128, .f32⟩
  | 43 => ⟨S16x80x128x128, .f32⟩
  | 44 => ⟨S16x80x128x128, .f32⟩
  | 45 => ⟨S16x80x128x128, .f32⟩
  | 46 => ⟨S16x80x128x128, .f32⟩
  | 47 => ⟨S16x80x128x128, .f32⟩
  | 48 => ⟨S_, .f32⟩
  | 49 => ⟨S16x80x128x128, .f32⟩
  | 50 => ⟨S16x80x128x128, .f32⟩
  | 51 => ⟨S16x80x128x128, .f32⟩
  | 52 => ⟨S16x80x128x128, .f32⟩
  | 53 => ⟨S16x80x128x128, .f32⟩
  | 54 => ⟨S_, .f32⟩
  | 55 => ⟨S_, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S_, .f32⟩
  | 65 => ⟨S16x80x128x128, .f32⟩
  | 66 => ⟨S16x80x128x128, .f32⟩
  | 67 => ⟨S_, .f32⟩
  | 68 => ⟨S16x80x128x128, .f32⟩
  | 69 => ⟨S16x80x128x128, .f32⟩
  | 70 => ⟨S_, .f32⟩
  | 71 => ⟨S16x80x128x128, .f32⟩
  | 72 => ⟨S16x80x128x128, .f32⟩
  | 73 => ⟨S_, .f32⟩
  | 74 => ⟨S_, .f32⟩
  | 75 => ⟨S_, .f32⟩
  | 76 => ⟨S16x80x128x128, .f32⟩
  | 77 => ⟨S16x80x128x128, .f32⟩
  | 78 => ⟨S_, .f32⟩
  | 79 => ⟨S16x80x128x128, .f32⟩
  | 80 => ⟨S16x80x128x128, .f32⟩
  | 81 => ⟨S_, .f32⟩
  | 82 => ⟨S16x80x128x128, .f32⟩
  | 83 => ⟨S16x80x128x128, .i1⟩
  | 84 => ⟨S16x80x128x128, .f32⟩
  | 85 => ⟨S_, .f32⟩
  | 86 => ⟨S16x80x128x128, .f32⟩
  | 87 => ⟨S16x80x128x128, .i1⟩
  | 88 => ⟨S16x80x128x128, .f32⟩
  | 89 => ⟨S16x80x128x128, .f32⟩
  | 90 => ⟨S16x80x128x128, .f32⟩
  | 91 => ⟨S_, .f32⟩
  | 92 => ⟨S16x80x128x128, .f32⟩
  | 93 => ⟨S16x80x128x128, .f32⟩
  | 94 => ⟨S16x80x128x128, .f32⟩
  | 95 => ⟨S16x80x128x128, .f32⟩
  | 96 => ⟨S_, .f32⟩
  | 97 => ⟨S_, .f32⟩
  | 98 => ⟨S_, .f32⟩
  | 99 => ⟨S16x80x128x128, .f32⟩
  | 100 => ⟨S16x80x128x128, .f32⟩
  | 101 => ⟨S16x80x128x128, .f32⟩
  | 102 => ⟨S16x80x128x128, .f32⟩
  | 103 => ⟨S16x80x128x128, .f32⟩
  | 104 => ⟨S16x80x128x128, .f32⟩
  | 105 => ⟨S_, .f32⟩
  | 106 => ⟨S16x80x128x128, .f32⟩
  | 107 => ⟨S16x80x128x128, .f32⟩
  | 108 => ⟨S16x80x128x128, .f32⟩
  | 109 => ⟨S16x80x128x128, .f32⟩
  | 110 => ⟨S16x80x128x128, .f32⟩
  | 111 => ⟨S_, .f32⟩
  | 112 => ⟨S_, .f32⟩
  | 113 => ⟨S_, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S16x80x128x128, .f32⟩
  | 124 => ⟨S16x80x128x128, .f32⟩
  | 125 => ⟨S_, .f32⟩
  | 126 => ⟨S16x80x128x128, .f32⟩
  | 127 => ⟨S16x80x128x128, .f32⟩
  | _ => ⟨S16x80x128x128, .f32⟩

abbrev hbmTy0_2 (i : Nat) : BufTy := match i % 128 with
  | 0 => ⟨S_, .f32⟩
  | 1 => ⟨S16x80x128x128, .f32⟩
  | 2 => ⟨S16x80x128x128, .f32⟩
  | 3 => ⟨S_, .f32⟩
  | 4 => ⟨S_, .f32⟩
  | 5 => ⟨S_, .f32⟩
  | 6 => ⟨S16x80x128x128, .f32⟩
  | 7 => ⟨S16x80x128x128, .f32⟩
  | 8 => ⟨S_, .f32⟩
  | 9 => ⟨S16x80x128x128, .f32⟩
  | 10 => ⟨S16x80x128x128, .f32⟩
  | 11 => ⟨S_, .f32⟩
  | 12 => ⟨S16x80x128x128, .f32⟩
  | 13 => ⟨S16x80x128x128, .i1⟩
  | 14 => ⟨S16x80x128x128, .f32⟩
  | 15 => ⟨S_, .f32⟩
  | 16 => ⟨S16x80x128x128, .f32⟩
  | 17 => ⟨S16x80x128x128, .i1⟩
  | 18 => ⟨S16x80x128x128, .f32⟩
  | 19 => ⟨S16x80x128x128, .f32⟩
  | 20 => ⟨S16x80x128x128, .f32⟩
  | 21 => ⟨S_, .f32⟩
  | 22 => ⟨S16x80x128x128, .f32⟩
  | 23 => ⟨S16x80x128x128, .f32⟩
  | 24 => ⟨S16x80x128x128, .f32⟩
  | 25 => ⟨S16x80x128x128, .f32⟩
  | 26 => ⟨S_, .f32⟩
  | 27 => ⟨S_, .f32⟩
  | 28 => ⟨S_, .f32⟩
  | 29 => ⟨S16x80x128x128, .f32⟩
  | 30 => ⟨S16x80x128x128, .f32⟩
  | 31 => ⟨S16x80x128x128, .f32⟩
  | 32 => ⟨S16x80x128x128, .f32⟩
  | 33 => ⟨S16x80x128x128, .f32⟩
  | 34 => ⟨S16x80x128x128, .f32⟩
  | 35 => ⟨S_, .f32⟩
  | 36 => ⟨S16x80x128x128, .f32⟩
  | 37 => ⟨S16x80x128x128, .f32⟩
  | 38 => ⟨S16x80x128x128, .f32⟩
  | 39 => ⟨S16x80x128x128, .f32⟩
  | 40 => ⟨S16x80x128x128, .f32⟩
  | 41 => ⟨S_, .f32⟩
  | 42 => ⟨S_, .f32⟩
  | 43 => ⟨S_, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S16x128x2, .f32⟩
  | 58 => ⟨S16x128x2, .f32⟩
  | 59 => ⟨S_, .f32⟩
  | 60 => ⟨S16x128x2, .f32⟩
  | 61 => ⟨S16x128x2, .i1⟩
  | 62 => ⟨S_, .f32⟩
  | 63 => ⟨S16x128x2, .f32⟩
  | 64 => ⟨S16x128x2, .f32⟩
  | 65 => ⟨S16x128x2, .f32⟩
  | 66 => ⟨S_, .f32⟩
  | 67 => ⟨S16x128x2, .f32⟩
  | 68 => ⟨S16x128x2, .f32⟩
  | 69 => ⟨S16x128x2, .f32⟩
  | 70 => ⟨S16x128x1, .f32⟩
  | 71 => ⟨S16x128x2, .f32⟩
  | 72 => ⟨S16x128x2, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16x128x2, .f32⟩
  | 81 => ⟨S16x128x2, .f32⟩
  | 82 => ⟨S_, .f32⟩
  | 83 => ⟨S16x128x2, .f32⟩
  | 84 => ⟨S16x128x2, .i1⟩
  | 85 => ⟨S_, .f32⟩
  | 86 => ⟨S16x128x2, .f32⟩
  | 87 => ⟨S16x128x2, .f32⟩
  | 88 => ⟨S16x128x2, .f32⟩
  | 89 => ⟨S_, .f32⟩
  | 90 => ⟨S16x128x2, .f32⟩
  | 91 => ⟨S16x128x2, .f32⟩
  | 92 => ⟨S16x128x2, .f32⟩
  | 93 => ⟨S16x128x1, .f32⟩
  | 94 => ⟨S16x128x2, .f32⟩
  | 95 => ⟨S16x128x2, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S16x128x2, .f32⟩
  | 105 => ⟨S16x128x2, .f32⟩
  | 106 => ⟨S_, .f32⟩
  | 107 => ⟨S16x128x2, .f32⟩
  | 108 => ⟨S16x128x2, .i1⟩
  | 109 => ⟨S_, .f32⟩
  | 110 => ⟨S16x128x2, .f32⟩
  | 111 => ⟨S16x128x2, .f32⟩
  | 112 => ⟨S16x128x2, .f32⟩
  | 113 => ⟨S_, .f32⟩
  | 114 => ⟨S16x128x2, .f32⟩
  | 115 => ⟨S16x128x2, .f32⟩
  | 116 => ⟨S16x128x2, .f32⟩
  | 117 => ⟨S16x128x1, .f32⟩
  | 118 => ⟨S16x128x2, .f32⟩
  | 119 => ⟨S16x128x2, .f32⟩
  | 120 => ⟨S_, .f32⟩
  | 121 => ⟨S_, .f32⟩
  | 122 => ⟨S_, .f32⟩
  | 123 => ⟨S_, .f32⟩
  | 124 => ⟨S_, .f32⟩
  | 125 => ⟨S16, .f32⟩
  | 126 => ⟨S16x1, .f32⟩
  | 127 => ⟨S16x128, .f32⟩
  | _ => ⟨S16x80x128x128, .f32⟩

abbrev hbmTy0_3 (i : Nat) : BufTy := match i % 128 with
  | 0 => ⟨S_, .f32⟩
  | 1 => ⟨S16x128, .f32⟩
  | 2 => ⟨S16x128, .f32⟩
  | 3 => ⟨S16x128, .f32⟩
  | 4 => ⟨S16x128, .f32⟩
  | 5 => ⟨S16x128, .f32⟩
  | 6 => ⟨S16x128, .f32⟩
  | 7 => ⟨S16x128, .f32⟩
  | 8 => ⟨S16x128, .f32⟩
  | 9 => ⟨S_, .f32⟩
  | 10 => ⟨S16x1, .f32⟩
  | 11 => ⟨S16x1, .f32⟩
  | 12 => ⟨S16x128, .f32⟩
  | 13 => ⟨S16x128, .f32⟩
  | 14 => ⟨S_, .f32⟩
  | 15 => ⟨S_, .f32⟩
  | 16 => ⟨S16x1x128, .f32⟩
  | 17 => ⟨S16x128x1, .f32⟩
  | 18 => ⟨S16x128x128, .f32⟩
  | 19 => ⟨S16x128x128, .f32⟩
  | 20 => ⟨S16x128x128, .f32⟩
  | 21 => ⟨S16x1x128, .f32⟩
  | 22 => ⟨S16x128x1, .f32⟩
  | 23 => ⟨S16x128x128, .f32⟩
  | 24 => ⟨S16x128x128, .f32⟩
  | 25 => ⟨S16x128x128, .f32⟩
  | 26 => ⟨S16x128x128, .f32⟩
  | 27 => ⟨S_, .f32⟩
  | 28 => ⟨S16x128x128, .f32⟩
  | 29 => ⟨S16x128x128, .f32⟩
  | 30 => ⟨S_, .f32⟩
  | 31 => ⟨S16x128x128, .f32⟩
  | 32 => ⟨S16x128x128, .f32⟩
  | 33 => ⟨S16x1x1, .f32⟩
  | 34 => ⟨S_, .f32⟩
  | 35 => ⟨S16x1x1, .f32⟩
  | 36 => ⟨S16x1x1, .f32⟩
  | 37 => ⟨S_, .f32⟩
  | 38 => ⟨S16x1x1, .f32⟩
  | 39 => ⟨S16x1x1, .f32⟩
  | 40 => ⟨S16x128x128, .f32⟩
  | 41 => ⟨S16x128x128, .f32⟩
  | 42 => ⟨S_, .f32⟩
  | 43 => ⟨S16x1, .f32⟩
  | 44 => ⟨S16x1, .f32⟩
  | 45 => ⟨S16x1, .f32⟩
  | 46 => ⟨S_, .f32⟩
  | 47 => ⟨S16x1, .f32⟩
  | 48 => ⟨S16x1, .f32⟩
  | 49 => ⟨S16x1x1, .f32⟩
  | 50 => ⟨S16x128x128, .f32⟩
  | 51 => ⟨S16x128x128, .f32⟩
  | 52 => ⟨S16x128x128, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | _ => ⟨S16x80x128x128, .f32⟩

abbrev hbmTy (i : Nat) : BufTy := match i / 128 with
  | 0 => hbmTy0_0 i
  | 1 => hbmTy0_1 i
  | 2 => hbmTy0_2 i
  | 3 => hbmTy0_3 i
  | _ => ⟨S16x80x128x128, .f32⟩

abbrev bufTy : (tb : Table) → Fin (tcTables nBuf tb) → BufTy
  | .hbm, ⟨i, _⟩ => hbmTy i
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_17 : Ref sig .tc := ⟨.hbm, 124, rfl⟩
abbrev main_v88 : Ref sig .tc := ⟨.hbm, 125, rfl⟩
abbrev main_v89 : Ref sig .tc := ⟨.hbm, 126, rfl⟩
abbrev main_c_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst : Ref sig .tc := ⟨.hbm, 138, rfl⟩
abbrev main_v100 : Ref sig .tc := ⟨.hbm, 139, rfl⟩
abbrev main_v101 : Ref sig .tc := ⟨.hbm, 140, rfl⟩
abbrev main_cst_19 : Ref sig .tc := ⟨.hbm, 141, rfl⟩
abbrev main_v102 : Ref sig .tc := ⟨.hbm, 142, rfl⟩
abbrev main_v103 : Ref sig .tc := ⟨.hbm, 143, rfl⟩
abbrev main_cst_20 : Ref sig .tc := ⟨.hbm, 144, rfl⟩
abbrev main_cst_21 : Ref sig .tc := ⟨.hbm, 145, rfl⟩
abbrev main_call0_v0 : Ref sig .tc := ⟨.hbm, 146, rfl⟩
abbrev main_call0_v1 : Ref sig .tc := ⟨.hbm, 147, rfl⟩
abbrev main_call0_v2 : Ref sig .tc := ⟨.hbm, 148, rfl⟩
abbrev main_call0_v3 : Ref sig .tc := ⟨.hbm, 149, rfl⟩
abbrev main_call0_v4 : Ref sig .tc := ⟨.hbm, 150, rfl⟩
abbrev main_v104 : Ref sig .tc := ⟨.hbm, 151, rfl⟩
abbrev main_cst_22 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_23 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_24 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_25 : Ref sig .tc := ⟨.hbm, 167, rfl⟩
abbrev main_v117 : Ref sig .tc := ⟨.hbm, 168, rfl⟩
abbrev main_cst_26 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_27 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_28 : Ref sig .tc := ⟨.hbm, 182, rfl⟩
abbrev main_v129 : Ref sig .tc := ⟨.hbm, 183, rfl⟩
abbrev main_cst_29 : Ref sig .tc := ⟨.hbm, 184, rfl⟩
abbrev main_v130 : Ref sig .tc := ⟨.hbm, 185, rfl⟩
abbrev main_cst_30 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_31 : Ref sig .tc := ⟨.hbm, 195, rfl⟩
abbrev main_v139 : Ref sig .tc := ⟨.hbm, 196, rfl⟩
abbrev main_v140 : Ref sig .tc := ⟨.hbm, 197, rfl⟩
abbrev main_cst_32 : Ref sig .tc := ⟨.hbm, 198, rfl⟩
abbrev main_v141 : Ref sig .tc := ⟨.hbm, 199, rfl⟩
abbrev main_v142 : Ref sig .tc := ⟨.hbm, 200, rfl⟩
abbrev main_cst_33 : Ref sig .tc := ⟨.hbm, 201, rfl⟩
abbrev main_cst_34 : Ref sig .tc := ⟨.hbm, 202, rfl⟩
abbrev main_call2_v0 : Ref sig .tc := ⟨.hbm, 203, rfl⟩
abbrev main_call2_v1 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_v143 : Ref sig .tc := ⟨.hbm, 208, rfl⟩
abbrev main_cst_35 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_36 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_cst_37 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_cst_38 : Ref sig .tc := ⟨.hbm, 224, rfl⟩
abbrev main_v156 : Ref sig .tc := ⟨.hbm, 225, rfl⟩
abbrev main_cst_39 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_cst_40 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_cst_41 : Ref sig .tc := ⟨.hbm, 239, rfl⟩
abbrev main_v168 : Ref sig .tc := ⟨.hbm, 240, rfl⟩
abbrev main_cst_42 : Ref sig .tc := ⟨.hbm, 241, rfl⟩
abbrev main_v169 : Ref sig .tc := ⟨.hbm, 242, rfl⟩
abbrev main_cst_43 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_cst_44 : Ref sig .tc := ⟨.hbm, 253, rfl⟩
abbrev main_v179 : Ref sig .tc := ⟨.hbm, 254, rfl⟩
abbrev main_v180 : Ref sig .tc := ⟨.hbm, 255, rfl⟩
abbrev main_cst_45 : Ref sig .tc := ⟨.hbm, 256, rfl⟩
abbrev main_v181 : Ref sig .tc := ⟨.hbm, 257, rfl⟩
abbrev main_v182 : Ref sig .tc := ⟨.hbm, 258, rfl⟩
abbrev main_cst_46 : Ref sig .tc := ⟨.hbm, 259, rfl⟩
abbrev main_cst_47 : Ref sig .tc := ⟨.hbm, 260, rfl⟩
abbrev main_call4_v0 : Ref sig .tc := ⟨.hbm, 261, rfl⟩
abbrev main_call4_v1 : Ref sig .tc := ⟨.hbm, 262, rfl⟩
abbrev main_call4_v2 : Ref sig .tc := ⟨.hbm, 263, rfl⟩
abbrev main_call4_v3 : Ref sig .tc := ⟨.hbm, 264, rfl⟩
abbrev main_call4_v4 : Ref sig .tc := ⟨.hbm, 265, rfl⟩
abbrev main_v183 : Ref sig .tc := ⟨.hbm, 266, rfl⟩
abbrev main_cst_48 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_cst_49 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_cst_50 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_cst_51 : Ref sig .tc := ⟨.hbm, 282, rfl⟩
abbrev main_v196 : Ref sig .tc := ⟨.hbm, 283, rfl⟩
abbrev main_cst_52 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_cst_53 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_cst_54 : Ref sig .tc := ⟨.hbm, 297, rfl⟩
abbrev main_v208 : Ref sig .tc := ⟨.hbm, 298, rfl⟩
abbrev main_cst_55 : Ref sig .tc := ⟨.hbm, 299, rfl⟩
abbrev main_v209 : Ref sig .tc := ⟨.hbm, 300, rfl⟩
abbrev main_cst_56 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_cst_57 : Ref sig .tc := ⟨.hbm, 309, rfl⟩
abbrev main_v217 : Ref sig .tc := ⟨.hbm, 310, rfl⟩
abbrev main_cst_58 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_cst_59 : Ref sig .tc := ⟨.hbm, 315, rfl⟩
abbrev main_v221 : Ref sig .tc := ⟨.hbm, 316, rfl⟩
abbrev main_v222 : Ref sig .tc := ⟨.hbm, 317, rfl⟩
abbrev main_cst_60 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_cst_61 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_cst_62 : Ref sig .tc := ⟨.hbm, 329, rfl⟩
abbrev main_v232 : Ref sig .tc := ⟨.hbm, 330, rfl⟩
abbrev main_v233 : Ref sig .tc := ⟨.hbm, 331, rfl⟩
abbrev main_cst_63 : Ref sig .tc := ⟨.hbm, 332, rfl⟩
abbrev main_v234 : Ref sig .tc := ⟨.hbm, 333, rfl⟩
abbrev main_cst_64 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_cst_65 : Ref sig .tc := ⟨.hbm, 338, rfl⟩
abbrev main_v238 : Ref sig .tc := ⟨.hbm, 339, rfl⟩
abbrev main_v239 : Ref sig .tc := ⟨.hbm, 340, rfl⟩
abbrev main_cst_66 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_cst_67 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_cst_68 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_cst_69 : Ref sig .tc := ⟨.hbm, 356, rfl⟩
abbrev main_v252 : Ref sig .tc := ⟨.hbm, 357, rfl⟩
abbrev main_cst_70 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_cst_71 : Ref sig .tc := ⟨.hbm, 362, rfl⟩
abbrev main_v256 : Ref sig .tc := ⟨.hbm, 363, rfl⟩
abbrev main_v257 : Ref sig .tc := ⟨.hbm, 364, rfl⟩
abbrev main_cst_72 : Ref sig .tc := ⟨.hbm, 365, rfl⟩
abbrev main_v258 : Ref sig .tc := ⟨.hbm, 366, rfl⟩
abbrev main_v259 : Ref sig .tc := ⟨.hbm, 367, rfl⟩
abbrev main_v260 : Ref sig .tc := ⟨.hbm, 368, rfl⟩
abbrev main_cst_73 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_cst_74 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_cst_75 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_cst_76 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_cst_77 : Ref sig .tc := ⟨.hbm, 393, rfl⟩
abbrev main_v281 : Ref sig .tc := ⟨.hbm, 394, rfl⟩
abbrev main_v282 : Ref sig .tc := ⟨.hbm, 395, rfl⟩
abbrev main_v283 : Ref sig .tc := ⟨.hbm, 396, rfl⟩
abbrev main_v284 : Ref sig .tc := ⟨.hbm, 397, rfl⟩
abbrev main_cst_78 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_v291 : Ref sig .tc := ⟨.hbm, 405, rfl⟩
abbrev main_v292 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_v296 : Ref sig .tc := ⟨.hbm, 410, rfl⟩
abbrev main_cst_79 : Ref sig .tc := ⟨.hbm, 411, rfl⟩
abbrev main_v297 : Ref sig .tc := ⟨.hbm, 412, rfl⟩
abbrev main_v298 : Ref sig .tc := ⟨.hbm, 413, rfl⟩
abbrev main_call9_cst : Ref sig .tc := ⟨.hbm, 414, rfl⟩
abbrev main_call9_v0 : Ref sig .tc := ⟨.hbm, 415, rfl⟩
abbrev main_v299 : Ref sig .tc := ⟨.hbm, 416, rfl⟩
abbrev main_v300 : Ref sig .tc := ⟨.hbm, 417, rfl⟩
abbrev main_cst_80 : Ref sig .tc := ⟨.hbm, 418, rfl⟩
abbrev main_v301 : Ref sig .tc := ⟨.hbm, 419, rfl⟩
abbrev main_v302 : Ref sig .tc := ⟨.hbm, 420, rfl⟩
abbrev main_cst_81 : Ref sig .tc := ⟨.hbm, 421, rfl⟩
abbrev main_v303 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_cst_82 : Ref sig .tc := ⟨.hbm, 426, rfl⟩
abbrev main_v307 : Ref sig .tc := ⟨.hbm, 427, rfl⟩
abbrev main_v308 : Ref sig .tc := ⟨.hbm, 428, rfl⟩
abbrev main_v309 : Ref sig .tc := ⟨.hbm, 429, rfl⟩
abbrev main_cst_83 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_v313 : Ref sig .tc := ⟨.hbm, 434, rfl⟩
abbrev main_v314 : Ref sig .tc := ⟨.hbm, 435, rfl⟩
abbrev main_v315 : Ref sig .tc := ⟨.hbm, 436, rfl⟩
abbrev main_cst_84 : Ref sig .tc := ⟨.hbm, 437, rfl⟩
abbrev main_v316 : Ref sig .tc := ⟨.hbm, 438, rfl⟩
abbrev main_cst_85 : Ref sig .tc := ⟨.hbm, 439, rfl⟩
abbrev main_v317 : Ref sig .tc := ⟨.hbm, 440, rfl⟩
abbrev main_v318 : Ref sig .tc := ⟨.hbm, 441, rfl⟩
abbrev main_cst_86 : Ref sig .tc := ⟨.hbm, 442, rfl⟩
abbrev main_v319 : Ref sig .tc := ⟨.hbm, 443, rfl⟩
abbrev main_v320 : Ref sig .tc := ⟨.hbm, 444, rfl⟩
abbrev main_v321 : Ref sig .tc := ⟨.hbm, 445, rfl⟩

abbrev nD : Nat := 1
abbrev τ : Topo := Topo.v7x

variable {F : FTy → Type} [FloatOps F]

class Facts₀ : Prop where
  transposes_S16x1x128x128_S16x128x128x1_0_2_3_1 : S16x1x128x128.Transposes [0, 2, 3, 1] S16x128x128x1
  shapeCasts_S16x128x128x1_S16x16384x1 : S16x128x128x1.ShapeCasts S16x16384x1
  bcast_S16_S16x1_0 : S16.BroadcastsInDim S16x1 (![0] : Fin 1 → Fin S16x1.rank)
  bcast_S_S16x1 : S_.BroadcastsInDim S16x1 (![] : Fin 0 → Fin S16x1.rank)
  bcast_S_S16x128 : S_.BroadcastsInDim S16x128 (![] : Fin 0 → Fin S16x128.rank)
  bcast_S16x1_S16x128_0_1 : S16x1.BroadcastsInDim S16x128 (![0, 1] : Fin 2 → Fin S16x128.rank)
  bcast_S16x128_S16x128x1_0_1 : S16x128.BroadcastsInDim S16x128x1 (![0, 1] : Fin 2 → Fin S16x128x1.rank)
  concatenates_S16x128x1_S16x128x1_S16x128x2_d2 : Shape.Concatenates [S16x128x1, S16x128x1] S16x128x2 2
  shapeCasts_S16x128x1_S16x128 : S16x128x1.ShapeCasts S16x128
  transposes_S16x2x128x128_S16x128x128x2_0_2_3_1 : S16x2x128x128.Transposes [0, 2, 3, 1] S16x128x128x2
  shapeCasts_S16x128x128x2_S16x16384x2 : S16x128x128x2.ShapeCasts S16x16384x2
  bcast_S_S16x80x128x128 : S_.BroadcastsInDim S16x80x128x128 (![] : Fin 0 → Fin S16x80x128x128.rank)
  reducesTo_S16x80x128x128_S_d0_1_2_3 : S16x80x128x128.ReducesTo [0, 1, 2, 3] S_
  h_S_ : 0 < S_.numel
  reducesTo_S16x128_S_d0_1 : S16x128.ReducesTo [0, 1] S_
  bcast_S_S16x128x2 : S_.BroadcastsInDim S16x128x2 (![] : Fin 0 → Fin S16x128x2.rank)
  bcast_S16x128x1_S16x128x2_0_1_2 : S16x128x1.BroadcastsInDim S16x128x2 (![0, 1, 2] : Fin 3 → Fin S16x128x2.rank)
  reducesTo_S16x128x2_S_d0_1_2 : S16x128x2.ReducesTo [0, 1, 2] S_
  reducesTo_S16x128_S16_d1 : S16x128.ReducesTo [1] S16
  bcast_S16x128_S16x1x128_0_2 : S16x128.BroadcastsInDim S16x1x128 (![0, 2] : Fin 2 → Fin S16x1x128.rank)
  bcast_S16x1x128_S16x128x128_0_1_2 : S16x1x128.BroadcastsInDim S16x128x128 (![0, 1, 2] : Fin 3 → Fin S16x128x128.rank)
  bcast_S16x128x1_S16x128x128_0_1_2 : S16x128x1.BroadcastsInDim S16x128x128 (![0, 1, 2] : Fin 3 → Fin S16x128x128.rank)
  bcast_S_S16x128x128 : S_.BroadcastsInDim S16x128x128 (![] : Fin 0 → Fin S16x128x128.rank)
  bcast_S16x1_S16x1x1_0_1 : S16x1.BroadcastsInDim S16x1x1 (![0, 1] : Fin 2 → Fin S16x1x1.rank)
  bcast_S_S16x1x1 : S_.BroadcastsInDim S16x1x1 (![] : Fin 0 → Fin S16x1x1.rank)
  bcast_S16x1x1_S16x128x128_0_1_2 : S16x1x1.BroadcastsInDim S16x128x128 (![0, 1, 2] : Fin 3 → Fin S16x128x128.rank)
  reducesTo_S16x128x128_S_d0_1_2 : S16x128x128.ReducesTo [0, 1, 2] S_
  gather_S16x16384x1_S16x128x2_S16x128x1_2_01_n_n_01_2_111_wf : GatherDims.WF S16x16384x1 S16x128x2 S16x128x1 [2] [0, 1] [] [0, 1] [] 2 ![1, 1, 1]
  gather_S16x16384x2_S16x128x2_S16x128x2_2_01_n_n_01_2_112_wf : GatherDims.WF S16x16384x2 S16x128x2 S16x128x2 [2] [0, 1] [] [0, 1] [] 2 ![1, 1, 2]

variable [Facts₀]

def gather_S16x16384x1_S16x128x2_S16x128x1_2_01_n_n_01_2_111 : GatherDims S16x16384x1 S16x128x2 S16x128x1 where
  offsetDims := [2]
  collapsedSliceDims := [0, 1]
  operandBatchingDims := []
  startIndicesBatchingDims := []
  startIndexMap := [0, 1]
  indexVectorDim := 2
  sliceSizes := ![1, 1, 1]
  wf := gather_S16x16384x1_S16x128x2_S16x128x1_2_01_n_n_01_2_111_wf
def gather_S16x16384x2_S16x128x2_S16x128x2_2_01_n_n_01_2_112 : GatherDims S16x16384x2 S16x128x2 S16x128x2 where
  offsetDims := [2]
  collapsedSliceDims := [0, 1]
  operandBatchingDims := []
  startIndicesBatchingDims := []
  startIndexMap := [0, 1]
  indexVectorDim := 2
  sliceSizes := ![1, 1, 2]
  wf := gather_S16x16384x2_S16x128x2_S16x128x2_2_01_n_n_01_2_112_wf

class Facts : Prop extends Facts₀ where

variable [Facts]
-- ==== Proof.WalkR.lean ====
import proofs.«139319_j28071906246702_2_alg».proof.Proof.RefOps
import Idealize.ShloMosaic.Lib.Pipeline.Frame

/-!
# Buffers the reference's first stages leave alone

The reference first gathers (118 operations), then computes three focal losses (six lists of operations). A buffer that a
list does not write — an argument, a gathered array, the mask, an earlier focal loss — holds after the list what it held
before. This module lists what each of these lists writes and states that fact for an arbitrary buffer, for the gathers as
a whole and for each focal loss.
-/

set_option maxRecDepth 16384

noncomputable section

namespace Cert.ReferenceIdeal.Walk

open Cert.ReferenceIdeal Cert.ReferenceIdeal.Gen Cert.ReferenceIdeal.Chunks
open Idealize.ShloMosaic Idealize.ShloMosaic.TcCoe Idealize.SL.Sem Idealize.ShloMosaic.StableHlo

variable {F : FTy → Type} [FloatOps F]

/-- What `rA0` writes. -/
abbrev W_rA0 : List (Ref sig .tc) := [main_v0]
theorem writes_rA0 : (rA0 : List (HloOp τ sig (Elt F))).Forall fun op => op.writes ⊆ ((W_rA0).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA0 (V : Valuation τ sig (Elt F)) (r : Ref sig .tc) (h : r ∉ W_rA0) : after rA0 V (Proc.devRef .tc r) = V (Proc.devRef .tc r) :=
  after_of_writes_sub rA0 V writes_rA0 h

/-- What `rA1a` writes. -/
abbrev W_rA1a : List (Ref sig .tc) := [main_v1, main_v2, main_v3, main_v4, main_c, main_v5, main_v6, main_c_0, main_v7, main_v8, main_v9, main_c_1, main_v10, main_v11, main_c_2, main_v12, main_v13, main_v14, main_v15, main_v16, main_v17]
theorem writes_rA1a : (rA1a : List (HloOp τ sig (Elt F))).Forall fun op => op.writes ⊆ ((W_rA1a).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA1a (V : Valuation τ sig (Elt F)) (r : Ref sig .tc) (h : r ∉ W_rA1a) : after rA1a V (Proc.devRef .tc r) = V (Proc.devRef .tc r) :=
  after_of_writes_sub rA1a V writes_rA1a h

/-- What `rA1b` writes. -/
abbrev W_rA1b : List (Ref sig .tc) := [main_v18, main_v19, main_v20]
theorem writes_rA1b : (rA1b : List (HloOp τ sig (Elt F))).Forall fun op => op.writes ⊆ ((W_rA1b).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA1b (V : Valuation τ sig (Elt F)) (r : Ref sig .tc) (h : r ∉ W_rA1b) : after rA1b V (Proc.devRef .tc r) = V (Proc.devRef .tc r) :=
  after_of_writes_sub rA1b V writes_rA1b h

/-- What `rA2a` writes. -/
abbrev W_rA2a : List (Ref sig .tc) := [main_v21, main_v22, main_v23, main_v24, main_c_3, main_v25, main_v26, main_c_4, main_v27, main_v28, main_v29, main_c_5, main_v30, main_v31, main_c_6, main_v32, main_v33, main_v34, main_v35, main_v36, main_v37]
theorem writes_rA2a : (rA2a : List (HloOp τ sig (Elt F))).Forall fun op => op.writes ⊆ ((W_rA2a).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA2a (V : Valuation τ sig (Elt F)) (r : Ref sig .tc) (h : r ∉ W_rA2a) : after rA2a V (Proc.devRef .tc r) = V (Proc.devRef .tc r) :=
  after_of_writes_sub rA2a V writes_rA2a h

/-- What `rA2b` writes. -/
abbrev W_rA2b : List (Ref sig .tc) := [main_v38, main_v39, main_v40]
theorem writes_rA2b : (rA2b : List (HloOp τ sig (Elt F))).Forall fun op => op.writes ⊆ ((W_rA2b).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA2b (V : Valuation τ sig (Elt F)) (r : Ref sig .tc) (h : r ∉ W_rA2b) : after rA2b V (Proc.devRef .tc r) = V (Proc.devRef .tc r) :=
  after_of_writes_sub rA2b V writes_rA2b h

/-- What `rA3a` writes. -/
abbrev W_rA3a : List (Ref sig .tc) := [main_v41, main_v42, main_v43, main_v44, main_c_7, main_v45, main_v46, main_c_8, main_v47, main_v48, main_v49, main_c_9, main_v50, main_v51, main_c_10, main_v52, main_v53, main_v54, main_v55, main_v56, main_v57]
theorem writes_rA3a : (rA3a : List (HloOp τ sig (Elt F))).Forall fun op => op.writes ⊆ ((W_rA3a).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA3a (V : Valuation τ sig (Elt F)) (r : Ref sig .tc) (h : r ∉ W_rA3a) : after rA3a V (Proc.devRef .tc r) = V (Proc.devRef .tc r) :=
  after_of_writes_sub rA3a V writes_rA3a h

/-- What `rA3b` writes. -/
abbrev W_rA3b : List (Ref sig .tc) := [main_v58, main_v59]
theorem writes_rA3b : (rA3b : List (HloOp τ sig (Elt F))).Forall fun op => op.writes ⊆ ((W_rA3b).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA3b (V : Valuation τ sig (Elt F)) (r : Ref sig .tc) (h : r ∉ W_rA3b) : after rA3b V (Proc.devRef .tc r) = V (Proc.devRef .tc r) :=
  after_of_writes_sub rA3b V writes_rA3b h

/-- What `rA4a` writes. -/
abbrev W_rA4a : List (Ref sig .tc) := [main_v60, main_v61, main_v62, main_v63, main_c_11, main_v64, main_v65, main_c_12, main_v66, main_v67, main_v68, main_c_13, main_v69, main_v70, main_c_14, main_v71, main_v72, main_v73, main_v74, main_v75, main_v76]
theorem writes_rA4a : (rA4a : List (HloOp τ sig (Elt F))).Forall fun op => op.writes ⊆ ((W_rA4a).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA4a (V : Valuation τ sig (Elt F)) (r : Ref sig .tc) (h : r ∉ W_rA4a) : after rA4a V (Proc.devRef .tc r) = V (Proc.devRef .tc r) :=
  after_of_writes_sub rA4a V writes_rA4a h

/-- What `rA4b` writes. -/
abbrev W_rA4b : List (Ref sig .tc) := [main_v77, main_v78]
theorem writes_rA4b : (rA4b : List (HloOp τ sig (Elt F))).Forall fun op => op.writes ⊆ ((W_rA4b).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA4b (V : Valuation τ sig (Elt F)) (r : Ref sig .tc) (h : r ∉ W_rA4b) : after rA4b V (Proc.devRef .tc r) = V (Proc.devRef .tc r) :=
  after_of_writes_sub rA4b V writes_rA4b h

/-- What `rA5a` writes. -/
abbrev W_rA5a : List (Ref sig .tc) := [main_v79, main_v80, main_v81, main_v82, main_c_15, main_v83, main_v84, main_c_16, main_v85, main_v86, main_v87, main_c_17, main_v88, main_v89, main_c_18, main_v90, main_v91, main_v92, main_v93, main_v94, main_v95]
theorem writes_rA5a : (rA5a : List (HloOp τ sig (Elt F))).Forall fun op => op.writes ⊆ ((W_rA5a).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA5a (V : Valuation τ sig (Elt F)) (r : Ref sig .tc) (h : r ∉ W_rA5a) : after rA5a V (Proc.devRef .tc r) = V (Proc.devRef .tc r) :=
  after_of_writes_sub rA5a V writes_rA5a h

/-- What `rA5b` writes. -/
abbrev W_rA5b : List (Ref sig .tc) := [main_v96, main_v97]
theorem writes_rA5b : (rA5b : List (HloOp τ sig (Elt F))).Forall fun op => op.writes ⊆ ((W_rA5b).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rA5b (V : Valuation τ sig (Elt F)) (r : Ref sig .tc) (h : r ∉ W_rA5b) : after rA5b V (Proc.devRef .tc r) = V (Proc.devRef .tc r) :=
  after_of_writes_sub rA5b V writes_rA5b h

/-- What `rB1e` writes. -/
abbrev W_rB1e : List (Ref sig .tc) := [main_v98, main_v99, main_cst, main_v100, main_v101, main_cst_19, main_v102, main_v103, main_cst_20, main_cst_21, main_call0_v0, main_call0_v1, main_call0_v2, main_call0_v3, main_call0_v4, main_v104, main_cst_22, main_v105, main_v106, main_v107, main_cst_23, main_v108, main_v109, main_v110, main_v111, main_v112, main_cst_24, main_v113, main_v114, main_v115, main_v116, main_cst_25, main_v117, main_cst_26, main_v118, main_v119, main_v120, main_v121, main_v122, main_v123, main_cst_27, main_v124, main_v125, main_v126, main_v127, main_v128, main_cst_28, main_v129, main_cst_29, main_v130]
theorem writes_rB1e : (rB1e : List (HloOp τ sig (Elt F))).Forall fun op => op.writes ⊆ ((W_rB1e).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rB1e (V : Valuation τ sig (Elt F)) (r : Ref sig .tc) (h : r ∉ W_rB1e) : after rB1e V (Proc.devRef .tc r) = V (Proc.devRef .tc r) :=
  after_of_writes_sub rB1e V writes_rB1e h

/-- What `rB1h` writes. -/
abbrev W_rB1h : List (Ref sig .tc) := [main_cst_30, main_v131, main_v132, main_v133, main_v134, main_v135, main_v136]
theorem writes_rB1h : (rB1h : List (HloOp τ sig (Elt F))).Forall fun op => op.writes ⊆ ((W_rB1h).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rB1h (V : Valuation τ sig (Elt F)) (r : Ref sig .tc) (h : r ∉ W_rB1h) : after rB1h V (Proc.devRef .tc r) = V (Proc.devRef .tc r) :=
  after_of_writes_sub rB1h V writes_rB1h h

/-- What `rB2e` writes. -/
abbrev W_rB2e : List (Ref sig .tc) := [main_v137, main_v138, main_cst_31, main_v139, main_v140, main_cst_32, main_v141, main_v142, main_cst_33, main_cst_34, main_call2_v0, main_call2_v1, main_call2_v2, main_call2_v3, main_call2_v4, main_v143, main_cst_35, main_v144, main_v145, main_v146, main_cst_36, main_v147, main_v148, main_v149, main_v150, main_v151, main_cst_37, main_v152, main_v153, main_v154, main_v155, main_cst_38, main_v156, main_cst_39, main_v157, main_v158, main_v159, main_v160, main_v161, main_v162, main_cst_40, main_v163, main_v164, main_v165, main_v166, main_v167, main_cst_41, main_v168, main_cst_42, main_v169]
theorem writes_rB2e : (rB2e : List (HloOp τ sig (Elt F))).Forall fun op => op.writes ⊆ ((W_rB2e).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rB2e (V : Valuation τ sig (Elt F)) (r : Ref sig .tc) (h : r ∉ W_rB2e) : after rB2e V (Proc.devRef .tc r) = V (Proc.devRef .tc r) :=
  after_of_writes_sub rB2e V writes_rB2e h

/-- What `rB2h` writes. -/
abbrev W_rB2h : List (Ref sig .tc) := [main_cst_43, main_v170, main_v171, main_v172, main_v173, main_v174, main_v175, main_v176]
theorem writes_rB2h : (rB2h : List (HloOp τ sig (Elt F))).Forall fun op => op.writes ⊆ ((W_rB2h).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rB2h (V : Valuation τ sig (Elt F)) (r : Ref sig .tc) (h : r ∉ W_rB2h) : after rB2h V (Proc.devRef .tc r) = V (Proc.devRef .tc r) :=
  after_of_writes_sub rB2h V writes_rB2h h

/-- What `rB3e` writes. -/
abbrev W_rB3e : List (Ref sig .tc) := [main_v177, main_v178, main_cst_44, main_v179, main_v180, main_cst_45, main_v181, main_v182, main_cst_46, main_cst_47, main_call4_v0, main_call4_v1, main_call4_v2, main_call4_v3, main_call4_v4, main_v183, main_cst_48, main_v184, main_v185, main_v186, main_cst_49, main_v187, main_v188, main_v189, main_v190, main_v191, main_cst_50, main_v192, main_v193, main_v194, main_v195, main_cst_51, main_v196, main_cst_52, main_v197, main_v198, main_v199, main_v200, main_v201, main_v202, main_cst_53, main_v203, main_v204, main_v205, main_v206, main_v207, main_cst_54, main_v208, main_cst_55, main_v209]
theorem writes_rB3e : (rB3e : List (HloOp τ sig (Elt F))).Forall fun op => op.writes ⊆ ((W_rB3e).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rB3e (V : Valuation τ sig (Elt F)) (r : Ref sig .tc) (h : r ∉ W_rB3e) : after rB3e V (Proc.devRef .tc r) = V (Proc.devRef .tc r) :=
  after_of_writes_sub rB3e V writes_rB3e h

/-- What `rB3h` writes. -/
abbrev W_rB3h : List (Ref sig .tc) := [main_cst_56, main_v210, main_v211, main_v212, main_v213, main_v214, main_v215]
theorem writes_rB3h : (rB3h : List (HloOp τ sig (Elt F))).Forall fun op => op.writes ⊆ ((W_rB3h).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rB3h (V : Valuation τ sig (Elt F)) (r : Ref sig .tc) (h : r ∉ W_rB3h) : after rB3h V (Proc.devRef .tc r) = V (Proc.devRef .tc r) :=
  after_of_writes_sub rB3h V writes_rB3h h

/-- What `rC3_2` writes. -/
abbrev W_rC3_2 : List (Ref sig .tc) := [main_v216, main_cst_57, main_v217, main_cst_58, main_v218, main_v219, main_v220, main_cst_59, main_v221, main_v222, main_cst_60, main_v223, main_v224, main_v225, main_cst_61, main_v226, main_v227]
theorem writes_rC3_2 : (rC3_2 : List (HloOp τ sig (Elt F))).Forall fun op => op.writes ⊆ ((W_rC3_2).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_2 (V : Valuation τ sig (Elt F)) (r : Ref sig .tc) (h : r ∉ W_rC3_2) : after rC3_2 V (Proc.devRef .tc r) = V (Proc.devRef .tc r) :=
  after_of_writes_sub rC3_2 V writes_rC3_2 h

/-- What `rC3_3` writes. -/
abbrev W_rC3_3 : List (Ref sig .tc) := [main_v228]
theorem writes_rC3_3 : (rC3_3 : List (HloOp τ sig (Elt F))).Forall fun op => op.writes ⊆ ((W_rC3_3).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_3 (V : Valuation τ sig (Elt F)) (r : Ref sig .tc) (h : r ∉ W_rC3_3) : after rC3_3 V (Proc.devRef .tc r) = V (Proc.devRef .tc r) :=
  after_of_writes_sub rC3_3 V writes_rC3_3 h

/-- What `rC3_4` writes. -/
abbrev W_rC3_4 : List (Ref sig .tc) := [main_v229, main_v230, main_v231, main_cst_62, main_v232, main_v233, main_cst_63, main_v234, main_cst_64, main_v235, main_v236, main_v237, main_cst_65, main_v238, main_v239, main_cst_66, main_v240, main_v241, main_v242, main_cst_67, main_v243, main_v244]
theorem writes_rC3_4 : (rC3_4 : List (HloOp τ sig (Elt F))).Forall fun op => op.writes ⊆ ((W_rC3_4).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_4 (V : Valuation τ sig (Elt F)) (r : Ref sig .tc) (h : r ∉ W_rC3_4) : after rC3_4 V (Proc.devRef .tc r) = V (Proc.devRef .tc r) :=
  after_of_writes_sub rC3_4 V writes_rC3_4 h

/-- What `rC3_5` writes. -/
abbrev W_rC3_5 : List (Ref sig .tc) := [main_v245]
theorem writes_rC3_5 : (rC3_5 : List (HloOp τ sig (Elt F))).Forall fun op => op.writes ⊆ ((W_rC3_5).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_5 (V : Valuation τ sig (Elt F)) (r : Ref sig .tc) (h : r ∉ W_rC3_5) : after rC3_5 V (Proc.devRef .tc r) = V (Proc.devRef .tc r) :=
  after_of_writes_sub rC3_5 V writes_rC3_5 h

/-- What `rC3_6` writes. -/
abbrev W_rC3_6 : List (Ref sig .tc) := [main_v246, main_v247, main_v248, main_cst_68, main_v249, main_v250, main_v251, main_cst_69, main_v252, main_cst_70, main_v253, main_v254, main_v255, main_cst_71, main_v256, main_v257, main_cst_72, main_v258, main_v259, main_v260, main_cst_73, main_v261, main_v262]
theorem writes_rC3_6 : (rC3_6 : List (HloOp τ sig (Elt F))).Forall fun op => op.writes ⊆ ((W_rC3_6).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_6 (V : Valuation τ sig (Elt F)) (r : Ref sig .tc) (h : r ∉ W_rC3_6) : after rC3_6 V (Proc.devRef .tc r) = V (Proc.devRef .tc r) :=
  after_of_writes_sub rC3_6 V writes_rC3_6 h

/-- What `rC3_7` writes. -/
abbrev W_rC3_7 : List (Ref sig .tc) := [main_v263]
theorem writes_rC3_7 : (rC3_7 : List (HloOp τ sig (Elt F))).Forall fun op => op.writes ⊆ ((W_rC3_7).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_7 (V : Valuation τ sig (Elt F)) (r : Ref sig .tc) (h : r ∉ W_rC3_7) : after rC3_7 V (Proc.devRef .tc r) = V (Proc.devRef .tc r) :=
  after_of_writes_sub rC3_7 V writes_rC3_7 h

/-- What `rC3_8` writes. -/
abbrev W_rC3_8 : List (Ref sig .tc) := [main_v264, main_v265, main_v266, main_cst_74, main_v267, main_v268, main_v269, main_cst_75, main_v270, main_v271, main_v272, main_cst_76, main_v273, main_v274, main_v275, main_v276, main_v277, main_v278, main_v279, main_v280, main_cst_77, main_v281, main_v282, main_v283, main_v284, main_cst_78, main_v285, main_v286, main_v287, main_v288, main_v289, main_v290, main_v291, main_v292, main_v293, main_v294, main_v295, main_v296, main_cst_79, main_v297, main_v298]
theorem writes_rC3_8 : (rC3_8 : List (HloOp τ sig (Elt F))).Forall fun op => op.writes ⊆ ((W_rC3_8).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_8 (V : Valuation τ sig (Elt F)) (r : Ref sig .tc) (h : r ∉ W_rC3_8) : after rC3_8 V (Proc.devRef .tc r) = V (Proc.devRef .tc r) :=
  after_of_writes_sub rC3_8 V writes_rC3_8 h

/-- What `rC3_9` writes. -/
abbrev W_rC3_9 : List (Ref sig .tc) := [main_call9_cst, main_call9_v0, main_v299]
theorem writes_rC3_9 : (rC3_9 : List (HloOp τ sig (Elt F))).Forall fun op => op.writes ⊆ ((W_rC3_9).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_9 (V : Valuation τ sig (Elt F)) (r : Ref sig .tc) (h : r ∉ W_rC3_9) : after rC3_9 V (Proc.devRef .tc r) = V (Proc.devRef .tc r) :=
  after_of_writes_sub rC3_9 V writes_rC3_9 h

/-- What `rC3_10` writes. -/
abbrev W_rC3_10 : List (Ref sig .tc) := [main_v300, main_cst_80, main_v301, main_v302, main_cst_81, main_v303, main_v304, main_v305, main_v306, main_cst_82, main_v307, main_v308, main_v309, main_cst_83, main_v310, main_v311, main_v312, main_v313, main_v314, main_v315, main_cst_84, main_v316, main_cst_85, main_v317, main_v318, main_cst_86, main_v319, main_v320, main_v321]
theorem writes_rC3_10 : (rC3_10 : List (HloOp τ sig (Elt F))).Forall fun op => op.writes ⊆ ((W_rC3_10).map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; (repeat' apply And.intro); all_goals exact List.mem_map_of_mem (by decide))
theorem keep_rC3_10 (V : Valuation τ sig (Elt F)) (r : Ref sig .tc) (h : r ∉ W_rC3_10) : after rC3_10 V (Proc.devRef .tc r) = V (Proc.devRef .tc r) :=
  after_of_writes_sub rC3_10 V writes_rC3_10 h

/-- Every buffer the gathers write. -/
abbrev W_A : List (Ref sig .tc) := W_rA0 ++ (W_rA1a ++ (W_rA1b ++ (W_rA2a ++ (W_rA2b ++ (W_rA3a ++ (W_rA3b ++ (W_rA4a ++ (W_rA4b ++ (W_rA5a ++ (W_rA5b))))))))))

/-- A buffer the 118 gather operations do not write holds after them what it held before. -/
theorem keepA (V : Valuation τ sig (Elt F)) (r : Ref sig .tc) (h : r ∉ W_A) :
    after rA5b (after rA5a (after rA4b (after rA4a (after rA3b (after rA3a (after rA2b (after rA2a (after rA1b (after rA1a (after rA0 (V))))))))))) (Proc.devRef .tc r) = V (Proc.devRef .tc r) := by
  simp only [W_A, List.mem_append, not_or] at h
  obtain ⟨h0, h1, h2, h3, h4, h5, h6, h7, h8, h9, h10⟩ := h
  rw [keep_rA5b _ r h10, keep_rA5a _ r h9, keep_rA4b _ r h8, keep_rA4a _ r h7, keep_rA3b _ r h6, keep_rA3a _ r h5, keep_rA2b _ r h4, keep_rA2a _ r h3, keep_rA1b _ r h2, keep_rA1a _ r h1, keep_rA0 _ r h0]

/-- A buffer neither list of a focal loss writes holds after both what it held before. -/
theorem keepB1 (V : Valuation τ sig (Elt F)) (r : Ref sig .tc) (h1 : r ∉ W_rB1e) (h2 : r ∉ W_rB1h) :
    after rB1h (after rB1e V) (Proc.devRef .tc r) = V (Proc.devRef .tc r) := by
  rw [keep_rB1h _ r h2, keep_rB1e _ r h1]
theorem keepB2 (V : Valuation τ sig (Elt F)) (r : Ref sig .tc) (h1 : r ∉ W_rB2e) (h2 : r ∉ W_rB2h) :
    after rB2h (after rB2e V) (Proc.devRef .tc r) = V (Proc.devRef .tc r) := by
  rw [keep_rB2h _ r h2, keep_rB2e _ r h1]
theorem keepB3 (V : Valuation τ sig (Elt F)) (r : Ref sig .tc) (h1 : r ∉ W_rB3e) (h2 : r ∉ W_rB3h) :
    after rB3h (after rB3e V) (Proc.devRef .tc r) = V (Proc.devRef .tc r) := by
  rw [keep_rB3h _ r h2, keep_rB3e _ r h1]

/-- The whole program as its lists run one after the other. -/
theorem after_ops (V : Valuation τ sig (Elt F)) :
    after ops V = after rC3_10 (after rC3_9 (after rC3_8 (after rC3_7 (after rC3_6 (after rC3_5 (after rC3_4 (after rC3_3 (after rC3_2 (after rB3h (after rB3e (after rB2h (after rB2e (after rB1h (after rB1e (after rA5b (after rA5a (after rA4b (after rA4a (after rA3b (after rA3a (after rA2b (after rA2a (after rA1b (after rA1a (after rA0 (V)))))))))))))))))))))))))) := by
  simp only [ops, StableHlo.after_append]

/-- Every buffer the program writes. -/
abbrev W_all : List (Ref sig .tc) := W_rA0 ++ (W_rA1a ++ (W_rA1b ++ (W_rA2a ++ (W_rA2b ++ (W_rA3a ++ (W_rA3b ++ (W_rA4a ++ (W_rA4b ++ (W_rA5a ++ (W_rA5b ++ (W_rB1e ++ (W_rB1h ++ (W_rB2e ++ (W_rB2h ++ (W_rB3e ++ (W_rB3h ++ (W_rC3_2 ++ (W_rC3_3 ++ (W_rC3_4 ++ (W_rC3_5 ++ (W_rC3_6 ++ (W_rC3_7 ++ (W_rC3_8 ++ (W_rC3_9 ++ (W_rC3_10)))))))))))))))))))))))))

/-- A buffer no operation of the program writes — each argument — ends as it started. -/
theorem keep_all (V : Valuation τ sig (Elt F)) (r : Ref sig .tc) (h : r ∉ W_all) :
    after ops V (Proc.devRef .tc r) = V (Proc.devRef .tc r) := by
  simp only [W_all, List.mem_append, not_or] at h
  obtain ⟨h0, h1, h2, h3, h4, h5, h6, h7, h8, h9, h10, h11, h12, h13, h14, h15, h16, h17, h18, h19, h20, h21, h22, h23, h24, h25⟩ := h
  rw [after_ops, keep_rC3_10 _ r h25, keep_rC3_9 _ r h24, keep_rC3_8 _ r h23, keep_rC3_7 _ r h22, keep_rC3_6 _ r h21, keep_rC3_5 _ r h20, keep_rC3_4 _ r h19, keep_rC3_3 _ r h18, keep_rC3_2 _ r h17, keep_rB3h _ r h16, keep_rB3e _ r h15, keep_rB2h _ r h14, keep_rB2e _ r h13, keep_rB1h _ r h12, keep_rB1e _ r h11, keep_rA5b _ r h10, keep_rA5a _ r h9, keep_rA4b _ r h8, keep_rA4a _ r h7, keep_rA3b _ r h6, keep_rA3a _ r h5, keep_rA2b _ r h4, keep_rA2a _ r h3, keep_rA1b _ r h2, keep_rA1a _ r h1, keep_rA0 _ r h0]

end Cert.ReferenceIdeal.Walk

end
-- ==== Proof.KernelRun.lean ====
import proofs.«139319_j28071906246702_2_alg».proof.Proof.Gen.KernelIdeal.Frame

/-!
# The kernel program's run, with the result named

The program is a chain of host stretches and three kernel regions. Its frame — every weakly fair execution terminates,
nothing faults, the arguments end as launched — is proved by folding the buffer contents through the chain: after a host
stretch the contents are the stretch's operations applied to the contents before, after a region its arrays hold what
the pipeline's write-backs leave. The final fold is `W20`. The same argument says where the RESULT ends: at `W20`'s value
at the result buffer. This module states the frame's run with that one more conjunct; the proof is the frame's own, the
final state read against `W20` at one more buffer.
-/

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v234) = W20 m ρ c (Proc.devRef .tc main_v234)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v234 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c)⟩)

end Cert.KernelIdeal.RunNamed

end
-- ==== Proof.WalkK.lean ====
import proofs.«139319_j28071906246702_2_alg».proof.Proof.Gen.KernelIdeal.Frame

/-!
# Buffers the kernel program's middle stages leave alone

Between the gathers at the start and the regression and embedding losses at the end, the kernel program runs three
regions and, after each, a handful of scalar host operations that turn the region's three sums into a focal loss. A
buffer that none of these writes — an argument, a gathered array, the mask, an earlier focal loss — holds at the end of
a stage what it held at its start. This module lists what each host stretch writes and states that fact stage by stage,
for an arbitrary buffer.
-/

set_option maxRecDepth 16384

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- What the 118 host operations before the first region write. -/
abbrev W_0 : List (Ref sig .tc) := [main_v0, main_v1, main_v2, main_v3, main_v4, main_c, main_v5, main_v6, main_c_0, main_v7, main_v8, main_v9, main_c_1, main_v10, main_v11, main_c_2, main_v12, main_v13, main_v14, main_v15, main_v16, main_v17, main_v18, main_v19, main_v20, main_v21, main_v22, main_v23, main_v24, main_c_3, main_v25, main_v26, main_c_4, main_v27, main_v28, main_v29, main_c_5, main_v30, main_v31, main_c_6, main_v32, main_v33, main_v34, main_v35, main_v36, main_v37, main_v38, main_v39, main_v40, main_v41, main_v42, main_v43, main_v44, main_c_7, main_v45, main_v46, main_c_8, main_v47, main_v48, main_v49, main_c_9, main_v50, main_v51, main_c_10, main_v52, main_v53, main_v54, main_v55, main_v56, main_v57, main_v58, main_v59, main_v60, main_v61, main_v62, main_v63, main_c_11, main_v64, main_v65, main_c_12, main_v66, main_v67, main_v68, main_c_13, main_v69, main_v70, main_c_14, main_v71, main_v72, main_v73, main_v74, main_v75, main_v76, main_v77, main_v78, main_v79, main_v80, main_v81, main_v82, main_c_15, main_v83, main_v84, main_c_16, main_v85, main_v86, main_v87, main_c_17, main_v88, main_v89, main_c_18, main_v90, main_v91, main_v92, main_v93, main_v94, main_v95, main_v96, main_v97]
/-- What the host operations after the first region write. -/
abbrev W_1 : List (Ref sig .tc) := [main_v99, main_v100, main_v101, main_cst, main_v102, main_v103, main_v104, main_v105, main_v106]
abbrev W_1_1 : List (Ref sig .tc) := [main_v107]
/-- What the host operations after the second region write. -/
abbrev W_2 : List (Ref sig .tc) := [main_v109, main_v110, main_v111, main_cst_19, main_v112, main_v113, main_v114, main_v115, main_v116]
abbrev W_2_1 : List (Ref sig .tc) := [main_v117]
abbrev W_2_2 : List (Ref sig .tc) := [main_v118]
/-- What the first host operations after the third region write. -/
abbrev W_3 : List (Ref sig .tc) := [main_v120, main_v121, main_v122, main_cst_20, main_v123, main_v124, main_v125, main_v126, main_v127]
abbrev W_3_1 : List (Ref sig .tc) := [main_v128]

theorem writes_0 : (hostOps0 : List (HloOp τ sig (Elt F))).Forall fun op => op.writes ⊆ (W_0.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))
theorem writes_1 : (hostOps1 : List (HloOp τ sig (Elt F))).Forall fun op => op.writes ⊆ (W_1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))
theorem writes_1_1 : (hostOps1_1 : List (HloOp τ sig (Elt F))).Forall fun op => op.writes ⊆ (W_1_1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))
theorem writes_2 : (hostOps2 : List (HloOp τ sig (Elt F))).Forall fun op => op.writes ⊆ (W_2.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))
theorem writes_2_1 : (hostOps2_1 : List (HloOp τ sig (Elt F))).Forall fun op => op.writes ⊆ (W_2_1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))
theorem writes_2_2 : (hostOps2_2 : List (HloOp τ sig (Elt F))).Forall fun op => op.writes ⊆ (W_2_2.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))
theorem writes_3 : (hostOps3 : List (HloOp τ sig (Elt F))).Forall fun op => op.writes ⊆ (W_3.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))
theorem writes_3_1 : (hostOps3_1 : List (HloOp τ sig (Elt F))).Forall fun op => op.writes ⊆ (W_3_1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro); all_goals exact List.mem_map_of_mem (by decide))

/-- A buffer the first 118 host operations do not write enters the first region as launched. -/
theorem keep0 (c : Dev nD) (r : Ref sig .tc) (h : r ∉ W_0) :
    W1 m ρ c (Proc.devRef .tc r) = W0 m ρ c (Proc.devRef .tc r) :=
  StableHlo.after_of_writes_sub hostOps0 _ writes_0 h

/-- A buffer that is none of the first region's arrays and that the host operations after it do not write enters the
    second region as it entered the first. -/
theorem keep1 (c : Dev nD) (r : Ref sig .tc) (hreg : ∀ w, Pipeline.arrRef spec0 w ≠ r) (h1 : r ∉ W_1) (h2 : r ∉ W_1_1) :
    W4 m ρ c (Proc.devRef .tc r) = W1 m ρ c (Proc.devRef .tc r) :=
  (StableHlo.after_of_writes_sub hostOps1_1 _ writes_1_1 h2).trans
    ((StableHlo.after_of_writes_sub hostOps1 _ writes_1 h1).trans (W2_of_ne m ρ c r hreg))

/-- The same through the second region and the host operations after it. -/
theorem keep2 (c : Dev nD) (r : Ref sig .tc) (hreg : ∀ w, Pipeline.arrRef spec1 w ≠ r) (h1 : r ∉ W_2) (h2 : r ∉ W_2_1) (h3 : r ∉ W_2_2) :
    W8 m ρ c (Proc.devRef .tc r) = W4 m ρ c (Proc.devRef .tc r) :=
  (StableHlo.after_of_writes_sub hostOps2_2 _ writes_2_2 h3).trans
    ((StableHlo.after_of_writes_sub hostOps2_1 _ writes_2_1 h2).trans
      ((StableHlo.after_of_writes_sub hostOps2 _ writes_2 h1).trans (W5_of_ne m ρ c r hreg)))

/-- The same through the third region and the first host operations after it, up to where the shared tail begins. -/
theorem keep3 (c : Dev nD) (r : Ref sig .tc) (hreg : ∀ w, Pipeline.arrRef spec2 w ≠ r) (h1 : r ∉ W_3) (h2 : r ∉ W_3_1) :
    W11 m ρ c (Proc.devRef .tc r) = W8 m ρ c (Proc.devRef .tc r) :=
  (StableHlo.after_of_writes_sub hostOps3_1 _ writes_3_1 h2).trans
    ((StableHlo.after_of_writes_sub hostOps3 _ writes_3 h1).trans (W9_of_ne m ρ c r hreg))

end Cert.KernelIdeal.Walk

end
-- ==== Proof.FocalSpec.lean ====
import Idealize.ShloMosaic.PureOps.Ideal
import Idealize.ShloMosaic.PureOps.Ideal.Laws

/-!
# The focal loss of one heat map, entry by entry

For a predicted heat map `x` and a ground-truth heat map `y` of the same shape the focal loss sums three quantities over
every entry: with `p = clip (sigmoid x) ε (1 - ε)`,

* the positive term `[y = 1] · log p · (1 - p)²`,
* the negative term `[y < 1] · log (1 - p) · p² · (1 - y)⁴`,
* the count `[y = 1]`.

This module states the three summands as functions of one entry of `x` and one entry of `y`, at the ideal values (the
extended reals), with the float literals kept as their words. How the sums are grouped — one sum over the whole
array, or tile by tile with a running total — does not enter here.
-/

noncomputable section

namespace Cert.Focal

open Idealize.ShloMosaic

/-- The literal `1.0`. -/
def one : Ideal .f32 := FloatOps.ofBits .f32 0x3F800000#32
/-- The lower clipping bound, the float nearest `1e-4`. -/
def lo : Ideal .f32 := FloatOps.ofBits .f32 0x38D1B717#32
/-- The upper clipping bound, the float nearest `1 - 1e-4`. -/
def hi : Ideal .f32 := FloatOps.ofBits .f32 0x3F7FF972#32

/-- The word `0x3F800000` denotes the real number one. -/
theorem one_eq : one = (1 : EReal) := by
  simp [one, Ideal.ofBits, Ideal.ieee, -EReal.coe_mul]; norm_num

/-- The clipped probability `min hi (max lo (sigmoid x))`. -/
def prob (x : Ideal .f32) : Ideal .f32 := FloatOps.minimumf hi (FloatOps.maximumf lo (FloatOps.logistic x))

/-- `[y = 1]` as a float: `1` where the entry is exactly one, `0` elsewhere. -/
def isOne (y : Ideal .f32) : Ideal .f32 := FloatOps.uitofp .f32 (FloatOps.cmpf .oeq y one)
/-- `[y < 1]` as a float. -/
def ltOne (y : Ideal .f32) : Ideal .f32 := FloatOps.uitofp .f32 (FloatOps.cmpf .olt y one)

/-- The positive term of one entry: `[y = 1] · log p · (1 - p)²`, multiplied in this order. -/
def posE (x y : Ideal .f32) : Ideal .f32 :=
  FloatOps.mulf (FloatOps.mulf (isOne y) (FloatOps.log (prob x)))
    (FloatOps.mulf (FloatOps.subf one (prob x)) (FloatOps.subf one (prob x)))

/-- The negative term of one entry: `[y < 1] · log (1 - p) · p² · (1 - y)⁴`, multiplied in this order, the fourth power as
    the square of the square. -/
def negE (x y : Ideal .f32) : Ideal .f32 :=
  FloatOps.mulf
    (FloatOps.mulf (FloatOps.mulf (ltOne y) (FloatOps.log (FloatOps.subf one (prob x)))) (FloatOps.mulf (prob x) (prob x)))
    (FloatOps.mulf (FloatOps.mulf (FloatOps.subf one y) (FloatOps.subf one y))
      (FloatOps.mulf (FloatOps.subf one y) (FloatOps.subf one y)))

/-- The count's summand of one entry: `[y = 1]`. -/
def numE (_x y : Ideal .f32) : Ideal .f32 := isOne y

end Cert.Focal

end
-- ==== Proof.RefFocal.lean ====
import proofs.«139319_j28071906246702_2_alg».proof.Proof.RefOps
import proofs.«139319_j28071906246702_2_alg».proof.Proof.FocalSpec
import Idealize.ShloMosaic.PureOps.Ideal.Laws

/-!
# The reference's three focal sums, entry by entry

For each of the three heat-map pairs the reference computes, on whole [16, 80, 128, 128] arrays, the sigmoid as
`1 / (1 + exp (-x))`, its clipping, the two masks, the two products, and three sums over every entry. At the ideal values
each of these sums is the plain finite sum, over the array's indices, of the entry-wise summand of `Cert.Focal`: the
host's sigmoid expression IS the logistic function there, a change of float format is the identity, and a sum started
from the literal zero is the sum.
-/

set_option maxRecDepth 8192

noncomputable section

namespace Cert.RefFocal

open Cert.ReferenceIdeal Cert.ReferenceIdeal.Gen Cert.ReferenceIdeal.Chunks
open Idealize.ShloMosaic Idealize.ShloMosaic.TcCoe Idealize.SL.Sem Idealize.ShloMosaic.StableHlo

/-- The reference's buffer contents at the ideal values. -/
abbrev RV := Valuation τ sig (Elt Ideal)

/-- The host's sum of a whole array into a scalar, started from the literal zero, is the finite sum of its entries. -/
theorem reduceAdd_at (A : FVec Ideal S16x80x128x128 .f32) (j : S_.Idx) :
    Host.reduceAdd A (constant S_ .f32 0x00000000#32) reducesTo_S16x80x128x128_S_d0_1_2_3 h_S_ j = ∑ i : S16x80x128x128.Idx, A i := by
  unfold Host.reduceAdd
  show Ideal.hostReduceAdd _ A _ j = _
  rw [Ideal.hostReduceAdd_total _ (fun b => b.elim0)]
  simp only [constant, Ideal.ofBits_def, Ideal.ofBits_zero_f32, zero_add]

/-- The host's sigmoid expression `1 / (1 + exp (-x))`, its ones the literal `1.0`, is the logistic function. -/
theorem sigmoid_eq (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = FloatOps.logistic x := by
  have h1 : FloatOps.ofBits (F := Ideal) .f32 0x3F800000#32 = (1 : EReal) := Focal.one_eq
  rw [h1]
  rfl

/-- Focal loss 1, the positive sum: the host's sum over every entry of `[y = 1] · log p · (1 - p)²`. -/
theorem pos1 (V : RV) :
    (after rB1e V (Proc.devRef .tc main_v117) : S_.Idx → Ideal .f32)
      = fun _ => ∑ i : S16x80x128x128.Idx, Focal.posE ((V (Proc.devRef .tc main_arg0) : S16x80x128x128.Idx → Ideal .f32) i) ((V (Proc.devRef .tc main_arg8) : S16x80x128x128.Idx → Ideal .f32) i) := by
  after_results_simp
  simp only [TRef.toBuf, TRef.ofBuf, cast_eq, id]
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 1, the negative sum: the host's sum over every entry of `[y < 1] · log (1 - p) · p² · (1 - y)⁴`. -/
theorem neg1 (V : RV) :
    (after rB1e V (Proc.devRef .tc main_v129) : S_.Idx → Ideal .f32)
      = fun _ => ∑ i : S16x80x128x128.Idx, Focal.negE ((V (Proc.devRef .tc main_arg0) : S16x80x128x128.Idx → Ideal .f32) i) ((V (Proc.devRef .tc main_arg8) : S16x80x128x128.Idx → Ideal .f32) i) := by
  after_results_simp
  simp only [TRef.toBuf, TRef.ofBuf, cast_eq, id]
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 1, the count: the host's sum over every entry of `[y = 1]`. -/
theorem num1 (V : RV) :
    (after rB1e V (Proc.devRef .tc main_v130) : S_.Idx → Ideal .f32)
      = fun _ => ∑ i : S16x80x128x128.Idx, Focal.numE ((V (Proc.devRef .tc main_arg0) : S16x80x128x128.Idx → Ideal .f32) i) ((V (Proc.devRef .tc main_arg8) : S16x80x128x128.Idx → Ideal .f32) i) := by
  after_results_simp
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 2, the positive sum: the host's sum over every entry of `[y = 1] · log p · (1 - p)²`. -/
theorem pos2 (V : RV) :
    (after rB2e V (Proc.devRef .tc main_v156) : S_.Idx → Ideal .f32)
      = fun _ => ∑ i : S16x80x128x128.Idx, Focal.posE ((V (Proc.devRef .tc main_arg1) : S16x80x128x128.Idx → Ideal .f32) i) ((V (Proc.devRef .tc main_arg9) : S16x80x128x128.Idx → Ideal .f32) i) := by
  after_results_simp
  simp only [TRef.toBuf, TRef.ofBuf, cast_eq, id]
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 2, the negative sum: the host's sum over every entry of `[y < 1] · log (1 - p) · p² · (1 - y)⁴`. -/
theorem neg2 (V : RV) :
    (after rB2e V (Proc.devRef .tc main_v168) : S_.Idx → Ideal .f32)
      = fun _ => ∑ i : S16x80x128x128.Idx, Focal.negE ((V (Proc.devRef .tc main_arg1) : S16x80x128x128.Idx → Ideal .f32) i) ((V (Proc.devRef .tc main_arg9) : S16x80x128x128.Idx → Ideal .f32) i) := by
  after_results_simp
  simp only [TRef.toBuf, TRef.ofBuf, cast_eq, id]
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 2, the count: the host's sum over every entry of `[y = 1]`. -/
theorem num2 (V : RV) :
    (after rB2e V (Proc.devRef .tc main_v169) : S_.Idx → Ideal .f32)
      = fun _ => ∑ i : S16x80x128x128.Idx, Focal.numE ((V (Proc.devRef .tc main_arg1) : S16x80x128x128.Idx → Ideal .f32) i) ((V (Proc.devRef .tc main_arg9) : S16x80x128x128.Idx → Ideal .f32) i) := by
  after_results_simp
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 3, the positive sum: the host's sum over every entry of `[y = 1] · log p · (1 - p)²`. -/
theorem pos3 (V : RV) :
    (after rB3e V (Proc.devRef .tc main_v196) : S_.Idx → Ideal .f32)
      = fun _ => ∑ i : S16x80x128x128.Idx, Focal.posE ((V (Proc.devRef .tc main_arg2) : S16x80x128x128.Idx → Ideal .f32) i) ((V (Proc.devRef .tc main_arg10) : S16x80x128x128.Idx → Ideal .f32) i) := by
  after_results_simp
  simp only [TRef.toBuf, TRef.ofBuf, cast_eq, id]
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 3, the negative sum: the host's sum over every entry of `[y < 1] · log (1 - p) · p² · (1 - y)⁴`. -/
theorem neg3 (V : RV) :
    (after rB3e V (Proc.devRef .tc main_v208) : S_.Idx → Ideal .f32)
      = fun _ => ∑ i : S16x80x128x128.Idx, Focal.negE ((V (Proc.devRef .tc main_arg2) : S16x80x128x128.Idx → Ideal .f32) i) ((V (Proc.devRef .tc main_arg10) : S16x80x128x128.Idx → Ideal .f32) i) := by
  after_results_simp
  simp only [TRef.toBuf, TRef.ofBuf, cast_eq, id]
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

/-- Focal loss 3, the count: the host's sum over every entry of `[y = 1]`. -/
theorem num3 (V : RV) :
    (after rB3e V (Proc.devRef .tc main_v209) : S_.Idx → Ideal .f32)
      = fun _ => ∑ i : S16x80x128x128.Idx, Focal.numE ((V (Proc.devRef .tc main_arg2) : S16x80x128x128.Idx → Ideal .f32) i) ((V (Proc.devRef .tc main_arg10) : S16x80x128x128.Idx → Ideal .f32) i) := by
  after_results_simp
  funext j
  rw [reduceAdd_at]
  exact Finset.sum_congr rfl fun i _ => by
    simp only [mulf, subf, addf, uitofp, cmpf, Host.log, Host.divf, Host.exp, Host.negf, minimumf, maximumf, broadcastInDim, constant, sigmoid_eq]
    rfl

end Cert.RefFocal

end
-- ==== Proof.SimA.lean ====
import proofs.«139319_j28071906246702_2_alg».proof.Proof.RefOps
import proofs.«139319_j28071906246702_2_alg».proof.Proof.KerOps
import Idealize.ShloMosaic.Lib.Pipeline.Frame

/-!
# The host operations before the first kernel region: the two programs agree

Both programs begin with the same 118 host operations. The mask, an integer array, is converted to floating point; then five
arrays are gathered at index arrays. Each gather is prepared in the same way: the source array is transposed to channels-last
and its two image axes are merged into one of length 16384; the index array is wrapped (where an entry is negative, 16384 is
added: a comparison with zero, an addition and a select) and so is the batch number (an iota over the 16 batch entries, with 16
added where negative); both are broadcast to a trailing unit axis. Then the two index pieces are concatenated along that axis,
the source is gathered at the pairs (batch number, position), and for a one-channel source the trailing unit axis is dropped.

The two programs keep their buffers in different signatures, but the contents of a buffer are on both sides a function on the
indices of the buffer's shape, so "a kernel buffer and a reference buffer agree" is an equation between two such functions.
On each side the 118 operations are cut into eleven consecutive lists. List by list, corresponding lists started from
agreeing inputs leave agreeing outputs:

* a buffer that a list does not write keeps its contents through the list (`K.…_keep`, `R.…_keep`), so an agreement on it
  is carried along (`carry`);
* a buffer that a list writes is on both sides the same composition of the same operations over the buffers the list reads
  from before it (`sim…`), so agreement of those gives agreement of the result;
* `St_…` collects the agreements that are still needed once a list has run, `step_…` takes them through the next list, and
  `simA_all` chains the eleven steps.
-/

noncomputable section
namespace Cert.SimA
open Idealize.ShloMosaic Idealize.ShloMosaic.TcCoe Idealize.SL.Sem Idealize.ShloMosaic.StableHlo
variable {F : FTy → Type} [FloatOps F]

/-- The contents of every buffer of the kernel's program. -/
abbrev KV (F : FTy → Type) := Valuation Cert.KernelIdeal.τ Cert.KernelIdeal.sig (Elt F)
/-- The contents of every buffer of the reference program. -/
abbrev RV (F : FTy → Type) := Valuation Cert.ReferenceIdeal.τ Cert.ReferenceIdeal.sig (Elt F)

/-! ## What each list writes, and that it leaves every other buffer alone -/

namespace K
open Cert.KernelIdeal Cert.KernelIdeal.Chunks
/-- The buffers that the operations of `kA0` write. -/
abbrev kA0_W : List (Ref sig .tc) := [main_v0]
theorem kA0_writes : (kA0 : List (HloOp τ sig (Elt F))).Forall fun op => op.writes ⊆ (kA0_W.map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; exact List.mem_map_of_mem (by decide))
/-- A buffer that `kA0` does not write keeps its contents through it. -/
theorem kA0_keep (V : Valuation τ sig (Elt F)) (r : Ref sig .tc) (h : r ∉ kA0_W) :
    after kA0 V (Proc.devRef .tc r) = V (Proc.devRef .tc r) :=
  after_of_writes_sub kA0 V kA0_writes h

/-- The buffers that the operations of `kA1a` write. -/
abbrev kA1a_W : List (Ref sig .tc) := [main_v1, main_v2, main_v3, main_v4, main_c, main_v5, main_v6, main_c_0, main_v7, main_v8, main_v9, main_c_1, main_v10, main_v11, main_c_2, main_v12, main_v13, main_v14, main_v15, main_v16, main_v17]
theorem kA1a_writes : (kA1a : List (HloOp τ sig (Elt F))).Forall fun op => op.writes ⊆ (kA1a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA1a` does not write keeps its contents through it. -/
theorem kA1a_keep (V : Valuation τ sig (Elt F)) (r : Ref sig .tc) (h : r ∉ kA1a_W) :
    after kA1a V (Proc.devRef .tc r) = V (Proc.devRef .tc r) :=
  after_of_writes_sub kA1a V kA1a_writes h

/-- The buffers that the operations of `kA1b` write. -/
abbrev kA1b_W : List (Ref sig .tc) := [main_v18, main_v19, main_v20]
theorem kA1b_writes : (kA1b : List (HloOp τ sig (Elt F))).Forall fun op => op.writes ⊆ (kA1b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA1b` does not write keeps its contents through it. -/
theorem kA1b_keep (V : Valuation τ sig (Elt F)) (r : Ref sig .tc) (h : r ∉ kA1b_W) :
    after kA1b V (Proc.devRef .tc r) = V (Proc.devRef .tc r) :=
  after_of_writes_sub kA1b V kA1b_writes h

/-- The buffers that the operations of `kA2a` write. -/
abbrev kA2a_W : List (Ref sig .tc) := [main_v21, main_v22, main_v23, main_v24, main_c_3, main_v25, main_v26, main_c_4, main_v27, main_v28, main_v29, main_c_5, main_v30, main_v31, main_c_6, main_v32, main_v33, main_v34, main_v35, main_v36, main_v37]
theorem kA2a_writes : (kA2a : List (HloOp τ sig (Elt F))).Forall fun op => op.writes ⊆ (kA2a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA2a` does not write keeps its contents through it. -/
theorem kA2a_keep (V : Valuation τ sig (Elt F)) (r : Ref sig .tc) (h : r ∉ kA2a_W) :
    after kA2a V (Proc.devRef .tc r) = V (Proc.devRef .tc r) :=
  after_of_writes_sub kA2a V kA2a_writes h

/-- The buffers that the operations of `kA2b` write. -/
abbrev kA2b_W : List (Ref sig .tc) := [main_v38, main_v39, main_v40]
theorem kA2b_writes : (kA2b : List (HloOp τ sig (Elt F))).Forall fun op => op.writes ⊆ (kA2b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA2b` does not write keeps its contents through it. -/
theorem kA2b_keep (V : Valuation τ sig (Elt F)) (r : Ref sig .tc) (h : r ∉ kA2b_W) :
    after kA2b V (Proc.devRef .tc r) = V (Proc.devRef .tc r) :=
  after_of_writes_sub kA2b V kA2b_writes h

/-- The buffers that the operations of `kA3a` write. -/
abbrev kA3a_W : List (Ref sig .tc) := [main_v41, main_v42, main_v43, main_v44, main_c_7, main_v45, main_v46, main_c_8, main_v47, main_v48, main_v49, main_c_9, main_v50, main_v51, main_c_10, main_v52, main_v53, main_v54, main_v55, main_v56, main_v57]
theorem kA3a_writes : (kA3a : List (HloOp τ sig (Elt F))).Forall fun op => op.writes ⊆ (kA3a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA3a` does not write keeps its contents through it. -/
theorem kA3a_keep (V : Valuation τ sig (Elt F)) (r : Ref sig .tc) (h : r ∉ kA3a_W) :
    after kA3a V (Proc.devRef .tc r) = V (Proc.devRef .tc r) :=
  after_of_writes_sub kA3a V kA3a_writes h

/-- The buffers that the operations of `kA3b` write. -/
abbrev kA3b_W : List (Ref sig .tc) := [main_v58, main_v59]
theorem kA3b_writes : (kA3b : List (HloOp τ sig (Elt F))).Forall fun op => op.writes ⊆ (kA3b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA3b` does not write keeps its contents through it. -/
theorem kA3b_keep (V : Valuation τ sig (Elt F)) (r : Ref sig .tc) (h : r ∉ kA3b_W) :
    after kA3b V (Proc.devRef .tc r) = V (Proc.devRef .tc r) :=
  after_of_writes_sub kA3b V kA3b_writes h

/-- The buffers that the operations of `kA4a` write. -/
abbrev kA4a_W : List (Ref sig .tc) := [main_v60, main_v61, main_v62, main_v63, main_c_11, main_v64, main_v65, main_c_12, main_v66, main_v67, main_v68, main_c_13, main_v69, main_v70, main_c_14, main_v71, main_v72, main_v73, main_v74, main_v75, main_v76]
theorem kA4a_writes : (kA4a : List (HloOp τ sig (Elt F))).Forall fun op => op.writes ⊆ (kA4a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA4a` does not write keeps its contents through it. -/
theorem kA4a_keep (V : Valuation τ sig (Elt F)) (r : Ref sig .tc) (h : r ∉ kA4a_W) :
    after kA4a V (Proc.devRef .tc r) = V (Proc.devRef .tc r) :=
  after_of_writes_sub kA4a V kA4a_writes h

/-- The buffers that the operations of `kA4b` write. -/
abbrev kA4b_W : List (Ref sig .tc) := [main_v77, main_v78]
theorem kA4b_writes : (kA4b : List (HloOp τ sig (Elt F))).Forall fun op => op.writes ⊆ (kA4b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA4b` does not write keeps its contents through it. -/
theorem kA4b_keep (V : Valuation τ sig (Elt F)) (r : Ref sig .tc) (h : r ∉ kA4b_W) :
    after kA4b V (Proc.devRef .tc r) = V (Proc.devRef .tc r) :=
  after_of_writes_sub kA4b V kA4b_writes h

/-- The buffers that the operations of `kA5a` write. -/
abbrev kA5a_W : List (Ref sig .tc) := [main_v79, main_v80, main_v81, main_v82, main_c_15, main_v83, main_v84, main_c_16, main_v85, main_v86, main_v87, main_c_17, main_v88, main_v89, main_c_18, main_v90, main_v91, main_v92, main_v93, main_v94, main_v95]
theorem kA5a_writes : (kA5a : List (HloOp τ sig (Elt F))).Forall fun op => op.writes ⊆ (kA5a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA5a` does not write keeps its contents through it. -/
theorem kA5a_keep (V : Valuation τ sig (Elt F)) (r : Ref sig .tc) (h : r ∉ kA5a_W) :
    after kA5a V (Proc.devRef .tc r) = V (Proc.devRef .tc r) :=
  after_of_writes_sub kA5a V kA5a_writes h

/-- The buffers that the operations of `kA5b` write. -/
abbrev kA5b_W : List (Ref sig .tc) := [main_v96, main_v97]
theorem kA5b_writes : (kA5b : List (HloOp τ sig (Elt F))).Forall fun op => op.writes ⊆ (kA5b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `kA5b` does not write keeps its contents through it. -/
theorem kA5b_keep (V : Valuation τ sig (Elt F)) (r : Ref sig .tc) (h : r ∉ kA5b_W) :
    after kA5b V (Proc.devRef .tc r) = V (Proc.devRef .tc r) :=
  after_of_writes_sub kA5b V kA5b_writes h

end K

namespace R
open Cert.ReferenceIdeal Cert.ReferenceIdeal.Chunks
/-- The buffers that the operations of `rA0` write. -/
abbrev rA0_W : List (Ref sig .tc) := [main_v0]
theorem rA0_writes : (rA0 : List (HloOp τ sig (Elt F))).Forall fun op => op.writes ⊆ (rA0_W.map (Proc.devRef (τ := τ) .tc)).toFinset := by
  simp only [List.Forall]; exact (by simp only [nullary_writes, unary_writes, binary_writes, ternary_writes, quaternary_writes, reshape_writes, binaryIndexed_writes, unaryIndexed_writes, nary_writes, Finset.singleton_subset_iff, List.mem_toFinset]; exact List.mem_map_of_mem (by decide))
/-- A buffer that `rA0` does not write keeps its contents through it. -/
theorem rA0_keep (V : Valuation τ sig (Elt F)) (r : Ref sig .tc) (h : r ∉ rA0_W) :
    after rA0 V (Proc.devRef .tc r) = V (Proc.devRef .tc r) :=
  after_of_writes_sub rA0 V rA0_writes h

/-- The buffers that the operations of `rA1a` write. -/
abbrev rA1a_W : List (Ref sig .tc) := [main_v1, main_v2, main_v3, main_v4, main_c, main_v5, main_v6, main_c_0, main_v7, main_v8, main_v9, main_c_1, main_v10, main_v11, main_c_2, main_v12, main_v13, main_v14, main_v15, main_v16, main_v17]
theorem rA1a_writes : (rA1a : List (HloOp τ sig (Elt F))).Forall fun op => op.writes ⊆ (rA1a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA1a` does not write keeps its contents through it. -/
theorem rA1a_keep (V : Valuation τ sig (Elt F)) (r : Ref sig .tc) (h : r ∉ rA1a_W) :
    after rA1a V (Proc.devRef .tc r) = V (Proc.devRef .tc r) :=
  after_of_writes_sub rA1a V rA1a_writes h

/-- The buffers that the operations of `rA1b` write. -/
abbrev rA1b_W : List (Ref sig .tc) := [main_v18, main_v19, main_v20]
theorem rA1b_writes : (rA1b : List (HloOp τ sig (Elt F))).Forall fun op => op.writes ⊆ (rA1b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA1b` does not write keeps its contents through it. -/
theorem rA1b_keep (V : Valuation τ sig (Elt F)) (r : Ref sig .tc) (h : r ∉ rA1b_W) :
    after rA1b V (Proc.devRef .tc r) = V (Proc.devRef .tc r) :=
  after_of_writes_sub rA1b V rA1b_writes h

/-- The buffers that the operations of `rA2a` write. -/
abbrev rA2a_W : List (Ref sig .tc) := [main_v21, main_v22, main_v23, main_v24, main_c_3, main_v25, main_v26, main_c_4, main_v27, main_v28, main_v29, main_c_5, main_v30, main_v31, main_c_6, main_v32, main_v33, main_v34, main_v35, main_v36, main_v37]
theorem rA2a_writes : (rA2a : List (HloOp τ sig (Elt F))).Forall fun op => op.writes ⊆ (rA2a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA2a` does not write keeps its contents through it. -/
theorem rA2a_keep (V : Valuation τ sig (Elt F)) (r : Ref sig .tc) (h : r ∉ rA2a_W) :
    after rA2a V (Proc.devRef .tc r) = V (Proc.devRef .tc r) :=
  after_of_writes_sub rA2a V rA2a_writes h

/-- The buffers that the operations of `rA2b` write. -/
abbrev rA2b_W : List (Ref sig .tc) := [main_v38, main_v39, main_v40]
theorem rA2b_writes : (rA2b : List (HloOp τ sig (Elt F))).Forall fun op => op.writes ⊆ (rA2b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA2b` does not write keeps its contents through it. -/
theorem rA2b_keep (V : Valuation τ sig (Elt F)) (r : Ref sig .tc) (h : r ∉ rA2b_W) :
    after rA2b V (Proc.devRef .tc r) = V (Proc.devRef .tc r) :=
  after_of_writes_sub rA2b V rA2b_writes h

/-- The buffers that the operations of `rA3a` write. -/
abbrev rA3a_W : List (Ref sig .tc) := [main_v41, main_v42, main_v43, main_v44, main_c_7, main_v45, main_v46, main_c_8, main_v47, main_v48, main_v49, main_c_9, main_v50, main_v51, main_c_10, main_v52, main_v53, main_v54, main_v55, main_v56, main_v57]
theorem rA3a_writes : (rA3a : List (HloOp τ sig (Elt F))).Forall fun op => op.writes ⊆ (rA3a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA3a` does not write keeps its contents through it. -/
theorem rA3a_keep (V : Valuation τ sig (Elt F)) (r : Ref sig .tc) (h : r ∉ rA3a_W) :
    after rA3a V (Proc.devRef .tc r) = V (Proc.devRef .tc r) :=
  after_of_writes_sub rA3a V rA3a_writes h

/-- The buffers that the operations of `rA3b` write. -/
abbrev rA3b_W : List (Ref sig .tc) := [main_v58, main_v59]
theorem rA3b_writes : (rA3b : List (HloOp τ sig (Elt F))).Forall fun op => op.writes ⊆ (rA3b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA3b` does not write keeps its contents through it. -/
theorem rA3b_keep (V : Valuation τ sig (Elt F)) (r : Ref sig .tc) (h : r ∉ rA3b_W) :
    after rA3b V (Proc.devRef .tc r) = V (Proc.devRef .tc r) :=
  after_of_writes_sub rA3b V rA3b_writes h

/-- The buffers that the operations of `rA4a` write. -/
abbrev rA4a_W : List (Ref sig .tc) := [main_v60, main_v61, main_v62, main_v63, main_c_11, main_v64, main_v65, main_c_12, main_v66, main_v67, main_v68, main_c_13, main_v69, main_v70, main_c_14, main_v71, main_v72, main_v73, main_v74, main_v75, main_v76]
theorem rA4a_writes : (rA4a : List (HloOp τ sig (Elt F))).Forall fun op => op.writes ⊆ (rA4a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA4a` does not write keeps its contents through it. -/
theorem rA4a_keep (V : Valuation τ sig (Elt F)) (r : Ref sig .tc) (h : r ∉ rA4a_W) :
    after rA4a V (Proc.devRef .tc r) = V (Proc.devRef .tc r) :=
  after_of_writes_sub rA4a V rA4a_writes h

/-- The buffers that the operations of `rA4b` write. -/
abbrev rA4b_W : List (Ref sig .tc) := [main_v77, main_v78]
theorem rA4b_writes : (rA4b : List (HloOp τ sig (Elt F))).Forall fun op => op.writes ⊆ (rA4b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA4b` does not write keeps its contents through it. -/
theorem rA4b_keep (V : Valuation τ sig (Elt F)) (r : Ref sig .tc) (h : r ∉ rA4b_W) :
    after rA4b V (Proc.devRef .tc r) = V (Proc.devRef .tc r) :=
  after_of_writes_sub rA4b V rA4b_writes h

/-- The buffers that the operations of `rA5a` write. -/
abbrev rA5a_W : List (Ref sig .tc) := [main_v79, main_v80, main_v81, main_v82, main_c_15, main_v83, main_v84, main_c_16, main_v85, main_v86, main_v87, main_c_17, main_v88, main_v89, main_c_18, main_v90, main_v91, main_v92, main_v93, main_v94, main_v95]
theorem rA5a_writes : (rA5a : List (HloOp τ sig (Elt F))).Forall fun op => op.writes ⊆ (rA5a_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA5a` does not write keeps its contents through it. -/
theorem rA5a_keep (V : Valuation τ sig (Elt F)) (r : Ref sig .tc) (h : r ∉ rA5a_W) :
    after rA5a V (Proc.devRef .tc r) = V (Proc.devRef .tc r) :=
  after_of_writes_sub rA5a V rA5a_writes h

/-- The buffers that the operations of `rA5b` write. -/
abbrev rA5b_W : List (Ref sig .tc) := [main_v96, main_v97]
theorem rA5b_writes : (rA5b : List (HloOp τ sig (Elt F))).Forall fun op => op.writes ⊆ (rA5b_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `rA5b` does not write keeps its contents through it. -/
theorem rA5b_keep (V : Valuation τ sig (Elt F)) (r : Ref sig .tc) (h : r ∉ rA5b_W) :
    after rA5b V (Proc.devRef .tc r) = V (Proc.devRef .tc r) :=
  after_of_writes_sub rA5b V rA5b_writes h

end R

/-- Two values that agree still agree when each is read through something that left it unchanged. -/
theorem carry {α : Type} {a a' b b' : α} (hk : a' = a) (hr : b' = b) (h : a = b) : a' = b' := hk.trans (h.trans hr.symm)

/-! ## A written buffer is the same function of the list's inputs on both sides -/

set_option maxRecDepth 8192 in
/-- `v0` after the list: the same operations on both sides, over `arg17`. -/
theorem simA0_v0 (Vk : KV F) (Vr : RV F)
    (h_arg17 : (Vk (Proc.devRef .tc Cert.KernelIdeal.main_arg17) : Cert.KernelIdeal.S16x128.Idx → BitVec 32) = Vr (Proc.devRef .tc Cert.ReferenceIdeal.main_arg17)) :
    (after Cert.KernelIdeal.Chunks.kA0 Vk (Proc.devRef .tc Cert.KernelIdeal.main_v0) : Cert.KernelIdeal.S16x128.Idx → F .f32)
      = after Cert.ReferenceIdeal.Chunks.rA0 Vr (Proc.devRef .tc Cert.ReferenceIdeal.main_v0) := by
  after_results_simp
  all_goals (first | (rw [h_arg17] <;> rfl) | rfl)

set_option maxRecDepth 8192 in
/-- `v2` after the list: the same operations on both sides, over `arg3`. -/
theorem simA1a_v2 (Vk : KV F) (Vr : RV F)
    (h_arg3 : (Vk (Proc.devRef .tc Cert.KernelIdeal.main_arg3) : Cert.KernelIdeal.S16x1x128x128.Idx → F .f32) = Vr (Proc.devRef .tc Cert.ReferenceIdeal.main_arg3)) :
    (after Cert.KernelIdeal.Chunks.kA1a Vk (Proc.devRef .tc Cert.KernelIdeal.main_v2) : Cert.KernelIdeal.S16x16384x1.Idx → F .f32)
      = after Cert.ReferenceIdeal.Chunks.rA1a Vr (Proc.devRef .tc Cert.ReferenceIdeal.main_v2) := by
  after_results_simp
  all_goals (first | (rw [h_arg3] <;> rfl) | rfl)

set_option maxRecDepth 8192 in
/-- `v16` after the list: the same operations on both sides, over no input. -/
theorem simA1a_v16 (Vk : KV F) (Vr : RV F) :
    (after Cert.KernelIdeal.Chunks.kA1a Vk (Proc.devRef .tc Cert.KernelIdeal.main_v16) : Cert.KernelIdeal.S16x128x1.Idx → BitVec 32)
      = after Cert.ReferenceIdeal.Chunks.rA1a Vr (Proc.devRef .tc Cert.ReferenceIdeal.main_v16) := by
  after_results_simp
  all_goals rfl

set_option maxRecDepth 8192 in
/-- `v17` after the list: the same operations on both sides, over `arg14`. -/
theorem simA1a_v17 (Vk : KV F) (Vr : RV F)
    (h_arg14 : (Vk (Proc.devRef .tc Cert.KernelIdeal.main_arg14) : Cert.KernelIdeal.S16x128.Idx → BitVec 32) = Vr (Proc.devRef .tc Cert.ReferenceIdeal.main_arg14)) :
    (after Cert.KernelIdeal.Chunks.kA1a Vk (Proc.devRef .tc Cert.KernelIdeal.main_v17) : Cert.KernelIdeal.S16x128x1.Idx → BitVec 32)
      = after Cert.ReferenceIdeal.Chunks.rA1a Vr (Proc.devRef .tc Cert.ReferenceIdeal.main_v17) := by
  after_results_simp
  all_goals (first | (rw [h_arg14] <;> rfl) | rfl)

set_option maxRecDepth 8192 in
/-- `v20` after the list: the same operations on both sides, over `v2`, `v16`, `v17`. -/
theorem simA1b_v20 (Vk : KV F) (Vr : RV F)
    (h_v2 : (Vk (Proc.devRef .tc Cert.KernelIdeal.main_v2) : Cert.KernelIdeal.S16x16384x1.Idx → F .f32) = Vr (Proc.devRef .tc Cert.ReferenceIdeal.main_v2))
    (h_v16 : (Vk (Proc.devRef .tc Cert.KernelIdeal.main_v16) : Cert.KernelIdeal.S16x128x1.Idx → BitVec 32) = Vr (Proc.devRef .tc Cert.ReferenceIdeal.main_v16))
    (h_v17 : (Vk (Proc.devRef .tc Cert.KernelIdeal.main_v17) : Cert.KernelIdeal.S16x128x1.Idx → BitVec 32) = Vr (Proc.devRef .tc Cert.ReferenceIdeal.main_v17)) :
    (after Cert.KernelIdeal.Chunks.kA1b Vk (Proc.devRef .tc Cert.KernelIdeal.main_v20) : Cert.KernelIdeal.S16x128.Idx → F .f32)
      = after Cert.ReferenceIdeal.Chunks.rA1b Vr (Proc.devRef .tc Cert.ReferenceIdeal.main_v20) := by
  after_results_simp
  all_goals (first | (rw [h_v2, h_v16, h_v17] <;> rfl) | rfl)

set_option maxRecDepth 8192 in
/-- `v22` after the list: the same operations on both sides, over `arg4`. -/
theorem simA2a_v22 (Vk : KV F) (Vr : RV F)
    (h_arg4 : (Vk (Proc.devRef .tc Cert.KernelIdeal.main_arg4) : Cert.KernelIdeal.S16x1x128x128.Idx → F .f32) = Vr (Proc.devRef .tc Cert.ReferenceIdeal.main_arg4)) :
    (after Cert.KernelIdeal.Chunks.kA2a Vk (Proc.devRef .tc Cert.KernelIdeal.main_v22) : Cert.KernelIdeal.S16x16384x1.Idx → F .f32)
      = after Cert.ReferenceIdeal.Chunks.rA2a Vr (Proc.devRef .tc Cert.ReferenceIdeal.main_v22) := by
  after_results_simp
  all_goals (first | (rw [h_arg4] <;> rfl) | rfl)

set_option maxRecDepth 8192 in
/-- `v36` after the list: the same operations on both sides, over no input. -/
theorem simA2a_v36 (Vk : KV F) (Vr : RV F) :
    (after Cert.KernelIdeal.Chunks.kA2a Vk (Proc.devRef .tc Cert.KernelIdeal.main_v36) : Cert.KernelIdeal.S16x128x1.Idx → BitVec 32)
      = after Cert.ReferenceIdeal.Chunks.rA2a Vr (Proc.devRef .tc Cert.ReferenceIdeal.main_v36) := by
  after_results_simp
  all_goals rfl

set_option maxRecDepth 8192 in
/-- `v37` after the list: the same operations on both sides, over `arg15`. -/
theorem simA2a_v37 (Vk : KV F) (Vr : RV F)
    (h_arg15 : (Vk (Proc.devRef .tc Cert.KernelIdeal.main_arg15) : Cert.KernelIdeal.S16x128.Idx → BitVec 32) = Vr (Proc.devRef .tc Cert.ReferenceIdeal.main_arg15)) :
    (after Cert.KernelIdeal.Chunks.kA2a Vk (Proc.devRef .tc Cert.KernelIdeal.main_v37) : Cert.KernelIdeal.S16x128x1.Idx → BitVec 32)
      = after Cert.ReferenceIdeal.Chunks.rA2a Vr (Proc.devRef .tc Cert.ReferenceIdeal.main_v37) := by
  after_results_simp
  all_goals (first | (rw [h_arg15] <;> rfl) | rfl)

set_option maxRecDepth 8192 in
/-- `v40` after the list: the same operations on both sides, over `v22`, `v36`, `v37`. -/
theorem simA2b_v40 (Vk : KV F) (Vr : RV F)
    (h_v22 : (Vk (Proc.devRef .tc Cert.KernelIdeal.main_v22) : Cert.KernelIdeal.S16x16384x1.Idx → F .f32) = Vr (Proc.devRef .tc Cert.ReferenceIdeal.main_v22))
    (h_v36 : (Vk (Proc.devRef .tc Cert.KernelIdeal.main_v36) : Cert.KernelIdeal.S16x128x1.Idx → BitVec 32) = Vr (Proc.devRef .tc Cert.ReferenceIdeal.main_v36))
    (h_v37 : (Vk (Proc.devRef .tc Cert.KernelIdeal.main_v37) : Cert.KernelIdeal.S16x128x1.Idx → BitVec 32) = Vr (Proc.devRef .tc Cert.ReferenceIdeal.main_v37)) :
    (after Cert.KernelIdeal.Chunks.kA2b Vk (Proc.devRef .tc Cert.KernelIdeal.main_v40) : Cert.KernelIdeal.S16x128.Idx → F .f32)
      = after Cert.ReferenceIdeal.Chunks.rA2b Vr (Proc.devRef .tc Cert.ReferenceIdeal.main_v40) := by
  after_results_simp
  all_goals (first | (rw [h_v22, h_v36, h_v37] <;> rfl) | rfl)

set_option maxRecDepth 8192 in
/-- `v42` after the list: the same operations on both sides, over `arg5`. -/
theorem simA3a_v42 (Vk : KV F) (Vr : RV F)
    (h_arg5 : (Vk (Proc.devRef .tc Cert.KernelIdeal.main_arg5) : Cert.KernelIdeal.S16x2x128x128.Idx → F .f32) = Vr (Proc.devRef .tc Cert.ReferenceIdeal.main_arg5)) :
    (after Cert.KernelIdeal.Chunks.kA3a Vk (Proc.devRef .tc Cert.KernelIdeal.main_v42) : Cert.KernelIdeal.S16x16384x2.Idx → F .f32)
      = after Cert.ReferenceIdeal.Chunks.rA3a Vr (Proc.devRef .tc Cert.ReferenceIdeal.main_v42) := by
  after_results_simp
  all_goals (first | (rw [h_arg5] <;> rfl) | rfl)

set_option maxRecDepth 8192 in
/-- `v56` after the list: the same operations on both sides, over no input. -/
theorem simA3a_v56 (Vk : KV F) (Vr : RV F) :
    (after Cert.KernelIdeal.Chunks.kA3a Vk (Proc.devRef .tc Cert.KernelIdeal.main_v56) : Cert.KernelIdeal.S16x128x1.Idx → BitVec 32)
      = after Cert.ReferenceIdeal.Chunks.rA3a Vr (Proc.devRef .tc Cert.ReferenceIdeal.main_v56) := by
  after_results_simp
  all_goals rfl

set_option maxRecDepth 8192 in
/-- `v57` after the list: the same operations on both sides, over `arg14`. -/
theorem simA3a_v57 (Vk : KV F) (Vr : RV F)
    (h_arg14 : (Vk (Proc.devRef .tc Cert.KernelIdeal.main_arg14) : Cert.KernelIdeal.S16x128.Idx → BitVec 32) = Vr (Proc.devRef .tc Cert.ReferenceIdeal.main_arg14)) :
    (after Cert.KernelIdeal.Chunks.kA3a Vk (Proc.devRef .tc Cert.KernelIdeal.main_v57) : Cert.KernelIdeal.S16x128x1.Idx → BitVec 32)
      = after Cert.ReferenceIdeal.Chunks.rA3a Vr (Proc.devRef .tc Cert.ReferenceIdeal.main_v57) := by
  after_results_simp
  all_goals (first | (rw [h_arg14] <;> rfl) | rfl)

set_option maxRecDepth 8192 in
/-- `v59` after the list: the same operations on both sides, over `v42`, `v56`, `v57`. -/
theorem simA3b_v59 (Vk : KV F) (Vr : RV F)
    (h_v42 : (Vk (Proc.devRef .tc Cert.KernelIdeal.main_v42) : Cert.KernelIdeal.S16x16384x2.Idx → F .f32) = Vr (Proc.devRef .tc Cert.ReferenceIdeal.main_v42))
    (h_v56 : (Vk (Proc.devRef .tc Cert.KernelIdeal.main_v56) : Cert.KernelIdeal.S16x128x1.Idx → BitVec 32) = Vr (Proc.devRef .tc Cert.ReferenceIdeal.main_v56))
    (h_v57 : (Vk (Proc.devRef .tc Cert.KernelIdeal.main_v57) : Cert.KernelIdeal.S16x128x1.Idx → BitVec 32) = Vr (Proc.devRef .tc Cert.ReferenceIdeal.main_v57)) :
    (after Cert.KernelIdeal.Chunks.kA3b Vk (Proc.devRef .tc Cert.KernelIdeal.main_v59) : Cert.KernelIdeal.S16x128x2.Idx → F .f32)
      = after Cert.ReferenceIdeal.Chunks.rA3b Vr (Proc.devRef .tc Cert.ReferenceIdeal.main_v59) := by
  after_results_simp
  all_goals (first | (rw [h_v42, h_v56, h_v57] <;> rfl) | rfl)

set_option maxRecDepth 8192 in
/-- `v61` after the list: the same operations on both sides, over `arg6`. -/
theorem simA4a_v61 (Vk : KV F) (Vr : RV F)
    (h_arg6 : (Vk (Proc.devRef .tc Cert.KernelIdeal.main_arg6) : Cert.KernelIdeal.S16x2x128x128.Idx → F .f32) = Vr (Proc.devRef .tc Cert.ReferenceIdeal.main_arg6)) :
    (after Cert.KernelIdeal.Chunks.kA4a Vk (Proc.devRef .tc Cert.KernelIdeal.main_v61) : Cert.KernelIdeal.S16x16384x2.Idx → F .f32)
      = after Cert.ReferenceIdeal.Chunks.rA4a Vr (Proc.devRef .tc Cert.ReferenceIdeal.main_v61) := by
  after_results_simp
  all_goals (first | (rw [h_arg6] <;> rfl) | rfl)

set_option maxRecDepth 8192 in
/-- `v75` after the list: the same operations on both sides, over no input. -/
theorem simA4a_v75 (Vk : KV F) (Vr : RV F) :
    (after Cert.KernelIdeal.Chunks.kA4a Vk (Proc.devRef .tc Cert.KernelIdeal.main_v75) : Cert.KernelIdeal.S16x128x1.Idx → BitVec 32)
      = after Cert.ReferenceIdeal.Chunks.rA4a Vr (Proc.devRef .tc Cert.ReferenceIdeal.main_v75) := by
  after_results_simp
  all_goals rfl

set_option maxRecDepth 8192 in
/-- `v76` after the list: the same operations on both sides, over `arg15`. -/
theorem simA4a_v76 (Vk : KV F) (Vr : RV F)
    (h_arg15 : (Vk (Proc.devRef .tc Cert.KernelIdeal.main_arg15) : Cert.KernelIdeal.S16x128.Idx → BitVec 32) = Vr (Proc.devRef .tc Cert.ReferenceIdeal.main_arg15)) :
    (after Cert.KernelIdeal.Chunks.kA4a Vk (Proc.devRef .tc Cert.KernelIdeal.main_v76) : Cert.KernelIdeal.S16x128x1.Idx → BitVec 32)
      = after Cert.ReferenceIdeal.Chunks.rA4a Vr (Proc.devRef .tc Cert.ReferenceIdeal.main_v76) := by
  after_results_simp
  all_goals (first | (rw [h_arg15] <;> rfl) | rfl)

set_option maxRecDepth 8192 in
/-- `v78` after the list: the same operations on both sides, over `v61`, `v75`, `v76`. -/
theorem simA4b_v78 (Vk : KV F) (Vr : RV F)
    (h_v61 : (Vk (Proc.devRef .tc Cert.KernelIdeal.main_v61) : Cert.KernelIdeal.S16x16384x2.Idx → F .f32) = Vr (Proc.devRef .tc Cert.ReferenceIdeal.main_v61))
    (h_v75 : (Vk (Proc.devRef .tc Cert.KernelIdeal.main_v75) : Cert.KernelIdeal.S16x128x1.Idx → BitVec 32) = Vr (Proc.devRef .tc Cert.ReferenceIdeal.main_v75))
    (h_v76 : (Vk (Proc.devRef .tc Cert.KernelIdeal.main_v76) : Cert.KernelIdeal.S16x128x1.Idx → BitVec 32) = Vr (Proc.devRef .tc Cert.ReferenceIdeal.main_v76)) :
    (after Cert.KernelIdeal.Chunks.kA4b Vk (Proc.devRef .tc Cert.KernelIdeal.main_v78) : Cert.KernelIdeal.S16x128x2.Idx → F .f32)
      = after Cert.ReferenceIdeal.Chunks.rA4b Vr (Proc.devRef .tc Cert.ReferenceIdeal.main_v78) := by
  after_results_simp
  all_goals (first | (rw [h_v61, h_v75, h_v76] <;> rfl) | rfl)

set_option maxRecDepth 8192 in
/-- `v80` after the list: the same operations on both sides, over `arg7`. -/
theorem simA5a_v80 (Vk : KV F) (Vr : RV F)
    (h_arg7 : (Vk (Proc.devRef .tc Cert.KernelIdeal.main_arg7) : Cert.KernelIdeal.S16x2x128x128.Idx → F .f32) = Vr (Proc.devRef .tc Cert.ReferenceIdeal.main_arg7)) :
    (after Cert.KernelIdeal.Chunks.kA5a Vk (Proc.devRef .tc Cert.KernelIdeal.main_v80) : Cert.KernelIdeal.S16x16384x2.Idx → F .f32)
      = after Cert.ReferenceIdeal.Chunks.rA5a Vr (Proc.devRef .tc Cert.ReferenceIdeal.main_v80) := by
  after_results_simp
  all_goals (first | (rw [h_arg7] <;> rfl) | rfl)

set_option maxRecDepth 8192 in
/-- `v94` after the list: the same operations on both sides, over no input. -/
theorem simA5a_v94 (Vk : KV F) (Vr : RV F) :
    (after Cert.KernelIdeal.Chunks.kA5a Vk (Proc.devRef .tc Cert.KernelIdeal.main_v94) : Cert.KernelIdeal.S16x128x1.Idx → BitVec 32)
      = after Cert.ReferenceIdeal.Chunks.rA5a Vr (Proc.devRef .tc Cert.ReferenceIdeal.main_v94) := by
  after_results_simp
  all_goals rfl

set_option maxRecDepth 8192 in
/-- `v95` after the list: the same operations on both sides, over `arg16`. -/
theorem simA5a_v95 (Vk : KV F) (Vr : RV F)
    (h_arg16 : (Vk (Proc.devRef .tc Cert.KernelIdeal.main_arg16) : Cert.KernelIdeal.S16x128.Idx → BitVec 32) = Vr (Proc.devRef .tc Cert.ReferenceIdeal.main_arg16)) :
    (after Cert.KernelIdeal.Chunks.kA5a Vk (Proc.devRef .tc Cert.KernelIdeal.main_v95) : Cert.KernelIdeal.S16x128x1.Idx → BitVec 32)
      = after Cert.ReferenceIdeal.Chunks.rA5a Vr (Proc.devRef .tc Cert.ReferenceIdeal.main_v95) := by
  after_results_simp
  all_goals (first | (rw [h_arg16] <;> rfl) | rfl)

set_option maxRecDepth 8192 in
/-- `v97` after the list: the same operations on both sides, over `v80`, `v94`, `v95`. -/
theorem simA5b_v97 (Vk : KV F) (Vr : RV F)
    (h_v80 : (Vk (Proc.devRef .tc Cert.KernelIdeal.main_v80) : Cert.KernelIdeal.S16x16384x2.Idx → F .f32) = Vr (Proc.devRef .tc Cert.ReferenceIdeal.main_v80))
    (h_v94 : (Vk (Proc.devRef .tc Cert.KernelIdeal.main_v94) : Cert.KernelIdeal.S16x128x1.Idx → BitVec 32) = Vr (Proc.devRef .tc Cert.ReferenceIdeal.main_v94))
    (h_v95 : (Vk (Proc.devRef .tc Cert.KernelIdeal.main_v95) : Cert.KernelIdeal.S16x128x1.Idx → BitVec 32) = Vr (Proc.devRef .tc Cert.ReferenceIdeal.main_v95)) :
    (after Cert.KernelIdeal.Chunks.kA5b Vk (Proc.devRef .tc Cert.KernelIdeal.main_v97) : Cert.KernelIdeal.S16x128x2.Idx → F .f32)
      = after Cert.ReferenceIdeal.Chunks.rA5b Vr (Proc.devRef .tc Cert.ReferenceIdeal.main_v97) := by
  after_results_simp
  all_goals (first | (rw [h_v80, h_v94, h_v95] <;> rfl) | rfl)

/-! ## The agreements carried from list to list -/

/-- Before the first operation: the nine arguments that the 118 operations read agree. -/
abbrev St_pre (Vk : KV F) (Vr : RV F) : Prop :=
  ((Vk (Proc.devRef .tc Cert.KernelIdeal.main_arg17) : Cert.KernelIdeal.S16x128.Idx → BitVec 32) = Vr (Proc.devRef .tc Cert.ReferenceIdeal.main_arg17))
  ∧ ((Vk (Proc.devRef .tc Cert.KernelIdeal.main_arg3) : Cert.KernelIdeal.S16x1x128x128.Idx → F .f32) = Vr (Proc.devRef .tc Cert.ReferenceIdeal.main_arg3))
  ∧ ((Vk (Proc.devRef .tc Cert.KernelIdeal.main_arg14) : Cert.KernelIdeal.S16x128.Idx → BitVec 32) = Vr (Proc.devRef .tc Cert.ReferenceIdeal.main_arg14))
  ∧ ((Vk (Proc.devRef .tc Cert.KernelIdeal.main_arg4) : Cert.KernelIdeal.S16x1x128x128.Idx → F .f32) = Vr (Proc.devRef .tc Cert.ReferenceIdeal.main_arg4))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg5) : Cert.KernelIdeal.S16x2x128x128.Idx → F .f32) = Vr (Proc.devRef .tc Cert.ReferenceIdeal.main_arg5))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- What agrees once the lists up to `kA0` / `rA0` have run and is still read later. -/
abbrev St_A0 (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_arg3) : Cert.KernelIdeal.S16x1x128x128.Idx → F .f32) = Vr (Proc.devRef .tc Cert.ReferenceIdeal.main_arg3))
  ∧ ((Vk (Proc.devRef .tc Cert.KernelIdeal.main_arg14) : Cert.KernelIdeal.S16x128.Idx → BitVec 32) = Vr (Proc.devRef .tc Cert.ReferenceIdeal.main_arg14))
  ∧ ((Vk (Proc.devRef .tc Cert.KernelIdeal.main_arg4) : Cert.KernelIdeal.S16x1x128x128.Idx → F .f32) = Vr (Proc.devRef .tc Cert.ReferenceIdeal.main_arg4))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg5) : Cert.KernelIdeal.S16x2x128x128.Idx → F .f32) = Vr (Proc.devRef .tc Cert.ReferenceIdeal.main_arg5))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA0` / `rA0`: the mask `arg17`, an integer array, is converted to floating point (`v0`); everything else is carried. -/
theorem step_A0 (Vk : KV F) (Vr : RV F) (h : St_pre Vk Vr) :
    St_A0 (after Cert.KernelIdeal.Chunks.kA0 Vk) (after Cert.ReferenceIdeal.Chunks.rA0 Vr) := by
  obtain ⟨h_arg17, h_arg3, h_arg14, h_arg4, h_arg15, h_arg5, h_arg6, h_arg7, h_arg16⟩ := h
  exact ⟨simA0_v0 Vk Vr h_arg17,
    carry (K.kA0_keep Vk Cert.KernelIdeal.main_arg3 (by decide)) (R.rA0_keep Vr Cert.ReferenceIdeal.main_arg3 (by decide)) h_arg3,
    carry (K.kA0_keep Vk Cert.KernelIdeal.main_arg14 (by decide)) (R.rA0_keep Vr Cert.ReferenceIdeal.main_arg14 (by decide)) h_arg14,
    carry (K.kA0_keep Vk Cert.KernelIdeal.main_arg4 (by decide)) (R.rA0_keep Vr Cert.ReferenceIdeal.main_arg4 (by decide)) h_arg4,
    carry (K.kA0_keep Vk Cert.KernelIdeal.main_arg15 (by decide)) (R.rA0_keep Vr Cert.ReferenceIdeal.main_arg15 (by decide)) h_arg15,
    carry (K.kA0_keep Vk Cert.KernelIdeal.main_arg5 (by decide)) (R.rA0_keep Vr Cert.ReferenceIdeal.main_arg5 (by decide)) h_arg5,
    carry (K.kA0_keep Vk Cert.KernelIdeal.main_arg6 (by decide)) (R.rA0_keep Vr Cert.ReferenceIdeal.main_arg6 (by decide)) h_arg6,
    carry (K.kA0_keep Vk Cert.KernelIdeal.main_arg7 (by decide)) (R.rA0_keep Vr Cert.ReferenceIdeal.main_arg7 (by decide)) h_arg7,
    carry (K.kA0_keep Vk Cert.KernelIdeal.main_arg16 (by decide)) (R.rA0_keep Vr Cert.ReferenceIdeal.main_arg16 (by decide)) h_arg16⟩

/-- What agrees once the lists up to `kA1a` / `rA1a` have run and is still read later. -/
abbrev St_A1a (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v2) : Cert.KernelIdeal.S16x16384x1.Idx → F .f32) = Vr (Proc.devRef .tc Cert.ReferenceIdeal.main_v2))
  ∧ ((Vk (Proc.devRef .tc Cert.KernelIdeal.main_v16) : Cert.KernelIdeal.S16x128x1.Idx → BitVec 32) = Vr (Proc.devRef .tc Cert.ReferenceIdeal.main_v16))
  ∧ ((Vk (Proc.devRef .tc Cert.KernelIdeal.main_v17) : Cert.KernelIdeal.S16x128x1.Idx → BitVec 32) = Vr (Proc.devRef .tc Cert.ReferenceIdeal.main_v17))
  ∧ ((Vk (Proc.devRef .tc Cert.KernelIdeal.main_arg4) : Cert.KernelIdeal.S16x1x128x128.Idx → F .f32) = Vr (Proc.devRef .tc Cert.ReferenceIdeal.main_arg4))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg5) : Cert.KernelIdeal.S16x2x128x128.Idx → F .f32) = Vr (Proc.devRef .tc Cert.ReferenceIdeal.main_arg5))
  ∧ ((Vk (Proc.devRef .tc Cert.KernelIdeal.main_arg14) : Cert.KernelIdeal.S16x128.Idx → BitVec 32) = Vr (Proc.devRef .tc Cert.ReferenceIdeal.main_arg14))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA1a` / `rA1a`: the source `arg3` is transposed to channels-last and its two image axes are merged (`v2`, of shape [16, 16384, 1]); the batch number (an iota, wrapped: where it is negative 16 is added) and the index array `arg14` (wrapped: where it is negative 16384 is added) are each broadcast to a trailing unit axis (`v16`, `v17`); everything else is carried. -/
theorem step_A1a (Vk : KV F) (Vr : RV F) (h : St_A0 Vk Vr) :
    St_A1a (after Cert.KernelIdeal.Chunks.kA1a Vk) (after Cert.ReferenceIdeal.Chunks.rA1a Vr) := by
  obtain ⟨h_v0, h_arg3, h_arg14, h_arg4, h_arg15, h_arg5, h_arg6, h_arg7, h_arg16⟩ := h
  exact ⟨carry (K.kA1a_keep Vk Cert.KernelIdeal.main_v0 (by decide)) (R.rA1a_keep Vr Cert.ReferenceIdeal.main_v0 (by decide)) h_v0,
    simA1a_v2 Vk Vr h_arg3,
    simA1a_v16 Vk Vr,
    simA1a_v17 Vk Vr h_arg14,
    carry (K.kA1a_keep Vk Cert.KernelIdeal.main_arg4 (by decide)) (R.rA1a_keep Vr Cert.ReferenceIdeal.main_arg4 (by decide)) h_arg4,
    carry (K.kA1a_keep Vk Cert.KernelIdeal.main_arg15 (by decide)) (R.rA1a_keep Vr Cert.ReferenceIdeal.main_arg15 (by decide)) h_arg15,
    carry (K.kA1a_keep Vk Cert.KernelIdeal.main_arg5 (by decide)) (R.rA1a_keep Vr Cert.ReferenceIdeal.main_arg5 (by decide)) h_arg5,
    carry (K.kA1a_keep Vk Cert.KernelIdeal.main_arg14 (by decide)) (R.rA1a_keep Vr Cert.ReferenceIdeal.main_arg14 (by decide)) h_arg14,
    carry (K.kA1a_keep Vk Cert.KernelIdeal.main_arg6 (by decide)) (R.rA1a_keep Vr Cert.ReferenceIdeal.main_arg6 (by decide)) h_arg6,
    carry (K.kA1a_keep Vk Cert.KernelIdeal.main_arg7 (by decide)) (R.rA1a_keep Vr Cert.ReferenceIdeal.main_arg7 (by decide)) h_arg7,
    carry (K.kA1a_keep Vk Cert.KernelIdeal.main_arg16 (by decide)) (R.rA1a_keep Vr Cert.ReferenceIdeal.main_arg16 (by decide)) h_arg16⟩

/-- What agrees once the lists up to `kA1b` / `rA1b` have run and is still read later. -/
abbrev St_A1b (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_arg4) : Cert.KernelIdeal.S16x1x128x128.Idx → F .f32) = Vr (Proc.devRef .tc Cert.ReferenceIdeal.main_arg4))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg5) : Cert.KernelIdeal.S16x2x128x128.Idx → F .f32) = Vr (Proc.devRef .tc Cert.ReferenceIdeal.main_arg5))
  ∧ ((Vk (Proc.devRef .tc Cert.KernelIdeal.main_arg14) : Cert.KernelIdeal.S16x128.Idx → BitVec 32) = Vr (Proc.devRef .tc Cert.ReferenceIdeal.main_arg14))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA1b` / `rA1b`: the two index pieces `v16`, `v17` are concatenated along the last axis and `v2` is gathered at them, and the trailing unit axis is dropped (`v20`); everything else is carried. -/
theorem step_A1b (Vk : KV F) (Vr : RV F) (h : St_A1a Vk Vr) :
    St_A1b (after Cert.KernelIdeal.Chunks.kA1b Vk) (after Cert.ReferenceIdeal.Chunks.rA1b Vr) := by
  obtain ⟨h_v0, h_v2, h_v16, h_v17, h_arg4, h_arg15, h_arg5, h_arg14, h_arg6, h_arg7, h_arg16⟩ := h
  exact ⟨carry (K.kA1b_keep Vk Cert.KernelIdeal.main_v0 (by decide)) (R.rA1b_keep Vr Cert.ReferenceIdeal.main_v0 (by decide)) h_v0,
    simA1b_v20 Vk Vr h_v2 h_v16 h_v17,
    carry (K.kA1b_keep Vk Cert.KernelIdeal.main_arg4 (by decide)) (R.rA1b_keep Vr Cert.ReferenceIdeal.main_arg4 (by decide)) h_arg4,
    carry (K.kA1b_keep Vk Cert.KernelIdeal.main_arg15 (by decide)) (R.rA1b_keep Vr Cert.ReferenceIdeal.main_arg15 (by decide)) h_arg15,
    carry (K.kA1b_keep Vk Cert.KernelIdeal.main_arg5 (by decide)) (R.rA1b_keep Vr Cert.ReferenceIdeal.main_arg5 (by decide)) h_arg5,
    carry (K.kA1b_keep Vk Cert.KernelIdeal.main_arg14 (by decide)) (R.rA1b_keep Vr Cert.ReferenceIdeal.main_arg14 (by decide)) h_arg14,
    carry (K.kA1b_keep Vk Cert.KernelIdeal.main_arg6 (by decide)) (R.rA1b_keep Vr Cert.ReferenceIdeal.main_arg6 (by decide)) h_arg6,
    carry (K.kA1b_keep Vk Cert.KernelIdeal.main_arg7 (by decide)) (R.rA1b_keep Vr Cert.ReferenceIdeal.main_arg7 (by decide)) h_arg7,
    carry (K.kA1b_keep Vk Cert.KernelIdeal.main_arg16 (by decide)) (R.rA1b_keep Vr Cert.ReferenceIdeal.main_arg16 (by decide)) h_arg16⟩

/-- What agrees once the lists up to `kA2a` / `rA2a` have run and is still read later. -/
abbrev St_A2a (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v22) : Cert.KernelIdeal.S16x16384x1.Idx → F .f32) = Vr (Proc.devRef .tc Cert.ReferenceIdeal.main_v22))
  ∧ ((Vk (Proc.devRef .tc Cert.KernelIdeal.main_v36) : Cert.KernelIdeal.S16x128x1.Idx → BitVec 32) = Vr (Proc.devRef .tc Cert.ReferenceIdeal.main_v36))
  ∧ ((Vk (Proc.devRef .tc Cert.KernelIdeal.main_v37) : Cert.KernelIdeal.S16x128x1.Idx → BitVec 32) = Vr (Proc.devRef .tc Cert.ReferenceIdeal.main_v37))
  ∧ ((Vk (Proc.devRef .tc Cert.KernelIdeal.main_arg5) : Cert.KernelIdeal.S16x2x128x128.Idx → F .f32) = Vr (Proc.devRef .tc Cert.ReferenceIdeal.main_arg5))
  ∧ ((Vk (Proc.devRef .tc Cert.KernelIdeal.main_arg14) : Cert.KernelIdeal.S16x128.Idx → BitVec 32) = Vr (Proc.devRef .tc Cert.ReferenceIdeal.main_arg14))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA2a` / `rA2a`: the source `arg4` is transposed to channels-last and its two image axes are merged (`v22`, of shape [16, 16384, 1]); the batch number (an iota, wrapped: where it is negative 16 is added) and the index array `arg15` (wrapped: where it is negative 16384 is added) are each broadcast to a trailing unit axis (`v36`, `v37`); everything else is carried. -/
theorem step_A2a (Vk : KV F) (Vr : RV F) (h : St_A1b Vk Vr) :
    St_A2a (after Cert.KernelIdeal.Chunks.kA2a Vk) (after Cert.ReferenceIdeal.Chunks.rA2a Vr) := by
  obtain ⟨h_v0, h_v20, h_arg4, h_arg15, h_arg5, h_arg14, h_arg6, h_arg7, h_arg16⟩ := h
  exact ⟨carry (K.kA2a_keep Vk Cert.KernelIdeal.main_v0 (by decide)) (R.rA2a_keep Vr Cert.ReferenceIdeal.main_v0 (by decide)) h_v0,
    carry (K.kA2a_keep Vk Cert.KernelIdeal.main_v20 (by decide)) (R.rA2a_keep Vr Cert.ReferenceIdeal.main_v20 (by decide)) h_v20,
    simA2a_v22 Vk Vr h_arg4,
    simA2a_v36 Vk Vr,
    simA2a_v37 Vk Vr h_arg15,
    carry (K.kA2a_keep Vk Cert.KernelIdeal.main_arg5 (by decide)) (R.rA2a_keep Vr Cert.ReferenceIdeal.main_arg5 (by decide)) h_arg5,
    carry (K.kA2a_keep Vk Cert.KernelIdeal.main_arg14 (by decide)) (R.rA2a_keep Vr Cert.ReferenceIdeal.main_arg14 (by decide)) h_arg14,
    carry (K.kA2a_keep Vk Cert.KernelIdeal.main_arg6 (by decide)) (R.rA2a_keep Vr Cert.ReferenceIdeal.main_arg6 (by decide)) h_arg6,
    carry (K.kA2a_keep Vk Cert.KernelIdeal.main_arg15 (by decide)) (R.rA2a_keep Vr Cert.ReferenceIdeal.main_arg15 (by decide)) h_arg15,
    carry (K.kA2a_keep Vk Cert.KernelIdeal.main_arg7 (by decide)) (R.rA2a_keep Vr Cert.ReferenceIdeal.main_arg7 (by decide)) h_arg7,
    carry (K.kA2a_keep Vk Cert.KernelIdeal.main_arg16 (by decide)) (R.rA2a_keep Vr Cert.ReferenceIdeal.main_arg16 (by decide)) h_arg16⟩

/-- What agrees once the lists up to `kA2b` / `rA2b` have run and is still read later. -/
abbrev St_A2b (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v40) : Cert.KernelIdeal.S16x128.Idx → F .f32) = Vr (Proc.devRef .tc Cert.ReferenceIdeal.main_v40))
  ∧ ((Vk (Proc.devRef .tc Cert.KernelIdeal.main_arg5) : Cert.KernelIdeal.S16x2x128x128.Idx → F .f32) = Vr (Proc.devRef .tc Cert.ReferenceIdeal.main_arg5))
  ∧ ((Vk (Proc.devRef .tc Cert.KernelIdeal.main_arg14) : Cert.KernelIdeal.S16x128.Idx → BitVec 32) = Vr (Proc.devRef .tc Cert.ReferenceIdeal.main_arg14))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA2b` / `rA2b`: the two index pieces `v36`, `v37` are concatenated along the last axis and `v22` is gathered at them, and the trailing unit axis is dropped (`v40`); everything else is carried. -/
theorem step_A2b (Vk : KV F) (Vr : RV F) (h : St_A2a Vk Vr) :
    St_A2b (after Cert.KernelIdeal.Chunks.kA2b Vk) (after Cert.ReferenceIdeal.Chunks.rA2b Vr) := by
  obtain ⟨h_v0, h_v20, h_v22, h_v36, h_v37, h_arg5, h_arg14, h_arg6, h_arg15, h_arg7, h_arg16⟩ := h
  exact ⟨carry (K.kA2b_keep Vk Cert.KernelIdeal.main_v0 (by decide)) (R.rA2b_keep Vr Cert.ReferenceIdeal.main_v0 (by decide)) h_v0,
    carry (K.kA2b_keep Vk Cert.KernelIdeal.main_v20 (by decide)) (R.rA2b_keep Vr Cert.ReferenceIdeal.main_v20 (by decide)) h_v20,
    simA2b_v40 Vk Vr h_v22 h_v36 h_v37,
    carry (K.kA2b_keep Vk Cert.KernelIdeal.main_arg5 (by decide)) (R.rA2b_keep Vr Cert.ReferenceIdeal.main_arg5 (by decide)) h_arg5,
    carry (K.kA2b_keep Vk Cert.KernelIdeal.main_arg14 (by decide)) (R.rA2b_keep Vr Cert.ReferenceIdeal.main_arg14 (by decide)) h_arg14,
    carry (K.kA2b_keep Vk Cert.KernelIdeal.main_arg6 (by decide)) (R.rA2b_keep Vr Cert.ReferenceIdeal.main_arg6 (by decide)) h_arg6,
    carry (K.kA2b_keep Vk Cert.KernelIdeal.main_arg15 (by decide)) (R.rA2b_keep Vr Cert.ReferenceIdeal.main_arg15 (by decide)) h_arg15,
    carry (K.kA2b_keep Vk Cert.KernelIdeal.main_arg7 (by decide)) (R.rA2b_keep Vr Cert.ReferenceIdeal.main_arg7 (by decide)) h_arg7,
    carry (K.kA2b_keep Vk Cert.KernelIdeal.main_arg16 (by decide)) (R.rA2b_keep Vr Cert.ReferenceIdeal.main_arg16 (by decide)) h_arg16⟩

/-- What agrees once the lists up to `kA3a` / `rA3a` have run and is still read later. -/
abbrev St_A3a (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v40) : Cert.KernelIdeal.S16x128.Idx → F .f32) = Vr (Proc.devRef .tc Cert.ReferenceIdeal.main_v40))
  ∧ ((Vk (Proc.devRef .tc Cert.KernelIdeal.main_v42) : Cert.KernelIdeal.S16x16384x2.Idx → F .f32) = Vr (Proc.devRef .tc Cert.ReferenceIdeal.main_v42))
  ∧ ((Vk (Proc.devRef .tc Cert.KernelIdeal.main_v56) : Cert.KernelIdeal.S16x128x1.Idx → BitVec 32) = Vr (Proc.devRef .tc Cert.ReferenceIdeal.main_v56))
  ∧ ((Vk (Proc.devRef .tc Cert.KernelIdeal.main_v57) : Cert.KernelIdeal.S16x128x1.Idx → BitVec 32) = Vr (Proc.devRef .tc Cert.ReferenceIdeal.main_v57))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA3a` / `rA3a`: the source `arg5` is transposed to channels-last and its two image axes are merged (`v42`, of shape [16, 16384, 2]); the batch number (an iota, wrapped: where it is negative 16 is added) and the index array `arg14` (wrapped: where it is negative 16384 is added) are each broadcast to a trailing unit axis (`v56`, `v57`); everything else is carried. -/
theorem step_A3a (Vk : KV F) (Vr : RV F) (h : St_A2b Vk Vr) :
    St_A3a (after Cert.KernelIdeal.Chunks.kA3a Vk) (after Cert.ReferenceIdeal.Chunks.rA3a Vr) := by
  obtain ⟨h_v0, h_v20, h_v40, h_arg5, h_arg14, h_arg6, h_arg15, h_arg7, h_arg16⟩ := h
  exact ⟨carry (K.kA3a_keep Vk Cert.KernelIdeal.main_v0 (by decide)) (R.rA3a_keep Vr Cert.ReferenceIdeal.main_v0 (by decide)) h_v0,
    carry (K.kA3a_keep Vk Cert.KernelIdeal.main_v20 (by decide)) (R.rA3a_keep Vr Cert.ReferenceIdeal.main_v20 (by decide)) h_v20,
    carry (K.kA3a_keep Vk Cert.KernelIdeal.main_v40 (by decide)) (R.rA3a_keep Vr Cert.ReferenceIdeal.main_v40 (by decide)) h_v40,
    simA3a_v42 Vk Vr h_arg5,
    simA3a_v56 Vk Vr,
    simA3a_v57 Vk Vr h_arg14,
    carry (K.kA3a_keep Vk Cert.KernelIdeal.main_arg6 (by decide)) (R.rA3a_keep Vr Cert.ReferenceIdeal.main_arg6 (by decide)) h_arg6,
    carry (K.kA3a_keep Vk Cert.KernelIdeal.main_arg15 (by decide)) (R.rA3a_keep Vr Cert.ReferenceIdeal.main_arg15 (by decide)) h_arg15,
    carry (K.kA3a_keep Vk Cert.KernelIdeal.main_arg7 (by decide)) (R.rA3a_keep Vr Cert.ReferenceIdeal.main_arg7 (by decide)) h_arg7,
    carry (K.kA3a_keep Vk Cert.KernelIdeal.main_arg16 (by decide)) (R.rA3a_keep Vr Cert.ReferenceIdeal.main_arg16 (by decide)) h_arg16⟩

/-- What agrees once the lists up to `kA3b` / `rA3b` have run and is still read later. -/
abbrev St_A3b (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v40) : Cert.KernelIdeal.S16x128.Idx → F .f32) = Vr (Proc.devRef .tc Cert.ReferenceIdeal.main_v40))
  ∧ ((Vk (Proc.devRef .tc Cert.KernelIdeal.main_v59) : Cert.KernelIdeal.S16x128x2.Idx → F .f32) = Vr (Proc.devRef .tc Cert.ReferenceIdeal.main_v59))
  ∧ ((Vk (Proc.devRef .tc Cert.KernelIdeal.main_arg6) : Cert.KernelIdeal.S16x2x128x128.Idx → F .f32) = Vr (Proc.devRef .tc Cert.ReferenceIdeal.main_arg6))
  ∧ ((Vk (Proc.devRef .tc Cert.KernelIdeal.main_arg15) : Cert.KernelIdeal.S16x128.Idx → BitVec 32) = Vr (Proc.devRef .tc Cert.ReferenceIdeal.main_arg15))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA3b` / `rA3b`: the two index pieces `v56`, `v57` are concatenated along the last axis and `v42` is gathered at them (`v59`); everything else is carried. -/
theorem step_A3b (Vk : KV F) (Vr : RV F) (h : St_A3a Vk Vr) :
    St_A3b (after Cert.KernelIdeal.Chunks.kA3b Vk) (after Cert.ReferenceIdeal.Chunks.rA3b Vr) := by
  obtain ⟨h_v0, h_v20, h_v40, h_v42, h_v56, h_v57, h_arg6, h_arg15, h_arg7, h_arg16⟩ := h
  exact ⟨carry (K.kA3b_keep Vk Cert.KernelIdeal.main_v0 (by decide)) (R.rA3b_keep Vr Cert.ReferenceIdeal.main_v0 (by decide)) h_v0,
    carry (K.kA3b_keep Vk Cert.KernelIdeal.main_v20 (by decide)) (R.rA3b_keep Vr Cert.ReferenceIdeal.main_v20 (by decide)) h_v20,
    carry (K.kA3b_keep Vk Cert.KernelIdeal.main_v40 (by decide)) (R.rA3b_keep Vr Cert.ReferenceIdeal.main_v40 (by decide)) h_v40,
    simA3b_v59 Vk Vr h_v42 h_v56 h_v57,
    carry (K.kA3b_keep Vk Cert.KernelIdeal.main_arg6 (by decide)) (R.rA3b_keep Vr Cert.ReferenceIdeal.main_arg6 (by decide)) h_arg6,
    carry (K.kA3b_keep Vk Cert.KernelIdeal.main_arg15 (by decide)) (R.rA3b_keep Vr Cert.ReferenceIdeal.main_arg15 (by decide)) h_arg15,
    carry (K.kA3b_keep Vk Cert.KernelIdeal.main_arg7 (by decide)) (R.rA3b_keep Vr Cert.ReferenceIdeal.main_arg7 (by decide)) h_arg7,
    carry (K.kA3b_keep Vk Cert.KernelIdeal.main_arg16 (by decide)) (R.rA3b_keep Vr Cert.ReferenceIdeal.main_arg16 (by decide)) h_arg16⟩

/-- What agrees once the lists up to `kA4a` / `rA4a` have run and is still read later. -/
abbrev St_A4a (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v40) : Cert.KernelIdeal.S16x128.Idx → F .f32) = Vr (Proc.devRef .tc Cert.ReferenceIdeal.main_v40))
  ∧ ((Vk (Proc.devRef .tc Cert.KernelIdeal.main_v59) : Cert.KernelIdeal.S16x128x2.Idx → F .f32) = Vr (Proc.devRef .tc Cert.ReferenceIdeal.main_v59))
  ∧ ((Vk (Proc.devRef .tc Cert.KernelIdeal.main_v61) : Cert.KernelIdeal.S16x16384x2.Idx → F .f32) = Vr (Proc.devRef .tc Cert.ReferenceIdeal.main_v61))
  ∧ ((Vk (Proc.devRef .tc Cert.KernelIdeal.main_v75) : Cert.KernelIdeal.S16x128x1.Idx → BitVec 32) = Vr (Proc.devRef .tc Cert.ReferenceIdeal.main_v75))
  ∧ ((Vk (Proc.devRef .tc Cert.KernelIdeal.main_v76) : Cert.KernelIdeal.S16x128x1.Idx → BitVec 32) = Vr (Proc.devRef .tc Cert.ReferenceIdeal.main_v76))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA4a` / `rA4a`: the source `arg6` is transposed to channels-last and its two image axes are merged (`v61`, of shape [16, 16384, 2]); the batch number (an iota, wrapped: where it is negative 16 is added) and the index array `arg15` (wrapped: where it is negative 16384 is added) are each broadcast to a trailing unit axis (`v75`, `v76`); everything else is carried. -/
theorem step_A4a (Vk : KV F) (Vr : RV F) (h : St_A3b Vk Vr) :
    St_A4a (after Cert.KernelIdeal.Chunks.kA4a Vk) (after Cert.ReferenceIdeal.Chunks.rA4a Vr) := by
  obtain ⟨h_v0, h_v20, h_v40, h_v59, h_arg6, h_arg15, h_arg7, h_arg16⟩ := h
  exact ⟨carry (K.kA4a_keep Vk Cert.KernelIdeal.main_v0 (by decide)) (R.rA4a_keep Vr Cert.ReferenceIdeal.main_v0 (by decide)) h_v0,
    carry (K.kA4a_keep Vk Cert.KernelIdeal.main_v20 (by decide)) (R.rA4a_keep Vr Cert.ReferenceIdeal.main_v20 (by decide)) h_v20,
    carry (K.kA4a_keep Vk Cert.KernelIdeal.main_v40 (by decide)) (R.rA4a_keep Vr Cert.ReferenceIdeal.main_v40 (by decide)) h_v40,
    carry (K.kA4a_keep Vk Cert.KernelIdeal.main_v59 (by decide)) (R.rA4a_keep Vr Cert.ReferenceIdeal.main_v59 (by decide)) h_v59,
    simA4a_v61 Vk Vr h_arg6,
    simA4a_v75 Vk Vr,
    simA4a_v76 Vk Vr h_arg15,
    carry (K.kA4a_keep Vk Cert.KernelIdeal.main_arg7 (by decide)) (R.rA4a_keep Vr Cert.ReferenceIdeal.main_arg7 (by decide)) h_arg7,
    carry (K.kA4a_keep Vk Cert.KernelIdeal.main_arg16 (by decide)) (R.rA4a_keep Vr Cert.ReferenceIdeal.main_arg16 (by decide)) h_arg16⟩

/-- What agrees once the lists up to `kA4b` / `rA4b` have run and is still read later. -/
abbrev St_A4b (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v40) : Cert.KernelIdeal.S16x128.Idx → F .f32) = Vr (Proc.devRef .tc Cert.ReferenceIdeal.main_v40))
  ∧ ((Vk (Proc.devRef .tc Cert.KernelIdeal.main_v59) : Cert.KernelIdeal.S16x128x2.Idx → F .f32) = Vr (Proc.devRef .tc Cert.ReferenceIdeal.main_v59))
  ∧ ((Vk (Proc.devRef .tc Cert.KernelIdeal.main_v78) : Cert.KernelIdeal.S16x128x2.Idx → F .f32) = Vr (Proc.devRef .tc Cert.ReferenceIdeal.main_v78))
  ∧ ((Vk (Proc.devRef .tc Cert.KernelIdeal.main_arg7) : Cert.KernelIdeal.S16x2x128x128.Idx → F .f32) = Vr (Proc.devRef .tc Cert.ReferenceIdeal.main_arg7))
  ∧ ((Vk (Proc.devRef .tc Cert.KernelIdeal.main_arg16) : Cert.KernelIdeal.S16x128.Idx → BitVec 32) = Vr (Proc.devRef .tc Cert.ReferenceIdeal.main_arg16))

/-- Through `kA4b` / `rA4b`: the two index pieces `v75`, `v76` are concatenated along the last axis and `v61` is gathered at them (`v78`); everything else is carried. -/
theorem step_A4b (Vk : KV F) (Vr : RV F) (h : St_A4a Vk Vr) :
    St_A4b (after Cert.KernelIdeal.Chunks.kA4b Vk) (after Cert.ReferenceIdeal.Chunks.rA4b Vr) := by
  obtain ⟨h_v0, h_v20, h_v40, h_v59, h_v61, h_v75, h_v76, h_arg7, h_arg16⟩ := h
  exact ⟨carry (K.kA4b_keep Vk Cert.KernelIdeal.main_v0 (by decide)) (R.rA4b_keep Vr Cert.ReferenceIdeal.main_v0 (by decide)) h_v0,
    carry (K.kA4b_keep Vk Cert.KernelIdeal.main_v20 (by decide)) (R.rA4b_keep Vr Cert.ReferenceIdeal.main_v20 (by decide)) h_v20,
    carry (K.kA4b_keep Vk Cert.KernelIdeal.main_v40 (by decide)) (R.rA4b_keep Vr Cert.ReferenceIdeal.main_v40 (by decide)) h_v40,
    carry (K.kA4b_keep Vk Cert.KernelIdeal.main_v59 (by decide)) (R.rA4b_keep Vr Cert.ReferenceIdeal.main_v59 (by decide)) h_v59,
    simA4b_v78 Vk Vr h_v61 h_v75 h_v76,
    carry (K.kA4b_keep Vk Cert.KernelIdeal.main_arg7 (by decide)) (R.rA4b_keep Vr Cert.ReferenceIdeal.main_arg7 (by decide)) h_arg7,
    carry (K.kA4b_keep Vk Cert.KernelIdeal.main_arg16 (by decide)) (R.rA4b_keep Vr Cert.ReferenceIdeal.main_arg16 (by decide)) h_arg16⟩

/-- What agrees once the lists up to `kA5a` / `rA5a` have run and is still read later. -/
abbrev St_A5a (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v40) : Cert.KernelIdeal.S16x128.Idx → F .f32) = Vr (Proc.devRef .tc Cert.ReferenceIdeal.main_v40))
  ∧ ((Vk (Proc.devRef .tc Cert.KernelIdeal.main_v59) : Cert.KernelIdeal.S16x128x2.Idx → F .f32) = Vr (Proc.devRef .tc Cert.ReferenceIdeal.main_v59))
  ∧ ((Vk (Proc.devRef .tc Cert.KernelIdeal.main_v78) : Cert.KernelIdeal.S16x128x2.Idx → F .f32) = Vr (Proc.devRef .tc Cert.ReferenceIdeal.main_v78))
  ∧ ((Vk (Proc.devRef .tc Cert.KernelIdeal.main_v80) : Cert.KernelIdeal.S16x16384x2.Idx → F .f32) = Vr (Proc.devRef .tc Cert.ReferenceIdeal.main_v80))
  ∧ ((Vk (Proc.devRef .tc Cert.KernelIdeal.main_v94) : Cert.KernelIdeal.S16x128x1.Idx → BitVec 32) = Vr (Proc.devRef .tc Cert.ReferenceIdeal.main_v94))
  ∧ ((Vk (Proc.devRef .tc Cert.KernelIdeal.main_v95) : Cert.KernelIdeal.S16x128x1.Idx → BitVec 32) = Vr (Proc.devRef .tc Cert.ReferenceIdeal.main_v95))

/-- Through `kA5a` / `rA5a`: the source `arg7` is transposed to channels-last and its two image axes are merged (`v80`, of shape [16, 16384, 2]); the batch number (an iota, wrapped: where it is negative 16 is added) and the index array `arg16` (wrapped: where it is negative 16384 is added) are each broadcast to a trailing unit axis (`v94`, `v95`); everything else is carried. -/
theorem step_A5a (Vk : KV F) (Vr : RV F) (h : St_A4b Vk Vr) :
    St_A5a (after Cert.KernelIdeal.Chunks.kA5a Vk) (after Cert.ReferenceIdeal.Chunks.rA5a Vr) := by
  obtain ⟨h_v0, h_v20, h_v40, h_v59, h_v78, h_arg7, h_arg16⟩ := h
  exact ⟨carry (K.kA5a_keep Vk Cert.KernelIdeal.main_v0 (by decide)) (R.rA5a_keep Vr Cert.ReferenceIdeal.main_v0 (by decide)) h_v0,
    carry (K.kA5a_keep Vk Cert.KernelIdeal.main_v20 (by decide)) (R.rA5a_keep Vr Cert.ReferenceIdeal.main_v20 (by decide)) h_v20,
    carry (K.kA5a_keep Vk Cert.KernelIdeal.main_v40 (by decide)) (R.rA5a_keep Vr Cert.ReferenceIdeal.main_v40 (by decide)) h_v40,
    carry (K.kA5a_keep Vk Cert.KernelIdeal.main_v59 (by decide)) (R.rA5a_keep Vr Cert.ReferenceIdeal.main_v59 (by decide)) h_v59,
    carry (K.kA5a_keep Vk Cert.KernelIdeal.main_v78 (by decide)) (R.rA5a_keep Vr Cert.ReferenceIdeal.main_v78 (by decide)) h_v78,
    simA5a_v80 Vk Vr h_arg7,
    simA5a_v94 Vk Vr,
    simA5a_v95 Vk Vr h_arg16⟩

/-- What agrees once the lists up to `kA5b` / `rA5b` have run and is still read later. -/
abbrev St_A5b (Vk : KV F) (Vr : RV F) : Prop :=
  ((Vk (Proc.devRef .tc Cert.KernelIdeal.main_v0) : Cert.KernelIdeal.S16x128.Idx → F .f32) = Vr (Proc.devRef .tc Cert.ReferenceIdeal.main_v0))
  ∧ ((Vk (Proc.devRef .tc Cert.KernelIdeal.main_v20) : Cert.KernelIdeal.S16x128.Idx → F .f32) = Vr (Proc.devRef .tc Cert.ReferenceIdeal.main_v20))
  ∧ ((Vk (Proc.devRef .tc Cert.KernelIdeal.main_v40) : Cert.KernelIdeal.S16x128.Idx → F .f32) = Vr (Proc.devRef .tc Cert.ReferenceIdeal.main_v40))
  ∧ ((Vk (Proc.devRef .tc Cert.KernelIdeal.main_v59) : Cert.KernelIdeal.S16x128x2.Idx → F .f32) = Vr (Proc.devRef .tc Cert.ReferenceIdeal.main_v59))
  ∧ ((Vk (Proc.devRef .tc Cert.KernelIdeal.main_v78) : Cert.KernelIdeal.S16x128x2.Idx → F .f32) = Vr (Proc.devRef .tc Cert.ReferenceIdeal.main_v78))
  ∧ ((Vk (Proc.devRef .tc Cert.KernelIdeal.main_v97) : Cert.KernelIdeal.S16x128x2.Idx → F .f32) = Vr (Proc.devRef .tc Cert.ReferenceIdeal.main_v97))

/-- Through `kA5b` / `rA5b`: the two index pieces `v94`, `v95` are concatenated along the last axis and `v80` is gathered at them (`v97`); everything else is carried. -/
theorem step_A5b (Vk : KV F) (Vr : RV F) (h : St_A5a Vk Vr) :
    St_A5b (after Cert.KernelIdeal.Chunks.kA5b Vk) (after Cert.ReferenceIdeal.Chunks.rA5b Vr) := by
  obtain ⟨h_v0, h_v20, h_v40, h_v59, h_v78, h_v80, h_v94, h_v95⟩ := h
  exact ⟨carry (K.kA5b_keep Vk Cert.KernelIdeal.main_v0 (by decide)) (R.rA5b_keep Vr Cert.ReferenceIdeal.main_v0 (by decide)) h_v0,
    carry (K.kA5b_keep Vk Cert.KernelIdeal.main_v20 (by decide)) (R.rA5b_keep Vr Cert.ReferenceIdeal.main_v20 (by decide)) h_v20,
    carry (K.kA5b_keep Vk Cert.KernelIdeal.main_v40 (by decide)) (R.rA5b_keep Vr Cert.ReferenceIdeal.main_v40 (by decide)) h_v40,
    carry (K.kA5b_keep Vk Cert.KernelIdeal.main_v59 (by decide)) (R.rA5b_keep Vr Cert.ReferenceIdeal.main_v59 (by decide)) h_v59,
    carry (K.kA5b_keep Vk Cert.KernelIdeal.main_v78 (by decide)) (R.rA5b_keep Vr Cert.ReferenceIdeal.main_v78 (by decide)) h_v78,
    simA5b_v97 Vk Vr h_v80 h_v94 h_v95⟩

/-! ## All 118 operations -/

/-- From agreeing arguments, the six arrays that the rest of the two programs read — the converted mask and the five gathered
    arrays — agree after the 118 operations. -/
theorem simA_all (Vk : KV F) (Vr : RV F)
    (h3 : (Vk (Proc.devRef .tc Cert.KernelIdeal.main_arg3) : Cert.KernelIdeal.S16x1x128x128.Idx → F .f32) = Vr (Proc.devRef .tc Cert.ReferenceIdeal.main_arg3))
    (h4 : (Vk (Proc.devRef .tc Cert.KernelIdeal.main_arg4) : Cert.KernelIdeal.S16x1x128x128.Idx → F .f32) = Vr (Proc.devRef .tc Cert.ReferenceIdeal.main_arg4))
    (h5 : (Vk (Proc.devRef .tc Cert.KernelIdeal.main_arg5) : Cert.KernelIdeal.S16x2x128x128.Idx → F .f32) = Vr (Proc.devRef .tc Cert.ReferenceIdeal.main_arg5))
    (h6 : (Vk (Proc.devRef .tc Cert.KernelIdeal.main_arg6) : Cert.KernelIdeal.S16x2x128x128.Idx → F .f32) = Vr (Proc.devRef .tc Cert.ReferenceIdeal.main_arg6))
    (h7 : (Vk (Proc.devRef .tc Cert.KernelIdeal.main_arg7) : Cert.KernelIdeal.S16x2x128x128.Idx → F .f32) = Vr (Proc.devRef .tc Cert.ReferenceIdeal.main_arg7))
    (h14 : (Vk (Proc.devRef .tc Cert.KernelIdeal.main_arg14) : Cert.KernelIdeal.S16x128.Idx → BitVec 32) = Vr (Proc.devRef .tc Cert.ReferenceIdeal.main_arg14))
    (h15 : (Vk (Proc.devRef .tc Cert.KernelIdeal.main_arg15) : Cert.KernelIdeal.S16x128.Idx → BitVec 32) = Vr (Proc.devRef .tc Cert.ReferenceIdeal.main_arg15))
    (h16 : (Vk (Proc.devRef .tc Cert.KernelIdeal.main_arg16) : Cert.KernelIdeal.S16x128.Idx → BitVec 32) = Vr (Proc.devRef .tc Cert.ReferenceIdeal.main_arg16))
    (h17 : (Vk (Proc.devRef .tc Cert.KernelIdeal.main_arg17) : Cert.KernelIdeal.S16x128.Idx → BitVec 32) = Vr (Proc.devRef .tc Cert.ReferenceIdeal.main_arg17)) :
    let Vk' := after Cert.KernelIdeal.Gen.hostOps0 Vk
    let Vr' := after Cert.ReferenceIdeal.Chunks.rA5b (after Cert.ReferenceIdeal.Chunks.rA5a (after Cert.ReferenceIdeal.Chunks.rA4b (after Cert.ReferenceIdeal.Chunks.rA4a (after Cert.ReferenceIdeal.Chunks.rA3b (after Cert.ReferenceIdeal.Chunks.rA3a (after Cert.ReferenceIdeal.Chunks.rA2b (after Cert.ReferenceIdeal.Chunks.rA2a (after Cert.ReferenceIdeal.Chunks.rA1b (after Cert.ReferenceIdeal.Chunks.rA1a (after Cert.ReferenceIdeal.Chunks.rA0 Vr))))))))))
    ((Vk' (Proc.devRef .tc Cert.KernelIdeal.main_v0) : Cert.KernelIdeal.S16x128.Idx → F .f32) = Vr' (Proc.devRef .tc Cert.ReferenceIdeal.main_v0))
    ∧ ((Vk' (Proc.devRef .tc Cert.KernelIdeal.main_v20) : Cert.KernelIdeal.S16x128.Idx → F .f32) = Vr' (Proc.devRef .tc Cert.ReferenceIdeal.main_v20))
    ∧ ((Vk' (Proc.devRef .tc Cert.KernelIdeal.main_v40) : Cert.KernelIdeal.S16x128.Idx → F .f32) = Vr' (Proc.devRef .tc Cert.ReferenceIdeal.main_v40))
    ∧ ((Vk' (Proc.devRef .tc Cert.KernelIdeal.main_v59) : Cert.KernelIdeal.S16x128x2.Idx → F .f32) = Vr' (Proc.devRef .tc Cert.ReferenceIdeal.main_v59))
    ∧ ((Vk' (Proc.devRef .tc Cert.KernelIdeal.main_v78) : Cert.KernelIdeal.S16x128x2.Idx → F .f32) = Vr' (Proc.devRef .tc Cert.ReferenceIdeal.main_v78))
    ∧ ((Vk' (Proc.devRef .tc Cert.KernelIdeal.main_v97) : Cert.KernelIdeal.S16x128x2.Idx → F .f32) = Vr' (Proc.devRef .tc Cert.ReferenceIdeal.main_v97)) := by
  intro Vk' Vr'
  have hk : Vk' = after Cert.KernelIdeal.Chunks.kA5b (after Cert.KernelIdeal.Chunks.kA5a (after Cert.KernelIdeal.Chunks.kA4b (after Cert.KernelIdeal.Chunks.kA4a (after Cert.KernelIdeal.Chunks.kA3b (after Cert.KernelIdeal.Chunks.kA3a (after Cert.KernelIdeal.Chunks.kA2b (after Cert.KernelIdeal.Chunks.kA2a (after Cert.KernelIdeal.Chunks.kA1b (after Cert.KernelIdeal.Chunks.kA1a (after Cert.KernelIdeal.Chunks.kA0 Vk)))))))))) := by
    show after Cert.KernelIdeal.Gen.hostOps0 Vk = _
    rw [Cert.KernelIdeal.Chunks.hostOps0_eq]
    simp only [after_append]
  rw [hk]
  exact step_A5b _ _ (step_A5a _ _ (step_A4b _ _ (step_A4a _ _ (step_A3b _ _ (step_A3a _ _ (step_A2b _ _ (step_A2a _ _ (step_A1b _ _ (step_A1a _ _ (step_A0 Vk Vr ⟨h17, h3, h14, h4, h15, h5, h6, h7, h16⟩))))))))))

end Cert.SimA
end
-- ==== Proof.SimB.lean ====
import proofs.«139319_j28071906246702_2_alg».proof.Proof.RefOps
import proofs.«139319_j28071906246702_2_alg».proof.Proof.Gen.KernelIdeal.Launch

/-!
# From three sums to one focal loss, in both programs

Each focal loss is `where (num > 0) (-(pos + neg) / num) (-neg)` of its three sums. The reference applies these scalar
operations to the results of its three whole-array sums; the kernel program applies the same operations to the three
[1, 1] outputs of a kernel region, each first reshaped to a scalar. When a region's outputs hold, at their one entry, the
values of the reference's sums, the two focal losses agree — and so do the running totals of the focal losses, the
second program adding them in the same order.
-/

set_option maxRecDepth 8192

noncomputable section

namespace Cert.SimB

open Idealize.ShloMosaic Idealize.ShloMosaic.TcCoe Idealize.SL.Sem Idealize.ShloMosaic.StableHlo
open Cert.KernelIdeal.Gen

variable {F : FTy → Type} [FloatOps F]

/-- The kernel program's buffer contents. -/
abbrev KV (F : FTy → Type) := Valuation Cert.KernelIdeal.τ Cert.KernelIdeal.sig (Elt F)
/-- The reference's buffer contents. -/
abbrev RV (F : FTy → Type) := Valuation Cert.ReferenceIdeal.τ Cert.ReferenceIdeal.sig (Elt F)

/-- The first focal loss: the region's outputs at the reference's three sums give the reference's focal loss. -/
theorem simB1 (Vk : KV F) (Vr : RV F) (a b n : F .f32)
    (hkp : (Vk (Proc.devRef .tc Cert.KernelIdeal.main_v98_0) : Cert.KernelIdeal.S1x1.Idx → F .f32) = fun _ => a)
    (hkn : (Vk (Proc.devRef .tc Cert.KernelIdeal.main_v98_1) : Cert.KernelIdeal.S1x1.Idx → F .f32) = fun _ => b)
    (hkm : (Vk (Proc.devRef .tc Cert.KernelIdeal.main_v98_2) : Cert.KernelIdeal.S1x1.Idx → F .f32) = fun _ => n)
    (hrp : (Vr (Proc.devRef .tc Cert.ReferenceIdeal.main_v117) : Cert.ReferenceIdeal.S_.Idx → F .f32) = fun _ => a)
    (hrn : (Vr (Proc.devRef .tc Cert.ReferenceIdeal.main_v129) : Cert.ReferenceIdeal.S_.Idx → F .f32) = fun _ => b)
    (hrm : (Vr (Proc.devRef .tc Cert.ReferenceIdeal.main_v130) : Cert.ReferenceIdeal.S_.Idx → F .f32) = fun _ => n) :
    (after hostOps1_1 (after hostOps1 Vk) (Proc.devRef .tc Cert.KernelIdeal.main_v107) : Cert.KernelIdeal.S_.Idx → F .f32)
      = after Cert.ReferenceIdeal.Chunks.rB1h Vr (Proc.devRef .tc Cert.ReferenceIdeal.main_v136) := by
  after_results_simp
  simp only [TRef.toBuf, TRef.ofBuf, cast_eq, id]
  rw [hkp, hkn, hkm, hrp, hrn, hrm]
  rfl

/-- The second focal loss added to the first: the totals agree when the first losses do. -/
theorem simB2 (Vk : KV F) (Vr : RV F) (a b n : F .f32)
    (hkp : (Vk (Proc.devRef .tc Cert.KernelIdeal.main_v108_0) : Cert.KernelIdeal.S1x1.Idx → F .f32) = fun _ => a)
    (hkn : (Vk (Proc.devRef .tc Cert.KernelIdeal.main_v108_1) : Cert.KernelIdeal.S1x1.Idx → F .f32) = fun _ => b)
    (hkm : (Vk (Proc.devRef .tc Cert.KernelIdeal.main_v108_2) : Cert.KernelIdeal.S1x1.Idx → F .f32) = fun _ => n)
    (hrp : (Vr (Proc.devRef .tc Cert.ReferenceIdeal.main_v156) : Cert.ReferenceIdeal.S_.Idx → F .f32) = fun _ => a)
    (hrn : (Vr (Proc.devRef .tc Cert.ReferenceIdeal.main_v168) : Cert.ReferenceIdeal.S_.Idx → F .f32) = fun _ => b)
    (hrm : (Vr (Proc.devRef .tc Cert.ReferenceIdeal.main_v169) : Cert.ReferenceIdeal.S_.Idx → F .f32) = fun _ => n)
    (hprev : (Vk (Proc.devRef .tc Cert.KernelIdeal.main_v107) : Cert.KernelIdeal.S_.Idx → F .f32) = Vr (Proc.devRef .tc Cert.ReferenceIdeal.main_v136)) :
    (after hostOps2_2 (after hostOps2_1 (after hostOps2 Vk)) (Proc.devRef .tc Cert.KernelIdeal.main_v118) : Cert.KernelIdeal.S_.Idx → F .f32)
      = after Cert.ReferenceIdeal.Chunks.rB2h Vr (Proc.devRef .tc Cert.ReferenceIdeal.main_v176) := by
  after_results_simp
  simp only [TRef.toBuf, TRef.ofBuf, cast_eq, id]
  rw [hkp, hkn, hkm, hrp, hrn, hrm, hprev]
  rfl

/-- The third focal loss. -/
theorem simB3 (Vk : KV F) (Vr : RV F) (a b n : F .f32)
    (hkp : (Vk (Proc.devRef .tc Cert.KernelIdeal.main_v119_0) : Cert.KernelIdeal.S1x1.Idx → F .f32) = fun _ => a)
    (hkn : (Vk (Proc.devRef .tc Cert.KernelIdeal.main_v119_1) : Cert.KernelIdeal.S1x1.Idx → F .f32) = fun _ => b)
    (hkm : (Vk (Proc.devRef .tc Cert.KernelIdeal.main_v119_2) : Cert.KernelIdeal.S1x1.Idx → F .f32) = fun _ => n)
    (hrp : (Vr (Proc.devRef .tc Cert.ReferenceIdeal.main_v196) : Cert.ReferenceIdeal.S_.Idx → F .f32) = fun _ => a)
    (hrn : (Vr (Proc.devRef .tc Cert.ReferenceIdeal.main_v208) : Cert.ReferenceIdeal.S_.Idx → F .f32) = fun _ => b)
    (hrm : (Vr (Proc.devRef .tc Cert.ReferenceIdeal.main_v209) : Cert.ReferenceIdeal.S_.Idx → F .f32) = fun _ => n) :
    (after hostOps3_1 (after hostOps3 Vk) (Proc.devRef .tc Cert.KernelIdeal.main_v128) : Cert.KernelIdeal.S_.Idx → F .f32)
      = after Cert.ReferenceIdeal.Chunks.rB3h Vr (Proc.devRef .tc Cert.ReferenceIdeal.main_v215) := by
  after_results_simp
  simp only [TRef.toBuf, TRef.ofBuf, cast_eq, id]
  rw [hkp, hkn, hkm, hrp, hrn, hrm]
  rfl

end Cert.SimB

end
-- ==== Proof.SimC.lean ====
import proofs.«139319_j28071906246702_2_alg».proof.Proof.RefOps
import proofs.«139319_j28071906246702_2_alg».proof.Proof.Gen.KernelIdeal.Launch

noncomputable section
namespace Cert.SimC
open Idealize.ShloMosaic Idealize.ShloMosaic.TcCoe Idealize.SL.Sem Idealize.ShloMosaic.StableHlo

variable {F : FTy → Type} [FloatOps F]

/-- Buffer contents of the kernel's program and of the reference: two signatures, hence two types. -/
abbrev KV (F : FTy → Type) := Valuation Cert.KernelIdeal.τ Cert.KernelIdeal.sig (Elt F)
abbrev RV (F : FTy → Type) := Valuation Cert.ReferenceIdeal.τ Cert.ReferenceIdeal.sig (Elt F)

/-! # The closing host operations leave agreeing results

The kernel's program and the reference both end with the same 138 host operations, applied to corresponding buffers.
This file shows that, started from contents that agree on the buffers these operations read, the two leave the same final
scalar. (For orientation only: in the source these operations are three smooth-L1 regression losses, the pull and push
terms of an embedding loss and the final weighted sum; nothing below uses that reading.)

The operations' meaning plays no part. On each side a result buffer is read back as the composition of the operations'
functions over the contents the stretch started from; the two compositions are the same term over corresponding reads,
so rewriting the kernel's reads into the reference's by the agreement hypotheses leaves a reflexive equation. A buffer
the stretch does not write reads back as it was, on both sides.

The two programs live in two signatures, so their buffer contents have two types; the contents of one buffer, however,
are on both sides a plain function on the indices of its shape, and agreement of a kernel buffer with a reference buffer
is an equation between such functions.

The 138 operations are read in five consecutive groups (18, 23, 24, 44 and 29 operations), each as one list or as one
list run after another. For each group there is one lemma per buffer a later group reads: its agreement after the group
from the agreement, before the group, of the buffers it is computed from. `simC_all` chains the groups. -/

/-! ## Group 1 -/

set_option maxRecDepth 8192 in
/-- Group 1 opens with the addition of the two incoming scalars. -/
theorem p1_foc (Vk : KV F) (Vr : RV F)
    (h_s : (Vk (Proc.devRef .tc Cert.KernelIdeal.main_v118) : Cert.KernelIdeal.S_.Idx → F .f32) = Vr (Proc.devRef .tc Cert.ReferenceIdeal.main_v176))
    (h_t : (Vk (Proc.devRef .tc Cert.KernelIdeal.main_v128) : Cert.KernelIdeal.S_.Idx → F .f32) = Vr (Proc.devRef .tc Cert.ReferenceIdeal.main_v215)) :
    (after Cert.KernelIdeal.Gen.hostOps3_3 (after Cert.KernelIdeal.Gen.hostOps3_2 Vk) (Proc.devRef .tc Cert.KernelIdeal.main_v129) : Cert.KernelIdeal.S_.Idx → F .f32)
      = after Cert.ReferenceIdeal.Chunks.rC3_3 (after Cert.ReferenceIdeal.Chunks.rC3_2 Vr) (Proc.devRef .tc Cert.ReferenceIdeal.main_v216) := by
  after_results_simp
  rw [h_s, h_t]

set_option maxRecDepth 8192 in
/-- Group 1: the full sum of the 16×128 input, plus a constant. -/
theorem p1_c1 (Vk : KV F) (Vr : RV F)
    (h_v0 : (Vk (Proc.devRef .tc Cert.KernelIdeal.main_v0) : Cert.KernelIdeal.S16x128.Idx → F .f32) = Vr (Proc.devRef .tc Cert.ReferenceIdeal.main_v0)) :
    (after Cert.KernelIdeal.Gen.hostOps3_3 (after Cert.KernelIdeal.Gen.hostOps3_2 Vk) (Proc.devRef .tc Cert.KernelIdeal.main_v131) : Cert.KernelIdeal.S_.Idx → F .f32)
      = after Cert.ReferenceIdeal.Chunks.rC3_3 (after Cert.ReferenceIdeal.Chunks.rC3_2 Vr) (Proc.devRef .tc Cert.ReferenceIdeal.main_v218) := by
  after_results_simp
  rw [h_v0]

set_option maxRecDepth 8192 in
/-- Group 1: with `d` the difference of the first pair of 16×128×2 inputs, the selection of `½·d·d` where `|d| < 1` and of `|d| − ½` elsewhere. -/
theorem p1_r1 (Vk : KV F) (Vr : RV F)
    (h_v59 : (Vk (Proc.devRef .tc Cert.KernelIdeal.main_v59) : Cert.KernelIdeal.S16x128x2.Idx → F .f32) = Vr (Proc.devRef .tc Cert.ReferenceIdeal.main_v59))
    (h_a11 : (Vk (Proc.devRef .tc Cert.KernelIdeal.main_arg11) : Cert.KernelIdeal.S16x128x2.Idx → F .f32) = Vr (Proc.devRef .tc Cert.ReferenceIdeal.main_arg11)) :
    (after Cert.KernelIdeal.Gen.hostOps3_3 (after Cert.KernelIdeal.Gen.hostOps3_2 Vk) (Proc.devRef .tc Cert.KernelIdeal.main_v141) : Cert.KernelIdeal.S16x128x2.Idx → F .f32)
      = after Cert.ReferenceIdeal.Chunks.rC3_3 (after Cert.ReferenceIdeal.Chunks.rC3_2 Vr) (Proc.devRef .tc Cert.ReferenceIdeal.main_v228) := by
  after_results_simp
  rw [h_v59, h_a11]

set_option maxRecDepth 8192 in
/-- Group 1 leaves this buffer as it was, on both sides. -/
theorem p1_keep_v0 (Vk : KV F) (Vr : RV F)
    (h : (Vk (Proc.devRef .tc Cert.KernelIdeal.main_v0) : Cert.KernelIdeal.S16x128.Idx → F .f32) = Vr (Proc.devRef .tc Cert.ReferenceIdeal.main_v0)) :
    (after Cert.KernelIdeal.Gen.hostOps3_3 (after Cert.KernelIdeal.Gen.hostOps3_2 Vk) (Proc.devRef .tc Cert.KernelIdeal.main_v0) : Cert.KernelIdeal.S16x128.Idx → F .f32)
      = after Cert.ReferenceIdeal.Chunks.rC3_3 (after Cert.ReferenceIdeal.Chunks.rC3_2 Vr) (Proc.devRef .tc Cert.ReferenceIdeal.main_v0) := by
  after_results_simp
  exact h

set_option maxRecDepth 8192 in
/-- Group 1 leaves this buffer as it was, on both sides. -/
theorem p1_keep_v78 (Vk : KV F) (Vr : RV F)
    (h : (Vk (Proc.devRef .tc Cert.KernelIdeal.main_v78) : Cert.KernelIdeal.S16x128x2.Idx → F .f32) = Vr (Proc.devRef .tc Cert.ReferenceIdeal.main_v78)) :
    (after Cert.KernelIdeal.Gen.hostOps3_3 (after Cert.KernelIdeal.Gen.hostOps3_2 Vk) (Proc.devRef .tc Cert.KernelIdeal.main_v78) : Cert.KernelIdeal.S16x128x2.Idx → F .f32)
      = after Cert.ReferenceIdeal.Chunks.rC3_3 (after Cert.ReferenceIdeal.Chunks.rC3_2 Vr) (Proc.devRef .tc Cert.ReferenceIdeal.main_v78) := by
  after_results_simp
  exact h

set_option maxRecDepth 8192 in
/-- Group 1 leaves this buffer as it was, on both sides. -/
theorem p1_keep_a12 (Vk : KV F) (Vr : RV F)
    (h : (Vk (Proc.devRef .tc Cert.KernelIdeal.main_arg12) : Cert.KernelIdeal.S16x128x2.Idx → F .f32) = Vr (Proc.devRef .tc Cert.ReferenceIdeal.main_arg12)) :
    (after Cert.KernelIdeal.Gen.hostOps3_3 (after Cert.KernelIdeal.Gen.hostOps3_2 Vk) (Proc.devRef .tc Cert.KernelIdeal.main_arg12) : Cert.KernelIdeal.S16x128x2.Idx → F .f32)
      = after Cert.ReferenceIdeal.Chunks.rC3_3 (after Cert.ReferenceIdeal.Chunks.rC3_2 Vr) (Proc.devRef .tc Cert.ReferenceIdeal.main_arg12) := by
  after_results_simp
  exact h

set_option maxRecDepth 8192 in
/-- Group 1 leaves this buffer as it was, on both sides. -/
theorem p1_keep_v97 (Vk : KV F) (Vr : RV F)
    (h : (Vk (Proc.devRef .tc Cert.KernelIdeal.main_v97) : Cert.KernelIdeal.S16x128x2.Idx → F .f32) = Vr (Proc.devRef .tc Cert.ReferenceIdeal.main_v97)) :
    (after Cert.KernelIdeal.Gen.hostOps3_3 (after Cert.KernelIdeal.Gen.hostOps3_2 Vk) (Proc.devRef .tc Cert.KernelIdeal.main_v97) : Cert.KernelIdeal.S16x128x2.Idx → F .f32)
      = after Cert.ReferenceIdeal.Chunks.rC3_3 (after Cert.ReferenceIdeal.Chunks.rC3_2 Vr) (Proc.devRef .tc Cert.ReferenceIdeal.main_v97) := by
  after_results_simp
  exact h

set_option maxRecDepth 8192 in
/-- Group 1 leaves this buffer as it was, on both sides. -/
theorem p1_keep_a13 (Vk : KV F) (Vr : RV F)
    (h : (Vk (Proc.devRef .tc Cert.KernelIdeal.main_arg13) : Cert.KernelIdeal.S16x128x2.Idx → F .f32) = Vr (Proc.devRef .tc Cert.ReferenceIdeal.main_arg13)) :
    (after Cert.KernelIdeal.Gen.hostOps3_3 (after Cert.KernelIdeal.Gen.hostOps3_2 Vk) (Proc.devRef .tc Cert.KernelIdeal.main_arg13) : Cert.KernelIdeal.S16x128x2.Idx → F .f32)
      = after Cert.ReferenceIdeal.Chunks.rC3_3 (after Cert.ReferenceIdeal.Chunks.rC3_2 Vr) (Proc.devRef .tc Cert.ReferenceIdeal.main_arg13) := by
  after_results_simp
  exact h

set_option maxRecDepth 8192 in
/-- Group 1 leaves this buffer as it was, on both sides. -/
theorem p1_keep_v20 (Vk : KV F) (Vr : RV F)
    (h : (Vk (Proc.devRef .tc Cert.KernelIdeal.main_v20) : Cert.KernelIdeal.S16x128.Idx → F .f32) = Vr (Proc.devRef .tc Cert.ReferenceIdeal.main_v20)) :
    (after Cert.KernelIdeal.Gen.hostOps3_3 (after Cert.KernelIdeal.Gen.hostOps3_2 Vk) (Proc.devRef .tc Cert.KernelIdeal.main_v20) : Cert.KernelIdeal.S16x128.Idx → F .f32)
      = after Cert.ReferenceIdeal.Chunks.rC3_3 (after Cert.ReferenceIdeal.Chunks.rC3_2 Vr) (Proc.devRef .tc Cert.ReferenceIdeal.main_v20) := by
  after_results_simp
  exact h

set_option maxRecDepth 8192 in
/-- Group 1 leaves this buffer as it was, on both sides. -/
theorem p1_keep_v40 (Vk : KV F) (Vr : RV F)
    (h : (Vk (Proc.devRef .tc Cert.KernelIdeal.main_v40) : Cert.KernelIdeal.S16x128.Idx → F .f32) = Vr (Proc.devRef .tc Cert.ReferenceIdeal.main_v40)) :
    (after Cert.KernelIdeal.Gen.hostOps3_3 (after Cert.KernelIdeal.Gen.hostOps3_2 Vk) (Proc.devRef .tc Cert.KernelIdeal.main_v40) : Cert.KernelIdeal.S16x128.Idx → F .f32)
      = after Cert.ReferenceIdeal.Chunks.rC3_3 (after Cert.ReferenceIdeal.Chunks.rC3_2 Vr) (Proc.devRef .tc Cert.ReferenceIdeal.main_v40) := by
  after_results_simp
  exact h

/-! ## Group 2 -/

set_option maxRecDepth 8192 in
/-- Group 2: the full sum of group 1's selected values times the broadcast 16×128 input, divided by group 1's scalar. -/
theorem p2_l2 (Vk : KV F) (Vr : RV F)
    (h_v0 : (Vk (Proc.devRef .tc Cert.KernelIdeal.main_v0) : Cert.KernelIdeal.S16x128.Idx → F .f32) = Vr (Proc.devRef .tc Cert.ReferenceIdeal.main_v0))
    (h_r1 : (Vk (Proc.devRef .tc Cert.KernelIdeal.main_v141) : Cert.KernelIdeal.S16x128x2.Idx → F .f32) = Vr (Proc.devRef .tc Cert.ReferenceIdeal.main_v228))
    (h_c1 : (Vk (Proc.devRef .tc Cert.KernelIdeal.main_v131) : Cert.KernelIdeal.S_.Idx → F .f32) = Vr (Proc.devRef .tc Cert.ReferenceIdeal.main_v218)) :
    (after Cert.KernelIdeal.Gen.hostOps3_5 (after Cert.KernelIdeal.Gen.hostOps3_4 Vk) (Proc.devRef .tc Cert.KernelIdeal.main_v146) : Cert.KernelIdeal.S_.Idx → F .f32)
      = after Cert.ReferenceIdeal.Chunks.rC3_5 (after Cert.ReferenceIdeal.Chunks.rC3_4 Vr) (Proc.devRef .tc Cert.ReferenceIdeal.main_v233) := by
  after_results_simp
  rw [h_v0, h_r1, h_c1]

set_option maxRecDepth 8192 in
/-- Group 2: the full sum of the 16×128 input, plus a constant. -/
theorem p2_c2 (Vk : KV F) (Vr : RV F)
    (h_v0 : (Vk (Proc.devRef .tc Cert.KernelIdeal.main_v0) : Cert.KernelIdeal.S16x128.Idx → F .f32) = Vr (Proc.devRef .tc Cert.ReferenceIdeal.main_v0)) :
    (after Cert.KernelIdeal.Gen.hostOps3_5 (after Cert.KernelIdeal.Gen.hostOps3_4 Vk) (Proc.devRef .tc Cert.KernelIdeal.main_v148) : Cert.KernelIdeal.S_.Idx → F .f32)
      = after Cert.ReferenceIdeal.Chunks.rC3_5 (after Cert.ReferenceIdeal.Chunks.rC3_4 Vr) (Proc.devRef .tc Cert.ReferenceIdeal.main_v235) := by
  after_results_simp
  rw [h_v0]

set_option maxRecDepth 8192 in
/-- Group 2: the same selection as in group 1, on the difference of the second pair of 16×128×2 inputs. -/
theorem p2_r2 (Vk : KV F) (Vr : RV F)
    (h_v78 : (Vk (Proc.devRef .tc Cert.KernelIdeal.main_v78) : Cert.KernelIdeal.S16x128x2.Idx → F .f32) = Vr (Proc.devRef .tc Cert.ReferenceIdeal.main_v78))
    (h_a12 : (Vk (Proc.devRef .tc Cert.KernelIdeal.main_arg12) : Cert.KernelIdeal.S16x128x2.Idx → F .f32) = Vr (Proc.devRef .tc Cert.ReferenceIdeal.main_arg12)) :
    (after Cert.KernelIdeal.Gen.hostOps3_5 (after Cert.KernelIdeal.Gen.hostOps3_4 Vk) (Proc.devRef .tc Cert.KernelIdeal.main_v158) : Cert.KernelIdeal.S16x128x2.Idx → F .f32)
      = after Cert.ReferenceIdeal.Chunks.rC3_5 (after Cert.ReferenceIdeal.Chunks.rC3_4 Vr) (Proc.devRef .tc Cert.ReferenceIdeal.main_v245) := by
  after_results_simp
  rw [h_v78, h_a12]

set_option maxRecDepth 8192 in
/-- Group 2 leaves this buffer as it was, on both sides. -/
theorem p2_keep_v0 (Vk : KV F) (Vr : RV F)
    (h : (Vk (Proc.devRef .tc Cert.KernelIdeal.main_v0) : Cert.KernelIdeal.S16x128.Idx → F .f32) = Vr (Proc.devRef .tc Cert.ReferenceIdeal.main_v0)) :
    (after Cert.KernelIdeal.Gen.hostOps3_5 (after Cert.KernelIdeal.Gen.hostOps3_4 Vk) (Proc.devRef .tc Cert.KernelIdeal.main_v0) : Cert.KernelIdeal.S16x128.Idx → F .f32)
      = after Cert.ReferenceIdeal.Chunks.rC3_5 (after Cert.ReferenceIdeal.Chunks.rC3_4 Vr) (Proc.devRef .tc Cert.ReferenceIdeal.main_v0) := by
  after_results_simp
  exact h

set_option maxRecDepth 8192 in
/-- Group 2 leaves this buffer as it was, on both sides. -/
theorem p2_keep_v97 (Vk : KV F) (Vr : RV F)
    (h : (Vk (Proc.devRef .tc Cert.KernelIdeal.main_v97) : Cert.KernelIdeal.S16x128x2.Idx → F .f32) = Vr (Proc.devRef .tc Cert.ReferenceIdeal.main_v97)) :
    (after Cert.KernelIdeal.Gen.hostOps3_5 (after Cert.KernelIdeal.Gen.hostOps3_4 Vk) (Proc.devRef .tc Cert.KernelIdeal.main_v97) : Cert.KernelIdeal.S16x128x2.Idx → F .f32)
      = after Cert.ReferenceIdeal.Chunks.rC3_5 (after Cert.ReferenceIdeal.Chunks.rC3_4 Vr) (Proc.devRef .tc Cert.ReferenceIdeal.main_v97) := by
  after_results_simp
  exact h

set_option maxRecDepth 8192 in
/-- Group 2 leaves this buffer as it was, on both sides. -/
theorem p2_keep_a13 (Vk : KV F) (Vr : RV F)
    (h : (Vk (Proc.devRef .tc Cert.KernelIdeal.main_arg13) : Cert.KernelIdeal.S16x128x2.Idx → F .f32) = Vr (Proc.devRef .tc Cert.ReferenceIdeal.main_arg13)) :
    (after Cert.KernelIdeal.Gen.hostOps3_5 (after Cert.KernelIdeal.Gen.hostOps3_4 Vk) (Proc.devRef .tc Cert.KernelIdeal.main_arg13) : Cert.KernelIdeal.S16x128x2.Idx → F .f32)
      = after Cert.ReferenceIdeal.Chunks.rC3_5 (after Cert.ReferenceIdeal.Chunks.rC3_4 Vr) (Proc.devRef .tc Cert.ReferenceIdeal.main_arg13) := by
  after_results_simp
  exact h

set_option maxRecDepth 8192 in
/-- Group 2 leaves this buffer as it was, on both sides. -/
theorem p2_keep_v20 (Vk : KV F) (Vr : RV F)
    (h : (Vk (Proc.devRef .tc Cert.KernelIdeal.main_v20) : Cert.KernelIdeal.S16x128.Idx → F .f32) = Vr (Proc.devRef .tc Cert.ReferenceIdeal.main_v20)) :
    (after Cert.KernelIdeal.Gen.hostOps3_5 (after Cert.KernelIdeal.Gen.hostOps3_4 Vk) (Proc.devRef .tc Cert.KernelIdeal.main_v20) : Cert.KernelIdeal.S16x128.Idx → F .f32)
      = after Cert.ReferenceIdeal.Chunks.rC3_5 (after Cert.ReferenceIdeal.Chunks.rC3_4 Vr) (Proc.devRef .tc Cert.ReferenceIdeal.main_v20) := by
  after_results_simp
  exact h

set_option maxRecDepth 8192 in
/-- Group 2 leaves this buffer as it was, on both sides. -/
theorem p2_keep_v40 (Vk : KV F) (Vr : RV F)
    (h : (Vk (Proc.devRef .tc Cert.KernelIdeal.main_v40) : Cert.KernelIdeal.S16x128.Idx → F .f32) = Vr (Proc.devRef .tc Cert.ReferenceIdeal.main_v40)) :
    (after Cert.KernelIdeal.Gen.hostOps3_5 (after Cert.KernelIdeal.Gen.hostOps3_4 Vk) (Proc.devRef .tc Cert.KernelIdeal.main_v40) : Cert.KernelIdeal.S16x128.Idx → F .f32)
      = after Cert.ReferenceIdeal.Chunks.rC3_5 (after Cert.ReferenceIdeal.Chunks.rC3_4 Vr) (Proc.devRef .tc Cert.ReferenceIdeal.main_v40) := by
  after_results_simp
  exact h

set_option maxRecDepth 8192 in
/-- Group 2 leaves this buffer as it was, on both sides. -/
theorem p2_keep_foc (Vk : KV F) (Vr : RV F)
    (h : (Vk (Proc.devRef .tc Cert.KernelIdeal.main_v129) : Cert.KernelIdeal.S_.Idx → F .f32) = Vr (Proc.devRef .tc Cert.ReferenceIdeal.main_v216)) :
    (after Cert.KernelIdeal.Gen.hostOps3_5 (after Cert.KernelIdeal.Gen.hostOps3_4 Vk) (Proc.devRef .tc Cert.KernelIdeal.main_v129) : Cert.KernelIdeal.S_.Idx → F .f32)
      = after Cert.ReferenceIdeal.Chunks.rC3_5 (after Cert.ReferenceIdeal.Chunks.rC3_4 Vr) (Proc.devRef .tc Cert.ReferenceIdeal.main_v216) := by
  after_results_simp
  exact h

/-! ## Group 3 -/

set_option maxRecDepth 8192 in
/-- Group 3: group 2's quotient plus the like quotient formed from group 2's selected values and scalar. -/
theorem p3_l3 (Vk : KV F) (Vr : RV F)
    (h_v0 : (Vk (Proc.devRef .tc Cert.KernelIdeal.main_v0) : Cert.KernelIdeal.S16x128.Idx → F .f32) = Vr (Proc.devRef .tc Cert.ReferenceIdeal.main_v0))
    (h_r2 : (Vk (Proc.devRef .tc Cert.KernelIdeal.main_v158) : Cert.KernelIdeal.S16x128x2.Idx → F .f32) = Vr (Proc.devRef .tc Cert.ReferenceIdeal.main_v245))
    (h_c2 : (Vk (Proc.devRef .tc Cert.KernelIdeal.main_v148) : Cert.KernelIdeal.S_.Idx → F .f32) = Vr (Proc.devRef .tc Cert.ReferenceIdeal.main_v235))
    (h_l2 : (Vk (Proc.devRef .tc Cert.KernelIdeal.main_v146) : Cert.KernelIdeal.S_.Idx → F .f32) = Vr (Proc.devRef .tc Cert.ReferenceIdeal.main_v233)) :
    (after Cert.KernelIdeal.Gen.hostOps3_7 (after Cert.KernelIdeal.Gen.hostOps3_6 Vk) (Proc.devRef .tc Cert.KernelIdeal.main_v164) : Cert.KernelIdeal.S_.Idx → F .f32)
      = after Cert.ReferenceIdeal.Chunks.rC3_7 (after Cert.ReferenceIdeal.Chunks.rC3_6 Vr) (Proc.devRef .tc Cert.ReferenceIdeal.main_v251) := by
  after_results_simp
  rw [h_v0, h_r2, h_c2, h_l2]

set_option maxRecDepth 8192 in
/-- Group 3: the full sum of the 16×128 input, plus a constant. -/
theorem p3_c3 (Vk : KV F) (Vr : RV F)
    (h_v0 : (Vk (Proc.devRef .tc Cert.KernelIdeal.main_v0) : Cert.KernelIdeal.S16x128.Idx → F .f32) = Vr (Proc.devRef .tc Cert.ReferenceIdeal.main_v0)) :
    (after Cert.KernelIdeal.Gen.hostOps3_7 (after Cert.KernelIdeal.Gen.hostOps3_6 Vk) (Proc.devRef .tc Cert.KernelIdeal.main_v166) : Cert.KernelIdeal.S_.Idx → F .f32)
      = after Cert.ReferenceIdeal.Chunks.rC3_7 (after Cert.ReferenceIdeal.Chunks.rC3_6 Vr) (Proc.devRef .tc Cert.ReferenceIdeal.main_v253) := by
  after_results_simp
  rw [h_v0]

set_option maxRecDepth 8192 in
/-- Group 3: the same selection again, on the difference of the third pair of 16×128×2 inputs. -/
theorem p3_r3 (Vk : KV F) (Vr : RV F)
    (h_v97 : (Vk (Proc.devRef .tc Cert.KernelIdeal.main_v97) : Cert.KernelIdeal.S16x128x2.Idx → F .f32) = Vr (Proc.devRef .tc Cert.ReferenceIdeal.main_v97))
    (h_a13 : (Vk (Proc.devRef .tc Cert.KernelIdeal.main_arg13) : Cert.KernelIdeal.S16x128x2.Idx → F .f32) = Vr (Proc.devRef .tc Cert.ReferenceIdeal.main_arg13)) :
    (after Cert.KernelIdeal.Gen.hostOps3_7 (after Cert.KernelIdeal.Gen.hostOps3_6 Vk) (Proc.devRef .tc Cert.KernelIdeal.main_v176) : Cert.KernelIdeal.S16x128x2.Idx → F .f32)
      = after Cert.ReferenceIdeal.Chunks.rC3_7 (after Cert.ReferenceIdeal.Chunks.rC3_6 Vr) (Proc.devRef .tc Cert.ReferenceIdeal.main_v263) := by
  after_results_simp
  rw [h_v97, h_a13]

set_option maxRecDepth 8192 in
/-- Group 3 leaves this buffer as it was, on both sides. -/
theorem p3_keep_v0 (Vk : KV F) (Vr : RV F)
    (h : (Vk (Proc.devRef .tc Cert.KernelIdeal.main_v0) : Cert.KernelIdeal.S16x128.Idx → F .f32) = Vr (Proc.devRef .tc Cert.ReferenceIdeal.main_v0)) :
    (after Cert.KernelIdeal.Gen.hostOps3_7 (after Cert.KernelIdeal.Gen.hostOps3_6 Vk) (Proc.devRef .tc Cert.KernelIdeal.main_v0) : Cert.KernelIdeal.S16x128.Idx → F .f32)
      = after Cert.ReferenceIdeal.Chunks.rC3_7 (after Cert.ReferenceIdeal.Chunks.rC3_6 Vr) (Proc.devRef .tc Cert.ReferenceIdeal.main_v0) := by
  after_results_simp
  exact h

set_option maxRecDepth 8192 in
/-- Group 3 leaves this buffer as it was, on both sides. -/
theorem p3_keep_v20 (Vk : KV F) (Vr : RV F)
    (h : (Vk (Proc.devRef .tc Cert.KernelIdeal.main_v20) : Cert.KernelIdeal.S16x128.Idx → F .f32) = Vr (Proc.devRef .tc Cert.ReferenceIdeal.main_v20)) :
    (after Cert.KernelIdeal.Gen.hostOps3_7 (after Cert.KernelIdeal.Gen.hostOps3_6 Vk) (Proc.devRef .tc Cert.KernelIdeal.main_v20) : Cert.KernelIdeal.S16x128.Idx → F .f32)
      = after Cert.ReferenceIdeal.Chunks.rC3_7 (after Cert.ReferenceIdeal.Chunks.rC3_6 Vr) (Proc.devRef .tc Cert.ReferenceIdeal.main_v20) := by
  after_results_simp
  exact h

set_option maxRecDepth 8192 in
/-- Group 3 leaves this buffer as it was, on both sides. -/
theorem p3_keep_v40 (Vk : KV F) (Vr : RV F)
    (h : (Vk (Proc.devRef .tc Cert.KernelIdeal.main_v40) : Cert.KernelIdeal.S16x128.Idx → F .f32) = Vr (Proc.devRef .tc Cert.ReferenceIdeal.main_v40)) :
    (after Cert.KernelIdeal.Gen.hostOps3_7 (after Cert.KernelIdeal.Gen.hostOps3_6 Vk) (Proc.devRef .tc Cert.KernelIdeal.main_v40) : Cert.KernelIdeal.S16x128.Idx → F .f32)
      = after Cert.ReferenceIdeal.Chunks.rC3_7 (after Cert.ReferenceIdeal.Chunks.rC3_6 Vr) (Proc.devRef .tc Cert.ReferenceIdeal.main_v40) := by
  after_results_simp
  exact h

set_option maxRecDepth 8192 in
/-- Group 3 leaves this buffer as it was, on both sides. -/
theorem p3_keep_foc (Vk : KV F) (Vr : RV F)
    (h : (Vk (Proc.devRef .tc Cert.KernelIdeal.main_v129) : Cert.KernelIdeal.S_.Idx → F .f32) = Vr (Proc.devRef .tc Cert.ReferenceIdeal.main_v216)) :
    (after Cert.KernelIdeal.Gen.hostOps3_7 (after Cert.KernelIdeal.Gen.hostOps3_6 Vk) (Proc.devRef .tc Cert.KernelIdeal.main_v129) : Cert.KernelIdeal.S_.Idx → F .f32)
      = after Cert.ReferenceIdeal.Chunks.rC3_7 (after Cert.ReferenceIdeal.Chunks.rC3_6 Vr) (Proc.devRef .tc Cert.ReferenceIdeal.main_v216) := by
  after_results_simp
  exact h

/-! ## Group 4 -/

set_option maxRecDepth 8192 in
/-- Group 4: group 3's sum plus the like quotient formed from group 3's selected values and scalar. -/
theorem p4_l4 (Vk : KV F) (Vr : RV F)
    (h_v0 : (Vk (Proc.devRef .tc Cert.KernelIdeal.main_v0) : Cert.KernelIdeal.S16x128.Idx → F .f32) = Vr (Proc.devRef .tc Cert.ReferenceIdeal.main_v0))
    (h_r3 : (Vk (Proc.devRef .tc Cert.KernelIdeal.main_v176) : Cert.KernelIdeal.S16x128x2.Idx → F .f32) = Vr (Proc.devRef .tc Cert.ReferenceIdeal.main_v263))
    (h_c3 : (Vk (Proc.devRef .tc Cert.KernelIdeal.main_v166) : Cert.KernelIdeal.S_.Idx → F .f32) = Vr (Proc.devRef .tc Cert.ReferenceIdeal.main_v253))
    (h_l3 : (Vk (Proc.devRef .tc Cert.KernelIdeal.main_v164) : Cert.KernelIdeal.S_.Idx → F .f32) = Vr (Proc.devRef .tc Cert.ReferenceIdeal.main_v251)) :
    (after Cert.KernelIdeal.Gen.hostOps3_9 (after Cert.KernelIdeal.Gen.hostOps3_8 Vk) (Proc.devRef .tc Cert.KernelIdeal.main_v182) : Cert.KernelIdeal.S_.Idx → F .f32)
      = after Cert.ReferenceIdeal.Chunks.rC3_9 (after Cert.ReferenceIdeal.Chunks.rC3_8 Vr) (Proc.devRef .tc Cert.ReferenceIdeal.main_v269) := by
  after_results_simp
  rw [h_v0, h_r3, h_c3, h_l3]

set_option maxRecDepth 8192 in
/-- Group 4: the sums of the 16×128 input along its second axis, as a 16×1 column. -/
theorem p4_num (Vk : KV F) (Vr : RV F)
    (h_v0 : (Vk (Proc.devRef .tc Cert.KernelIdeal.main_v0) : Cert.KernelIdeal.S16x128.Idx → F .f32) = Vr (Proc.devRef .tc Cert.ReferenceIdeal.main_v0)) :
    (after Cert.KernelIdeal.Gen.hostOps3_9 (after Cert.KernelIdeal.Gen.hostOps3_8 Vk) (Proc.devRef .tc Cert.KernelIdeal.main_v184) : Cert.KernelIdeal.S16x1.Idx → F .f32)
      = after Cert.ReferenceIdeal.Chunks.rC3_9 (after Cert.ReferenceIdeal.Chunks.rC3_8 Vr) (Proc.devRef .tc Cert.ReferenceIdeal.main_v271) := by
  after_results_simp
  rw [h_v0]

set_option maxRecDepth 8192 in
/-- Group 4: with `m` half the sum of the two further 16×128 inputs `a`, `b`, the full sum of the first input times `(a − m)² + (b − m)²` over the broadcast column plus a constant. -/
theorem p4_pull (Vk : KV F) (Vr : RV F)
    (h_v0 : (Vk (Proc.devRef .tc Cert.KernelIdeal.main_v0) : Cert.KernelIdeal.S16x128.Idx → F .f32) = Vr (Proc.devRef .tc Cert.ReferenceIdeal.main_v0))
    (h_v20 : (Vk (Proc.devRef .tc Cert.KernelIdeal.main_v20) : Cert.KernelIdeal.S16x128.Idx → F .f32) = Vr (Proc.devRef .tc Cert.ReferenceIdeal.main_v20))
    (h_v40 : (Vk (Proc.devRef .tc Cert.KernelIdeal.main_v40) : Cert.KernelIdeal.S16x128.Idx → F .f32) = Vr (Proc.devRef .tc Cert.ReferenceIdeal.main_v40)) :
    (after Cert.KernelIdeal.Gen.hostOps3_9 (after Cert.KernelIdeal.Gen.hostOps3_8 Vk) (Proc.devRef .tc Cert.KernelIdeal.main_v198) : Cert.KernelIdeal.S_.Idx → F .f32)
      = after Cert.ReferenceIdeal.Chunks.rC3_9 (after Cert.ReferenceIdeal.Chunks.rC3_8 Vr) (Proc.devRef .tc Cert.ReferenceIdeal.main_v285) := by
  after_results_simp
  rw [h_v0, h_v20, h_v40]

set_option maxRecDepth 8192 in
/-- Group 4: the product of two broadcasts of the 16×128 input to 16×128×128. -/
theorem p4_mask (Vk : KV F) (Vr : RV F)
    (h_v0 : (Vk (Proc.devRef .tc Cert.KernelIdeal.main_v0) : Cert.KernelIdeal.S16x128.Idx → F .f32) = Vr (Proc.devRef .tc Cert.ReferenceIdeal.main_v0)) :
    (after Cert.KernelIdeal.Gen.hostOps3_9 (after Cert.KernelIdeal.Gen.hostOps3_8 Vk) (Proc.devRef .tc Cert.KernelIdeal.main_v203) : Cert.KernelIdeal.S16x128x128.Idx → F .f32)
      = after Cert.ReferenceIdeal.Chunks.rC3_9 (after Cert.ReferenceIdeal.Chunks.rC3_8 Vr) (Proc.devRef .tc Cert.ReferenceIdeal.main_v290) := by
  after_results_simp
  rw [h_v0]

set_option maxRecDepth 8192 in
/-- Group 4: one minus the absolute difference of two broadcasts of `m` to 16×128×128, then its maximum with zero. -/
theorem p4_push (Vk : KV F) (Vr : RV F)
    (h_v20 : (Vk (Proc.devRef .tc Cert.KernelIdeal.main_v20) : Cert.KernelIdeal.S16x128.Idx → F .f32) = Vr (Proc.devRef .tc Cert.ReferenceIdeal.main_v20))
    (h_v40 : (Vk (Proc.devRef .tc Cert.KernelIdeal.main_v40) : Cert.KernelIdeal.S16x128.Idx → F .f32) = Vr (Proc.devRef .tc Cert.ReferenceIdeal.main_v40)) :
    (after Cert.KernelIdeal.Gen.hostOps3_9 (after Cert.KernelIdeal.Gen.hostOps3_8 Vk) (Proc.devRef .tc Cert.KernelIdeal.main_v212) : Cert.KernelIdeal.S16x128x128.Idx → F .f32)
      = after Cert.ReferenceIdeal.Chunks.rC3_9 (after Cert.ReferenceIdeal.Chunks.rC3_8 Vr) (Proc.devRef .tc Cert.ReferenceIdeal.main_v299) := by
  after_results_simp
  rw [h_v20, h_v40]

set_option maxRecDepth 8192 in
/-- Group 4 leaves this buffer as it was, on both sides. -/
theorem p4_keep_foc (Vk : KV F) (Vr : RV F)
    (h : (Vk (Proc.devRef .tc Cert.KernelIdeal.main_v129) : Cert.KernelIdeal.S_.Idx → F .f32) = Vr (Proc.devRef .tc Cert.ReferenceIdeal.main_v216)) :
    (after Cert.KernelIdeal.Gen.hostOps3_9 (after Cert.KernelIdeal.Gen.hostOps3_8 Vk) (Proc.devRef .tc Cert.KernelIdeal.main_v129) : Cert.KernelIdeal.S_.Idx → F .f32)
      = after Cert.ReferenceIdeal.Chunks.rC3_9 (after Cert.ReferenceIdeal.Chunks.rC3_8 Vr) (Proc.devRef .tc Cert.ReferenceIdeal.main_v216) := by
  after_results_simp
  exact h

/-! ## Group 5 -/

set_option maxRecDepth 8192 in
/-- Group 5: the closing 29 operations, from group 4's five results and the scalar of group 1's opening addition to the final scalar. -/
theorem p5_fin (Vk : KV F) (Vr : RV F)
    (h_num : (Vk (Proc.devRef .tc Cert.KernelIdeal.main_v184) : Cert.KernelIdeal.S16x1.Idx → F .f32) = Vr (Proc.devRef .tc Cert.ReferenceIdeal.main_v271))
    (h_push : (Vk (Proc.devRef .tc Cert.KernelIdeal.main_v212) : Cert.KernelIdeal.S16x128x128.Idx → F .f32) = Vr (Proc.devRef .tc Cert.ReferenceIdeal.main_v299))
    (h_mask : (Vk (Proc.devRef .tc Cert.KernelIdeal.main_v203) : Cert.KernelIdeal.S16x128x128.Idx → F .f32) = Vr (Proc.devRef .tc Cert.ReferenceIdeal.main_v290))
    (h_pull : (Vk (Proc.devRef .tc Cert.KernelIdeal.main_v198) : Cert.KernelIdeal.S_.Idx → F .f32) = Vr (Proc.devRef .tc Cert.ReferenceIdeal.main_v285))
    (h_foc : (Vk (Proc.devRef .tc Cert.KernelIdeal.main_v129) : Cert.KernelIdeal.S_.Idx → F .f32) = Vr (Proc.devRef .tc Cert.ReferenceIdeal.main_v216))
    (h_l4 : (Vk (Proc.devRef .tc Cert.KernelIdeal.main_v182) : Cert.KernelIdeal.S_.Idx → F .f32) = Vr (Proc.devRef .tc Cert.ReferenceIdeal.main_v269)) :
    (after Cert.KernelIdeal.Gen.hostOps3_10 Vk (Proc.devRef .tc Cert.KernelIdeal.main_v234) : Cert.KernelIdeal.S_.Idx → F .f32)
      = after Cert.ReferenceIdeal.Chunks.rC3_10 Vr (Proc.devRef .tc Cert.ReferenceIdeal.main_v321) := by
  after_results_simp
  rw [h_num, h_push, h_mask, h_pull, h_foc, h_l4]

/-! ## The chain -/

/-- The closing 138 host operations, read in the five groups above: from agreement on the eleven buffers they read —
    two scalars, three 16×128 buffers and three pairs of 16×128×2 buffers — the kernel's program and the reference leave
    the same final scalar. Each group's lemmas are taken at the contents the groups before it leave, which stay opaque
    throughout. -/
theorem simC_all (Vk : KV F) (Vr : RV F)
    (hs : (Vk (Proc.devRef .tc Cert.KernelIdeal.main_v118) : Cert.KernelIdeal.S_.Idx → F .f32) = Vr (Proc.devRef .tc Cert.ReferenceIdeal.main_v176))
    (ht : (Vk (Proc.devRef .tc Cert.KernelIdeal.main_v128) : Cert.KernelIdeal.S_.Idx → F .f32) = Vr (Proc.devRef .tc Cert.ReferenceIdeal.main_v215))
    (h0 : (Vk (Proc.devRef .tc Cert.KernelIdeal.main_v0) : Cert.KernelIdeal.S16x128.Idx → F .f32) = Vr (Proc.devRef .tc Cert.ReferenceIdeal.main_v0))
    (h20 : (Vk (Proc.devRef .tc Cert.KernelIdeal.main_v20) : Cert.KernelIdeal.S16x128.Idx → F .f32) = Vr (Proc.devRef .tc Cert.ReferenceIdeal.main_v20))
    (h40 : (Vk (Proc.devRef .tc Cert.KernelIdeal.main_v40) : Cert.KernelIdeal.S16x128.Idx → F .f32) = Vr (Proc.devRef .tc Cert.ReferenceIdeal.main_v40))
    (h59 : (Vk (Proc.devRef .tc Cert.KernelIdeal.main_v59) : Cert.KernelIdeal.S16x128x2.Idx → F .f32) = Vr (Proc.devRef .tc Cert.ReferenceIdeal.main_v59))
    (h78 : (Vk (Proc.devRef .tc Cert.KernelIdeal.main_v78) : Cert.KernelIdeal.S16x128x2.Idx → F .f32) = Vr (Proc.devRef .tc Cert.ReferenceIdeal.main_v78))
    (h97 : (Vk (Proc.devRef .tc Cert.KernelIdeal.main_v97) : Cert.KernelIdeal.S16x128x2.Idx → F .f32) = Vr (Proc.devRef .tc Cert.ReferenceIdeal.main_v97))
    (h11 : (Vk (Proc.devRef .tc Cert.KernelIdeal.main_arg11) : Cert.KernelIdeal.S16x128x2.Idx → F .f32) = Vr (Proc.devRef .tc Cert.ReferenceIdeal.main_arg11))
    (h12 : (Vk (Proc.devRef .tc Cert.KernelIdeal.main_arg12) : Cert.KernelIdeal.S16x128x2.Idx → F .f32) = Vr (Proc.devRef .tc Cert.ReferenceIdeal.main_arg12))
    (h13 : (Vk (Proc.devRef .tc Cert.KernelIdeal.main_arg13) : Cert.KernelIdeal.S16x128x2.Idx → F .f32) = Vr (Proc.devRef .tc Cert.ReferenceIdeal.main_arg13)) :
    (after Cert.KernelIdeal.Gen.hostOps3_10 (after Cert.KernelIdeal.Gen.hostOps3_9 (after Cert.KernelIdeal.Gen.hostOps3_8 (after Cert.KernelIdeal.Gen.hostOps3_7 (after Cert.KernelIdeal.Gen.hostOps3_6 (after Cert.KernelIdeal.Gen.hostOps3_5 (after Cert.KernelIdeal.Gen.hostOps3_4 (after Cert.KernelIdeal.Gen.hostOps3_3 (after Cert.KernelIdeal.Gen.hostOps3_2 Vk))))))))
        (Proc.devRef .tc Cert.KernelIdeal.main_v234) : Cert.KernelIdeal.S_.Idx → F .f32)
      = after Cert.ReferenceIdeal.Chunks.rC3_10 (after Cert.ReferenceIdeal.Chunks.rC3_9 (after Cert.ReferenceIdeal.Chunks.rC3_8 (after Cert.ReferenceIdeal.Chunks.rC3_7 (after Cert.ReferenceIdeal.Chunks.rC3_6 (after Cert.ReferenceIdeal.Chunks.rC3_5 (after Cert.ReferenceIdeal.Chunks.rC3_4 (after Cert.ReferenceIdeal.Chunks.rC3_3 (after Cert.ReferenceIdeal.Chunks.rC3_2 Vr))))))))
        (Proc.devRef .tc Cert.ReferenceIdeal.main_v321) := by
  -- group 1
  have g1_foc := p1_foc _ _ hs ht
  have g1_c1 := p1_c1 _ _ h0
  have g1_r1 := p1_r1 _ _ h59 h11
  have g1_v0 := p1_keep_v0 _ _ h0
  have g1_v78 := p1_keep_v78 _ _ h78
  have g1_a12 := p1_keep_a12 _ _ h12
  have g1_v97 := p1_keep_v97 _ _ h97
  have g1_a13 := p1_keep_a13 _ _ h13
  have g1_v20 := p1_keep_v20 _ _ h20
  have g1_v40 := p1_keep_v40 _ _ h40
  -- group 2
  have g2_l2 := p2_l2 _ _ g1_v0 g1_r1 g1_c1
  have g2_c2 := p2_c2 _ _ g1_v0
  have g2_r2 := p2_r2 _ _ g1_v78 g1_a12
  have g2_v0 := p2_keep_v0 _ _ g1_v0
  have g2_v97 := p2_keep_v97 _ _ g1_v97
  have g2_a13 := p2_keep_a13 _ _ g1_a13
  have g2_v20 := p2_keep_v20 _ _ g1_v20
  have g2_v40 := p2_keep_v40 _ _ g1_v40
  have g2_foc := p2_keep_foc _ _ g1_foc
  -- group 3
  have g3_l3 := p3_l3 _ _ g2_v0 g2_r2 g2_c2 g2_l2
  have g3_c3 := p3_c3 _ _ g2_v0
  have g3_r3 := p3_r3 _ _ g2_v97 g2_a13
  have g3_v0 := p3_keep_v0 _ _ g2_v0
  have g3_v20 := p3_keep_v20 _ _ g2_v20
  have g3_v40 := p3_keep_v40 _ _ g2_v40
  have g3_foc := p3_keep_foc _ _ g2_foc
  -- group 4
  have g4_l4 := p4_l4 _ _ g3_v0 g3_r3 g3_c3 g3_l3
  have g4_num := p4_num _ _ g3_v0
  have g4_pull := p4_pull _ _ g3_v0 g3_v20 g3_v40
  have g4_mask := p4_mask _ _ g3_v0
  have g4_push := p4_push _ _ g3_v20 g3_v40
  have g4_foc := p4_keep_foc _ _ g3_foc
  -- group 5
  have g5_fin := p5_fin _ _ g4_num g4_push g4_mask g4_pull g4_foc g4_l4
  exact g5_fin

end Cert.SimC
end
-- ==== Proof.TileIndex.lean ====
import Idealize.ShloMosaic.Lib.ValueIdx

/-!
# A [16, 80, 128, 128] array summed tile by tile

The array is cut into 80 tiles of shape [1, 16, 128, 128]: tile `t` holds batch entry `t / 5` and the sixteen channels
`16 · (t % 5) … 16 · (t % 5) + 15`. Inside a tile the sixteen channels and 128 rows are laid out as 2048 rows of 128 lanes:
row `r` is channel `r / 128` of the tile, image row `r % 128`. Summing every entry of the array is summing, tile after tile,
the rows' lane sums: addition in a commutative monoid does not care how a finite sum is grouped.
-/

namespace Cert.Focal

open Idealize.ShloMosaic Idealize.ShloMosaic.ValueIdx

/-- The whole array's shape. -/
abbrev SB : Shape := ⟨4, ![16, 80, 128, 128]⟩

/-- The array index of lane `l` of row `r` of tile `t`. -/
def gidx (t : Fin 80) (r : Fin 2048) (l : Fin 128) : SB.Idx :=
  ix4 (⟨t.val / 5, by omega⟩ : Fin 16) (⟨16 * (t.val % 5) + r.val / 128, by omega⟩ : Fin 80) (⟨r.val % 128, by omega⟩ : Fin 128) l

/-- The tile, row and lane that hold entry `(a, b, c, d)`: the inverse of `gidx` on coordinates. -/
def tileOf (a : Fin 16) (b : Fin 80) (c : Fin 128) (d : Fin 128) : Fin 80 × Fin 2048 × Fin 128 :=
  (⟨5 * a.val + b.val / 16, by omega⟩, ⟨128 * (b.val % 16) + c.val, by omega⟩, d)

/-- Reading the position of `gidx t r l` gives back `(t, r, l)`. -/
theorem tileOf_gidx (t : Fin 80) (r : Fin 2048) (l : Fin 128) :
    tileOf (⟨t.val / 5, by omega⟩ : Fin 16) (⟨16 * (t.val % 5) + r.val / 128, by omega⟩ : Fin 80)
      (⟨r.val % 128, by omega⟩ : Fin 128) l = (t, r, l) := by
  refine Prod.ext (Fin.ext ?_) (Prod.ext (Fin.ext ?_) rfl)
  · show 5 * (t.val / 5) + (16 * (t.val % 5) + r.val / 128) / 16 = t.val
    have := r.isLt
    omega
  · show 128 * ((16 * (t.val % 5) + r.val / 128) % 16) + r.val % 128 = r.val
    have := r.isLt
    omega

/-- The entry at the position `tileOf a b c d` is `(a, b, c, d)`. -/
theorem gidx_tileOf (a : Fin 16) (b : Fin 80) (c : Fin 128) (d : Fin 128) :
    gidx (tileOf a b c d).1 (tileOf a b c d).2.1 (tileOf a b c d).2.2 = ix4 a b c d := by
  funext e
  match e with
  | ⟨0, _⟩ =>
    refine Fin.ext ?_
    show (5 * a.val + b.val / 16) / 5 = a.val
    have := b.isLt
    omega
  | ⟨1, _⟩ =>
    refine Fin.ext ?_
    show 16 * ((5 * a.val + b.val / 16) % 5) + (128 * (b.val % 16) + c.val) / 128 = b.val
    have := b.isLt
    have := c.isLt
    omega
  | ⟨2, _⟩ =>
    refine Fin.ext ?_
    show (128 * (b.val % 16) + c.val) % 128 = c.val
    have := c.isLt
    omega
  | ⟨3, _⟩ => rfl

/-- Tiles × rows × lanes are in bijection with the array's entries. -/
def tileEquiv : Fin 80 × Fin 2048 × Fin 128 ≃ SB.Idx where
  toFun p := gidx p.1 p.2.1 p.2.2
  invFun i := tileOf (i 0) (i 1) (i 2) (i 3)
  left_inv := by
    rintro ⟨t, r, l⟩
    exact tileOf_gidx t r l
  right_inv i := by
    obtain ⟨a, b, c, d, rfl⟩ : ∃ a b c d, i = ix4 (n0 := 16) (n1 := 80) (n2 := 128) (n3 := 128) a b c d :=
      ⟨i 0, i 1, i 2, i 3, eq_ix4 i⟩
    exact gidx_tileOf a b c d

/-- The sum over every entry is the sum over the tiles of the sums over a tile's rows of the rows' lane sums. -/
theorem sum_tiles {M : Type*} [AddCommMonoid M] (f : SB.Idx → M) :
    ∑ t : Fin 80, ∑ r : Fin 2048, ∑ l : Fin 128, f (gidx t r l) = ∑ i : SB.Idx, f i := by
  rw [← Equiv.sum_comp tileEquiv f, Fintype.sum_prod_type]
  refine Finset.sum_congr rfl fun t _ => ?_
  rw [Fintype.sum_prod_type]
  rfl

end Cert.Focal
-- ==== Proof.Region0.lean ====
import proofs.«139319_j28071906246702_2_alg».proof.Proof.Gen.KernelIdeal.Frame
import proofs.«139319_j28071906246702_2_alg».proof.Proof.FocalSpec
import proofs.«139319_j28071906246702_2_alg».proof.Proof.TileIndex
import Idealize.ShloMosaic.PureOps.Ideal.Laws
import Idealize.ShloMosaic.Lib.Pipeline.Value
import Idealize.ShloMosaic.Lib.ValueIdx
import Idealize.ShloMosaic.Lib.Tactic

/-!
# The value of the first focal-loss region: the top-left corner heat maps

The region visits the 80 tiles of the predicted top-left corner heat map `x` and of its ground truth `y`, both of shape
[16, 80, 128, 128]. Three one-entry outputs are running totals: they are set to zero at the first tile, each tile adds
to them its own total of the positive term, of the negative term and of the count, and they are written to their arrays
after the last tile only.

This module reads those three arrays off the region's frame. What a tile adds is, at the ideal values, the double
sum over the tile's 2048 rows and 128 lanes of the entry-wise summand; a tile's entry is an entry of the whole array;
the running total after tile `n` is the sum of the tile totals up to `n`; so what is written after tile 79 is the sum
of the summand over every entry of the two arrays. Addition of extended reals is a commutative monoid, so the regrouping
of the sum needs no finiteness.
-/

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

/-! ## What one tile leaves in each output, as a pure value (any float instance) -/

section Pieces
variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- Past the first tile, output 2 holding `xo2` is left at `xo2` plus the positive term's block total: its one covering store's
    value, whose loads read the whole buffers. -/
theorem out_B_2 (c : Dev nD) (i : grid0.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond0_0 i) (x0 x1 : Vec F S1x16x128x128 .f32) (xo2 xo3 xo4 : Vec F S1x1 .f32) :
    out0_B_2 c i a2 h2 a3 h3 a4 h4 a5 h5 a6 h6 hc x0 x1 xo2 xo3 xo4 = k0_pay1 (k0_pay11 x0 x1) xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- Past the first tile, output 3 holding `xo3` is left at `xo3` plus the negative term's block total: its one covering store's
    value, whose loads read the whole buffers. -/
theorem out_B_3 (c : Dev nD) (i : grid0.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond0_0 i) (x0 x1 : Vec F S1x16x128x128 .f32) (xo2 xo3 xo4 : Vec F S1x1 .f32) :
    out0_B_3 c i a2 h2 a3 h3 a4 h4 a5 h5 a6 h6 hc x0 x1 xo2 xo3 xo4 = k0_pay2 (k0_pay10 x0 x1) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- Past the first tile, output 4 holding `xo4` is left at `xo4` plus the count's block total: its one covering store's
    value, whose loads read the whole buffers. -/
theorem out_B_4 (c : Dev nD) (i : grid0.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond0_0 i) (x0 x1 : Vec F S1x16x128x128 .f32) (xo2 xo3 xo4 : Vec F S1x1 .f32) :
    out0_B_4 c i a2 h2 a3 h3 a4 h4 a5 h5 a6 h6 hc x0 x1 xo2 xo3 xo4 = k0_pay3 (k0_pay9 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- At the first tile output 2 is first set to zero and that zero is read back, so it is left at zero plus
    the positive term's block total. -/
theorem out_A_2 (c : Dev nD) (i : grid0.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond0_0 i) (x0 x1 : Vec F S1x16x128x128 .f32) :
    out0_A_2 c i a2 h2 a3 h3 a4 h4 a5 h5 a6 h6 hc x0 x1 = k0_pay1 (k0_pay11 x0 x1) (k0_pay4 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- At the first tile output 3 is first set to zero and that zero is read back, so it is left at zero plus
    the negative term's block total. -/
theorem out_A_3 (c : Dev nD) (i : grid0.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond0_0 i) (x0 x1 : Vec F S1x16x128x128 .f32) :
    out0_A_3 c i a2 h2 a3 h3 a4 h4 a5 h5 a6 h6 hc x0 x1 = k0_pay2 (k0_pay10 x0 x1) (k0_pay5 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- At the first tile output 4 is first set to zero and that zero is read back, so it is left at zero plus
    the count's block total. -/
theorem out_A_4 (c : Dev nD) (i : grid0.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond0_0 i) (x0 x1 : Vec F S1x16x128x128 .f32) :
    out0_A_4 c i a2 h2 a3 h3 a4 h4 a5 h5 a6 h6 hc x0 x1 = k0_pay3 (k0_pay9 x1) (k0_pay6 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- A block's total as the body takes it: the block recast as 2048 rows of 128 lanes, each row's lanes summed, the row
    sums recast as a column, the column summed, the result recast as a one-entry block. -/
def tot (v : FVec F S1x16x128x128 .f32) : FVec F S1x1 .f32 :=
  shapeCast S1x1 (multiReduction .add [0] S1 (shapeCast S2048x1 (multiReduction .add [1] S2048
      (shapeCast S2048x128 v shapeCasts_S1x16x128x128_S2048x128) 0x00000000#32 reduces_S2048x128_S2048 (.inl rfl) rfl)
      shapeCasts_S2048_S2048x1) 0x00000000#32 reduces_S2048x1_S1 (.inl rfl) rfl) shapeCasts_S1_S1x1

/-- The positive term before its reduction, as the body multiplies it. -/
def posV (x0 x1 : Vec F S1x16x128x128 .f32) : FVec F S1x16x128x128 .f32 :=
  mulf (mulf (k0_pay9 x1) (log (k0_pay7 x0))) (mulf (k0_pay8 x0) (k0_pay8 x0))

/-- Output 2's new value: the old one plus the positive term's block total. -/
theorem pay1_eq (x0 x1 : Vec F S1x16x128x128 .f32) (xo : Vec F S1x1 .f32) :
    k0_pay1 (k0_pay11 x0 x1) xo = addf (shapeCast S1x1 xo shapeCasts_S1x1_S1x1) (tot (posV x0 x1)) := rfl
/-- Output 3's new value: the old one plus the block total of `v`. -/
theorem pay2_eq (v : FVec F S1x16x128x128 .f32) (xo : Vec F S1x1 .f32) :
    k0_pay2 v xo = addf (shapeCast S1x1 xo shapeCasts_S1x1_S1x1) (tot v) := rfl
/-- Output 4's new value: the old one plus the block total of `v`. -/
theorem pay3_eq (v : FVec F S1x16x128x128 .f32) (xo : Vec F S1x1 .f32) :
    k0_pay3 v xo = addf (shapeCast S1x1 xo shapeCasts_S1x1_S1x1) (tot v) := rfl

end Pieces

/-! ## A block's total at the ideal values: the double sum over rows and lanes -/

/-- Entry `l` of row `r` of a block laid out as 2048 rows of 128 lanes: channel `r / 128`, image row `r % 128`. -/
def bidx (r : Fin 2048) (l : Fin 128) : S1x16x128x128.Idx :=
  ix4 (0 : Fin 1) (⟨r.val / 128, by omega⟩ : Fin 16) (⟨r.val % 128, by omega⟩ : Fin 128) l

/-- The block recast as 2048 rows of 128 lanes, read at row `r`, lane `l`: both have row-major position `128 r + l`. -/
theorem rows_apply {α : Type} (v : S1x16x128x128.Idx → α) (h : S1x16x128x128.ShapeCasts S2048x128) (r : Fin 2048) (l : Fin 128) :
    shapeCast S2048x128 v h (ix2 r l) = v (bidx r l) :=
  shapeCast_apply v h (ix2 r l) (bidx r l) (by
    rw [Shape.rowMajor_val_four, Shape.rowMajor_val_two]
    show ((0 * 16 + r.val / 128) * 128 + r.val % 128) * 128 + l.val = r.val * 128 + l.val
    omega)

/-- At the ideal values a block's total is the double sum over its rows and lanes: each reduction is the sum over the
    reduced axis, each recast keeps the row-major position. -/
theorem tot_apply (v : FVec Ideal S1x16x128x128 .f32) (j : S1x1.Idx) :
    tot v j = ∑ r : Fin 2048, ∑ l : Fin 128, v (bidx r l) := by
  unfold tot
  refine (shapeCast_apply _ _ j (ix1 (0 : Fin 1)) ?_).trans ?_
  · rw [Shape.rowMajor_val_one, Shape.rowMajor_val_two]
    have h0 := (j 0).isLt; have h1 := (j 1).isLt
    show (0 : Nat) = (j 0).val * 1 + (j 1).val
    change (j 0).val < 1 at h0; change (j 1).val < 1 at h1
    omega
  refine (Ideal.multiReduction_add_single _ _ reduces_S2048x1_S1 (.inl rfl) rfl _).trans ?_
  refine Finset.sum_congr rfl fun r _ => ?_
  refine (shapeCast_apply _ _ _ (ix1 r) ?_).trans ?_
  · rw [Shape.rowMajor_val_one, Shape.rowMajor_val_two]
    show r.val = r.val * 1 + 0
    omega
  refine (Ideal.multiReduction_add_single _ _ reduces_S2048x128_S2048 (.inl rfl) rfl _).trans ?_
  refine Finset.sum_congr rfl fun l _ => ?_
  exact rows_apply v _ r l

/-- A one-bit word widened to 32 bits and read as a signed integer is the bit read unsigned: both are `0` or `1`. -/
theorem mask_eq (b : BitVec 1) : (FloatOps.sitofp .f32 (b.setWidth 32) : Ideal .f32) = FloatOps.uitofp .f32 b := by
  have h : ∀ b : BitVec 1, (b.setWidth 32).toInt = (b.toNat : Int) := by decide
  show (((b.setWidth 32).toInt : ℝ) : EReal) = ((b.toNat : ℝ) : EReal)
  rw [h b, Int.cast_natCast]

/-- The clipped probability, entry by entry. -/
theorem pay7_apply (x0 : Vec Ideal S1x16x128x128 .f32) (i : S1x16x128x128.Idx) :
    k0_pay7 x0 i = Cert.Focal.prob (x0 i) := rfl

/-- One minus it. -/
theorem pay8_apply (x0 : Vec Ideal S1x16x128x128 .f32) (i : S1x16x128x128.Idx) :
    k0_pay8 x0 i = FloatOps.subf Cert.Focal.one (Cert.Focal.prob (x0 i)) := rfl

/-- The count's summand, entry by entry: the mask `[y = 1]`. -/
theorem pay9_apply (x : Ideal .f32) (x1 : Vec Ideal S1x16x128x128 .f32) (i : S1x16x128x128.Idx) :
    k0_pay9 x1 i = Cert.Focal.numE x (x1 i) := by
  unfold Cert.Focal.numE Cert.Focal.isOne
  rw [← mask_eq]
  rfl

/-- The negative term, entry by entry. -/
theorem pay10_apply (x0 x1 : Vec Ideal S1x16x128x128 .f32) (i : S1x16x128x128.Idx) :
    k0_pay10 x0 x1 i = Cert.Focal.negE (x0 i) (x1 i) := by
  unfold Cert.Focal.negE Cert.Focal.ltOne
  rw [← mask_eq]
  rfl

/-- The positive term, entry by entry. -/
theorem posV_apply (x0 x1 : Vec Ideal S1x16x128x128 .f32) (i : S1x16x128x128.Idx) :
    posV x0 x1 i = Cert.Focal.posE (x0 i) (x1 i) := by
  unfold Cert.Focal.posE Cert.Focal.isOne
  rw [← mask_eq]
  rfl

/-- The zero the first tile stores, at its one index. -/
theorem zero2_apply (j : S1x1.Idx) : (k0_pay4 (F := Ideal)) j = 0 := Ideal.ofBits_zero_f32
theorem zero3_apply (j : S1x1.Idx) : (k0_pay5 (F := Ideal)) j = 0 := Ideal.ofBits_zero_f32
theorem zero4_apply (j : S1x1.Idx) : (k0_pay6 (F := Ideal)) j = 0 := Ideal.ofBits_zero_f32

/-- The old value plus a block's total, at the one index. -/
theorem acc_apply (v : FVec Ideal S1x16x128x128 .f32) (xo : Vec Ideal S1x1 .f32) (j : S1x1.Idx) :
    addf (shapeCast S1x1 xo shapeCasts_S1x1_S1x1) (tot v) j = xo j + ∑ r : Fin 2048, ∑ l : Fin 128, v (bidx r l) := by
  rw [addf_apply, shapeCast_self, tot_apply]

/-- Output 2 after a tile: the old value plus the sum of the positive term over the tile's entries. -/
theorem acc2_apply (x0 x1 : Vec Ideal S1x16x128x128 .f32) (xo : Vec Ideal S1x1 .f32) (j : S1x1.Idx) :
    k0_pay1 (k0_pay11 x0 x1) xo j
      = xo j + ∑ r : Fin 2048, ∑ l : Fin 128, Cert.Focal.posE (x0 (bidx r l)) (x1 (bidx r l)) := by
  rw [pay1_eq, acc_apply]
  exact congrArg _ (Finset.sum_congr rfl fun r _ => Finset.sum_congr rfl fun l _ => posV_apply x0 x1 _)

/-- Output 3 after a tile: the old value plus the sum of the negative term over the tile's entries. -/
theorem acc3_apply (x0 x1 : Vec Ideal S1x16x128x128 .f32) (xo : Vec Ideal S1x1 .f32) (j : S1x1.Idx) :
    k0_pay2 (k0_pay10 x0 x1) xo j
      = xo j + ∑ r : Fin 2048, ∑ l : Fin 128, Cert.Focal.negE (x0 (bidx r l)) (x1 (bidx r l)) := by
  rw [pay2_eq, acc_apply]
  exact congrArg _ (Finset.sum_congr rfl fun r _ => Finset.sum_congr rfl fun l _ => pay10_apply x0 x1 _)

/-- Output 4 after a tile: the old value plus the count over the tile's entries (the count's summand does not look at
    the predicted map, so any block `x0` may stand in its first place). -/
theorem acc4_apply (x0 x1 : Vec Ideal S1x16x128x128 .f32) (xo : Vec Ideal S1x1 .f32) (j : S1x1.Idx) :
    k0_pay3 (k0_pay9 x1) xo j
      = xo j + ∑ r : Fin 2048, ∑ l : Fin 128, Cert.Focal.numE (x0 (bidx r l)) (x1 (bidx r l)) := by
  rw [pay3_eq, acc_apply]
  exact congrArg _ (Finset.sum_congr rfl fun r _ => Finset.sum_congr rfl fun l _ => pay9_apply (x0 _) x1 _)

/-! ## A tile's entries are entries of the whole arrays -/

variable (V : (c : Dev nD) → (b : Ref sig .tc) → Buf (Elt Ideal) ((c : Thread nD τ).loc b))

/-- Window 0's block index at point `t`: batch entry `t / 5`, channel group `t % 5`, the whole image. -/
theorem index0_0 : ∀ t : Fin cfg0.N, win0_0.index t 0 = t.val / 5 ∧ win0_0.index t 1 = t.val % 5 ∧ win0_0.index t 2 = 0 ∧ win0_0.index t 3 = 0 :=
  (by decide +kernel : ∀ t : Fin grid0.N, win0_0.index t 0 = t.val / 5 ∧ win0_0.index t 1 = t.val % 5 ∧ win0_0.index t 2 = 0 ∧ win0_0.index t 3 = 0)

/-- Entry `(r, l)` of window 0's block at point `t` is the predicted map's entry at the tile's array index. -/
theorem iblk0_0_apply (c : Dev nD) (t : Fin cfg0.N) (r : Fin 2048) (l : Fin 128) :
    (iblk0 (F := Ideal) V c 0 t : Vec Ideal S1x16x128x128 .f32) (bidx r l)
      = (V c main_arg0 : S16x80x128x128.Idx → Ideal .f32) (Cert.Focal.gidx (t.cast N_0) r l) := by
  unfold iblk0
  rw [View.read_apply]
  show V c main_arg0 _ = V c main_arg0 _
  congr 1
  funext a
  apply Fin.ext
  obtain ⟨i0, i1, i2, i3⟩ := index0_0 t
  match a with
  | ⟨0, _⟩ => show win0_0.index t 0 * 1 + 1 * 0 = t.val / 5; rw [i0]; omega
  | ⟨1, _⟩ => show win0_0.index t 1 * 16 + 1 * (r.val / 128) = 16 * (t.val % 5) + r.val / 128; rw [i1]; omega
  | ⟨2, _⟩ => show win0_0.index t 2 * 128 + 1 * (r.val % 128) = r.val % 128; rw [i2]; omega
  | ⟨3, _⟩ => show win0_0.index t 3 * 128 + 1 * l.val = l.val; rw [i3]; omega

/-- Window 1's block index at point `t`: the same. -/
theorem index0_1 : ∀ t : Fin cfg0.N, win0_1.index t 0 = t.val / 5 ∧ win0_1.index t 1 = t.val % 5 ∧ win0_1.index t 2 = 0 ∧ win0_1.index t 3 = 0 :=
  (by decide +kernel : ∀ t : Fin grid0.N, win0_1.index t 0 = t.val / 5 ∧ win0_1.index t 1 = t.val % 5 ∧ win0_1.index t 2 = 0 ∧ win0_1.index t 3 = 0)

/-- Entry `(r, l)` of window 1's block at point `t` is the ground truth's entry at the tile's array index. -/
theorem iblk0_1_apply (c : Dev nD) (t : Fin cfg0.N) (r : Fin 2048) (l : Fin 128) :
    (iblk0 (F := Ideal) V c 1 t : Vec Ideal S1x16x128x128 .f32) (bidx r l)
      = (V c main_arg8 : S16x80x128x128.Idx → Ideal .f32) (Cert.Focal.gidx (t.cast N_0) r l) := by
  unfold iblk0
  rw [View.read_apply]
  show V c main_arg8 _ = V c main_arg8 _
  congr 1
  funext a
  apply Fin.ext
  obtain ⟨i0, i1, i2, i3⟩ := index0_1 t
  match a with
  | ⟨0, _⟩ => show win0_1.index t 0 * 1 + 1 * 0 = t.val / 5; rw [i0]; omega
  | ⟨1, _⟩ => show win0_1.index t 1 * 16 + 1 * (r.val / 128) = 16 * (t.val % 5) + r.val / 128; rw [i1]; omega
  | ⟨2, _⟩ => show win0_1.index t 2 * 128 + 1 * (r.val % 128) = r.val % 128; rw [i2]; omega
  | ⟨3, _⟩ => show win0_1.index t 3 * 128 + 1 * l.val = l.val; rw [i3]; omega

/-- The sum of a summand `f` over tile `t` of the two arrays (zero past the last tile, so that it can be summed over a
    range of naturals). -/
def tile (f : Ideal .f32 → Ideal .f32 → Ideal .f32) (c : Dev nD) (t : ℕ) : Ideal .f32 :=
  if h : t < 80 then ∑ r : Fin 2048, ∑ l : Fin 128,
    f ((V c main_arg0 : S16x80x128x128.Idx → Ideal .f32) (Cert.Focal.gidx ⟨t, h⟩ r l))
      ((V c main_arg8 : S16x80x128x128.Idx → Ideal .f32) (Cert.Focal.gidx ⟨t, h⟩ r l))
  else 0

/-- The double sum of `f` over two blocks that hold tile `t` of the two arrays is that tile's sum. -/
theorem blocks_tile (f : Ideal .f32 → Ideal .f32 → Ideal .f32) (c : Dev nD) (t : Fin cfg0.N)
    (x0 x1 : Vec Ideal S1x16x128x128 .f32)
    (h0 : ∀ r l, x0 (bidx r l) = (V c main_arg0 : S16x80x128x128.Idx → Ideal .f32) (Cert.Focal.gidx (t.cast N_0) r l))
    (h1 : ∀ r l, x1 (bidx r l) = (V c main_arg8 : S16x80x128x128.Idx → Ideal .f32) (Cert.Focal.gidx (t.cast N_0) r l)) :
    ∑ r : Fin 2048, ∑ l : Fin 128, f (x0 (bidx r l)) (x1 (bidx r l)) = tile V f c t.val := by
  have ht : t.val < 80 := lt_of_lt_of_eq t.isLt N_0
  unfold tile
  rw [dif_pos ht]
  refine Finset.sum_congr rfl fun r _ => Finset.sum_congr rfl fun l _ => ?_
  rw [h0, h1]
  rfl

/-! ## The running totals, tile after tile -/

/-- After tile `n` output 2 holds the sum of the tiles' sums up to `n`: zero plus the first tile's at the first tile, the
    value before plus the tile's afterwards. -/
theorem outs2 (c : Dev nD) : ∀ (n : ℕ) (h : n < cfg0.N) (j : S1x1.Idx),
    (outsAt0 (F := Ideal) V c n h).1 j = ∑ t ∈ Finset.range (n + 1), tile V Cert.Focal.posE c t
  | 0, h, j => by
    rw [outsAt0_A V c ⟨0, h⟩ rfl]
    dsimp only
    rw [out_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk0 V c 0 ⟨0, h⟩) (iblk0 V c 1 ⟨0, h⟩),
      acc2_apply (iblk0 V c 0 ⟨0, h⟩) (iblk0 V c 1 ⟨0, h⟩), zero2_apply, zero_add, Finset.sum_range_one]
    exact blocks_tile V Cert.Focal.posE c ⟨0, h⟩ (iblk0 V c 0 ⟨0, h⟩) (iblk0 V c 1 ⟨0, h⟩) (iblk0_0_apply V c ⟨0, h⟩) (iblk0_1_apply V c ⟨0, h⟩)
  | n + 1, h, j => by
    have hN : cfg0.N = 80 := N_0
    have hB : ¬(⟨n + 1, h⟩ : Fin cfg0.N).val % 80 = 0 := by dsimp only; omega
    rw [outsAt0_B V c ⟨n + 1, h⟩ hB]
    dsimp only
    rw [out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk0 V c 0 ⟨n + 1, h⟩) (iblk0 V c 1 ⟨n + 1, h⟩),
      acc2_apply (iblk0 V c 0 ⟨n + 1, h⟩) (iblk0 V c 1 ⟨n + 1, h⟩), Finset.sum_range_succ]
    show (outsAt0 V c n _).1 j + _ = _
    rw [outs2 c n _ j]
    exact congrArg _ (blocks_tile V Cert.Focal.posE c ⟨n + 1, h⟩ (iblk0 V c 0 ⟨n + 1, h⟩) (iblk0 V c 1 ⟨n + 1, h⟩) (iblk0_0_apply V c ⟨n + 1, h⟩) (iblk0_1_apply V c ⟨n + 1, h⟩))

/-- After tile `n` output 3 holds the sum of the tiles' sums up to `n`: zero plus the first tile's at the first tile, the
    value before plus the tile's afterwards. -/
theorem outs3 (c : Dev nD) : ∀ (n : ℕ) (h : n < cfg0.N) (j : S1x1.Idx),
    (outsAt0 (F := Ideal) V c n h).2.1 j = ∑ t ∈ Finset.range (n + 1), tile V Cert.Focal.negE c t
  | 0, h, j => by
    rw [outsAt0_A V c ⟨0, h⟩ rfl]
    dsimp only
    rw [out_A_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk0 V c 0 ⟨0, h⟩) (iblk0 V c 1 ⟨0, h⟩),
      acc3_apply (iblk0 V c 0 ⟨0, h⟩) (iblk0 V c 1 ⟨0, h⟩), zero3_apply, zero_add, Finset.sum_range_one]
    exact blocks_tile V Cert.Focal.negE c ⟨0, h⟩ (iblk0 V c 0 ⟨0, h⟩) (iblk0 V c 1 ⟨0, h⟩) (iblk0_0_apply V c ⟨0, h⟩) (iblk0_1_apply V c ⟨0, h⟩)
  | n + 1, h, j => by
    have hN : cfg0.N = 80 := N_0
    have hB : ¬(⟨n + 1, h⟩ : Fin cfg0.N).val % 80 = 0 := by dsimp only; omega
    rw [outsAt0_B V c ⟨n + 1, h⟩ hB]
    dsimp only
    rw [out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk0 V c 0 ⟨n + 1, h⟩) (iblk0 V c 1 ⟨n + 1, h⟩),
      acc3_apply (iblk0 V c 0 ⟨n + 1, h⟩) (iblk0 V c 1 ⟨n + 1, h⟩), Finset.sum_range_succ]
    show (outsAt0 V c n _).2.1 j + _ = _
    rw [outs3 c n _ j]
    exact congrArg _ (blocks_tile V Cert.Focal.negE c ⟨n + 1, h⟩ (iblk0 V c 0 ⟨n + 1, h⟩) (iblk0 V c 1 ⟨n + 1, h⟩) (iblk0_0_apply V c ⟨n + 1, h⟩) (iblk0_1_apply V c ⟨n + 1, h⟩))

/-- After tile `n` output 4 holds the sum of the tiles' sums up to `n`: zero plus the first tile's at the first tile, the
    value before plus the tile's afterwards. -/
theorem outs4 (c : Dev nD) : ∀ (n : ℕ) (h : n < cfg0.N) (j : S1x1.Idx),
    (outsAt0 (F := Ideal) V c n h).2.2 j = ∑ t ∈ Finset.range (n + 1), tile V Cert.Focal.numE c t
  | 0, h, j => by
    rw [outsAt0_A V c ⟨0, h⟩ rfl]
    dsimp only
    rw [out_A_4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk0 V c 0 ⟨0, h⟩) (iblk0 V c 1 ⟨0, h⟩),
      acc4_apply (iblk0 V c 0 ⟨0, h⟩) (iblk0 V c 1 ⟨0, h⟩), zero4_apply, zero_add, Finset.sum_range_one]
    exact blocks_tile V Cert.Focal.numE c ⟨0, h⟩ (iblk0 V c 0 ⟨0, h⟩) (iblk0 V c 1 ⟨0, h⟩) (iblk0_0_apply V c ⟨0, h⟩) (iblk0_1_apply V c ⟨0, h⟩)
  | n + 1, h, j => by
    have hN : cfg0.N = 80 := N_0
    have hB : ¬(⟨n + 1, h⟩ : Fin cfg0.N).val % 80 = 0 := by dsimp only; omega
    rw [outsAt0_B V c ⟨n + 1, h⟩ hB]
    dsimp only
    rw [out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk0 V c 0 ⟨n + 1, h⟩) (iblk0 V c 1 ⟨n + 1, h⟩),
      acc4_apply (iblk0 V c 0 ⟨n + 1, h⟩) (iblk0 V c 1 ⟨n + 1, h⟩), Finset.sum_range_succ]
    show (outsAt0 V c n _).2.2 j + _ = _
    rw [outs4 c n _ j]
    exact congrArg _ (blocks_tile V Cert.Focal.numE c ⟨n + 1, h⟩ (iblk0 V c 0 ⟨n + 1, h⟩) (iblk0 V c 1 ⟨n + 1, h⟩) (iblk0_0_apply V c ⟨n + 1, h⟩) (iblk0_1_apply V c ⟨n + 1, h⟩))

/-! ## The arrays after the last tile -/

/-- The last tile. -/
abbrev tL : Fin cfg0.N := ⟨79, by rw [show cfg0.N = 80 from N_0]; decide⟩

/-- What a running total of the summand `f` ends at: the sum of all 80 tiles' sums, at the one index. -/
abbrev result (f : Ideal .f32 → Ideal .f32 → Ideal .f32) (c : Dev nD) : Vec Ideal S1x1 .f32 :=
  fun _ => ∑ t ∈ Finset.range 80, tile V f c t

/-- The tiles' sums together are the sum over every entry of the two arrays. -/
theorem sum_tile_all (f : Ideal .f32 → Ideal .f32 → Ideal .f32) (c : Dev nD) :
    ∑ t ∈ Finset.range 80, tile V f c t
      = ∑ i : Cert.Focal.SB.Idx, f ((V c main_arg0 : S16x80x128x128.Idx → Ideal .f32) i) ((V c main_arg8 : S16x80x128x128.Idx → Ideal .f32) i) := by
  rw [Finset.sum_range (fun t => tile V f c t), ← Cert.Focal.sum_tiles]
  refine Finset.sum_congr rfl fun t _ => ?_
  unfold tile
  rw [dif_pos t.isLt]

/-- Output 2's one write-back, after the last tile, writes the total: its block is the whole one-entry array. -/
theorem flushed2 (c : Dev nD) (t : Fin cfg0.N) (hf : (cfg0.win 2).flush t = true) :
    (dat0 (F := Ideal) V c).flushed 2 t
      = ((cfg0.win 2).blk t).view.read (Elt Ideal) (result V Cert.Focal.posE c : Buf (Elt Ideal) ((c : Thread nD τ).loc main_v98_0)) := by
  have hN : cfg0.N = 80 := N_0
  have h79 : t.val = 79 := by have := (flush0_2 t).mp hf; have := t.isLt; omega
  obtain rfl : t = tL := Fin.ext h79
  show (cfg0.win 2).cut (grid0.coords tL) ((dat0 V c).after 2 tL) = _
  rw [after0_2]
  have e : (outsAt0 (F := Ideal) V c tL.val tL.isLt).1 = result V Cert.Focal.posE c := funext fun j => outs2 V c 79 _ j
  rw [e]
  have hz' : (fun a => win0_2.index tL a * main_v98_0.ty.shape.size a) = fun _ => 0 :=
    funext fun a => by fin_cases a <;> decide +kernel
  exact (Memref.read_access_unit_zero (Elt Ideal) main_v98_0 hz' (fun a => by rw [congrFun hz' a]; simp) (result V Cert.Focal.posE c)).symm

/-- So output 2's array ends holding the total: the last tile's write-back covers its one entry. -/
theorem final2 (c : Dev nD) : (dat0 (F := Ideal) V c).arrAt 2 cfg0.N = result V Cert.Focal.posE c :=
  (dat0 V c).arrAt_eq_of_cover 2 (result V Cert.Focal.posE c) (flushed2 V c) fun i =>
    ⟨tL, (flush0_2 tL).mpr rfl, by
      show i ∈ ((View.whole main_v98_0).slice (win0_2.rect tL)).set
      rw [View.set_slice_whole, Rect.mem_set_unit]
      intro a
      have h0 : (i 0 : Nat) < 1 := (i 0).isLt
      have h1 : (i 1 : Nat) < 1 := (i 1).isLt
      match a with
      | ⟨0, _⟩ => show win0_2.index tL 0 * win0_2.size 0 ≤ (i 0 : Nat) ∧ (i 0 : Nat) < win0_2.index tL 0 * win0_2.size 0 + win0_2.xsize (grid0.coords tL) 0
                  rw [show win0_2.index tL 0 * win0_2.size 0 = 0 from by decide +kernel, show win0_2.xsize (grid0.coords tL) 0 = 1 from by decide +kernel]; omega
      | ⟨1, _⟩ => show win0_2.index tL 1 * win0_2.size 1 ≤ (i 1 : Nat) ∧ (i 1 : Nat) < win0_2.index tL 1 * win0_2.size 1 + win0_2.xsize (grid0.coords tL) 1
                  rw [show win0_2.index tL 1 * win0_2.size 1 = 0 from by decide +kernel, show win0_2.xsize (grid0.coords tL) 1 = 1 from by decide +kernel]; omega⟩

/-- Output 3's one write-back, after the last tile, writes the total: its block is the whole one-entry array. -/
theorem flushed3 (c : Dev nD) (t : Fin cfg0.N) (hf : (cfg0.win 3).flush t = true) :
    (dat0 (F := Ideal) V c).flushed 3 t
      = ((cfg0.win 3).blk t).view.read (Elt Ideal) (result V Cert.Focal.negE c : Buf (Elt Ideal) ((c : Thread nD τ).loc main_v98_1)) := by
  have hN : cfg0.N = 80 := N_0
  have h79 : t.val = 79 := by have := (flush0_3 t).mp hf; have := t.isLt; omega
  obtain rfl : t = tL := Fin.ext h79
  show (cfg0.win 3).cut (grid0.coords tL) ((dat0 V c).after 3 tL) = _
  rw [after0_3]
  have e : (outsAt0 (F := Ideal) V c tL.val tL.isLt).2.1 = result V Cert.Focal.negE c := funext fun j => outs3 V c 79 _ j
  rw [e]
  have hz' : (fun a => win0_3.index tL a * main_v98_1.ty.shape.size a) = fun _ => 0 :=
    funext fun a => by fin_cases a <;> decide +kernel
  exact (Memref.read_access_unit_zero (Elt Ideal) main_v98_1 hz' (fun a => by rw [congrFun hz' a]; simp) (result V Cert.Focal.negE c)).symm

/-- So output 3's array ends holding the total: the last tile's write-back covers its one entry. -/
theorem final3 (c : Dev nD) : (dat0 (F := Ideal) V c).arrAt 3 cfg0.N = result V Cert.Focal.negE c :=
  (dat0 V c).arrAt_eq_of_cover 3 (result V Cert.Focal.negE c) (flushed3 V c) fun i =>
    ⟨tL, (flush0_3 tL).mpr rfl, by
      show i ∈ ((View.whole main_v98_1).slice (win0_3.rect tL)).set
      rw [View.set_slice_whole, Rect.mem_set_unit]
      intro a
      have h0 : (i 0 : Nat) < 1 := (i 0).isLt
      have h1 : (i 1 : Nat) < 1 := (i 1).isLt
      match a with
      | ⟨0, _⟩ => show win0_3.index tL 0 * win0_3.size 0 ≤ (i 0 : Nat) ∧ (i 0 : Nat) < win0_3.index tL 0 * win0_3.size 0 + win0_3.xsize (grid0.coords tL) 0
                  rw [show win0_3.index tL 0 * win0_3.size 0 = 0 from by decide +kernel, show win0_3.xsize (grid0.coords tL) 0 = 1 from by decide +kernel]; omega
      | ⟨1, _⟩ => show win0_3.index tL 1 * win0_3.size 1 ≤ (i 1 : Nat) ∧ (i 1 : Nat) < win0_3.index tL 1 * win0_3.size 1 + win0_3.xsize (grid0.coords tL) 1
                  rw [show win0_3.index tL 1 * win0_3.size 1 = 0 from by decide +kernel, show win0_3.xsize (grid0.coords tL) 1 = 1 from by decide +kernel]; omega⟩

/-- Output 4's one write-back, after the last tile, writes the total: its block is the whole one-entry array. -/
theorem flushed4 (c : Dev nD) (t : Fin cfg0.N) (hf : (cfg0.win 4).flush t = true) :
    (dat0 (F := Ideal) V c).flushed 4 t
      = ((cfg0.win 4).blk t).view.read (Elt Ideal) (result V Cert.Focal.numE c : Buf (Elt Ideal) ((c : Thread nD τ).loc main_v98_2)) := by
  have hN : cfg0.N = 80 := N_0
  have h79 : t.val = 79 := by have := (flush0_4 t).mp hf; have := t.isLt; omega
  obtain rfl : t = tL := Fin.ext h79
  show (cfg0.win 4).cut (grid0.coords tL) ((dat0 V c).after 4 tL) = _
  rw [after0_4]
  have e : (outsAt0 (F := Ideal) V c tL.val tL.isLt).2.2 = result V Cert.Focal.numE c := funext fun j => outs4 V c 79 _ j
  rw [e]
  have hz' : (fun a => win0_4.index tL a * main_v98_2.ty.shape.size a) = fun _ => 0 :=
    funext fun a => by fin_cases a <;> decide +kernel
  exact (Memref.read_access_unit_zero (Elt Ideal) main_v98_2 hz' (fun a => by rw [congrFun hz' a]; simp) (result V Cert.Focal.numE c)).symm

/-- So output 4's array ends holding the total: the last tile's write-back covers its one entry. -/
theorem final4 (c : Dev nD) : (dat0 (F := Ideal) V c).arrAt 4 cfg0.N = result V Cert.Focal.numE c :=
  (dat0 V c).arrAt_eq_of_cover 4 (result V Cert.Focal.numE c) (flushed4 V c) fun i =>
    ⟨tL, (flush0_4 tL).mpr rfl, by
      show i ∈ ((View.whole main_v98_2).slice (win0_4.rect tL)).set
      rw [View.set_slice_whole, Rect.mem_set_unit]
      intro a
      have h0 : (i 0 : Nat) < 1 := (i 0).isLt
      have h1 : (i 1 : Nat) < 1 := (i 1).isLt
      match a with
      | ⟨0, _⟩ => show win0_4.index tL 0 * win0_4.size 0 ≤ (i 0 : Nat) ∧ (i 0 : Nat) < win0_4.index tL 0 * win0_4.size 0 + win0_4.xsize (grid0.coords tL) 0
                  rw [show win0_4.index tL 0 * win0_4.size 0 = 0 from by decide +kernel, show win0_4.xsize (grid0.coords tL) 0 = 1 from by decide +kernel]; omega
      | ⟨1, _⟩ => show win0_4.index tL 1 * win0_4.size 1 ≤ (i 1 : Nat) ∧ (i 1 : Nat) < win0_4.index tL 1 * win0_4.size 1 + win0_4.xsize (grid0.coords tL) 1
                  rw [show win0_4.index tL 1 * win0_4.size 1 = 0 from by decide +kernel, show win0_4.xsize (grid0.coords tL) 1 = 1 from by decide +kernel]; omega⟩

/-! ## The three totals -/

/-- Output 2's array after the region: the positive term summed over every entry of the two arrays. -/
theorem pos_total (c : Dev nD) (j : S1x1.Idx) :
    (Gen.dat0 (F := Ideal) V c).arrAt 2 cfg0.N j
      = ∑ i : Cert.Focal.SB.Idx, Cert.Focal.posE ((V c main_arg0 : S16x80x128x128.Idx → Ideal .f32) i) ((V c main_arg8 : S16x80x128x128.Idx → Ideal .f32) i) := by
  rw [final2]
  exact sum_tile_all V Cert.Focal.posE c

/-- Output 3's array after the region: the negative term summed over every entry of the two arrays. -/
theorem neg_total (c : Dev nD) (j : S1x1.Idx) :
    (Gen.dat0 (F := Ideal) V c).arrAt 3 cfg0.N j
      = ∑ i : Cert.Focal.SB.Idx, Cert.Focal.negE ((V c main_arg0 : S16x80x128x128.Idx → Ideal .f32) i) ((V c main_arg8 : S16x80x128x128.Idx → Ideal .f32) i) := by
  rw [final3]
  exact sum_tile_all V Cert.Focal.negE c

/-- Output 4's array after the region: the count summed over every entry of the two arrays. -/
theorem num_total (c : Dev nD) (j : S1x1.Idx) :
    (Gen.dat0 (F := Ideal) V c).arrAt 4 cfg0.N j
      = ∑ i : Cert.Focal.SB.Idx, Cert.Focal.numE ((V c main_arg0 : S16x80x128x128.Idx → Ideal .f32) i) ((V c main_arg8 : S16x80x128x128.Idx → Ideal .f32) i) := by
  rw [final4]
  exact sum_tile_all V Cert.Focal.numE c

end Cert.KernelIdeal.Region0
-- ==== Proof.Region1.lean ====
import proofs.«139319_j28071906246702_2_alg».proof.Proof.Gen.KernelIdeal.Frame
import proofs.«139319_j28071906246702_2_alg».proof.Proof.FocalSpec
import proofs.«139319_j28071906246702_2_alg».proof.Proof.TileIndex
import Idealize.ShloMosaic.PureOps.Ideal.Laws
import Idealize.ShloMosaic.Lib.Pipeline.Value
import Idealize.ShloMosaic.Lib.ValueIdx
import Idealize.ShloMosaic.Lib.Tactic

/-!
# The value of the second focal-loss region: the bottom-right corner heat maps

The region visits the 80 tiles of the predicted bottom-right corner heat map `x` and of its ground truth `y`, both of shape
[16, 80, 128, 128]. Three one-entry outputs are running totals: they are set to zero at the first tile, each tile adds
to them its own total of the positive term, of the negative term and of the count, and they are written to their arrays
after the last tile only.

This module reads those three arrays off the region's frame. What a tile adds is, at the ideal values, the double
sum over the tile's 2048 rows and 128 lanes of the entry-wise summand; a tile's entry is an entry of the whole array;
the running total after tile `n` is the sum of the tile totals up to `n`; so what is written after tile 79 is the sum
of the summand over every entry of the two arrays. Addition of extended reals is a commutative monoid, so the regrouping
of the sum needs no finiteness.
-/

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

/-! ## What one tile leaves in each output, as a pure value (any float instance) -/

section Pieces
variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- Past the first tile, output 2 holding `xo2` is left at `xo2` plus the positive term's block total: its one covering store's
    value, whose loads read the whole buffers. -/
theorem out_B_2 (c : Dev nD) (i : grid1.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond1_0 i) (x0 x1 : Vec F S1x16x128x128 .f32) (xo2 xo3 xo4 : Vec F S1x1 .f32) :
    out1_B_2 c i a2 h2 a3 h3 a4 h4 a5 h5 a6 h6 hc x0 x1 xo2 xo3 xo4 = k1_pay1 (k1_pay11 x0 x1) xo2 := by
  unfold out1_B_2
  rw [View.read_writes_eq_canon _ _ _ (cover1_B_2 c i a2 h2 a3 h3 a4 h4 a5 h5 a6 h6 hc x0 x1 xo2 xo3 xo4)]
  unfold kernelRun1_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- Past the first tile, output 3 holding `xo3` is left at `xo3` plus the negative term's block total: its one covering store's
    value, whose loads read the whole buffers. -/
theorem out_B_3 (c : Dev nD) (i : grid1.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond1_0 i) (x0 x1 : Vec F S1x16x128x128 .f32) (xo2 xo3 xo4 : Vec F S1x1 .f32) :
    out1_B_3 c i a2 h2 a3 h3 a4 h4 a5 h5 a6 h6 hc x0 x1 xo2 xo3 xo4 = k1_pay2 (k1_pay10 x0 x1) xo3 := by
  unfold out1_B_3
  rw [View.read_writes_eq_canon _ _ _ (cover1_B_3 c i a2 h2 a3 h3 a4 h4 a5 h5 a6 h6 hc x0 x1 xo2 xo3 xo4)]
  unfold kernelRun1_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- Past the first tile, output 4 holding `xo4` is left at `xo4` plus the count's block total: its one covering store's
    value, whose loads read the whole buffers. -/
theorem out_B_4 (c : Dev nD) (i : grid1.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond1_0 i) (x0 x1 : Vec F S1x16x128x128 .f32) (xo2 xo3 xo4 : Vec F S1x1 .f32) :
    out1_B_4 c i a2 h2 a3 h3 a4 h4 a5 h5 a6 h6 hc x0 x1 xo2 xo3 xo4 = k1_pay3 (k1_pay9 x1) xo4 := by
  unfold out1_B_4
  rw [View.read_writes_eq_canon _ _ _ (cover1_B_4 c i a2 h2 a3 h3 a4 h4 a5 h5 a6 h6 hc x0 x1 xo2 xo3 xo4)]
  unfold kernelRun1_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- At the first tile output 2 is first set to zero and that zero is read back, so it is left at zero plus
    the positive term's block total. -/
theorem out_A_2 (c : Dev nD) (i : grid1.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond1_0 i) (x0 x1 : Vec F S1x16x128x128 .f32) :
    out1_A_2 c i a2 h2 a3 h3 a4 h4 a5 h5 a6 h6 hc x0 x1 = k1_pay1 (k1_pay11 x0 x1) (k1_pay4 (F := F)) := by
  unfold out1_A_2
  rw [View.read_writes_eq_canon _ _ _ (cover1_A_2 c i a2 h2 a3 h3 a4 h4 a5 h5 a6 h6 hc x0 x1)]
  unfold kernelRun1_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- At the first tile output 3 is first set to zero and that zero is read back, so it is left at zero plus
    the negative term's block total. -/
theorem out_A_3 (c : Dev nD) (i : grid1.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond1_0 i) (x0 x1 : Vec F S1x16x128x128 .f32) :
    out1_A_3 c i a2 h2 a3 h3 a4 h4 a5 h5 a6 h6 hc x0 x1 = k1_pay2 (k1_pay10 x0 x1) (k1_pay5 (F := F)) := by
  unfold out1_A_3
  rw [View.read_writes_eq_canon _ _ _ (cover1_A_3 c i a2 h2 a3 h3 a4 h4 a5 h5 a6 h6 hc x0 x1)]
  unfold kernelRun1_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- At the first tile output 4 is first set to zero and that zero is read back, so it is left at zero plus
    the count's block total. -/
theorem out_A_4 (c : Dev nD) (i : grid1.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond1_0 i) (x0 x1 : Vec F S1x16x128x128 .f32) :
    out1_A_4 c i a2 h2 a3 h3 a4 h4 a5 h5 a6 h6 hc x0 x1 = k1_pay3 (k1_pay9 x1) (k1_pay6 (F := F)) := by
  unfold out1_A_4
  rw [View.read_writes_eq_canon _ _ _ (cover1_A_4 c i a2 h2 a3 h3 a4 h4 a5 h5 a6 h6 hc x0 x1)]
  unfold kernelRun1_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- A block's total as the body takes it: the block recast as 2048 rows of 128 lanes, each row's lanes summed, the row
    sums recast as a column, the column summed, the result recast as a one-entry block. -/
def tot (v : FVec F S1x16x128x128 .f32) : FVec F S1x1 .f32 :=
  shapeCast S1x1 (multiReduction .add [0] S1 (shapeCast S2048x1 (multiReduction .add [1] S2048
      (shapeCast S2048x128 v shapeCasts_S1x16x128x128_S2048x128) 0x00000000#32 reduces_S2048x128_S2048 (.inl rfl) rfl)
      shapeCasts_S2048_S2048x1) 0x00000000#32 reduces_S2048x1_S1 (.inl rfl) rfl) shapeCasts_S1_S1x1

/-- The positive term before its reduction, as the body multiplies it. -/
def posV (x0 x1 : Vec F S1x16x128x128 .f32) : FVec F S1x16x128x128 .f32 :=
  mulf (mulf (k1_pay9 x1) (log (k1_pay7 x0))) (mulf (k1_pay8 x0) (k1_pay8 x0))

/-- Output 2's new value: the old one plus the positive term's block total. -/
theorem pay1_eq (x0 x1 : Vec F S1x16x128x128 .f32) (xo : Vec F S1x1 .f32) :
    k1_pay1 (k1_pay11 x0 x1) xo = addf (shapeCast S1x1 xo shapeCasts_S1x1_S1x1) (tot (posV x0 x1)) := rfl
/-- Output 3's new value: the old one plus the block total of `v`. -/
theorem pay2_eq (v : FVec F S1x16x128x128 .f32) (xo : Vec F S1x1 .f32) :
    k1_pay2 v xo = addf (shapeCast S1x1 xo shapeCasts_S1x1_S1x1) (tot v) := rfl
/-- Output 4's new value: the old one plus the block total of `v`. -/
theorem pay3_eq (v : FVec F S1x16x128x128 .f32) (xo : Vec F S1x1 .f32) :
    k1_pay3 v xo = addf (shapeCast S1x1 xo shapeCasts_S1x1_S1x1) (tot v) := rfl

end Pieces

/-! ## A block's total at the ideal values: the double sum over rows and lanes -/

/-- Entry `l` of row `r` of a block laid out as 2048 rows of 128 lanes: channel `r / 128`, image row `r % 128`. -/
def bidx (r : Fin 2048) (l : Fin 128) : S1x16x128x128.Idx :=
  ix4 (0 : Fin 1) (⟨r.val / 128, by omega⟩ : Fin 16) (⟨r.val % 128, by omega⟩ : Fin 128) l

/-- The block recast as 2048 rows of 128 lanes, read at row `r`, lane `l`: both have row-major position `128 r + l`. -/
theorem rows_apply {α : Type} (v : S1x16x128x128.Idx → α) (h : S1x16x128x128.ShapeCasts S2048x128) (r : Fin 2048) (l : Fin 128) :
    shapeCast S2048x128 v h (ix2 r l) = v (bidx r l) :=
  shapeCast_apply v h (ix2 r l) (bidx r l) (by
    rw [Shape.rowMajor_val_four, Shape.rowMajor_val_two]
    show ((0 * 16 + r.val / 128) * 128 + r.val % 128) * 128 + l.val = r.val * 128 + l.val
    omega)

/-- At the ideal values a block's total is the double sum over its rows and lanes: each reduction is the sum over the
    reduced axis, each recast keeps the row-major position. -/
theorem tot_apply (v : FVec Ideal S1x16x128x128 .f32) (j : S1x1.Idx) :
    tot v j = ∑ r : Fin 2048, ∑ l : Fin 128, v (bidx r l) := by
  unfold tot
  refine (shapeCast_apply _ _ j (ix1 (0 : Fin 1)) ?_).trans ?_
  · rw [Shape.rowMajor_val_one, Shape.rowMajor_val_two]
    have h0 := (j 0).isLt; have h1 := (j 1).isLt
    show (0 : Nat) = (j 0).val * 1 + (j 1).val
    change (j 0).val < 1 at h0; change (j 1).val < 1 at h1
    omega
  refine (Ideal.multiReduction_add_single _ _ reduces_S2048x1_S1 (.inl rfl) rfl _).trans ?_
  refine Finset.sum_congr rfl fun r _ => ?_
  refine (shapeCast_apply _ _ _ (ix1 r) ?_).trans ?_
  · rw [Shape.rowMajor_val_one, Shape.rowMajor_val_two]
    show r.val = r.val * 1 + 0
    omega
  refine (Ideal.multiReduction_add_single _ _ reduces_S2048x128_S2048 (.inl rfl) rfl _).trans ?_
  refine Finset.sum_congr rfl fun l _ => ?_
  exact rows_apply v _ r l

/-- A one-bit word widened to 32 bits and read as a signed integer is the bit read unsigned: both are `0` or `1`. -/
theorem mask_eq (b : BitVec 1) : (FloatOps.sitofp .f32 (b.setWidth 32) : Ideal .f32) = FloatOps.uitofp .f32 b := by
  have h : ∀ b : BitVec 1, (b.setWidth 32).toInt = (b.toNat : Int) := by decide
  show (((b.setWidth 32).toInt : ℝ) : EReal) = ((b.toNat : ℝ) : EReal)
  rw [h b, Int.cast_natCast]

/-- The clipped probability, entry by entry. -/
theorem pay7_apply (x0 : Vec Ideal S1x16x128x128 .f32) (i : S1x16x128x128.Idx) :
    k1_pay7 x0 i = Cert.Focal.prob (x0 i) := rfl

/-- One minus it. -/
theorem pay8_apply (x0 : Vec Ideal S1x16x128x128 .f32) (i : S1x16x128x128.Idx) :
    k1_pay8 x0 i = FloatOps.subf Cert.Focal.one (Cert.Focal.prob (x0 i)) := rfl

/-- The count's summand, entry by entry: the mask `[y = 1]`. -/
theorem pay9_apply (x : Ideal .f32) (x1 : Vec Ideal S1x16x128x128 .f32) (i : S1x16x128x128.Idx) :
    k1_pay9 x1 i = Cert.Focal.numE x (x1 i) := by
  unfold Cert.Focal.numE Cert.Focal.isOne
  rw [← mask_eq]
  rfl

/-- The negative term, entry by entry. -/
theorem pay10_apply (x0 x1 : Vec Ideal S1x16x128x128 .f32) (i : S1x16x128x128.Idx) :
    k1_pay10 x0 x1 i = Cert.Focal.negE (x0 i) (x1 i) := by
  unfold Cert.Focal.negE Cert.Focal.ltOne
  rw [← mask_eq]
  rfl

/-- The positive term, entry by entry. -/
theorem posV_apply (x0 x1 : Vec Ideal S1x16x128x128 .f32) (i : S1x16x128x128.Idx) :
    posV x0 x1 i = Cert.Focal.posE (x0 i) (x1 i) := by
  unfold Cert.Focal.posE Cert.Focal.isOne
  rw [← mask_eq]
  rfl

/-- The zero the first tile stores, at its one index. -/
theorem zero2_apply (j : S1x1.Idx) : (k1_pay4 (F := Ideal)) j = 0 := Ideal.ofBits_zero_f32
theorem zero3_apply (j : S1x1.Idx) : (k1_pay5 (F := Ideal)) j = 0 := Ideal.ofBits_zero_f32
theorem zero4_apply (j : S1x1.Idx) : (k1_pay6 (F := Ideal)) j = 0 := Ideal.ofBits_zero_f32

/-- The old value plus a block's total, at the one index. -/
theorem acc_apply (v : FVec Ideal S1x16x128x128 .f32) (xo : Vec Ideal S1x1 .f32) (j : S1x1.Idx) :
    addf (shapeCast S1x1 xo shapeCasts_S1x1_S1x1) (tot v) j = xo j + ∑ r : Fin 2048, ∑ l : Fin 128, v (bidx r l) := by
  rw [addf_apply, shapeCast_self, tot_apply]

/-- Output 2 after a tile: the old value plus the sum of the positive term over the tile's entries. -/
theorem acc2_apply (x0 x1 : Vec Ideal S1x16x128x128 .f32) (xo : Vec Ideal S1x1 .f32) (j : S1x1.Idx) :
    k1_pay1 (k1_pay11 x0 x1) xo j
      = xo j + ∑ r : Fin 2048, ∑ l : Fin 128, Cert.Focal.posE (x0 (bidx r l)) (x1 (bidx r l)) := by
  rw [pay1_eq, acc_apply]
  exact congrArg _ (Finset.sum_congr rfl fun r _ => Finset.sum_congr rfl fun l _ => posV_apply x0 x1 _)

/-- Output 3 after a tile: the old value plus the sum of the negative term over the tile's entries. -/
theorem acc3_apply (x0 x1 : Vec Ideal S1x16x128x128 .f32) (xo : Vec Ideal S1x1 .f32) (j : S1x1.Idx) :
    k1_pay2 (k1_pay10 x0 x1) xo j
      = xo j + ∑ r : Fin 2048, ∑ l : Fin 128, Cert.Focal.negE (x0 (bidx r l)) (x1 (bidx r l)) := by
  rw [pay2_eq, acc_apply]
  exact congrArg _ (Finset.sum_congr rfl fun r _ => Finset.sum_congr rfl fun l _ => pay10_apply x0 x1 _)

/-- Output 4 after a tile: the old value plus the count over the tile's entries (the count's summand does not look at
    the predicted map, so any block `x0` may stand in its first place). -/
theorem acc4_apply (x0 x1 : Vec Ideal S1x16x128x128 .f32) (xo : Vec Ideal S1x1 .f32) (j : S1x1.Idx) :
    k1_pay3 (k1_pay9 x1) xo j
      = xo j + ∑ r : Fin 2048, ∑ l : Fin 128, Cert.Focal.numE (x0 (bidx r l)) (x1 (bidx r l)) := by
  rw [pay3_eq, acc_apply]
  exact congrArg _ (Finset.sum_congr rfl fun r _ => Finset.sum_congr rfl fun l _ => pay9_apply (x0 _) x1 _)

/-! ## A tile's entries are entries of the whole arrays -/

variable (V : (c : Dev nD) → (b : Ref sig .tc) → Buf (Elt Ideal) ((c : Thread nD τ).loc b))

/-- Window 0's block index at point `t`: batch entry `t / 5`, channel group `t % 5`, the whole image. -/
theorem index1_0 : ∀ t : Fin cfg1.N, win1_0.index t 0 = t.val / 5 ∧ win1_0.index t 1 = t.val % 5 ∧ win1_0.index t 2 = 0 ∧ win1_0.index t 3 = 0 :=
  (by decide +kernel : ∀ t : Fin grid1.N, win1_0.index t 0 = t.val / 5 ∧ win1_0.index t 1 = t.val % 5 ∧ win1_0.index t 2 = 0 ∧ win1_0.index t 3 = 0)

/-- Entry `(r, l)` of window 0's block at point `t` is the predicted map's entry at the tile's array index. -/
theorem iblk1_0_apply (c : Dev nD) (t : Fin cfg1.N) (r : Fin 2048) (l : Fin 128) :
    (iblk1 (F := Ideal) V c 0 t : Vec Ideal S1x16x128x128 .f32) (bidx r l)
      = (V c main_arg1 : S16x80x128x128.Idx → Ideal .f32) (Cert.Focal.gidx (t.cast N_1) r l) := by
  unfold iblk1
  rw [View.read_apply]
  show V c main_arg1 _ = V c main_arg1 _
  congr 1
  funext a
  apply Fin.ext
  obtain ⟨i0, i1, i2, i3⟩ := index1_0 t
  match a with
  | ⟨0, _⟩ => show win1_0.index t 0 * 1 + 1 * 0 = t.val / 5; rw [i0]; omega
  | ⟨1, _⟩ => show win1_0.index t 1 * 16 + 1 * (r.val / 128) = 16 * (t.val % 5) + r.val / 128; rw [i1]; omega
  | ⟨2, _⟩ => show win1_0.index t 2 * 128 + 1 * (r.val % 128) = r.val % 128; rw [i2]; omega
  | ⟨3, _⟩ => show win1_0.index t 3 * 128 + 1 * l.val = l.val; rw [i3]; omega

/-- Window 1's block index at point `t`: the same. -/
theorem index1_1 : ∀ t : Fin cfg1.N, win1_1.index t 0 = t.val / 5 ∧ win1_1.index t 1 = t.val % 5 ∧ win1_1.index t 2 = 0 ∧ win1_1.index t 3 = 0 :=
  (by decide +kernel : ∀ t : Fin grid1.N, win1_1.index t 0 = t.val / 5 ∧ win1_1.index t 1 = t.val % 5 ∧ win1_1.index t 2 = 0 ∧ win1_1.index t 3 = 0)

/-- Entry `(r, l)` of window 1's block at point `t` is the ground truth's entry at the tile's array index. -/
theorem iblk1_1_apply (c : Dev nD) (t : Fin cfg1.N) (r : Fin 2048) (l : Fin 128) :
    (iblk1 (F := Ideal) V c 1 t : Vec Ideal S1x16x128x128 .f32) (bidx r l)
      = (V c main_arg9 : S16x80x128x128.Idx → Ideal .f32) (Cert.Focal.gidx (t.cast N_1) r l) := by
  unfold iblk1
  rw [View.read_apply]
  show V c main_arg9 _ = V c main_arg9 _
  congr 1
  funext a
  apply Fin.ext
  obtain ⟨i0, i1, i2, i3⟩ := index1_1 t
  match a with
  | ⟨0, _⟩ => show win1_1.index t 0 * 1 + 1 * 0 = t.val / 5; rw [i0]; omega
  | ⟨1, _⟩ => show win1_1.index t 1 * 16 + 1 * (r.val / 128) = 16 * (t.val % 5) + r.val / 128; rw [i1]; omega
  | ⟨2, _⟩ => show win1_1.index t 2 * 128 + 1 * (r.val % 128) = r.val % 128; rw [i2]; omega
  | ⟨3, _⟩ => show win1_1.index t 3 * 128 + 1 * l.val = l.val; rw [i3]; omega

/-- The sum of a summand `f` over tile `t` of the two arrays (zero past the last tile, so that it can be summed over a
    range of naturals). -/
def tile (f : Ideal .f32 → Ideal .f32 → Ideal .f32) (c : Dev nD) (t : ℕ) : Ideal .f32 :=
  if h : t < 80 then ∑ r : Fin 2048, ∑ l : Fin 128,
    f ((V c main_arg1 : S16x80x128x128.Idx → Ideal .f32) (Cert.Focal.gidx ⟨t, h⟩ r l))
      ((V c main_arg9 : S16x80x128x128.Idx → Ideal .f32) (Cert.Focal.gidx ⟨t, h⟩ r l))
  else 0

/-- The double sum of `f` over two blocks that hold tile `t` of the two arrays is that tile's sum. -/
theorem blocks_tile (f : Ideal .f32 → Ideal .f32 → Ideal .f32) (c : Dev nD) (t : Fin cfg1.N)
    (x0 x1 : Vec Ideal S1x16x128x128 .f32)
    (h0 : ∀ r l, x0 (bidx r l) = (V c main_arg1 : S16x80x128x128.Idx → Ideal .f32) (Cert.Focal.gidx (t.cast N_1) r l))
    (h1 : ∀ r l, x1 (bidx r l) = (V c main_arg9 : S16x80x128x128.Idx → Ideal .f32) (Cert.Focal.gidx (t.cast N_1) r l)) :
    ∑ r : Fin 2048, ∑ l : Fin 128, f (x0 (bidx r l)) (x1 (bidx r l)) = tile V f c t.val := by
  have ht : t.val < 80 := lt_of_lt_of_eq t.isLt N_1
  unfold tile
  rw [dif_pos ht]
  refine Finset.sum_congr rfl fun r _ => Finset.sum_congr rfl fun l _ => ?_
  rw [h0, h1]
  rfl

/-! ## The running totals, tile after tile -/

/-- After tile `n` output 2 holds the sum of the tiles' sums up to `n`: zero plus the first tile's at the first tile, the
    value before plus the tile's afterwards. -/
theorem outs2 (c : Dev nD) : ∀ (n : ℕ) (h : n < cfg1.N) (j : S1x1.Idx),
    (outsAt1 (F := Ideal) V c n h).1 j = ∑ t ∈ Finset.range (n + 1), tile V Cert.Focal.posE c t
  | 0, h, j => by
    rw [outsAt1_A V c ⟨0, h⟩ rfl]
    dsimp only
    rw [out_A_2 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩),
      acc2_apply (iblk1 V c 0 ⟨0, h⟩) (iblk1 V c 1 ⟨0, h⟩), zero2_apply, zero_add, Finset.sum_range_one]
    exact blocks_tile V Cert.Focal.posE c ⟨0, h⟩ (iblk1 V c 0 ⟨0, h⟩) (iblk1 V c 1 ⟨0, h⟩) (iblk1_0_apply V c ⟨0, h⟩) (iblk1_1_apply V c ⟨0, h⟩)
  | n + 1, h, j => by
    have hN : cfg1.N = 80 := N_1
    have hB : ¬(⟨n + 1, h⟩ : Fin cfg1.N).val % 80 = 0 := by dsimp only; omega
    rw [outsAt1_B V c ⟨n + 1, h⟩ hB]
    dsimp only
    rw [out_B_2 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩),
      acc2_apply (iblk1 V c 0 ⟨n + 1, h⟩) (iblk1 V c 1 ⟨n + 1, h⟩), Finset.sum_range_succ]
    show (outsAt1 V c n _).1 j + _ = _
    rw [outs2 c n _ j]
    exact congrArg _ (blocks_tile V Cert.Focal.posE c ⟨n + 1, h⟩ (iblk1 V c 0 ⟨n + 1, h⟩) (iblk1 V c 1 ⟨n + 1, h⟩) (iblk1_0_apply V c ⟨n + 1, h⟩) (iblk1_1_apply V c ⟨n + 1, h⟩))

/-- After tile `n` output 3 holds the sum of the tiles' sums up to `n`: zero plus the first tile's at the first tile, the
    value before plus the tile's afterwards. -/
theorem outs3 (c : Dev nD) : ∀ (n : ℕ) (h : n < cfg1.N) (j : S1x1.Idx),
    (outsAt1 (F := Ideal) V c n h).2.1 j = ∑ t ∈ Finset.range (n + 1), tile V Cert.Focal.negE c t
  | 0, h, j => by
    rw [outsAt1_A V c ⟨0, h⟩ rfl]
    dsimp only
    rw [out_A_3 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩),
      acc3_apply (iblk1 V c 0 ⟨0, h⟩) (iblk1 V c 1 ⟨0, h⟩), zero3_apply, zero_add, Finset.sum_range_one]
    exact blocks_tile V Cert.Focal.negE c ⟨0, h⟩ (iblk1 V c 0 ⟨0, h⟩) (iblk1 V c 1 ⟨0, h⟩) (iblk1_0_apply V c ⟨0, h⟩) (iblk1_1_apply V c ⟨0, h⟩)
  | n + 1, h, j => by
    have hN : cfg1.N = 80 := N_1
    have hB : ¬(⟨n + 1, h⟩ : Fin cfg1.N).val % 80 = 0 := by dsimp only; omega
    rw [outsAt1_B V c ⟨n + 1, h⟩ hB]
    dsimp only
    rw [out_B_3 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩),
      acc3_apply (iblk1 V c 0 ⟨n + 1, h⟩) (iblk1 V c 1 ⟨n + 1, h⟩), Finset.sum_range_succ]
    show (outsAt1 V c n _).2.1 j + _ = _
    rw [outs3 c n _ j]
    exact congrArg _ (blocks_tile V Cert.Focal.negE c ⟨n + 1, h⟩ (iblk1 V c 0 ⟨n + 1, h⟩) (iblk1 V c 1 ⟨n + 1, h⟩) (iblk1_0_apply V c ⟨n + 1, h⟩) (iblk1_1_apply V c ⟨n + 1, h⟩))

/-- After tile `n` output 4 holds the sum of the tiles' sums up to `n`: zero plus the first tile's at the first tile, the
    value before plus the tile's afterwards. -/
theorem outs4 (c : Dev nD) : ∀ (n : ℕ) (h : n < cfg1.N) (j : S1x1.Idx),
    (outsAt1 (F := Ideal) V c n h).2.2 j = ∑ t ∈ Finset.range (n + 1), tile V Cert.Focal.numE c t
  | 0, h, j => by
    rw [outsAt1_A V c ⟨0, h⟩ rfl]
    dsimp only
    rw [out_A_4 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩),
      acc4_apply (iblk1 V c 0 ⟨0, h⟩) (iblk1 V c 1 ⟨0, h⟩), zero4_apply, zero_add, Finset.sum_range_one]
    exact blocks_tile V Cert.Focal.numE c ⟨0, h⟩ (iblk1 V c 0 ⟨0, h⟩) (iblk1 V c 1 ⟨0, h⟩) (iblk1_0_apply V c ⟨0, h⟩) (iblk1_1_apply V c ⟨0, h⟩)
  | n + 1, h, j => by
    have hN : cfg1.N = 80 := N_1
    have hB : ¬(⟨n + 1, h⟩ : Fin cfg1.N).val % 80 = 0 := by dsimp only; omega
    rw [outsAt1_B V c ⟨n + 1, h⟩ hB]
    dsimp only
    rw [out_B_4 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩),
      acc4_apply (iblk1 V c 0 ⟨n + 1, h⟩) (iblk1 V c 1 ⟨n + 1, h⟩), Finset.sum_range_succ]
    show (outsAt1 V c n _).2.2 j + _ = _
    rw [outs4 c n _ j]
    exact congrArg _ (blocks_tile V Cert.Focal.numE c ⟨n + 1, h⟩ (iblk1 V c 0 ⟨n + 1, h⟩) (iblk1 V c 1 ⟨n + 1, h⟩) (iblk1_0_apply V c ⟨n + 1, h⟩) (iblk1_1_apply V c ⟨n + 1, h⟩))

/-! ## The arrays after the last tile -/

/-- The last tile. -/
abbrev tL : Fin cfg1.N := ⟨79, by rw [show cfg1.N = 80 from N_1]; decide⟩

/-- What a running total of the summand `f` ends at: the sum of all 80 tiles' sums, at the one index. -/
abbrev result (f : Ideal .f32 → Ideal .f32 → Ideal .f32) (c : Dev nD) : Vec Ideal S1x1 .f32 :=
  fun _ => ∑ t ∈ Finset.range 80, tile V f c t

/-- The tiles' sums together are the sum over every entry of the two arrays. -/
theorem sum_tile_all (f : Ideal .f32 → Ideal .f32 → Ideal .f32) (c : Dev nD) :
    ∑ t ∈ Finset.range 80, tile V f c t
      = ∑ i : Cert.Focal.SB.Idx, f ((V c main_arg1 : S16x80x128x128.Idx → Ideal .f32) i) ((V c main_arg9 : S16x80x128x128.Idx → Ideal .f32) i) := by
  rw [Finset.sum_range (fun t => tile V f c t), ← Cert.Focal.sum_tiles]
  refine Finset.sum_congr rfl fun t _ => ?_
  unfold tile
  rw [dif_pos t.isLt]

/-- Output 2's one write-back, after the last tile, writes the total: its block is the whole one-entry array. -/
theorem flushed2 (c : Dev nD) (t : Fin cfg1.N) (hf : (cfg1.win 2).flush t = true) :
    (dat1 (F := Ideal) V c).flushed 2 t
      = ((cfg1.win 2).blk t).view.read (Elt Ideal) (result V Cert.Focal.posE c : Buf (Elt Ideal) ((c : Thread nD τ).loc main_v108_0)) := by
  have hN : cfg1.N = 80 := N_1
  have h79 : t.val = 79 := by have := (flush1_2 t).mp hf; have := t.isLt; omega
  obtain rfl : t = tL := Fin.ext h79
  show (cfg1.win 2).cut (grid1.coords tL) ((dat1 V c).after 2 tL) = _
  rw [after1_2]
  have e : (outsAt1 (F := Ideal) V c tL.val tL.isLt).1 = result V Cert.Focal.posE c := funext fun j => outs2 V c 79 _ j
  rw [e]
  have hz' : (fun a => win1_2.index tL a * main_v108_0.ty.shape.size a) = fun _ => 0 :=
    funext fun a => by fin_cases a <;> decide +kernel
  exact (Memref.read_access_unit_zero (Elt Ideal) main_v108_0 hz' (fun a => by rw [congrFun hz' a]; simp) (result V Cert.Focal.posE c)).symm

/-- So output 2's array ends holding the total: the last tile's write-back covers its one entry. -/
theorem final2 (c : Dev nD) : (dat1 (F := Ideal) V c).arrAt 2 cfg1.N = result V Cert.Focal.posE c :=
  (dat1 V c).arrAt_eq_of_cover 2 (result V Cert.Focal.posE c) (flushed2 V c) fun i =>
    ⟨tL, (flush1_2 tL).mpr rfl, by
      show i ∈ ((View.whole main_v108_0).slice (win1_2.rect tL)).set
      rw [View.set_slice_whole, Rect.mem_set_unit]
      intro a
      have h0 : (i 0 : Nat) < 1 := (i 0).isLt
      have h1 : (i 1 : Nat) < 1 := (i 1).isLt
      match a with
      | ⟨0, _⟩ => show win1_2.index tL 0 * win1_2.size 0 ≤ (i 0 : Nat) ∧ (i 0 : Nat) < win1_2.index tL 0 * win1_2.size 0 + win1_2.xsize (grid1.coords tL) 0
                  rw [show win1_2.index tL 0 * win1_2.size 0 = 0 from by decide +kernel, show win1_2.xsize (grid1.coords tL) 0 = 1 from by decide +kernel]; omega
      | ⟨1, _⟩ => show win1_2.index tL 1 * win1_2.size 1 ≤ (i 1 : Nat) ∧ (i 1 : Nat) < win1_2.index tL 1 * win1_2.size 1 + win1_2.xsize (grid1.coords tL) 1
                  rw [show win1_2.index tL 1 * win1_2.size 1 = 0 from by decide +kernel, show win1_2.xsize (grid1.coords tL) 1 = 1 from by decide +kernel]; omega⟩

/-- Output 3's one write-back, after the last tile, writes the total: its block is the whole one-entry array. -/
theorem flushed3 (c : Dev nD) (t : Fin cfg1.N) (hf : (cfg1.win 3).flush t = true) :
    (dat1 (F := Ideal) V c).flushed 3 t
      = ((cfg1.win 3).blk t).view.read (Elt Ideal) (result V Cert.Focal.negE c : Buf (Elt Ideal) ((c : Thread nD τ).loc main_v108_1)) := by
  have hN : cfg1.N = 80 := N_1
  have h79 : t.val = 79 := by have := (flush1_3 t).mp hf; have := t.isLt; omega
  obtain rfl : t = tL := Fin.ext h79
  show (cfg1.win 3).cut (grid1.coords tL) ((dat1 V c).after 3 tL) = _
  rw [after1_3]
  have e : (outsAt1 (F := Ideal) V c tL.val tL.isLt).2.1 = result V Cert.Focal.negE c := funext fun j => outs3 V c 79 _ j
  rw [e]
  have hz' : (fun a => win1_3.index tL a * main_v108_1.ty.shape.size a) = fun _ => 0 :=
    funext fun a => by fin_cases a <;> decide +kernel
  exact (Memref.read_access_unit_zero (Elt Ideal) main_v108_1 hz' (fun a => by rw [congrFun hz' a]; simp) (result V Cert.Focal.negE c)).symm

/-- So output 3's array ends holding the total: the last tile's write-back covers its one entry. -/
theorem final3 (c : Dev nD) : (dat1 (F := Ideal) V c).arrAt 3 cfg1.N = result V Cert.Focal.negE c :=
  (dat1 V c).arrAt_eq_of_cover 3 (result V Cert.Focal.negE c) (flushed3 V c) fun i =>
    ⟨tL, (flush1_3 tL).mpr rfl, by
      show i ∈ ((View.whole main_v108_1).slice (win1_3.rect tL)).set
      rw [View.set_slice_whole, Rect.mem_set_unit]
      intro a
      have h0 : (i 0 : Nat) < 1 := (i 0).isLt
      have h1 : (i 1 : Nat) < 1 := (i 1).isLt
      match a with
      | ⟨0, _⟩ => show win1_3.index tL 0 * win1_3.size 0 ≤ (i 0 : Nat) ∧ (i 0 : Nat) < win1_3.index tL 0 * win1_3.size 0 + win1_3.xsize (grid1.coords tL) 0
                  rw [show win1_3.index tL 0 * win1_3.size 0 = 0 from by decide +kernel, show win1_3.xsize (grid1.coords tL) 0 = 1 from by decide +kernel]; omega
      | ⟨1, _⟩ => show win1_3.index tL 1 * win1_3.size 1 ≤ (i 1 : Nat) ∧ (i 1 : Nat) < win1_3.index tL 1 * win1_3.size 1 + win1_3.xsize (grid1.coords tL) 1
                  rw [show win1_3.index tL 1 * win1_3.size 1 = 0 from by decide +kernel, show win1_3.xsize (grid1.coords tL) 1 = 1 from by decide +kernel]; omega⟩

/-- Output 4's one write-back, after the last tile, writes the total: its block is the whole one-entry array. -/
theorem flushed4 (c : Dev nD) (t : Fin cfg1.N) (hf : (cfg1.win 4).flush t = true) :
    (dat1 (F := Ideal) V c).flushed 4 t
      = ((cfg1.win 4).blk t).view.read (Elt Ideal) (result V Cert.Focal.numE c : Buf (Elt Ideal) ((c : Thread nD τ).loc main_v108_2)) := by
  have hN : cfg1.N = 80 := N_1
  have h79 : t.val = 79 := by have := (flush1_4 t).mp hf; have := t.isLt; omega
  obtain rfl : t = tL := Fin.ext h79
  show (cfg1.win 4).cut (grid1.coords tL) ((dat1 V c).after 4 tL) = _
  rw [after1_4]
  have e : (outsAt1 (F := Ideal) V c tL.val tL.isLt).2.2 = result V Cert.Focal.numE c := funext fun j => outs4 V c 79 _ j
  rw [e]
  have hz' : (fun a => win1_4.index tL a * main_v108_2.ty.shape.size a) = fun _ => 0 :=
    funext fun a => by fin_cases a <;> decide +kernel
  exact (Memref.read_access_unit_zero (Elt Ideal) main_v108_2 hz' (fun a => by rw [congrFun hz' a]; simp) (result V Cert.Focal.numE c)).symm

/-- So output 4's array ends holding the total: the last tile's write-back covers its one entry. -/
theorem final4 (c : Dev nD) : (dat1 (F := Ideal) V c).arrAt 4 cfg1.N = result V Cert.Focal.numE c :=
  (dat1 V c).arrAt_eq_of_cover 4 (result V Cert.Focal.numE c) (flushed4 V c) fun i =>
    ⟨tL, (flush1_4 tL).mpr rfl, by
      show i ∈ ((View.whole main_v108_2).slice (win1_4.rect tL)).set
      rw [View.set_slice_whole, Rect.mem_set_unit]
      intro a
      have h0 : (i 0 : Nat) < 1 := (i 0).isLt
      have h1 : (i 1 : Nat) < 1 := (i 1).isLt
      match a with
      | ⟨0, _⟩ => show win1_4.index tL 0 * win1_4.size 0 ≤ (i 0 : Nat) ∧ (i 0 : Nat) < win1_4.index tL 0 * win1_4.size 0 + win1_4.xsize (grid1.coords tL) 0
                  rw [show win1_4.index tL 0 * win1_4.size 0 = 0 from by decide +kernel, show win1_4.xsize (grid1.coords tL) 0 = 1 from by decide +kernel]; omega
      | ⟨1, _⟩ => show win1_4.index tL 1 * win1_4.size 1 ≤ (i 1 : Nat) ∧ (i 1 : Nat) < win1_4.index tL 1 * win1_4.size 1 + win1_4.xsize (grid1.coords tL) 1
                  rw [show win1_4.index tL 1 * win1_4.size 1 = 0 from by decide +kernel, show win1_4.xsize (grid1.coords tL) 1 = 1 from by decide +kernel]; omega⟩

/-! ## The three totals -/

/-- Output 2's array after the region: the positive term summed over every entry of the two arrays. -/
theorem pos_total (c : Dev nD) (j : S1x1.Idx) :
    (Gen.dat1 (F := Ideal) V c).arrAt 2 cfg1.N j
      = ∑ i : Cert.Focal.SB.Idx, Cert.Focal.posE ((V c main_arg1 : S16x80x128x128.Idx → Ideal .f32) i) ((V c main_arg9 : S16x80x128x128.Idx → Ideal .f32) i) := by
  rw [final2]
  exact sum_tile_all V Cert.Focal.posE c

/-- Output 3's array after the region: the negative term summed over every entry of the two arrays. -/
theorem neg_total (c : Dev nD) (j : S1x1.Idx) :
    (Gen.dat1 (F := Ideal) V c).arrAt 3 cfg1.N j
      = ∑ i : Cert.Focal.SB.Idx, Cert.Focal.negE ((V c main_arg1 : S16x80x128x128.Idx → Ideal .f32) i) ((V c main_arg9 : S16x80x128x128.Idx → Ideal .f32) i) := by
  rw [final3]
  exact sum_tile_all V Cert.Focal.negE c

/-- Output 4's array after the region: the count summed over every entry of the two arrays. -/
theorem num_total (c : Dev nD) (j : S1x1.Idx) :
    (Gen.dat1 (F := Ideal) V c).arrAt 4 cfg1.N j
      = ∑ i : Cert.Focal.SB.Idx, Cert.Focal.numE ((V c main_arg1 : S16x80x128x128.Idx → Ideal .f32) i) ((V c main_arg9 : S16x80x128x128.Idx → Ideal .f32) i) := by
  rw [final4]
  exact sum_tile_all V Cert.Focal.numE c

end Cert.KernelIdeal.Region1
-- ==== Proof.Region2.lean ====
import proofs.«139319_j28071906246702_2_alg».proof.Proof.Gen.KernelIdeal.Frame
import proofs.«139319_j28071906246702_2_alg».proof.Proof.FocalSpec
import proofs.«139319_j28071906246702_2_alg».proof.Proof.TileIndex
import Idealize.ShloMosaic.PureOps.Ideal.Laws
import Idealize.ShloMosaic.Lib.Pipeline.Value
import Idealize.ShloMosaic.Lib.ValueIdx
import Idealize.ShloMosaic.Lib.Tactic

/-!
# The value of the third focal-loss region: the centre heat maps

The region visits the 80 tiles of the predicted centre heat map `x` and of its ground truth `y`, both of shape
[16, 80, 128, 128]. Three one-entry outputs are running totals: they are set to zero at the first tile, each tile adds
to them its own total of the positive term, of the negative term and of the count, and they are written to their arrays
after the last tile only.

This module reads those three arrays off the region's frame. What a tile adds is, at the ideal values, the double
sum over the tile's 2048 rows and 128 lanes of the entry-wise summand; a tile's entry is an entry of the whole array;
the running total after tile `n` is the sum of the tile totals up to `n`; so what is written after tile 79 is the sum
of the summand over every entry of the two arrays. Addition of extended reals is a commutative monoid, so the regrouping
of the sum needs no finiteness.
-/

noncomputable section

open Idealize.ShloMosaic Idealize.ShloMosaic.TcCoe Idealize.SL.Sem
open Idealize.ShloMosaic.Pipeline (Dat)
open Idealize.ShloMosaic.ValueIdx

namespace Cert.KernelIdeal.Region2

open Cert.KernelIdeal Cert.KernelIdeal.Gen

/-! ## What one tile leaves in each output, as a pure value (any float instance) -/

section Pieces
variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- Past the first tile, output 2 holding `xo2` is left at `xo2` plus the positive term's block total: its one covering store's
    value, whose loads read the whole buffers. -/
theorem out_B_2 (c : Dev nD) (i : grid2.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond2_0 i) (x0 x1 : Vec F S1x16x128x128 .f32) (xo2 xo3 xo4 : Vec F S1x1 .f32) :
    out2_B_2 c i a2 h2 a3 h3 a4 h4 a5 h5 a6 h6 hc x0 x1 xo2 xo3 xo4 = k2_pay1 (k2_pay11 x0 x1) xo2 := by
  unfold out2_B_2
  rw [View.read_writes_eq_canon _ _ _ (cover2_B_2 c i a2 h2 a3 h3 a4 h4 a5 h5 a6 h6 hc x0 x1 xo2 xo3 xo4)]
  unfold kernelRun2_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- Past the first tile, output 3 holding `xo3` is left at `xo3` plus the negative term's block total: its one covering store's
    value, whose loads read the whole buffers. -/
theorem out_B_3 (c : Dev nD) (i : grid2.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond2_0 i) (x0 x1 : Vec F S1x16x128x128 .f32) (xo2 xo3 xo4 : Vec F S1x1 .f32) :
    out2_B_3 c i a2 h2 a3 h3 a4 h4 a5 h5 a6 h6 hc x0 x1 xo2 xo3 xo4 = k2_pay2 (k2_pay10 x0 x1) xo3 := by
  unfold out2_B_3
  rw [View.read_writes_eq_canon _ _ _ (cover2_B_3 c i a2 h2 a3 h3 a4 h4 a5 h5 a6 h6 hc x0 x1 xo2 xo3 xo4)]
  unfold kernelRun2_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- Past the first tile, output 4 holding `xo4` is left at `xo4` plus the count's block total: its one covering store's
    value, whose loads read the whole buffers. -/
theorem out_B_4 (c : Dev nD) (i : grid2.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : ¬cond2_0 i) (x0 x1 : Vec F S1x16x128x128 .f32) (xo2 xo3 xo4 : Vec F S1x1 .f32) :
    out2_B_4 c i a2 h2 a3 h3 a4 h4 a5 h5 a6 h6 hc x0 x1 xo2 xo3 xo4 = k2_pay3 (k2_pay9 x1) xo4 := by
  unfold out2_B_4
  rw [View.read_writes_eq_canon _ _ _ (cover2_B_4 c i a2 h2 a3 h3 a4 h4 a5 h5 a6 h6 hc x0 x1 xo2 xo3 xo4)]
  unfold kernelRun2_B
  dsimp only
  sl_unfold_words
  rw [View.canon_unit_zero hz]
  simp only [View.readAt_eq_ld, h2.read_unread, h3.read_unread, h4.read_unread, h5.read_unread, h6.read_unread,
    View.ld_unit_zero (S := S1x1) hz, View.ld_unit_zero (S := S1x16x128x128) hz4]

/-- At the first tile output 2 is first set to zero and that zero is read back, so it is left at zero plus
    the positive term's block total. -/
theorem out_A_2 (c : Dev nD) (i : grid2.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond2_0 i) (x0 x1 : Vec F S1x16x128x128 .f32) :
    out2_A_2 c i a2 h2 a3 h3 a4 h4 a5 h5 a6 h6 hc x0 x1 = k2_pay1 (k2_pay11 x0 x1) (k2_pay4 (F := F)) := by
  unfold out2_A_2
  rw [View.read_writes_eq_canon _ _ _ (cover2_A_2 c i a2 h2 a3 h3 a4 h4 a5 h5 a6 h6 hc x0 x1)]
  unfold kernelRun2_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- At the first tile output 3 is first set to zero and that zero is read back, so it is left at zero plus
    the negative term's block total. -/
theorem out_A_3 (c : Dev nD) (i : grid2.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond2_0 i) (x0 x1 : Vec F S1x16x128x128 .f32) :
    out2_A_3 c i a2 h2 a3 h3 a4 h4 a5 h5 a6 h6 hc x0 x1 = k2_pay2 (k2_pay10 x0 x1) (k2_pay5 (F := F)) := by
  unfold out2_A_3
  rw [View.read_writes_eq_canon _ _ _ (cover2_A_3 c i a2 h2 a3 h3 a4 h4 a5 h5 a6 h6 hc x0 x1)]
  unfold kernelRun2_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- At the first tile output 4 is first set to zero and that zero is read back, so it is left at zero plus
    the count's block total. -/
theorem out_A_4 (c : Dev nD) (i : grid2.Coords) (a2 : Memref sig .tc .vmem S1x16x128x128 .f32) (h2 : a2.IsWhole)
    (a3 : Memref sig .tc .vmem S1x16x128x128 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (hc : cond2_0 i) (x0 x1 : Vec F S1x16x128x128 .f32) :
    out2_A_4 c i a2 h2 a3 h3 a4 h4 a5 h5 a6 h6 hc x0 x1 = k2_pay3 (k2_pay9 x1) (k2_pay6 (F := F)) := by
  unfold out2_A_4
  rw [View.read_writes_eq_canon _ _ _ (cover2_A_4 c i a2 h2 a3 h3 a4 h4 a5 h5 a6 h6 hc x0 x1)]
  unfold kernelRun2_A
  dsimp only
  sl_unfold_words
  rw [View.canon_cons_unit_zero (S := S1x1) hz, View.readCov_unit_zero (S := S1x1) _ hz]
  simp only [View.readAt_eq_ld, h2.read_unread, h3.read_unread, View.ld_unit_zero (S := S1x16x128x128) hz4]

/-- A block's total as the body takes it: the block recast as 2048 rows of 128 lanes, each row's lanes summed, the row
    sums recast as a column, the column summed, the result recast as a one-entry block. -/
def tot (v : FVec F S1x16x128x128 .f32) : FVec F S1x1 .f32 :=
  shapeCast S1x1 (multiReduction .add [0] S1 (shapeCast S2048x1 (multiReduction .add [1] S2048
      (shapeCast S2048x128 v shapeCasts_S1x16x128x128_S2048x128) 0x00000000#32 reduces_S2048x128_S2048 (.inl rfl) rfl)
      shapeCasts_S2048_S2048x1) 0x00000000#32 reduces_S2048x1_S1 (.inl rfl) rfl) shapeCasts_S1_S1x1

/-- The positive term before its reduction, as the body multiplies it. -/
def posV (x0 x1 : Vec F S1x16x128x128 .f32) : FVec F S1x16x128x128 .f32 :=
  mulf (mulf (k2_pay9 x1) (log (k2_pay7 x0))) (mulf (k2_pay8 x0) (k2_pay8 x0))

/-- Output 2's new value: the old one plus the positive term's block total. -/
theorem pay1_eq (x0 x1 : Vec F S1x16x128x128 .f32) (xo : Vec F S1x1 .f32) :
    k2_pay1 (k2_pay11 x0 x1) xo = addf (shapeCast S1x1 xo shapeCasts_S1x1_S1x1) (tot (posV x0 x1)) := rfl
/-- Output 3's new value: the old one plus the block total of `v`. -/
theorem pay2_eq (v : FVec F S1x16x128x128 .f32) (xo : Vec F S1x1 .f32) :
    k2_pay2 v xo = addf (shapeCast S1x1 xo shapeCasts_S1x1_S1x1) (tot v) := rfl
/-- Output 4's new value: the old one plus the block total of `v`. -/
theorem pay3_eq (v : FVec F S1x16x128x128 .f32) (xo : Vec F S1x1 .f32) :
    k2_pay3 v xo = addf (shapeCast S1x1 xo shapeCasts_S1x1_S1x1) (tot v) := rfl

end Pieces

/-! ## A block's total at the ideal values: the double sum over rows and lanes -/

/-- Entry `l` of row `r` of a block laid out as 2048 rows of 128 lanes: channel `r / 128`, image row `r % 128`. -/
def bidx (r : Fin 2048) (l : Fin 128) : S1x16x128x128.Idx :=
  ix4 (0 : Fin 1) (⟨r.val / 128, by omega⟩ : Fin 16) (⟨r.val % 128, by omega⟩ : Fin 128) l

/-- The block recast as 2048 rows of 128 lanes, read at row `r`, lane `l`: both have row-major position `128 r + l`. -/
theorem rows_apply {α : Type} (v : S1x16x128x128.Idx → α) (h : S1x16x128x128.ShapeCasts S2048x128) (r : Fin 2048) (l : Fin 128) :
    shapeCast S2048x128 v h (ix2 r l) = v (bidx r l) :=
  shapeCast_apply v h (ix2 r l) (bidx r l) (by
    rw [Shape.rowMajor_val_four, Shape.rowMajor_val_two]
    show ((0 * 16 + r.val / 128) * 128 + r.val % 128) * 128 + l.val = r.val * 128 + l.val
    omega)

/-- At the ideal values a block's total is the double sum over its rows and lanes: each reduction is the sum over the
    reduced axis, each recast keeps the row-major position. -/
theorem tot_apply (v : FVec Ideal S1x16x128x128 .f32) (j : S1x1.Idx) :
    tot v j = ∑ r : Fin 2048, ∑ l : Fin 128, v (bidx r l) := by
  unfold tot
  refine (shapeCast_apply _ _ j (ix1 (0 : Fin 1)) ?_).trans ?_
  · rw [Shape.rowMajor_val_one, Shape.rowMajor_val_two]
    have h0 := (j 0).isLt; have h1 := (j 1).isLt
    show (0 : Nat) = (j 0).val * 1 + (j 1).val
    change (j 0).val < 1 at h0; change (j 1).val < 1 at h1
    omega
  refine (Ideal.multiReduction_add_single _ _ reduces_S2048x1_S1 (.inl rfl) rfl _).trans ?_
  refine Finset.sum_congr rfl fun r _ => ?_
  refine (shapeCast_apply _ _ _ (ix1 r) ?_).trans ?_
  · rw [Shape.rowMajor_val_one, Shape.rowMajor_val_two]
    show r.val = r.val * 1 + 0
    omega
  refine (Ideal.multiReduction_add_single _ _ reduces_S2048x128_S2048 (.inl rfl) rfl _).trans ?_
  refine Finset.sum_congr rfl fun l _ => ?_
  exact rows_apply v _ r l

/-- A one-bit word widened to 32 bits and read as a signed integer is the bit read unsigned: both are `0` or `1`. -/
theorem mask_eq (b : BitVec 1) : (FloatOps.sitofp .f32 (b.setWidth 32) : Ideal .f32) = FloatOps.uitofp .f32 b := by
  have h : ∀ b : BitVec 1, (b.setWidth 32).toInt = (b.toNat : Int) := by decide
  show (((b.setWidth 32).toInt : ℝ) : EReal) = ((b.toNat : ℝ) : EReal)
  rw [h b, Int.cast_natCast]

/-- The clipped probability, entry by entry. -/
theorem pay7_apply (x0 : Vec Ideal S1x16x128x128 .f32) (i : S1x16x128x128.Idx) :
    k2_pay7 x0 i = Cert.Focal.prob (x0 i) := rfl

/-- One minus it. -/
theorem pay8_apply (x0 : Vec Ideal S1x16x128x128 .f32) (i : S1x16x128x128.Idx) :
    k2_pay8 x0 i = FloatOps.subf Cert.Focal.one (Cert.Focal.prob (x0 i)) := rfl

/-- The count's summand, entry by entry: the mask `[y = 1]`. -/
theorem pay9_apply (x : Ideal .f32) (x1 : Vec Ideal S1x16x128x128 .f32) (i : S1x16x128x128.Idx) :
    k2_pay9 x1 i = Cert.Focal.numE x (x1 i) := by
  unfold Cert.Focal.numE Cert.Focal.isOne
  rw [← mask_eq]
  rfl

/-- The negative term, entry by entry. -/
theorem pay10_apply (x0 x1 : Vec Ideal S1x16x128x128 .f32) (i : S1x16x128x128.Idx) :
    k2_pay10 x0 x1 i = Cert.Focal.negE (x0 i) (x1 i) := by
  unfold Cert.Focal.negE Cert.Focal.ltOne
  rw [← mask_eq]
  rfl

/-- The positive term, entry by entry. -/
theorem posV_apply (x0 x1 : Vec Ideal S1x16x128x128 .f32) (i : S1x16x128x128.Idx) :
    posV x0 x1 i = Cert.Focal.posE (x0 i) (x1 i) := by
  unfold Cert.Focal.posE Cert.Focal.isOne
  rw [← mask_eq]
  rfl

/-- The zero the first tile stores, at its one index. -/
theorem zero2_apply (j : S1x1.Idx) : (k2_pay4 (F := Ideal)) j = 0 := Ideal.ofBits_zero_f32
theorem zero3_apply (j : S1x1.Idx) : (k2_pay5 (F := Ideal)) j = 0 := Ideal.ofBits_zero_f32
theorem zero4_apply (j : S1x1.Idx) : (k2_pay6 (F := Ideal)) j = 0 := Ideal.ofBits_zero_f32

/-- The old value plus a block's total, at the one index. -/
theorem acc_apply (v : FVec Ideal S1x16x128x128 .f32) (xo : Vec Ideal S1x1 .f32) (j : S1x1.Idx) :
    addf (shapeCast S1x1 xo shapeCasts_S1x1_S1x1) (tot v) j = xo j + ∑ r : Fin 2048, ∑ l : Fin 128, v (bidx r l) := by
  rw [addf_apply, shapeCast_self, tot_apply]

/-- Output 2 after a tile: the old value plus the sum of the positive term over the tile's entries. -/
theorem acc2_apply (x0 x1 : Vec Ideal S1x16x128x128 .f32) (xo : Vec Ideal S1x1 .f32) (j : S1x1.Idx) :
    k2_pay1 (k2_pay11 x0 x1) xo j
      = xo j + ∑ r : Fin 2048, ∑ l : Fin 128, Cert.Focal.posE (x0 (bidx r l)) (x1 (bidx r l)) := by
  rw [pay1_eq, acc_apply]
  exact congrArg _ (Finset.sum_congr rfl fun r _ => Finset.sum_congr rfl fun l _ => posV_apply x0 x1 _)

/-- Output 3 after a tile: the old value plus the sum of the negative term over the tile's entries. -/
theorem acc3_apply (x0 x1 : Vec Ideal S1x16x128x128 .f32) (xo : Vec Ideal S1x1 .f32) (j : S1x1.Idx) :
    k2_pay2 (k2_pay10 x0 x1) xo j
      = xo j + ∑ r : Fin 2048, ∑ l : Fin 128, Cert.Focal.negE (x0 (bidx r l)) (x1 (bidx r l)) := by
  rw [pay2_eq, acc_apply]
  exact congrArg _ (Finset.sum_congr rfl fun r _ => Finset.sum_congr rfl fun l _ => pay10_apply x0 x1 _)

/-- Output 4 after a tile: the old value plus the count over the tile's entries (the count's summand does not look at
    the predicted map, so any block `x0` may stand in its first place). -/
theorem acc4_apply (x0 x1 : Vec Ideal S1x16x128x128 .f32) (xo : Vec Ideal S1x1 .f32) (j : S1x1.Idx) :
    k2_pay3 (k2_pay9 x1) xo j
      = xo j + ∑ r : Fin 2048, ∑ l : Fin 128, Cert.Focal.numE (x0 (bidx r l)) (x1 (bidx r l)) := by
  rw [pay3_eq, acc_apply]
  exact congrArg _ (Finset.sum_congr rfl fun r _ => Finset.sum_congr rfl fun l _ => pay9_apply (x0 _) x1 _)

/-! ## A tile's entries are entries of the whole arrays -/

variable (V : (c : Dev nD) → (b : Ref sig .tc) → Buf (Elt Ideal) ((c : Thread nD τ).loc b))

/-- Window 0's block index at point `t`: batch entry `t / 5`, channel group `t % 5`, the whole image. -/
theorem index2_0 : ∀ t : Fin cfg2.N, win2_0.index t 0 = t.val / 5 ∧ win2_0.index t 1 = t.val % 5 ∧ win2_0.index t 2 = 0 ∧ win2_0.index t 3 = 0 :=
  (by decide +kernel : ∀ t : Fin grid2.N, win2_0.index t 0 = t.val / 5 ∧ win2_0.index t 1 = t.val % 5 ∧ win2_0.index t 2 = 0 ∧ win2_0.index t 3 = 0)

/-- Entry `(r, l)` of window 0's block at point `t` is the predicted map's entry at the tile's array index. -/
theorem iblk2_0_apply (c : Dev nD) (t : Fin cfg2.N) (r : Fin 2048) (l : Fin 128) :
    (iblk2 (F := Ideal) V c 0 t : Vec Ideal S1x16x128x128 .f32) (bidx r l)
      = (V c main_arg2 : S16x80x128x128.Idx → Ideal .f32) (Cert.Focal.gidx (t.cast N_2) r l) := by
  unfold iblk2
  rw [View.read_apply]
  show V c main_arg2 _ = V c main_arg2 _
  congr 1
  funext a
  apply Fin.ext
  obtain ⟨i0, i1, i2, i3⟩ := index2_0 t
  match a with
  | ⟨0, _⟩ => show win2_0.index t 0 * 1 + 1 * 0 = t.val / 5; rw [i0]; omega
  | ⟨1, _⟩ => show win2_0.index t 1 * 16 + 1 * (r.val / 128) = 16 * (t.val % 5) + r.val / 128; rw [i1]; omega
  | ⟨2, _⟩ => show win2_0.index t 2 * 128 + 1 * (r.val % 128) = r.val % 128; rw [i2]; omega
  | ⟨3, _⟩ => show win2_0.index t 3 * 128 + 1 * l.val = l.val; rw [i3]; omega

/-- Window 1's block index at point `t`: the same. -/
theorem index2_1 : ∀ t : Fin cfg2.N, win2_1.index t 0 = t.val / 5 ∧ win2_1.index t 1 = t.val % 5 ∧ win2_1.index t 2 = 0 ∧ win2_1.index t 3 = 0 :=
  (by decide +kernel : ∀ t : Fin grid2.N, win2_1.index t 0 = t.val / 5 ∧ win2_1.index t 1 = t.val % 5 ∧ win2_1.index t 2 = 0 ∧ win2_1.index t 3 = 0)

/-- Entry `(r, l)` of window 1's block at point `t` is the ground truth's entry at the tile's array index. -/
theorem iblk2_1_apply (c : Dev nD) (t : Fin cfg2.N) (r : Fin 2048) (l : Fin 128) :
    (iblk2 (F := Ideal) V c 1 t : Vec Ideal S1x16x128x128 .f32) (bidx r l)
      = (V c main_arg10 : S16x80x128x128.Idx → Ideal .f32) (Cert.Focal.gidx (t.cast N_2) r l) := by
  unfold iblk2
  rw [View.read_apply]
  show V c main_arg10 _ = V c main_arg10 _
  congr 1
  funext a
  apply Fin.ext
  obtain ⟨i0, i1, i2, i3⟩ := index2_1 t
  match a with
  | ⟨0, _⟩ => show win2_1.index t 0 * 1 + 1 * 0 = t.val / 5; rw [i0]; omega
  | ⟨1, _⟩ => show win2_1.index t 1 * 16 + 1 * (r.val / 128) = 16 * (t.val % 5) + r.val / 128; rw [i1]; omega
  | ⟨2, _⟩ => show win2_1.index t 2 * 128 + 1 * (r.val % 128) = r.val % 128; rw [i2]; omega
  | ⟨3, _⟩ => show win2_1.index t 3 * 128 + 1 * l.val = l.val; rw [i3]; omega

/-- The sum of a summand `f` over tile `t` of the two arrays (zero past the last tile, so that it can be summed over a
    range of naturals). -/
def tile (f : Ideal .f32 → Ideal .f32 → Ideal .f32) (c : Dev nD) (t : ℕ) : Ideal .f32 :=
  if h : t < 80 then ∑ r : Fin 2048, ∑ l : Fin 128,
    f ((V c main_arg2 : S16x80x128x128.Idx → Ideal .f32) (Cert.Focal.gidx ⟨t, h⟩ r l))
      ((V c main_arg10 : S16x80x128x128.Idx → Ideal .f32) (Cert.Focal.gidx ⟨t, h⟩ r l))
  else 0

/-- The double sum of `f` over two blocks that hold tile `t` of the two arrays is that tile's sum. -/
theorem blocks_tile (f : Ideal .f32 → Ideal .f32 → Ideal .f32) (c : Dev nD) (t : Fin cfg2.N)
    (x0 x1 : Vec Ideal S1x16x128x128 .f32)
    (h0 : ∀ r l, x0 (bidx r l) = (V c main_arg2 : S16x80x128x128.Idx → Ideal .f32) (Cert.Focal.gidx (t.cast N_2) r l))
    (h1 : ∀ r l, x1 (bidx r l) = (V c main_arg10 : S16x80x128x128.Idx → Ideal .f32) (Cert.Focal.gidx (t.cast N_2) r l)) :
    ∑ r : Fin 2048, ∑ l : Fin 128, f (x0 (bidx r l)) (x1 (bidx r l)) = tile V f c t.val := by
  have ht : t.val < 80 := lt_of_lt_of_eq t.isLt N_2
  unfold tile
  rw [dif_pos ht]
  refine Finset.sum_congr rfl fun r _ => Finset.sum_congr rfl fun l _ => ?_
  rw [h0, h1]
  rfl

/-! ## The running totals, tile after tile -/

/-- After tile `n` output 2 holds the sum of the tiles' sums up to `n`: zero plus the first tile's at the first tile, the
    value before plus the tile's afterwards. -/
theorem outs2 (c : Dev nD) : ∀ (n : ℕ) (h : n < cfg2.N) (j : S1x1.Idx),
    (outsAt2 (F := Ideal) V c n h).1 j = ∑ t ∈ Finset.range (n + 1), tile V Cert.Focal.posE c t
  | 0, h, j => by
    rw [outsAt2_A V c ⟨0, h⟩ rfl]
    dsimp only
    rw [out_A_2 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩),
      acc2_apply (iblk2 V c 0 ⟨0, h⟩) (iblk2 V c 1 ⟨0, h⟩), zero2_apply, zero_add, Finset.sum_range_one]
    exact blocks_tile V Cert.Focal.posE c ⟨0, h⟩ (iblk2 V c 0 ⟨0, h⟩) (iblk2 V c 1 ⟨0, h⟩) (iblk2_0_apply V c ⟨0, h⟩) (iblk2_1_apply V c ⟨0, h⟩)
  | n + 1, h, j => by
    have hN : cfg2.N = 80 := N_2
    have hB : ¬(⟨n + 1, h⟩ : Fin cfg2.N).val % 80 = 0 := by dsimp only; omega
    rw [outsAt2_B V c ⟨n + 1, h⟩ hB]
    dsimp only
    rw [out_B_2 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hh => hB ((hcond2_0 ⟨n + 1, h⟩).mp hh)) (iblk2 V c 0 ⟨n + 1, h⟩) (iblk2 V c 1 ⟨n + 1, h⟩),
      acc2_apply (iblk2 V c 0 ⟨n + 1, h⟩) (iblk2 V c 1 ⟨n + 1, h⟩), Finset.sum_range_succ]
    show (outsAt2 V c n _).1 j + _ = _
    rw [outs2 c n _ j]
    exact congrArg _ (blocks_tile V Cert.Focal.posE c ⟨n + 1, h⟩ (iblk2 V c 0 ⟨n + 1, h⟩) (iblk2 V c 1 ⟨n + 1, h⟩) (iblk2_0_apply V c ⟨n + 1, h⟩) (iblk2_1_apply V c ⟨n + 1, h⟩))

/-- After tile `n` output 3 holds the sum of the tiles' sums up to `n`: zero plus the first tile's at the first tile, the
    value before plus the tile's afterwards. -/
theorem outs3 (c : Dev nD) : ∀ (n : ℕ) (h : n < cfg2.N) (j : S1x1.Idx),
    (outsAt2 (F := Ideal) V c n h).2.1 j = ∑ t ∈ Finset.range (n + 1), tile V Cert.Focal.negE c t
  | 0, h, j => by
    rw [outsAt2_A V c ⟨0, h⟩ rfl]
    dsimp only
    rw [out_A_3 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩),
      acc3_apply (iblk2 V c 0 ⟨0, h⟩) (iblk2 V c 1 ⟨0, h⟩), zero3_apply, zero_add, Finset.sum_range_one]
    exact blocks_tile V Cert.Focal.negE c ⟨0, h⟩ (iblk2 V c 0 ⟨0, h⟩) (iblk2 V c 1 ⟨0, h⟩) (iblk2_0_apply V c ⟨0, h⟩) (iblk2_1_apply V c ⟨0, h⟩)
  | n + 1, h, j => by
    have hN : cfg2.N = 80 := N_2
    have hB : ¬(⟨n + 1, h⟩ : Fin cfg2.N).val % 80 = 0 := by dsimp only; omega
    rw [outsAt2_B V c ⟨n + 1, h⟩ hB]
    dsimp only
    rw [out_B_3 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hh => hB ((hcond2_0 ⟨n + 1, h⟩).mp hh)) (iblk2 V c 0 ⟨n + 1, h⟩) (iblk2 V c 1 ⟨n + 1, h⟩),
      acc3_apply (iblk2 V c 0 ⟨n + 1, h⟩) (iblk2 V c 1 ⟨n + 1, h⟩), Finset.sum_range_succ]
    show (outsAt2 V c n _).2.1 j + _ = _
    rw [outs3 c n _ j]
    exact congrArg _ (blocks_tile V Cert.Focal.negE c ⟨n + 1, h⟩ (iblk2 V c 0 ⟨n + 1, h⟩) (iblk2 V c 1 ⟨n + 1, h⟩) (iblk2_0_apply V c ⟨n + 1, h⟩) (iblk2_1_apply V c ⟨n + 1, h⟩))

/-- After tile `n` output 4 holds the sum of the tiles' sums up to `n`: zero plus the first tile's at the first tile, the
    value before plus the tile's afterwards. -/
theorem outs4 (c : Dev nD) : ∀ (n : ℕ) (h : n < cfg2.N) (j : S1x1.Idx),
    (outsAt2 (F := Ideal) V c n h).2.2 j = ∑ t ∈ Finset.range (n + 1), tile V Cert.Focal.numE c t
  | 0, h, j => by
    rw [outsAt2_A V c ⟨0, h⟩ rfl]
    dsimp only
    rw [out_A_4 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩),
      acc4_apply (iblk2 V c 0 ⟨0, h⟩) (iblk2 V c 1 ⟨0, h⟩), zero4_apply, zero_add, Finset.sum_range_one]
    exact blocks_tile V Cert.Focal.numE c ⟨0, h⟩ (iblk2 V c 0 ⟨0, h⟩) (iblk2 V c 1 ⟨0, h⟩) (iblk2_0_apply V c ⟨0, h⟩) (iblk2_1_apply V c ⟨0, h⟩)
  | n + 1, h, j => by
    have hN : cfg2.N = 80 := N_2
    have hB : ¬(⟨n + 1, h⟩ : Fin cfg2.N).val % 80 = 0 := by dsimp only; omega
    rw [outsAt2_B V c ⟨n + 1, h⟩ hB]
    dsimp only
    rw [out_B_4 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hh => hB ((hcond2_0 ⟨n + 1, h⟩).mp hh)) (iblk2 V c 0 ⟨n + 1, h⟩) (iblk2 V c 1 ⟨n + 1, h⟩),
      acc4_apply (iblk2 V c 0 ⟨n + 1, h⟩) (iblk2 V c 1 ⟨n + 1, h⟩), Finset.sum_range_succ]
    show (outsAt2 V c n _).2.2 j + _ = _
    rw [outs4 c n _ j]
    exact congrArg _ (blocks_tile V Cert.Focal.numE c ⟨n + 1, h⟩ (iblk2 V c 0 ⟨n + 1, h⟩) (iblk2 V c 1 ⟨n + 1, h⟩) (iblk2_0_apply V c ⟨n + 1, h⟩) (iblk2_1_apply V c ⟨n + 1, h⟩))

/-! ## The arrays after the last tile -/

/-- The last tile. -/
abbrev tL : Fin cfg2.N := ⟨79, by rw [show cfg2.N = 80 from N_2]; decide⟩

/-- What a running total of the summand `f` ends at: the sum of all 80 tiles' sums, at the one index. -/
abbrev result (f : Ideal .f32 → Ideal .f32 → Ideal .f32) (c : Dev nD) : Vec Ideal S1x1 .f32 :=
  fun _ => ∑ t ∈ Finset.range 80, tile V f c t

/-- The tiles' sums together are the sum over every entry of the two arrays. -/
theorem sum_tile_all (f : Ideal .f32 → Ideal .f32 → Ideal .f32) (c : Dev nD) :
    ∑ t ∈ Finset.range 80, tile V f c t
      = ∑ i : Cert.Focal.SB.Idx, f ((V c main_arg2 : S16x80x128x128.Idx → Ideal .f32) i) ((V c main_arg10 : S16x80x128x128.Idx → Ideal .f32) i) := by
  rw [Finset.sum_range (fun t => tile V f c t), ← Cert.Focal.sum_tiles]
  refine Finset.sum_congr rfl fun t _ => ?_
  unfold tile
  rw [dif_pos t.isLt]

/-- Output 2's one write-back, after the last tile, writes the total: its block is the whole one-entry array. -/
theorem flushed2 (c : Dev nD) (t : Fin cfg2.N) (hf : (cfg2.win 2).flush t = true) :
    (dat2 (F := Ideal) V c).flushed 2 t
      = ((cfg2.win 2).blk t).view.read (Elt Ideal) (result V Cert.Focal.posE c : Buf (Elt Ideal) ((c : Thread nD τ).loc main_v119_0)) := by
  have hN : cfg2.N = 80 := N_2
  have h79 : t.val = 79 := by have := (flush2_2 t).mp hf; have := t.isLt; omega
  obtain rfl : t = tL := Fin.ext h79
  show (cfg2.win 2).cut (grid2.coords tL) ((dat2 V c).after 2 tL) = _
  rw [after2_2]
  have e : (outsAt2 (F := Ideal) V c tL.val tL.isLt).1 = result V Cert.Focal.posE c := funext fun j => outs2 V c 79 _ j
  rw [e]
  have hz' : (fun a => win2_2.index tL a * main_v119_0.ty.shape.size a) = fun _ => 0 :=
    funext fun a => by fin_cases a <;> decide +kernel
  exact (Memref.read_access_unit_zero (Elt Ideal) main_v119_0 hz' (fun a => by rw [congrFun hz' a]; simp) (result V Cert.Focal.posE c)).symm

/-- So output 2's array ends holding the total: the last tile's write-back covers its one entry. -/
theorem final2 (c : Dev nD) : (dat2 (F := Ideal) V c).arrAt 2 cfg2.N = result V Cert.Focal.posE c :=
  (dat2 V c).arrAt_eq_of_cover 2 (result V Cert.Focal.posE c) (flushed2 V c) fun i =>
    ⟨tL, (flush2_2 tL).mpr rfl, by
      show i ∈ ((View.whole main_v119_0).slice (win2_2.rect tL)).set
      rw [View.set_slice_whole, Rect.mem_set_unit]
      intro a
      have h0 : (i 0 : Nat) < 1 := (i 0).isLt
      have h1 : (i 1 : Nat) < 1 := (i 1).isLt
      match a with
      | ⟨0, _⟩ => show win2_2.index tL 0 * win2_2.size 0 ≤ (i 0 : Nat) ∧ (i 0 : Nat) < win2_2.index tL 0 * win2_2.size 0 + win2_2.xsize (grid2.coords tL) 0
                  rw [show win2_2.index tL 0 * win2_2.size 0 = 0 from by decide +kernel, show win2_2.xsize (grid2.coords tL) 0 = 1 from by decide +kernel]; omega
      | ⟨1, _⟩ => show win2_2.index tL 1 * win2_2.size 1 ≤ (i 1 : Nat) ∧ (i 1 : Nat) < win2_2.index tL 1 * win2_2.size 1 + win2_2.xsize (grid2.coords tL) 1
                  rw [show win2_2.index tL 1 * win2_2.size 1 = 0 from by decide +kernel, show win2_2.xsize (grid2.coords tL) 1 = 1 from by decide +kernel]; omega⟩

/-- Output 3's one write-back, after the last tile, writes the total: its block is the whole one-entry array. -/
theorem flushed3 (c : Dev nD) (t : Fin cfg2.N) (hf : (cfg2.win 3).flush t = true) :
    (dat2 (F := Ideal) V c).flushed 3 t
      = ((cfg2.win 3).blk t).view.read (Elt Ideal) (result V Cert.Focal.negE c : Buf (Elt Ideal) ((c : Thread nD τ).loc main_v119_1)) := by
  have hN : cfg2.N = 80 := N_2
  have h79 : t.val = 79 := by have := (flush2_3 t).mp hf; have := t.isLt; omega
  obtain rfl : t = tL := Fin.ext h79
  show (cfg2.win 3).cut (grid2.coords tL) ((dat2 V c).after 3 tL) = _
  rw [after2_3]
  have e : (outsAt2 (F := Ideal) V c tL.val tL.isLt).2.1 = result V Cert.Focal.negE c := funext fun j => outs3 V c 79 _ j
  rw [e]
  have hz' : (fun a => win2_3.index tL a * main_v119_1.ty.shape.size a) = fun _ => 0 :=
    funext fun a => by fin_cases a <;> decide +kernel
  exact (Memref.read_access_unit_zero (Elt Ideal) main_v119_1 hz' (fun a => by rw [congrFun hz' a]; simp) (result V Cert.Focal.negE c)).symm

/-- So output 3's array ends holding the total: the last tile's write-back covers its one entry. -/
theorem final3 (c : Dev nD) : (dat2 (F := Ideal) V c).arrAt 3 cfg2.N = result V Cert.Focal.negE c :=
  (dat2 V c).arrAt_eq_of_cover 3 (result V Cert.Focal.negE c) (flushed3 V c) fun i =>
    ⟨tL, (flush2_3 tL).mpr rfl, by
      show i ∈ ((View.whole main_v119_1).slice (win2_3.rect tL)).set
      rw [View.set_slice_whole, Rect.mem_set_unit]
      intro a
      have h0 : (i 0 : Nat) < 1 := (i 0).isLt
      have h1 : (i 1 : Nat) < 1 := (i 1).isLt
      match a with
      | ⟨0, _⟩ => show win2_3.index tL 0 * win2_3.size 0 ≤ (i 0 : Nat) ∧ (i 0 : Nat) < win2_3.index tL 0 * win2_3.size 0 + win2_3.xsize (grid2.coords tL) 0
                  rw [show win2_3.index tL 0 * win2_3.size 0 = 0 from by decide +kernel, show win2_3.xsize (grid2.coords tL) 0 = 1 from by decide +kernel]; omega
      | ⟨1, _⟩ => show win2_3.index tL 1 * win2_3.size 1 ≤ (i 1 : Nat) ∧ (i 1 : Nat) < win2_3.index tL 1 * win2_3.size 1 + win2_3.xsize (grid2.coords tL) 1
                  rw [show win2_3.index tL 1 * win2_3.size 1 = 0 from by decide +kernel, show win2_3.xsize (grid2.coords tL) 1 = 1 from by decide +kernel]; omega⟩

/-- Output 4's one write-back, after the last tile, writes the total: its block is the whole one-entry array. -/
theorem flushed4 (c : Dev nD) (t : Fin cfg2.N) (hf : (cfg2.win 4).flush t = true) :
    (dat2 (F := Ideal) V c).flushed 4 t
      = ((cfg2.win 4).blk t).view.read (Elt Ideal) (result V Cert.Focal.numE c : Buf (Elt Ideal) ((c : Thread nD τ).loc main_v119_2)) := by
  have hN : cfg2.N = 80 := N_2
  have h79 : t.val = 79 := by have := (flush2_4 t).mp hf; have := t.isLt; omega
  obtain rfl : t = tL := Fin.ext h79
  show (cfg2.win 4).cut (grid2.coords tL) ((dat2 V c).after 4 tL) = _
  rw [after2_4]
  have e : (outsAt2 (F := Ideal) V c tL.val tL.isLt).2.2 = result V Cert.Focal.numE c := funext fun j => outs4 V c 79 _ j
  rw [e]
  have hz' : (fun a => win2_4.index tL a * main_v119_2.ty.shape.size a) = fun _ => 0 :=
    funext fun a => by fin_cases a <;> decide +kernel
  exact (Memref.read_access_unit_zero (Elt Ideal) main_v119_2 hz' (fun a => by rw [congrFun hz' a]; simp) (result V Cert.Focal.numE c)).symm

/-- So output 4's array ends holding the total: the last tile's write-back covers its one entry. -/
theorem final4 (c : Dev nD) : (dat2 (F := Ideal) V c).arrAt 4 cfg2.N = result V Cert.Focal.numE c :=
  (dat2 V c).arrAt_eq_of_cover 4 (result V Cert.Focal.numE c) (flushed4 V c) fun i =>
    ⟨tL, (flush2_4 tL).mpr rfl, by
      show i ∈ ((View.whole main_v119_2).slice (win2_4.rect tL)).set
      rw [View.set_slice_whole, Rect.mem_set_unit]
      intro a
      have h0 : (i 0 : Nat) < 1 := (i 0).isLt
      have h1 : (i 1 : Nat) < 1 := (i 1).isLt
      match a with
      | ⟨0, _⟩ => show win2_4.index tL 0 * win2_4.size 0 ≤ (i 0 : Nat) ∧ (i 0 : Nat) < win2_4.index tL 0 * win2_4.size 0 + win2_4.xsize (grid2.coords tL) 0
                  rw [show win2_4.index tL 0 * win2_4.size 0 = 0 from by decide +kernel, show win2_4.xsize (grid2.coords tL) 0 = 1 from by decide +kernel]; omega
      | ⟨1, _⟩ => show win2_4.index tL 1 * win2_4.size 1 ≤ (i 1 : Nat) ∧ (i 1 : Nat) < win2_4.index tL 1 * win2_4.size 1 + win2_4.xsize (grid2.coords tL) 1
                  rw [show win2_4.index tL 1 * win2_4.size 1 = 0 from by decide +kernel, show win2_4.xsize (grid2.coords tL) 1 = 1 from by decide +kernel]; omega⟩

/-! ## The three totals -/

/-- Output 2's array after the region: the positive term summed over every entry of the two arrays. -/
theorem pos_total (c : Dev nD) (j : S1x1.Idx) :
    (Gen.dat2 (F := Ideal) V c).arrAt 2 cfg2.N j
      = ∑ i : Cert.Focal.SB.Idx, Cert.Focal.posE ((V c main_arg2 : S16x80x128x128.Idx → Ideal .f32) i) ((V c main_arg10 : S16x80x128x128.Idx → Ideal .f32) i) := by
  rw [final2]
  exact sum_tile_all V Cert.Focal.posE c

/-- Output 3's array after the region: the negative term summed over every entry of the two arrays. -/
theorem neg_total (c : Dev nD) (j : S1x1.Idx) :
    (Gen.dat2 (F := Ideal) V c).arrAt 3 cfg2.N j
      = ∑ i : Cert.Focal.SB.Idx, Cert.Focal.negE ((V c main_arg2 : S16x80x128x128.Idx → Ideal .f32) i) ((V c main_arg10 : S16x80x128x128.Idx → Ideal .f32) i) := by
  rw [final3]
  exact sum_tile_all V Cert.Focal.negE c

/-- Output 4's array after the region: the count summed over every entry of the two arrays. -/
theorem num_total (c : Dev nD) (j : S1x1.Idx) :
    (Gen.dat2 (F := Ideal) V c).arrAt 4 cfg2.N j
      = ∑ i : Cert.Focal.SB.Idx, Cert.Focal.numE ((V c main_arg2 : S16x80x128x128.Idx → Ideal .f32) i) ((V c main_arg10 : S16x80x128x128.Idx → Ideal .f32) i) := by
  rw [final4]
  exact sum_tile_all V Cert.Focal.numE c

end Cert.KernelIdeal.Region2
-- ==== Proof.Bridge.lean ====
import proofs.«139319_j28071906246702_2_alg».proof.Proof.KernelRun
import proofs.«139319_j28071906246702_2_alg».proof.Proof.WalkK
import proofs.«139319_j28071906246702_2_alg».proof.Proof.WalkR
import proofs.«139319_j28071906246702_2_alg».proof.Proof.RefFocal
import proofs.«139319_j28071906246702_2_alg».proof.Proof.SimA
import proofs.«139319_j28071906246702_2_alg».proof.Proof.SimB
import proofs.«139319_j28071906246702_2_alg».proof.Proof.SimC
import proofs.«139319_j28071906246702_2_alg».proof.Proof.Region0
import proofs.«139319_j28071906246702_2_alg».proof.Proof.Region1
import proofs.«139319_j28071906246702_2_alg».proof.Proof.Region2

/-!
# The two programs end with the same number

From memories that agree on the eighteen arguments, the kernel program's result buffer and the reference's end equal.
Both programs gather the same values from the arguments with the same operations; each of the three focal losses is the
same function of three sums, which the reference takes over whole arrays and the kernel program takes tile by tile in a
region (the same finite sums, regrouped); and both finish with the same operations on the gathered values, the mask and
the focal losses' total. The proof follows a buffer of one program and its counterpart in the other through these
stages.
-/

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.Chunks

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The reference's buffers after the gathers. -/
abbrev VrA : Valuation Cert.ReferenceIdeal.τ Cert.ReferenceIdeal.sig (Elt Ideal) :=
  after rA5b (after rA5a (after rA4b (after rA4a (after rA3b (after rA3a (after rA2b (after rA2a (after rA1b (after rA1a (after rA0 (launchContents m' c)))))))))))
/-- … after the first focal loss's sums, and after the first focal loss. -/
abbrev VrB1e : Valuation Cert.ReferenceIdeal.τ Cert.ReferenceIdeal.sig (Elt Ideal) := after rB1e (VrA m' c)
abbrev VrB1 : Valuation Cert.ReferenceIdeal.τ Cert.ReferenceIdeal.sig (Elt Ideal) := after rB1h (VrB1e m' c)
/-- … after the second. -/
abbrev VrB2e : Valuation Cert.ReferenceIdeal.τ Cert.ReferenceIdeal.sig (Elt Ideal) := after rB2e (VrB1 m' c)
abbrev VrB2 : Valuation Cert.ReferenceIdeal.τ Cert.ReferenceIdeal.sig (Elt Ideal) := after rB2h (VrB2e m' c)
/-- … after the third. -/
abbrev VrB3e : Valuation Cert.ReferenceIdeal.τ Cert.ReferenceIdeal.sig (Elt Ideal) := after rB3e (VrB2 m' c)
abbrev VrB3 : Valuation Cert.ReferenceIdeal.τ Cert.ReferenceIdeal.sig (Elt Ideal) := after rB3h (VrB3e m' c)

/-! ## The arguments, wherever they are read -/
theorem kArg0_at1 : (W1 m ρ c (Proc.devRef .tc Cert.KernelIdeal.main_arg0) : Cert.KernelIdeal.S16x80x128x128.Idx → Ideal .f32) = (m ((c.tc : Thread Cert.KernelIdeal.nD Cert.KernelIdeal.τ).loc Cert.KernelIdeal.main_arg0) : Cert.KernelIdeal.S16x80x128x128.Idx → Ideal .f32) :=
  (Cert.KernelIdeal.Walk.keep0 m ρ c Cert.KernelIdeal.main_arg0 (by decide)).trans (rfl)

theorem kArg8_at1 : (W1 m ρ c (Proc.devRef .tc Cert.KernelIdeal.main_arg8) : Cert.KernelIdeal.S16x80x128x128.Idx → Ideal .f32) = (m ((c.tc : Thread Cert.KernelIdeal.nD Cert.KernelIdeal.τ).loc Cert.KernelIdeal.main_arg8) : Cert.KernelIdeal.S16x80x128x128.Idx → Ideal .f32) :=
  (Cert.KernelIdeal.Walk.keep0 m ρ c Cert.KernelIdeal.main_arg8 (by decide)).trans (rfl)

theorem kArg1_at4 : (W4 m ρ c (Proc.devRef .tc Cert.KernelIdeal.main_arg1) : Cert.KernelIdeal.S16x80x128x128.Idx → Ideal .f32) = (m ((c.tc : Thread Cert.KernelIdeal.nD Cert.KernelIdeal.τ).loc Cert.KernelIdeal.main_arg1) : Cert.KernelIdeal.S16x80x128x128.Idx → Ideal .f32) :=
  (Cert.KernelIdeal.Walk.keep1 m ρ c Cert.KernelIdeal.main_arg1 (by decide) (by decide) (by decide)).trans ((Cert.KernelIdeal.Walk.keep0 m ρ c Cert.KernelIdeal.main_arg1 (by decide)).trans (rfl))

theorem kArg9_at4 : (W4 m ρ c (Proc.devRef .tc Cert.KernelIdeal.main_arg9) : Cert.KernelIdeal.S16x80x128x128.Idx → Ideal .f32) = (m ((c.tc : Thread Cert.KernelIdeal.nD Cert.KernelIdeal.τ).loc Cert.KernelIdeal.main_arg9) : Cert.KernelIdeal.S16x80x128x128.Idx → Ideal .f32) :=
  (Cert.KernelIdeal.Walk.keep1 m ρ c Cert.KernelIdeal.main_arg9 (by decide) (by decide) (by decide)).trans ((Cert.KernelIdeal.Walk.keep0 m ρ c Cert.KernelIdeal.main_arg9 (by decide)).trans (rfl))

theorem kArg2_at8 : (W8 m ρ c (Proc.devRef .tc Cert.KernelIdeal.main_arg2) : Cert.KernelIdeal.S16x80x128x128.Idx → Ideal .f32) = (m ((c.tc : Thread Cert.KernelIdeal.nD Cert.KernelIdeal.τ).loc Cert.KernelIdeal.main_arg2) : Cert.KernelIdeal.S16x80x128x128.Idx → Ideal .f32) :=
  (Cert.KernelIdeal.Walk.keep2 m ρ c Cert.KernelIdeal.main_arg2 (by decide) (by decide) (by decide) (by decide)).trans ((Cert.KernelIdeal.Walk.keep1 m ρ c Cert.KernelIdeal.main_arg2 (by decide) (by decide) (by decide)).trans ((Cert.KernelIdeal.Walk.keep0 m ρ c Cert.KernelIdeal.main_arg2 (by decide)).trans (rfl)))

theorem kArg10_at8 : (W8 m ρ c (Proc.devRef .tc Cert.KernelIdeal.main_arg10) : Cert.KernelIdeal.S16x80x128x128.Idx → Ideal .f32) = (m ((c.tc : Thread Cert.KernelIdeal.nD Cert.KernelIdeal.τ).loc Cert.KernelIdeal.main_arg10) : Cert.KernelIdeal.S16x80x128x128.Idx → Ideal .f32) :=
  (Cert.KernelIdeal.Walk.keep2 m ρ c Cert.KernelIdeal.main_arg10 (by decide) (by decide) (by decide) (by decide)).trans ((Cert.KernelIdeal.Walk.keep1 m ρ c Cert.KernelIdeal.main_arg10 (by decide) (by decide) (by decide)).trans ((Cert.KernelIdeal.Walk.keep0 m ρ c Cert.KernelIdeal.main_arg10 (by decide)).trans (rfl)))

theorem kArg11_at11 : (W11 m ρ c (Proc.devRef .tc Cert.KernelIdeal.main_arg11) : Cert.KernelIdeal.S16x128x2.Idx → Ideal .f32) = (m ((c.tc : Thread Cert.KernelIdeal.nD Cert.KernelIdeal.τ).loc Cert.KernelIdeal.main_arg11) : Cert.KernelIdeal.S16x128x2.Idx → Ideal .f32) :=
  (Cert.KernelIdeal.Walk.keep3 m ρ c Cert.KernelIdeal.main_arg11 (by decide) (by decide) (by decide)).trans ((Cert.KernelIdeal.Walk.keep2 m ρ c Cert.KernelIdeal.main_arg11 (by decide) (by decide) (by decide) (by decide)).trans ((Cert.KernelIdeal.Walk.keep1 m ρ c Cert.KernelIdeal.main_arg11 (by decide) (by decide) (by decide)).trans ((Cert.KernelIdeal.Walk.keep0 m ρ c Cert.KernelIdeal.main_arg11 (by decide)).trans (rfl))))

theorem kArg12_at11 : (W11 m ρ c (Proc.devRef .tc Cert.KernelIdeal.main_arg12) : Cert.KernelIdeal.S16x128x2.Idx → Ideal .f32) = (m ((c.tc : Thread Cert.KernelIdeal.nD Cert.KernelIdeal.τ).loc Cert.KernelIdeal.main_arg12) : Cert.KernelIdeal.S16x128x2.Idx → Ideal .f32) :=
  (Cert.KernelIdeal.Walk.keep3 m ρ c Cert.KernelIdeal.main_arg12 (by decide) (by decide) (by decide)).trans ((Cert.KernelIdeal.Walk.keep2 m ρ c Cert.KernelIdeal.main_arg12 (by decide) (by decide) (by decide) (by decide)).trans ((Cert.KernelIdeal.Walk.keep1 m ρ c Cert.KernelIdeal.main_arg12 (by decide) (by decide) (by decide)).trans ((Cert.KernelIdeal.Walk.keep0 m ρ c Cert.KernelIdeal.main_arg12 (by decide)).trans (rfl))))

theorem kArg13_at11 : (W11 m ρ c (Proc.devRef .tc Cert.KernelIdeal.main_arg13) : Cert.KernelIdeal.S16x128x2.Idx → Ideal .f32) = (m ((c.tc : Thread Cert.KernelIdeal.nD Cert.KernelIdeal.τ).loc Cert.KernelIdeal.main_arg13) : Cert.KernelIdeal.S16x128x2.Idx → Ideal .f32) :=
  (Cert.KernelIdeal.Walk.keep3 m ρ c Cert.KernelIdeal.main_arg13 (by decide) (by decide) (by decide)).trans ((Cert.KernelIdeal.Walk.keep2 m ρ c Cert.KernelIdeal.main_arg13 (by decide) (by decide) (by decide) (by decide)).trans ((Cert.KernelIdeal.Walk.keep1 m ρ c Cert.KernelIdeal.main_arg13 (by decide) (by decide) (by decide)).trans ((Cert.KernelIdeal.Walk.keep0 m ρ c Cert.KernelIdeal.main_arg13 (by decide)).trans (rfl))))

theorem rArg0_atA (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : (VrA m' c (Proc.devRef .tc Cert.ReferenceIdeal.main_arg0) : Cert.KernelIdeal.S16x80x128x128.Idx → Ideal .f32) = (m ((c.tc : Thread Cert.KernelIdeal.nD Cert.KernelIdeal.τ).loc Cert.KernelIdeal.main_arg0) : Cert.KernelIdeal.S16x80x128x128.Idx → Ideal .f32) :=
  (Cert.ReferenceIdeal.Walk.keepA _ Cert.ReferenceIdeal.main_arg0 (by decide)).trans (a0)

theorem rArg8_atA (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : (VrA m' c (Proc.devRef .tc Cert.ReferenceIdeal.main_arg8) : Cert.KernelIdeal.S16x80x128x128.Idx → Ideal .f32) = (m ((c.tc : Thread Cert.KernelIdeal.nD Cert.KernelIdeal.τ).loc Cert.KernelIdeal.main_arg8) : Cert.KernelIdeal.S16x80x128x128.Idx → Ideal .f32) :=
  (Cert.ReferenceIdeal.Walk.keepA _ Cert.ReferenceIdeal.main_arg8 (by decide)).trans (a8)

theorem rArg1_atB1 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : (VrB1 m' c (Proc.devRef .tc Cert.ReferenceIdeal.main_arg1) : Cert.KernelIdeal.S16x80x128x128.Idx → Ideal .f32) = (m ((c.tc : Thread Cert.KernelIdeal.nD Cert.KernelIdeal.τ).loc Cert.KernelIdeal.main_arg1) : Cert.KernelIdeal.S16x80x128x128.Idx → Ideal .f32) :=
  (Cert.ReferenceIdeal.Walk.keepB1 _ Cert.ReferenceIdeal.main_arg1 (by decide) (by decide)).trans ((Cert.ReferenceIdeal.Walk.keepA _ Cert.ReferenceIdeal.main_arg1 (by decide)).trans (a1))

theorem rArg9_atB1 (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : (VrB1 m' c (Proc.devRef .tc Cert.ReferenceIdeal.main_arg9) : Cert.KernelIdeal.S16x80x128x128.Idx → Ideal .f32) = (m ((c.tc : Thread Cert.KernelIdeal.nD Cert.KernelIdeal.τ).loc Cert.KernelIdeal.main_arg9) : Cert.KernelIdeal.S16x80x128x128.Idx → Ideal .f32) :=
  (Cert.ReferenceIdeal.Walk.keepB1 _ Cert.ReferenceIdeal.main_arg9 (by decide) (by decide)).trans ((Cert.ReferenceIdeal.Walk.keepA _ Cert.ReferenceIdeal.main_arg9 (by decide)).trans (a9))

theorem rArg2_atB2 (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : (VrB2 m' c (Proc.devRef .tc Cert.ReferenceIdeal.main_arg2) : Cert.KernelIdeal.S16x80x128x128.Idx → Ideal .f32) = (m ((c.tc : Thread Cert.KernelIdeal.nD Cert.KernelIdeal.τ).loc Cert.KernelIdeal.main_arg2) : Cert.KernelIdeal.S16x80x128x128.Idx → Ideal .f32) :=
  (Cert.ReferenceIdeal.Walk.keepB2 _ Cert.ReferenceIdeal.main_arg2 (by decide) (by decide)).trans ((Cert.ReferenceIdeal.Walk.keepB1 _ Cert.ReferenceIdeal.main_arg2 (by decide) (by decide)).trans ((Cert.ReferenceIdeal.Walk.keepA _ Cert.ReferenceIdeal.main_arg2 (by decide)).trans (a2)))

theorem rArg10_atB2 (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : (VrB2 m' c (Proc.devRef .tc Cert.ReferenceIdeal.main_arg10) : Cert.KernelIdeal.S16x80x128x128.Idx → Ideal .f32) = (m ((c.tc : Thread Cert.KernelIdeal.nD Cert.KernelIdeal.τ).loc Cert.KernelIdeal.main_arg10) : Cert.KernelIdeal.S16x80x128x128.Idx → Ideal .f32) :=
  (Cert.ReferenceIdeal.Walk.keepB2 _ Cert.ReferenceIdeal.main_arg10 (by decide) (by decide)).trans ((Cert.ReferenceIdeal.Walk.keepB1 _ Cert.ReferenceIdeal.main_arg10 (by decide) (by decide)).trans ((Cert.ReferenceIdeal.Walk.keepA _ Cert.ReferenceIdeal.main_arg10 (by decide)).trans (a10)))

theorem rArg11_atB3 (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : (VrB3 m' c (Proc.devRef .tc Cert.ReferenceIdeal.main_arg11) : Cert.KernelIdeal.S16x128x2.Idx → Ideal .f32) = (m ((c.tc : Thread Cert.KernelIdeal.nD Cert.KernelIdeal.τ).loc Cert.KernelIdeal.main_arg11) : Cert.KernelIdeal.S16x128x2.Idx → Ideal .f32) :=
  (Cert.ReferenceIdeal.Walk.keepB3 _ Cert.ReferenceIdeal.main_arg11 (by decide) (by decide)).trans ((Cert.ReferenceIdeal.Walk.keepB2 _ Cert.ReferenceIdeal.main_arg11 (by decide) (by decide)).trans ((Cert.ReferenceIdeal.Walk.keepB1 _ Cert.ReferenceIdeal.main_arg11 (by decide) (by decide)).trans ((Cert.ReferenceIdeal.Walk.keepA _ Cert.ReferenceIdeal.main_arg11 (by decide)).trans (a11))))

theorem rArg12_atB3 (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) : (VrB3 m' c (Proc.devRef .tc Cert.ReferenceIdeal.main_arg12) : Cert.KernelIdeal.S16x128x2.Idx → Ideal .f32) = (m ((c.tc : Thread Cert.KernelIdeal.nD Cert.KernelIdeal.τ).loc Cert.KernelIdeal.main_arg12) : Cert.KernelIdeal.S16x128x2.Idx → Ideal .f32) :=
  (Cert.ReferenceIdeal.Walk.keepB3 _ Cert.ReferenceIdeal.main_arg12 (by decide) (by decide)).trans ((Cert.ReferenceIdeal.Walk.keepB2 _ Cert.ReferenceIdeal.main_arg12 (by decide) (by decide)).trans ((Cert.ReferenceIdeal.Walk.keepB1 _ Cert.ReferenceIdeal.main_arg12 (by decide) (by decide)).trans ((Cert.ReferenceIdeal.Walk.keepA _ Cert.ReferenceIdeal.main_arg12 (by decide)).trans (a12))))

theorem rArg13_atB3 (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) : (VrB3 m' c (Proc.devRef .tc Cert.ReferenceIdeal.main_arg13) : Cert.KernelIdeal.S16x128x2.Idx → Ideal .f32) = (m ((c.tc : Thread Cert.KernelIdeal.nD Cert.KernelIdeal.τ).loc Cert.KernelIdeal.main_arg13) : Cert.KernelIdeal.S16x128x2.Idx → Ideal .f32) :=
  (Cert.ReferenceIdeal.Walk.keepB3 _ Cert.ReferenceIdeal.main_arg13 (by decide) (by decide)).trans ((Cert.ReferenceIdeal.Walk.keepB2 _ Cert.ReferenceIdeal.main_arg13 (by decide) (by decide)).trans ((Cert.ReferenceIdeal.Walk.keepB1 _ Cert.ReferenceIdeal.main_arg13 (by decide) (by decide)).trans ((Cert.ReferenceIdeal.Walk.keepA _ Cert.ReferenceIdeal.main_arg13 (by decide)).trans (a13))))

/-! ## The gathered values and the mask -/

/-- After the gathers both programs hold the same mask and the same five gathered arrays: the same 118 operations on
    agreeing arguments. -/
theorem gathered (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    ((W1 m ρ c (Proc.devRef .tc Cert.KernelIdeal.main_v0) : Cert.KernelIdeal.S16x128.Idx → Ideal .f32) = VrA m' c (Proc.devRef .tc Cert.ReferenceIdeal.main_v0))
    ∧ ((W1 m ρ c (Proc.devRef .tc Cert.KernelIdeal.main_v20) : Cert.KernelIdeal.S16x128.Idx → Ideal .f32) = VrA m' c (Proc.devRef .tc Cert.ReferenceIdeal.main_v20))
    ∧ ((W1 m ρ c (Proc.devRef .tc Cert.KernelIdeal.main_v40) : Cert.KernelIdeal.S16x128.Idx → Ideal .f32) = VrA m' c (Proc.devRef .tc Cert.ReferenceIdeal.main_v40))
    ∧ ((W1 m ρ c (Proc.devRef .tc Cert.KernelIdeal.main_v59) : Cert.KernelIdeal.S16x128x2.Idx → Ideal .f32) = VrA m' c (Proc.devRef .tc Cert.ReferenceIdeal.main_v59))
    ∧ ((W1 m ρ c (Proc.devRef .tc Cert.KernelIdeal.main_v78) : Cert.KernelIdeal.S16x128x2.Idx → Ideal .f32) = VrA m' c (Proc.devRef .tc Cert.ReferenceIdeal.main_v78))
    ∧ ((W1 m ρ c (Proc.devRef .tc Cert.KernelIdeal.main_v97) : Cert.KernelIdeal.S16x128x2.Idx → Ideal .f32) = VrA m' c (Proc.devRef .tc Cert.ReferenceIdeal.main_v97)) :=
  Cert.SimA.simA_all (W0 m ρ c) (launchContents m' c) a3.symm a4.symm a5.symm a6.symm a7.symm a14.symm a15.symm a16.symm a17.symm

/-- `main_v0` where the shared tail begins: untouched by the regions and the focal losses' scalar operations. -/
theorem carried_v0 (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W11 m ρ c (Proc.devRef .tc Cert.KernelIdeal.main_v0) : Cert.KernelIdeal.S16x128.Idx → Ideal .f32) = VrB3 m' c (Proc.devRef .tc Cert.ReferenceIdeal.main_v0) :=
  (Cert.KernelIdeal.Walk.keep3 m ρ c Cert.KernelIdeal.main_v0 (by decide) (by decide) (by decide)).trans ((Cert.KernelIdeal.Walk.keep2 m ρ c Cert.KernelIdeal.main_v0 (by decide) (by decide) (by decide) (by decide)).trans ((Cert.KernelIdeal.Walk.keep1 m ρ c Cert.KernelIdeal.main_v0 (by decide) (by decide) (by decide)).trans (((gathered m ρ m' c a3 a4 a5 a6 a7 a14 a15 a16 a17).1).trans (((Cert.ReferenceIdeal.Walk.keepB3 _ Cert.ReferenceIdeal.main_v0 (by decide) (by decide)).trans ((Cert.ReferenceIdeal.Walk.keepB2 _ Cert.ReferenceIdeal.main_v0 (by decide) (by decide)).trans (Cert.ReferenceIdeal.Walk.keepB1 _ Cert.ReferenceIdeal.main_v0 (by decide) (by decide)))).symm))))

/-- `main_v20` where the shared tail begins: untouched by the regions and the focal losses' scalar operations. -/
theorem carried_v20 (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W11 m ρ c (Proc.devRef .tc Cert.KernelIdeal.main_v20) : Cert.KernelIdeal.S16x128.Idx → Ideal .f32) = VrB3 m' c (Proc.devRef .tc Cert.ReferenceIdeal.main_v20) :=
  (Cert.KernelIdeal.Walk.keep3 m ρ c Cert.KernelIdeal.main_v20 (by decide) (by decide) (by decide)).trans ((Cert.KernelIdeal.Walk.keep2 m ρ c Cert.KernelIdeal.main_v20 (by decide) (by decide) (by decide) (by decide)).trans ((Cert.KernelIdeal.Walk.keep1 m ρ c Cert.KernelIdeal.main_v20 (by decide) (by decide) (by decide)).trans (((gathered m ρ m' c a3 a4 a5 a6 a7 a14 a15 a16 a17).2.1).trans (((Cert.ReferenceIdeal.Walk.keepB3 _ Cert.ReferenceIdeal.main_v20 (by decide) (by decide)).trans ((Cert.ReferenceIdeal.Walk.keepB2 _ Cert.ReferenceIdeal.main_v20 (by decide) (by decide)).trans (Cert.ReferenceIdeal.Walk.keepB1 _ Cert.ReferenceIdeal.main_v20 (by decide) (by decide)))).symm))))

/-- `main_v40` where the shared tail begins: untouched by the regions and the focal losses' scalar operations. -/
theorem carried_v40 (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W11 m ρ c (Proc.devRef .tc Cert.KernelIdeal.main_v40) : Cert.KernelIdeal.S16x128.Idx → Ideal .f32) = VrB3 m' c (Proc.devRef .tc Cert.ReferenceIdeal.main_v40) :=
  (Cert.KernelIdeal.Walk.keep3 m ρ c Cert.KernelIdeal.main_v40 (by decide) (by decide) (by decide)).trans ((Cert.KernelIdeal.Walk.keep2 m ρ c Cert.KernelIdeal.main_v40 (by decide) (by decide) (by decide) (by decide)).trans ((Cert.KernelIdeal.Walk.keep1 m ρ c Cert.KernelIdeal.main_v40 (by decide) (by decide) (by decide)).trans (((gathered m ρ m' c a3 a4 a5 a6 a7 a14 a15 a16 a17).2.2.1).trans (((Cert.ReferenceIdeal.Walk.keepB3 _ Cert.ReferenceIdeal.main_v40 (by decide) (by decide)).trans ((Cert.ReferenceIdeal.Walk.keepB2 _ Cert.ReferenceIdeal.main_v40 (by decide) (by decide)).trans (Cert.ReferenceIdeal.Walk.keepB1 _ Cert.ReferenceIdeal.main_v40 (by decide) (by decide)))).symm))))

/-- `main_v59` where the shared tail begins: untouched by the regions and the focal losses' scalar operations. -/
theorem carried_v59 (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W11 m ρ c (Proc.devRef .tc Cert.KernelIdeal.main_v59) : Cert.KernelIdeal.S16x128x2.Idx → Ideal .f32) = VrB3 m' c (Proc.devRef .tc Cert.ReferenceIdeal.main_v59) :=
  (Cert.KernelIdeal.Walk.keep3 m ρ c Cert.KernelIdeal.main_v59 (by decide) (by decide) (by decide)).trans ((Cert.KernelIdeal.Walk.keep2 m ρ c Cert.KernelIdeal.main_v59 (by decide) (by decide) (by decide) (by decide)).trans ((Cert.KernelIdeal.Walk.keep1 m ρ c Cert.KernelIdeal.main_v59 (by decide) (by decide) (by decide)).trans (((gathered m ρ m' c a3 a4 a5 a6 a7 a14 a15 a16 a17).2.2.2.1).trans (((Cert.ReferenceIdeal.Walk.keepB3 _ Cert.ReferenceIdeal.main_v59 (by decide) (by decide)).trans ((Cert.ReferenceIdeal.Walk.keepB2 _ Cert.ReferenceIdeal.main_v59 (by decide) (by decide)).trans (Cert.ReferenceIdeal.Walk.keepB1 _ Cert.ReferenceIdeal.main_v59 (by decide) (by decide)))).symm))))

/-- `main_v78` where the shared tail begins: untouched by the regions and the focal losses' scalar operations. -/
theorem carried_v78 (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W11 m ρ c (Proc.devRef .tc Cert.KernelIdeal.main_v78) : Cert.KernelIdeal.S16x128x2.Idx → Ideal .f32) = VrB3 m' c (Proc.devRef .tc Cert.ReferenceIdeal.main_v78) :=
  (Cert.KernelIdeal.Walk.keep3 m ρ c Cert.KernelIdeal.main_v78 (by decide) (by decide) (by decide)).trans ((Cert.KernelIdeal.Walk.keep2 m ρ c Cert.KernelIdeal.main_v78 (by decide) (by decide) (by decide) (by decide)).trans ((Cert.KernelIdeal.Walk.keep1 m ρ c Cert.KernelIdeal.main_v78 (by decide) (by decide) (by decide)).trans (((gathered m ρ m' c a3 a4 a5 a6 a7 a14 a15 a16 a17).2.2.2.2.1).trans (((Cert.ReferenceIdeal.Walk.keepB3 _ Cert.ReferenceIdeal.main_v78 (by decide) (by decide)).trans ((Cert.ReferenceIdeal.Walk.keepB2 _ Cert.ReferenceIdeal.main_v78 (by decide) (by decide)).trans (Cert.ReferenceIdeal.Walk.keepB1 _ Cert.ReferenceIdeal.main_v78 (by decide) (by decide)))).symm))))

/-- `main_v97` where the shared tail begins: untouched by the regions and the focal losses' scalar operations. -/
theorem carried_v97 (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W11 m ρ c (Proc.devRef .tc Cert.KernelIdeal.main_v97) : Cert.KernelIdeal.S16x128x2.Idx → Ideal .f32) = VrB3 m' c (Proc.devRef .tc Cert.ReferenceIdeal.main_v97) :=
  (Cert.KernelIdeal.Walk.keep3 m ρ c Cert.KernelIdeal.main_v97 (by decide) (by decide) (by decide)).trans ((Cert.KernelIdeal.Walk.keep2 m ρ c Cert.KernelIdeal.main_v97 (by decide) (by decide) (by decide) (by decide)).trans ((Cert.KernelIdeal.Walk.keep1 m ρ c Cert.KernelIdeal.main_v97 (by decide) (by decide) (by decide)).trans (((gathered m ρ m' c a3 a4 a5 a6 a7 a14 a15 a16 a17).2.2.2.2.2).trans (((Cert.ReferenceIdeal.Walk.keepB3 _ Cert.ReferenceIdeal.main_v97 (by decide) (by decide)).trans ((Cert.ReferenceIdeal.Walk.keepB2 _ Cert.ReferenceIdeal.main_v97 (by decide) (by decide)).trans (Cert.ReferenceIdeal.Walk.keepB1 _ Cert.ReferenceIdeal.main_v97 (by decide) (by decide)))).symm))))

/-! ## The three sums of each focal loss -/

/-- Region 0's pos output, after its last point, holds at its one entry the sum over every entry of the two heat maps. -/
theorem kpos0 :
    (W2 m ρ c (Proc.devRef .tc Cert.KernelIdeal.main_v98_0) : Cert.KernelIdeal.S1x1.Idx → Ideal .f32) = fun _ => ∑ i : Cert.Focal.SB.Idx, Cert.Focal.posE ((m ((c.tc : Thread Cert.KernelIdeal.nD Cert.KernelIdeal.τ).loc Cert.KernelIdeal.main_arg0) : Cert.KernelIdeal.S16x80x128x128.Idx → Ideal .f32) i) ((m ((c.tc : Thread Cert.KernelIdeal.nD Cert.KernelIdeal.τ).loc Cert.KernelIdeal.main_arg8) : Cert.KernelIdeal.S16x80x128x128.Idx → Ideal .f32) i) := by
  funext j
  refine (congrFun (W2_arr m ρ c 2) j).trans ?_
  refine (Cert.KernelIdeal.Region0.pos_total (V1 m ρ) c j).trans ?_
  show (∑ i : Cert.Focal.SB.Idx, Cert.Focal.posE ((W1 m ρ c (Proc.devRef .tc Cert.KernelIdeal.main_arg0) : Cert.KernelIdeal.S16x80x128x128.Idx → Ideal .f32) i) ((W1 m ρ c (Proc.devRef .tc Cert.KernelIdeal.main_arg8) : Cert.KernelIdeal.S16x80x128x128.Idx → Ideal .f32) i)) = _
  rw [kArg0_at1 m ρ c, kArg8_at1 m ρ c]

/-- The reference's pos sum of focal loss 1 is the same sum. -/
theorem rpos0 (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (VrB1e m' c (Proc.devRef .tc Cert.ReferenceIdeal.main_v117) : Cert.ReferenceIdeal.S_.Idx → Ideal .f32) = fun _ => ∑ i : Cert.Focal.SB.Idx, Cert.Focal.posE ((m ((c.tc : Thread Cert.KernelIdeal.nD Cert.KernelIdeal.τ).loc Cert.KernelIdeal.main_arg0) : Cert.KernelIdeal.S16x80x128x128.Idx → Ideal .f32) i) ((m ((c.tc : Thread Cert.KernelIdeal.nD Cert.KernelIdeal.τ).loc Cert.KernelIdeal.main_arg8) : Cert.KernelIdeal.S16x80x128x128.Idx → Ideal .f32) i) := by
  refine (Cert.RefFocal.pos1 (VrA m' c)).trans ?_
  rw [rArg0_atA m m' c a0, rArg8_atA m m' c a8]

/-- Region 0's neg output, after its last point, holds at its one entry the sum over every entry of the two heat maps. -/
theorem kneg0 :
    (W2 m ρ c (Proc.devRef .tc Cert.KernelIdeal.main_v98_1) : Cert.KernelIdeal.S1x1.Idx → Ideal .f32) = fun _ => ∑ i : Cert.Focal.SB.Idx, Cert.Focal.negE ((m ((c.tc : Thread Cert.KernelIdeal.nD Cert.KernelIdeal.τ).loc Cert.KernelIdeal.main_arg0) : Cert.KernelIdeal.S16x80x128x128.Idx → Ideal .f32) i) ((m ((c.tc : Thread Cert.KernelIdeal.nD Cert.KernelIdeal.τ).loc Cert.KernelIdeal.main_arg8) : Cert.KernelIdeal.S16x80x128x128.Idx → Ideal .f32) i) := by
  funext j
  refine (congrFun (W2_arr m ρ c 3) j).trans ?_
  refine (Cert.KernelIdeal.Region0.neg_total (V1 m ρ) c j).trans ?_
  show (∑ i : Cert.Focal.SB.Idx, Cert.Focal.negE ((W1 m ρ c (Proc.devRef .tc Cert.KernelIdeal.main_arg0) : Cert.KernelIdeal.S16x80x128x128.Idx → Ideal .f32) i) ((W1 m ρ c (Proc.devRef .tc Cert.KernelIdeal.main_arg8) : Cert.KernelIdeal.S16x80x128x128.Idx → Ideal .f32) i)) = _
  rw [kArg0_at1 m ρ c, kArg8_at1 m ρ c]

/-- The reference's neg sum of focal loss 1 is the same sum. -/
theorem rneg0 (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (VrB1e m' c (Proc.devRef .tc Cert.ReferenceIdeal.main_v129) : Cert.ReferenceIdeal.S_.Idx → Ideal .f32) = fun _ => ∑ i : Cert.Focal.SB.Idx, Cert.Focal.negE ((m ((c.tc : Thread Cert.KernelIdeal.nD Cert.KernelIdeal.τ).loc Cert.KernelIdeal.main_arg0) : Cert.KernelIdeal.S16x80x128x128.Idx → Ideal .f32) i) ((m ((c.tc : Thread Cert.KernelIdeal.nD Cert.KernelIdeal.τ).loc Cert.KernelIdeal.main_arg8) : Cert.KernelIdeal.S16x80x128x128.Idx → Ideal .f32) i) := by
  refine (Cert.RefFocal.neg1 (VrA m' c)).trans ?_
  rw [rArg0_atA m m' c a0, rArg8_atA m m' c a8]

/-- Region 0's num output, after its last point, holds at its one entry the sum over every entry of the two heat maps. -/
theorem knum0 :
    (W2 m ρ c (Proc.devRef .tc Cert.KernelIdeal.main_v98_2) : Cert.KernelIdeal.S1x1.Idx → Ideal .f32) = fun _ => ∑ i : Cert.Focal.SB.Idx, Cert.Focal.numE ((m ((c.tc : Thread Cert.KernelIdeal.nD Cert.KernelIdeal.τ).loc Cert.KernelIdeal.main_arg0) : Cert.KernelIdeal.S16x80x128x128.Idx → Ideal .f32) i) ((m ((c.tc : Thread Cert.KernelIdeal.nD Cert.KernelIdeal.τ).loc Cert.KernelIdeal.main_arg8) : Cert.KernelIdeal.S16x80x128x128.Idx → Ideal .f32) i) := by
  funext j
  refine (congrFun (W2_arr m ρ c 4) j).trans ?_
  refine (Cert.KernelIdeal.Region0.num_total (V1 m ρ) c j).trans ?_
  show (∑ i : Cert.Focal.SB.Idx, Cert.Focal.numE ((W1 m ρ c (Proc.devRef .tc Cert.KernelIdeal.main_arg0) : Cert.KernelIdeal.S16x80x128x128.Idx → Ideal .f32) i) ((W1 m ρ c (Proc.devRef .tc Cert.KernelIdeal.main_arg8) : Cert.KernelIdeal.S16x80x128x128.Idx → Ideal .f32) i)) = _
  rw [kArg0_at1 m ρ c, kArg8_at1 m ρ c]

/-- The reference's num sum of focal loss 1 is the same sum. -/
theorem rnum0 (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (VrB1e m' c (Proc.devRef .tc Cert.ReferenceIdeal.main_v130) : Cert.ReferenceIdeal.S_.Idx → Ideal .f32) = fun _ => ∑ i : Cert.Focal.SB.Idx, Cert.Focal.numE ((m ((c.tc : Thread Cert.KernelIdeal.nD Cert.KernelIdeal.τ).loc Cert.KernelIdeal.main_arg0) : Cert.KernelIdeal.S16x80x128x128.Idx → Ideal .f32) i) ((m ((c.tc : Thread Cert.KernelIdeal.nD Cert.KernelIdeal.τ).loc Cert.KernelIdeal.main_arg8) : Cert.KernelIdeal.S16x80x128x128.Idx → Ideal .f32) i) := by
  refine (Cert.RefFocal.num1 (VrA m' c)).trans ?_
  rw [rArg0_atA m m' c a0, rArg8_atA m m' c a8]

/-- Region 1's pos output, after its last point, holds at its one entry the sum over every entry of the two heat maps. -/
theorem kpos1 :
    (W5 m ρ c (Proc.devRef .tc Cert.KernelIdeal.main_v108_0) : Cert.KernelIdeal.S1x1.Idx → Ideal .f32) = fun _ => ∑ i : Cert.Focal.SB.Idx, Cert.Focal.posE ((m ((c.tc : Thread Cert.KernelIdeal.nD Cert.KernelIdeal.τ).loc Cert.KernelIdeal.main_arg1) : Cert.KernelIdeal.S16x80x128x128.Idx → Ideal .f32) i) ((m ((c.tc : Thread Cert.KernelIdeal.nD Cert.KernelIdeal.τ).loc Cert.KernelIdeal.main_arg9) : Cert.KernelIdeal.S16x80x128x128.Idx → Ideal .f32) i) := by
  funext j
  refine (congrFun (W5_arr m ρ c 2) j).trans ?_
  refine (Cert.KernelIdeal.Region1.pos_total (V4 m ρ) c j).trans ?_
  show (∑ i : Cert.Focal.SB.Idx, Cert.Focal.posE ((W4 m ρ c (Proc.devRef .tc Cert.KernelIdeal.main_arg1) : Cert.KernelIdeal.S16x80x128x128.Idx → Ideal .f32) i) ((W4 m ρ c (Proc.devRef .tc Cert.KernelIdeal.main_arg9) : Cert.KernelIdeal.S16x80x128x128.Idx → Ideal .f32) i)) = _
  rw [kArg1_at4 m ρ c, kArg9_at4 m ρ c]

/-- The reference's pos sum of focal loss 2 is the same sum. -/
theorem rpos1 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (VrB2e m' c (Proc.devRef .tc Cert.ReferenceIdeal.main_v156) : Cert.ReferenceIdeal.S_.Idx → Ideal .f32) = fun _ => ∑ i : Cert.Focal.SB.Idx, Cert.Focal.posE ((m ((c.tc : Thread Cert.KernelIdeal.nD Cert.KernelIdeal.τ).loc Cert.KernelIdeal.main_arg1) : Cert.KernelIdeal.S16x80x128x128.Idx → Ideal .f32) i) ((m ((c.tc : Thread Cert.KernelIdeal.nD Cert.KernelIdeal.τ).loc Cert.KernelIdeal.main_arg9) : Cert.KernelIdeal.S16x80x128x128.Idx → Ideal .f32) i) := by
  refine (Cert.RefFocal.pos2 (VrB1 m' c)).trans ?_
  rw [rArg1_atB1 m m' c a1, rArg9_atB1 m m' c a9]

/-- Region 1's neg output, after its last point, holds at its one entry the sum over every entry of the two heat maps. -/
theorem kneg1 :
    (W5 m ρ c (Proc.devRef .tc Cert.KernelIdeal.main_v108_1) : Cert.KernelIdeal.S1x1.Idx → Ideal .f32) = fun _ => ∑ i : Cert.Focal.SB.Idx, Cert.Focal.negE ((m ((c.tc : Thread Cert.KernelIdeal.nD Cert.KernelIdeal.τ).loc Cert.KernelIdeal.main_arg1) : Cert.KernelIdeal.S16x80x128x128.Idx → Ideal .f32) i) ((m ((c.tc : Thread Cert.KernelIdeal.nD Cert.KernelIdeal.τ).loc Cert.KernelIdeal.main_arg9) : Cert.KernelIdeal.S16x80x128x128.Idx → Ideal .f32) i) := by
  funext j
  refine (congrFun (W5_arr m ρ c 3) j).trans ?_
  refine (Cert.KernelIdeal.Region1.neg_total (V4 m ρ) c j).trans ?_
  show (∑ i : Cert.Focal.SB.Idx, Cert.Focal.negE ((W4 m ρ c (Proc.devRef .tc Cert.KernelIdeal.main_arg1) : Cert.KernelIdeal.S16x80x128x128.Idx → Ideal .f32) i) ((W4 m ρ c (Proc.devRef .tc Cert.KernelIdeal.main_arg9) : Cert.KernelIdeal.S16x80x128x128.Idx → Ideal .f32) i)) = _
  rw [kArg1_at4 m ρ c, kArg9_at4 m ρ c]

/-- The reference's neg sum of focal loss 2 is the same sum. -/
theorem rneg1 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (VrB2e m' c (Proc.devRef .tc Cert.ReferenceIdeal.main_v168) : Cert.ReferenceIdeal.S_.Idx → Ideal .f32) = fun _ => ∑ i : Cert.Focal.SB.Idx, Cert.Focal.negE ((m ((c.tc : Thread Cert.KernelIdeal.nD Cert.KernelIdeal.τ).loc Cert.KernelIdeal.main_arg1) : Cert.KernelIdeal.S16x80x128x128.Idx → Ideal .f32) i) ((m ((c.tc : Thread Cert.KernelIdeal.nD Cert.KernelIdeal.τ).loc Cert.KernelIdeal.main_arg9) : Cert.KernelIdeal.S16x80x128x128.Idx → Ideal .f32) i) := by
  refine (Cert.RefFocal.neg2 (VrB1 m' c)).trans ?_
  rw [rArg1_atB1 m m' c a1, rArg9_atB1 m m' c a9]

/-- Region 1's num output, after its last point, holds at its one entry the sum over every entry of the two heat maps. -/
theorem knum1 :
    (W5 m ρ c (Proc.devRef .tc Cert.KernelIdeal.main_v108_2) : Cert.KernelIdeal.S1x1.Idx → Ideal .f32) = fun _ => ∑ i : Cert.Focal.SB.Idx, Cert.Focal.numE ((m ((c.tc : Thread Cert.KernelIdeal.nD Cert.KernelIdeal.τ).loc Cert.KernelIdeal.main_arg1) : Cert.KernelIdeal.S16x80x128x128.Idx → Ideal .f32) i) ((m ((c.tc : Thread Cert.KernelIdeal.nD Cert.KernelIdeal.τ).loc Cert.KernelIdeal.main_arg9) : Cert.KernelIdeal.S16x80x128x128.Idx → Ideal .f32) i) := by
  funext j
  refine (congrFun (W5_arr m ρ c 4) j).trans ?_
  refine (Cert.KernelIdeal.Region1.num_total (V4 m ρ) c j).trans ?_
  show (∑ i : Cert.Focal.SB.Idx, Cert.Focal.numE ((W4 m ρ c (Proc.devRef .tc Cert.KernelIdeal.main_arg1) : Cert.KernelIdeal.S16x80x128x128.Idx → Ideal .f32) i) ((W4 m ρ c (Proc.devRef .tc Cert.KernelIdeal.main_arg9) : Cert.KernelIdeal.S16x80x128x128.Idx → Ideal .f32) i)) = _
  rw [kArg1_at4 m ρ c, kArg9_at4 m ρ c]

/-- The reference's num sum of focal loss 2 is the same sum. -/
theorem rnum1 (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (VrB2e m' c (Proc.devRef .tc Cert.ReferenceIdeal.main_v169) : Cert.ReferenceIdeal.S_.Idx → Ideal .f32) = fun _ => ∑ i : Cert.Focal.SB.Idx, Cert.Focal.numE ((m ((c.tc : Thread Cert.KernelIdeal.nD Cert.KernelIdeal.τ).loc Cert.KernelIdeal.main_arg1) : Cert.KernelIdeal.S16x80x128x128.Idx → Ideal .f32) i) ((m ((c.tc : Thread Cert.KernelIdeal.nD Cert.KernelIdeal.τ).loc Cert.KernelIdeal.main_arg9) : Cert.KernelIdeal.S16x80x128x128.Idx → Ideal .f32) i) := by
  refine (Cert.RefFocal.num2 (VrB1 m' c)).trans ?_
  rw [rArg1_atB1 m m' c a1, rArg9_atB1 m m' c a9]

/-- Region 2's pos output, after its last point, holds at its one entry the sum over every entry of the two heat maps. -/
theorem kpos2 :
    (W9 m ρ c (Proc.devRef .tc Cert.KernelIdeal.main_v119_0) : Cert.KernelIdeal.S1x1.Idx → Ideal .f32) = fun _ => ∑ i : Cert.Focal.SB.Idx, Cert.Focal.posE ((m ((c.tc : Thread Cert.KernelIdeal.nD Cert.KernelIdeal.τ).loc Cert.KernelIdeal.main_arg2) : Cert.KernelIdeal.S16x80x128x128.Idx → Ideal .f32) i) ((m ((c.tc : Thread Cert.KernelIdeal.nD Cert.KernelIdeal.τ).loc Cert.KernelIdeal.main_arg10) : Cert.KernelIdeal.S16x80x128x128.Idx → Ideal .f32) i) := by
  funext j
  refine (congrFun (W9_arr m ρ c 2) j).trans ?_
  refine (Cert.KernelIdeal.Region2.pos_total (V8 m ρ) c j).trans ?_
  show (∑ i : Cert.Focal.SB.Idx, Cert.Focal.posE ((W8 m ρ c (Proc.devRef .tc Cert.KernelIdeal.main_arg2) : Cert.KernelIdeal.S16x80x128x128.Idx → Ideal .f32) i) ((W8 m ρ c (Proc.devRef .tc Cert.KernelIdeal.main_arg10) : Cert.KernelIdeal.S16x80x128x128.Idx → Ideal .f32) i)) = _
  rw [kArg2_at8 m ρ c, kArg10_at8 m ρ c]

/-- The reference's pos sum of focal loss 3 is the same sum. -/
theorem rpos2 (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (VrB3e m' c (Proc.devRef .tc Cert.ReferenceIdeal.main_v196) : Cert.ReferenceIdeal.S_.Idx → Ideal .f32) = fun _ => ∑ i : Cert.Focal.SB.Idx, Cert.Focal.posE ((m ((c.tc : Thread Cert.KernelIdeal.nD Cert.KernelIdeal.τ).loc Cert.KernelIdeal.main_arg2) : Cert.KernelIdeal.S16x80x128x128.Idx → Ideal .f32) i) ((m ((c.tc : Thread Cert.KernelIdeal.nD Cert.KernelIdeal.τ).loc Cert.KernelIdeal.main_arg10) : Cert.KernelIdeal.S16x80x128x128.Idx → Ideal .f32) i) := by
  refine (Cert.RefFocal.pos3 (VrB2 m' c)).trans ?_
  rw [rArg2_atB2 m m' c a2, rArg10_atB2 m m' c a10]

/-- Region 2's neg output, after its last point, holds at its one entry the sum over every entry of the two heat maps. -/
theorem kneg2 :
    (W9 m ρ c (Proc.devRef .tc Cert.KernelIdeal.main_v119_1) : Cert.KernelIdeal.S1x1.Idx → Ideal .f32) = fun _ => ∑ i : Cert.Focal.SB.Idx, Cert.Focal.negE ((m ((c.tc : Thread Cert.KernelIdeal.nD Cert.KernelIdeal.τ).loc Cert.KernelIdeal.main_arg2) : Cert.KernelIdeal.S16x80x128x128.Idx → Ideal .f32) i) ((m ((c.tc : Thread Cert.KernelIdeal.nD Cert.KernelIdeal.τ).loc Cert.KernelIdeal.main_arg10) : Cert.KernelIdeal.S16x80x128x128.Idx → Ideal .f32) i) := by
  funext j
  refine (congrFun (W9_arr m ρ c 3) j).trans ?_
  refine (Cert.KernelIdeal.Region2.neg_total (V8 m ρ) c j).trans ?_
  show (∑ i : Cert.Focal.SB.Idx, Cert.Focal.negE ((W8 m ρ c (Proc.devRef .tc Cert.KernelIdeal.main_arg2) : Cert.KernelIdeal.S16x80x128x128.Idx → Ideal .f32) i) ((W8 m ρ c (Proc.devRef .tc Cert.KernelIdeal.main_arg10) : Cert.KernelIdeal.S16x80x128x128.Idx → Ideal .f32) i)) = _
  rw [kArg2_at8 m ρ c, kArg10_at8 m ρ c]

/-- The reference's neg sum of focal loss 3 is the same sum. -/
theorem rneg2 (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (VrB3e m' c (Proc.devRef .tc Cert.ReferenceIdeal.main_v208) : Cert.ReferenceIdeal.S_.Idx → Ideal .f32) = fun _ => ∑ i : Cert.Focal.SB.Idx, Cert.Focal.negE ((m ((c.tc : Thread Cert.KernelIdeal.nD Cert.KernelIdeal.τ).loc Cert.KernelIdeal.main_arg2) : Cert.KernelIdeal.S16x80x128x128.Idx → Ideal .f32) i) ((m ((c.tc : Thread Cert.KernelIdeal.nD Cert.KernelIdeal.τ).loc Cert.KernelIdeal.main_arg10) : Cert.KernelIdeal.S16x80x128x128.Idx → Ideal .f32) i) := by
  refine (Cert.RefFocal.neg3 (VrB2 m' c)).trans ?_
  rw [rArg2_atB2 m m' c a2, rArg10_atB2 m m' c a10]

/-- Region 2's num output, after its last point, holds at its one entry the sum over every entry of the two heat maps. -/
theorem knum2 :
    (W9 m ρ c (Proc.devRef .tc Cert.KernelIdeal.main_v119_2) : Cert.KernelIdeal.S1x1.Idx → Ideal .f32) = fun _ => ∑ i : Cert.Focal.SB.Idx, Cert.Focal.numE ((m ((c.tc : Thread Cert.KernelIdeal.nD Cert.KernelIdeal.τ).loc Cert.KernelIdeal.main_arg2) : Cert.KernelIdeal.S16x80x128x128.Idx → Ideal .f32) i) ((m ((c.tc : Thread Cert.KernelIdeal.nD Cert.KernelIdeal.τ).loc Cert.KernelIdeal.main_arg10) : Cert.KernelIdeal.S16x80x128x128.Idx → Ideal .f32) i) := by
  funext j
  refine (congrFun (W9_arr m ρ c 4) j).trans ?_
  refine (Cert.KernelIdeal.Region2.num_total (V8 m ρ) c j).trans ?_
  show (∑ i : Cert.Focal.SB.Idx, Cert.Focal.numE ((W8 m ρ c (Proc.devRef .tc Cert.KernelIdeal.main_arg2) : Cert.KernelIdeal.S16x80x128x128.Idx → Ideal .f32) i) ((W8 m ρ c (Proc.devRef .tc Cert.KernelIdeal.main_arg10) : Cert.KernelIdeal.S16x80x128x128.Idx → Ideal .f32) i)) = _
  rw [kArg2_at8 m ρ c, kArg10_at8 m ρ c]

/-- The reference's num sum of focal loss 3 is the same sum. -/
theorem rnum2 (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (VrB3e m' c (Proc.devRef .tc Cert.ReferenceIdeal.main_v209) : Cert.ReferenceIdeal.S_.Idx → Ideal .f32) = fun _ => ∑ i : Cert.Focal.SB.Idx, Cert.Focal.numE ((m ((c.tc : Thread Cert.KernelIdeal.nD Cert.KernelIdeal.τ).loc Cert.KernelIdeal.main_arg2) : Cert.KernelIdeal.S16x80x128x128.Idx → Ideal .f32) i) ((m ((c.tc : Thread Cert.KernelIdeal.nD Cert.KernelIdeal.τ).loc Cert.KernelIdeal.main_arg10) : Cert.KernelIdeal.S16x80x128x128.Idx → Ideal .f32) i) := by
  refine (Cert.RefFocal.num3 (VrB2 m' c)).trans ?_
  rw [rArg2_atB2 m m' c a2, rArg10_atB2 m m' c a10]

/-! ## The focal losses and their running total -/

/-- The first focal loss. -/
theorem focal1 (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (W4 m ρ c (Proc.devRef .tc Cert.KernelIdeal.main_v107) : Cert.KernelIdeal.S_.Idx → Ideal .f32) = VrB1 m' c (Proc.devRef .tc Cert.ReferenceIdeal.main_v136) :=
  Cert.SimB.simB1 (W2 m ρ c) (VrB1e m' c) _ _ _ (kpos0 m ρ c) (kneg0 m ρ c) (knum0 m ρ c) (rpos0 m m' c a0 a8) (rneg0 m m' c a0 a8) (rnum0 m m' c a0 a8)

/-- The total of the first two focal losses. -/
theorem focal12 (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (W8 m ρ c (Proc.devRef .tc Cert.KernelIdeal.main_v118) : Cert.KernelIdeal.S_.Idx → Ideal .f32) = VrB2 m' c (Proc.devRef .tc Cert.ReferenceIdeal.main_v176) :=
  Cert.SimB.simB2 (W5 m ρ c) (VrB2e m' c) _ _ _ (kpos1 m ρ c) (kneg1 m ρ c) (knum1 m ρ c) (rpos1 m m' c a1 a9) (rneg1 m m' c a1 a9) (rnum1 m m' c a1 a9)
    ((W5_of_ne m ρ c Cert.KernelIdeal.main_v107 (by decide)).trans ((focal1 m ρ m' c a0 a8).trans (Cert.ReferenceIdeal.Walk.keep_rB2e _ Cert.ReferenceIdeal.main_v136 (by decide)).symm))

/-- The third focal loss. -/
theorem focal3 (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W11 m ρ c (Proc.devRef .tc Cert.KernelIdeal.main_v128) : Cert.KernelIdeal.S_.Idx → Ideal .f32) = VrB3 m' c (Proc.devRef .tc Cert.ReferenceIdeal.main_v215) :=
  Cert.SimB.simB3 (W9 m ρ c) (VrB3e m' c) _ _ _ (kpos2 m ρ c) (kneg2 m ρ c) (knum2 m ρ c) (rpos2 m m' c a2 a10) (rneg2 m m' c a2 a10) (rnum2 m m' c a2 a10)

/-- The total of the first two, where the shared tail begins. -/
theorem total12 (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (W11 m ρ c (Proc.devRef .tc Cert.KernelIdeal.main_v118) : Cert.KernelIdeal.S_.Idx → Ideal .f32) = VrB3 m' c (Proc.devRef .tc Cert.ReferenceIdeal.main_v176) :=
  (Cert.KernelIdeal.Walk.keep3 m ρ c Cert.KernelIdeal.main_v118 (by decide) (by decide) (by decide)).trans
    ((focal12 m ρ m' c a0 a8 a1 a9).trans (Cert.ReferenceIdeal.Walk.keepB3 _ Cert.ReferenceIdeal.main_v176 (by decide) (by decide)).symm)

/-! ## The result -/

/-- From memories agreeing on the eighteen arguments, the two programs' result buffers end equal. -/
theorem result_eq (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W20 m ρ c (Proc.devRef .tc Cert.KernelIdeal.main_v234) : Cert.KernelIdeal.S_.Idx → Ideal .f32)
      = after ops (launchContents m' c) (Proc.devRef .tc Cert.ReferenceIdeal.main_v321) := by
  rw [Cert.ReferenceIdeal.Walk.after_ops]
  exact Cert.SimC.simC_all (W11 m ρ c) (VrB3 m' c)
    (total12 m ρ m' c a0 a8 a1 a9) (focal3 m ρ m' c a2 a10)
    (carried_v0 m ρ m' c a3 a4 a5 a6 a7 a14 a15 a16 a17)
    (carried_v20 m ρ m' c a3 a4 a5 a6 a7 a14 a15 a16 a17)
    (carried_v40 m ρ m' c a3 a4 a5 a6 a7 a14 a15 a16 a17)
    (carried_v59 m ρ m' c a3 a4 a5 a6 a7 a14 a15 a16 a17)
    (carried_v78 m ρ m' c a3 a4 a5 a6 a7 a14 a15 a16 a17)
    (carried_v97 m ρ m' c a3 a4 a5 a6 a7 a14 a15 a16 a17)
    ((kArg11_at11 m ρ c).trans (rArg11_atB3 m m' c a11).symm) ((kArg12_at11 m ρ c).trans (rArg12_atB3 m m' c a12).symm) ((kArg13_at11 m ρ c).trans (rArg13_atB3 m m' c a13).symm)

end Cert.Bridge

end
-- ==== Proof.lean ====
/- The proof of `Cert.Claim`: three frames, the (empty) ideal-pass ledger, and the equality of the two idealized programs'
   results from memories agreeing on the arguments.

   The kernel program gathers a few rows out of its regression and embedding maps on the host, computes three focal losses —
   each in a kernel region that walks its two [16, 80, 128, 128] heat maps tile by tile and keeps three running sums, followed
   by a few scalar host operations — and ends with smooth-L1 and embedding losses on the host. The reference does the same with
   whole-array sums for the focal losses. At the ideal values the two agree: the host operations outside the focal sums are the
   same operations on corresponding buffers; a region's three outputs are the reference's three sums regrouped by tiles, rows
   and lanes, which a finite sum in a commutative monoid allows; the region's logistic function is the reference's
   `1 / (1 + exp (-x))`, and its masks `sitofp (extui b)` are the reference's `uitofp b`. No finiteness of the inputs is used.

   The frames of the two kernel programs are the generated frame certificates. The reference is a straight line of 428 host
   operations: it terminates with every buffer at the fold of the operations over its launch contents, and no operation writes
   an argument. The kernel program's result is named by the same fold that proves its frame. -/
import proofs.«139319_j28071906246702_2_alg».proof.Defs
import proofs.«139319_j28071906246702_2_alg».proof.Proof.Gen.Kernel
import proofs.«139319_j28071906246702_2_alg».proof.Proof.Gen.Kernel.Frame
import proofs.«139319_j28071906246702_2_alg».proof.Proof.Gen.KernelIdeal
import proofs.«139319_j28071906246702_2_alg».proof.Proof.Gen.KernelIdeal.Frame
import proofs.«139319_j28071906246702_2_alg».proof.Proof.Gen.ReferenceIdeal
import proofs.«139319_j28071906246702_2_alg».proof.Proof.Gen.Pre_finite_inputs
import proofs.«139319_j28071906246702_2_alg».proof.Proof.RefOps
import proofs.«139319_j28071906246702_2_alg».proof.Proof.WalkR
import proofs.«139319_j28071906246702_2_alg».proof.Proof.KernelRun
import proofs.«139319_j28071906246702_2_alg».proof.Proof.Bridge
import Idealize.ShloMosaic.Adequacy
import Idealize.ShloMosaic.Init

set_option maxRecDepth 16384

noncomputable section

namespace Cert.Proof

open Idealize.ShloMosaic Idealize.SL.Sem Idealize.ShloMosaic.StableHlo

/-- The word-level kernel program runs and leaves its arguments as launched. -/
theorem frame_k [hKernel : Cert.Kernel.Facts] [hPre_finite_inputs : Cert.Pre_finite_inputs.Facts] : Cert.frame_Kernel :=
  fun m ρ _ => Cert.Kernel.Gen.frame m ρ

/-- The idealized kernel program runs and leaves its arguments as launched. -/
theorem frame_ki [hKernelIdeal : Cert.KernelIdeal.Facts] [hPre_finite_inputs : Cert.Pre_finite_inputs.Facts] : Cert.frame_KernelIdeal :=
  fun m ρ _ => Cert.KernelIdeal.Gen.frame m ρ

/-- The reference runs, and no operation of it writes an argument. -/
theorem frame_ri [hReferenceIdeal : Cert.ReferenceIdeal.Facts] [hPre_finite_inputs : Cert.Pre_finite_inputs.Facts] : Cert.frame_ReferenceIdeal :=
  fun m ρ _ => (θ_run Cert.ReferenceIdeal.defs _ _).mono (fun r h c =>
    ⟨(h c Cert.ReferenceIdeal.main_arg0).trans (Cert.ReferenceIdeal.Walk.keep_all (launchContents m c) Cert.ReferenceIdeal.main_arg0 (by decide)),
      (h c Cert.ReferenceIdeal.main_arg1).trans (Cert.ReferenceIdeal.Walk.keep_all (launchContents m c) Cert.ReferenceIdeal.main_arg1 (by decide)),
      (h c Cert.ReferenceIdeal.main_arg2).trans (Cert.ReferenceIdeal.Walk.keep_all (launchContents m c) Cert.ReferenceIdeal.main_arg2 (by decide)),
      (h c Cert.ReferenceIdeal.main_arg3).trans (Cert.ReferenceIdeal.Walk.keep_all (launchContents m c) Cert.ReferenceIdeal.main_arg3 (by decide)),
      (h c Cert.ReferenceIdeal.main_arg4).trans (Cert.ReferenceIdeal.Walk.keep_all (launchContents m c) Cert.ReferenceIdeal.main_arg4 (by decide)),
      (h c Cert.ReferenceIdeal.main_arg5).trans (Cert.ReferenceIdeal.Walk.keep_all (launchContents m c) Cert.ReferenceIdeal.main_arg5 (by decide)),
      (h c Cert.ReferenceIdeal.main_arg6).trans (Cert.ReferenceIdeal.Walk.keep_all (launchContents m c) Cert.ReferenceIdeal.main_arg6 (by decide)),
      (h c Cert.ReferenceIdeal.main_arg7).trans (Cert.ReferenceIdeal.Walk.keep_all (launchContents m c) Cert.ReferenceIdeal.main_arg7 (by decide)),
      (h c Cert.ReferenceIdeal.main_arg8).trans (Cert.ReferenceIdeal.Walk.keep_all (launchContents m c) Cert.ReferenceIdeal.main_arg8 (by decide)),
      (h c Cert.ReferenceIdeal.main_arg9).trans (Cert.ReferenceIdeal.Walk.keep_all (launchContents m c) Cert.ReferenceIdeal.main_arg9 (by decide)),
      (h c Cert.ReferenceIdeal.main_arg10).trans (Cert.ReferenceIdeal.Walk.keep_all (launchContents m c) Cert.ReferenceIdeal.main_arg10 (by decide)),
      (h c Cert.ReferenceIdeal.main_arg11).trans (Cert.ReferenceIdeal.Walk.keep_all (launchContents m c) Cert.ReferenceIdeal.main_arg11 (by decide)),
      (h c Cert.ReferenceIdeal.main_arg12).trans (Cert.ReferenceIdeal.Walk.keep_all (launchContents m c) Cert.ReferenceIdeal.main_arg12 (by decide)),
      (h c Cert.ReferenceIdeal.main_arg13).trans (Cert.ReferenceIdeal.Walk.keep_all (launchContents m c) Cert.ReferenceIdeal.main_arg13 (by decide)),
      (h c Cert.ReferenceIdeal.main_arg14).trans (Cert.ReferenceIdeal.Walk.keep_all (launchContents m c) Cert.ReferenceIdeal.main_arg14 (by decide)),
      (h c Cert.ReferenceIdeal.main_arg15).trans (Cert.ReferenceIdeal.Walk.keep_all (launchContents m c) Cert.ReferenceIdeal.main_arg15 (by decide)),
      (h c Cert.ReferenceIdeal.main_arg16).trans (Cert.ReferenceIdeal.Walk.keep_all (launchContents m c) Cert.ReferenceIdeal.main_arg16 (by decide)),
      (h c Cert.ReferenceIdeal.main_arg17).trans (Cert.ReferenceIdeal.Walk.keep_all (launchContents m c) Cert.ReferenceIdeal.main_arg17 (by decide))⟩)
    (Cert.ReferenceIdeal.Chunks.run_raw (F := Ideal) m ρ)

/-- From memories agreeing on the arguments the two idealized programs end with equal results. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' _ hag
  refine ⟨fun c => Cert.KernelIdeal.Gen.W20 m ρ c (Proc.devRef .tc Cert.KernelIdeal.main_v234), Cert.KernelIdeal.RunNamed.run m ρ, ?_⟩
  refine (θ_run Cert.ReferenceIdeal.defs _ _).mono (fun r h c => ?_) (Cert.ReferenceIdeal.Chunks.run_raw (F := Ideal) m' ρ')
  obtain ⟨a0, a1, a2, a3, a4, a5, a6, a7, a8, a9, a10, a11, a12, a13, a14, a15, a16, a17⟩ := hag c
  exact ⟨(h c Cert.ReferenceIdeal.main_v321).trans (Cert.Bridge.result_eq m ρ m' c a0 a1 a2 a3 a4 a5 a6 a7 a8 a9 a10 a11 a12 a13 a14 a15 a16 a17).symm,
      (h c Cert.ReferenceIdeal.main_arg0).trans (Cert.ReferenceIdeal.Walk.keep_all (launchContents m' c) Cert.ReferenceIdeal.main_arg0 (by decide)),
      (h c Cert.ReferenceIdeal.main_arg1).trans (Cert.ReferenceIdeal.Walk.keep_all (launchContents m' c) Cert.ReferenceIdeal.main_arg1 (by decide)),
      (h c Cert.ReferenceIdeal.main_arg2).trans (Cert.ReferenceIdeal.Walk.keep_all (launchContents m' c) Cert.ReferenceIdeal.main_arg2 (by decide)),
      (h c Cert.ReferenceIdeal.main_arg3).trans (Cert.ReferenceIdeal.Walk.keep_all (launchContents m' c) Cert.ReferenceIdeal.main_arg3 (by decide)),
      (h c Cert.ReferenceIdeal.main_arg4).trans (Cert.ReferenceIdeal.Walk.keep_all (launchContents m' c) Cert.ReferenceIdeal.main_arg4 (by decide)),
      (h c Cert.ReferenceIdeal.main_arg5).trans (Cert.ReferenceIdeal.Walk.keep_all (launchContents m' c) Cert.ReferenceIdeal.main_arg5 (by decide)),
      (h c Cert.ReferenceIdeal.main_arg6).trans (Cert.ReferenceIdeal.Walk.keep_all (launchContents m' c) Cert.ReferenceIdeal.main_arg6 (by decide)),
      (h c Cert.ReferenceIdeal.main_arg7).trans (Cert.ReferenceIdeal.Walk.keep_all (launchContents m' c) Cert.ReferenceIdeal.main_arg7 (by decide)),
      (h c Cert.ReferenceIdeal.main_arg8).trans (Cert.ReferenceIdeal.Walk.keep_all (launchContents m' c) Cert.ReferenceIdeal.main_arg8 (by decide)),
      (h c Cert.ReferenceIdeal.main_arg9).trans (Cert.ReferenceIdeal.Walk.keep_all (launchContents m' c) Cert.ReferenceIdeal.main_arg9 (by decide)),
      (h c Cert.ReferenceIdeal.main_arg10).trans (Cert.ReferenceIdeal.Walk.keep_all (launchContents m' c) Cert.ReferenceIdeal.main_arg10 (by decide)),
      (h c Cert.ReferenceIdeal.main_arg11).trans (Cert.ReferenceIdeal.Walk.keep_all (launchContents m' c) Cert.ReferenceIdeal.main_arg11 (by decide)),
      (h c Cert.ReferenceIdeal.main_arg12).trans (Cert.ReferenceIdeal.Walk.keep_all (launchContents m' c) Cert.ReferenceIdeal.main_arg12 (by decide)),
      (h c Cert.ReferenceIdeal.main_arg13).trans (Cert.ReferenceIdeal.Walk.keep_all (launchContents m' c) Cert.ReferenceIdeal.main_arg13 (by decide)),
      (h c Cert.ReferenceIdeal.main_arg14).trans (Cert.ReferenceIdeal.Walk.keep_all (launchContents m' c) Cert.ReferenceIdeal.main_arg14 (by decide)),
      (h c Cert.ReferenceIdeal.main_arg15).trans (Cert.ReferenceIdeal.Walk.keep_all (launchContents m' c) Cert.ReferenceIdeal.main_arg15 (by decide)),
      (h c Cert.ReferenceIdeal.main_arg16).trans (Cert.ReferenceIdeal.Walk.keep_all (launchContents m' c) Cert.ReferenceIdeal.main_arg16 (by decide)),
      (h c Cert.ReferenceIdeal.main_arg17).trans (Cert.ReferenceIdeal.Walk.keep_all (launchContents m' c) Cert.ReferenceIdeal.main_arg17 (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
